-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_c_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_c_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_c_25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192 : Shape := ⟨1, ![8192]⟩
abbrev S8192x1 : Shape := ⟨2, ![8192, 1]⟩
abbrev S1x8192 : Shape := ⟨2, ![1, 8192]⟩
abbrev S512x512 : Shape := ⟨2, ![512, 512]⟩
abbrev S512x1 : Shape := ⟨2, ![512, 1]⟩
abbrev S1x512 : Shape := ⟨2, ![1, 512]⟩
abbrev S512x8192 : Shape := ⟨2, ![512, 8192]⟩
abbrev S512 : Shape := ⟨1, ![512]⟩
abbrev S_ : Shape := ⟨0, ![]⟩

abbrev nBuf : Space → Nat
  | .hbm => 34
  | .vmem => 19
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .bf16⟩
  | .hbm, ⟨3, _⟩ => ⟨S8192x1, .i32⟩
  | .hbm, ⟨4, _⟩ => ⟨S1x8192, .i32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192x1, .f32⟩
  | .hbm, ⟨12, _⟩ => ⟨S8192x1, .i32⟩
  | .hbm, ⟨13, _⟩ => ⟨S_, .i32⟩
  | .hbm, ⟨14, _⟩ => ⟨S_, .i32⟩
  | .hbm, ⟨15, _⟩ => ⟨S8192x1, .i32⟩
  | .hbm, ⟨16, _⟩ => ⟨S8192x1, .i32⟩
  | .hbm, ⟨17, _⟩ => ⟨S8192x1, .i32⟩
  | .hbm, ⟨18, _⟩ => ⟨S_, .i32⟩
  | .hbm, ⟨19, _⟩ => ⟨S8192x1, .i32⟩
  | .hbm, ⟨20, _⟩ => ⟨S8192x1, .i1⟩
  | .hbm, ⟨21, _⟩ => ⟨S8192x1, .i32⟩
  | .hbm, ⟨22, _⟩ => ⟨S8192x1, .i32⟩
  | .hbm, ⟨23, _⟩ => ⟨S_, .i32⟩
  | .hbm, ⟨24, _⟩ => ⟨S8192x1, .i32⟩
  | .hbm, ⟨25, _⟩ => ⟨S8192x1, .i1⟩
  | .hbm, ⟨26, _⟩ => ⟨S8192x1, .i1⟩
  | .hbm, ⟨27, _⟩ => ⟨S_, .i32⟩
  | .hbm, ⟨28, _⟩ => ⟨S8192x1, .i32⟩
  | .hbm, ⟨29, _⟩ => ⟨S8192x1, .i32⟩
  | .hbm, ⟨30, _⟩ => ⟨S8192x1, .i32⟩
  | .hbm, ⟨31, _⟩ => ⟨S_, .i32⟩
  | .hbm, ⟨32, _⟩ => ⟨S_, .i32⟩
  | .hbm, ⟨33, _⟩ => ⟨S_, .i32⟩
  | .local _ .vmem, ⟨0, _⟩ => ⟨S512x512, .bf16⟩
  | .local _ .vmem, ⟨1, _⟩ => ⟨S512x512, .bf16⟩
  | .local _ .vmem, ⟨2, _⟩ => ⟨S8192x512, .bf16⟩
  | .local _ .vmem, ⟨3, _⟩ => ⟨S512x1, .i32⟩
  | .local _ .vmem, ⟨4, _⟩ => ⟨S512x1, .i32⟩
  | .local _ .vmem, ⟨5, _⟩ => ⟨S1x512, .i32⟩
  | .local _ .vmem, ⟨6, _⟩ => ⟨S1x512, .i32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x8192, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_c : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_0 : Ref sig .tc := ⟨.hbm, 27, rfl⟩
abbrev main_call1_v12 : Ref sig .tc := ⟨.hbm, 28, rfl⟩
abbrev main_call1_v13 : Ref sig .tc := ⟨.hbm, 29, rfl⟩
abbrev main_v8 : Ref sig .tc := ⟨.hbm, 30, rfl⟩
abbrev main_c_1 : Ref sig .tc := ⟨.hbm, 31, rfl⟩
abbrev main_v9 : Ref sig .tc := ⟨.hbm, 32, rfl⟩
abbrev main_c_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 2, 16], ![false, false, false]⟩

def k0_mult1 (i : grid0.Coords) : BitVec 32 :=
  let arg2 : BitVec 32 := BitVec.ofNat 32 (i 2).val
  let c512_i32_0 : BitVec 32 := 512#32
  let v1 : BitVec 32 := Scalar.muli arg2 c512_i32_0
  v1
def k0_cond2 (i : grid0.Coords) : BitVec 1 :=
  let arg1 : BitVec 32 := BitVec.ofNat 32 (i 1).val
  let c0_i32_8 : BitVec 32 := 0#32
  let v28 : BitVec 1 := Scalar.cmpi .eq arg1 c0_i32_8
  let v29 : BitVec 32 := Scalar.extui v28
  let c0_i32_9 : BitVec 32 := 0#32
  let v30 : BitVec 1 := Scalar.cmpi .ne v29 c0_i32_9
  v30

def k0_off1 (i : grid0.Coords) : Fin 2 → Nat :=
  let arg2 : BitVec 32 := BitVec.ofNat 32 (i 2).val
  let c512_i32_0 : BitVec 32 := 512#32
  let v1 : BitVec 32 := Scalar.muli arg2 c512_i32_0
  let v2 : BitVec 32 := v1
  let v46 : Index := Scalar.indexCast v2
  let c0_18 : Index := 0#32
  ![v46.toNat, 0]
def k0_off2 (i : grid0.Coords) : Fin 2 → Nat :=
  let c0_20 : Index := 0#32
  let arg2 : BitVec 32 := BitVec.ofNat 32 (i 2).val
  let c512_i32_0 : BitVec 32 := 512#32
  let v1 : BitVec 32 := Scalar.muli arg2 c512_i32_0
  let v2 : BitVec 32 := v1
  let v50 : Index := Scalar.indexCast v2
  ![0, v50.toNat]
def k0_cond4 (i : grid0.Coords) : BitVec 1 :=
  let arg1 : BitVec 32 := BitVec.ofNat 32 (i 1).val
  let c1_i32_12 : BitVec 32 := 1#32
  let v36 : BitVec 1 := Scalar.cmpi .eq arg1 c1_i32_12
  let v37 : BitVec 32 := Scalar.extui v36
  let c0_i32_13 : BitVec 32 := 0#32
  let v38 : BitVec 1 := Scalar.cmpi .ne v37 c0_i32_13
  v38

def k0_off3 (i : grid0.Coords) : Fin 2 → Nat :=
  let c0_16 : Index := 0#32
  let arg2 : BitVec 32 := BitVec.ofNat 32 (i 2).val
  let c512_i32_0 : BitVec 32 := 512#32
  let v1 : BitVec 32 := Scalar.muli arg2 c512_i32_0
  let v2 : BitVec 32 := v1
  let v44 : Index := Scalar.indexCast v2
  ![0, v44.toNat]
def k0_cond5 (i : grid0.Coords) : BitVec 1 :=
  let arg1 : BitVec 32 := BitVec.ofNat 32 (i 1).val
  let c1_i32_14 : BitVec 32 := 1#32
  let v39 : BitVec 1 := Scalar.cmpi .eq arg1 c1_i32_14
  let arg2 : BitVec 32 := BitVec.ofNat 32 (i 2).val
  let c15_i32 : BitVec 32 := 15#32
  let v40 : BitVec 1 := Scalar.cmpi .eq arg2 c15_i32
  let v41 : BitVec 1 := Scalar.andi v39 v40
  let v42 : BitVec 32 := Scalar.extui v41
  let c0_i32_15 : BitVec 32 := 0#32
  let v43 : BitVec 1 := Scalar.cmpi .ne v42 c0_i32_15
  v43

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  bitsLt_bf16_f32 : FTy.bits .bf16 < FTy.bits .f32
  shapeCasts_S8192_S8192x1 : S8192.ShapeCasts S8192x1
  shapeCasts_S8192_S1x8192 : S8192.ShapeCasts S1x8192
  iota_S512x1_d0_w32 : S512x1.Iotas .tc 32 [0]
  iota_S1x512_d1_w32 : S1x512.Iotas .tc 32 [1]
  broadcasts_S512x1_S512x512 : S512x1.Broadcasts S512x512
  broadcasts_S1x512_S512x512 : S1x512.Broadcasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x512_S512 : S512x512.Reduces [1] S512
  shapeCasts_S512_S512x1 : S512.ShapeCasts S512x1
  natLt_1_32 : 1 < 32
  reducesTo_S8192x1_S_d0_1 : S8192x1.ReducesTo [0, 1] S_
  h_S_ : 0 < S_.numel
  bcast_S_S8192x1 : S_.BroadcastsInDim S8192x1 (![] : Fin 0 → Fin S8192x1.rank)
  dot_S512x512_S512x512_S512x512_1_1_0_0_n_n_wf : DotDims.WF S512x512 S512x512 S512x512 [1] [1] [0] [0] [] []
  hrank0 : 0 < grid0.rank
  k0_mult1_dvd : ∀ i : grid0.Coords, 512 ∣ (k0_mult1 i).toNat
  k0_off1_inb : ∀ i : grid0.Coords, ∀ (k0_h2 : k0_cond2 i = 1#1), ∀ a, (k0_off1 i) a + S512x512.size a ≤ S8192x512.size a
  k0_off2_inb : ∀ i : grid0.Coords, ∀ (k0_h2 : k0_cond2 i = 1#1), ∀ a, (k0_off2 i) a + S512x512.size a ≤ S512x8192.size a
  k0_off3_inb : ∀ i : grid0.Coords, ∀ (k0_h4 : k0_cond4 i = 1#1), ∀ a, (k0_off3 i) a + S512x512.size a ≤ S512x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .bf16 = 32 ∨ (Rect.block (s := S8192x512) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .bf16 = 32 ∨ (Rect.block (s := S8192x512) S8192x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .f32 = 32 ∨ (Rect.block (s := S8192x1) S512x1.size (cc0_transform_5 i) (hinb0_5 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond5 i == 1#1) | 5 => fun i => !(k0_cond5 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S512x8192 : Shape := ⟨2, ![512, 8192]⟩
abbrev S8192x8192 : Shape := ⟨2, ![8192, 8192]⟩
abbrev S8192x1 : Shape := ⟨2, ![8192, 1]⟩
abbrev S1x8192 : Shape := ⟨2, ![1, 8192]⟩
abbrev S_ : Shape := ⟨0, ![]⟩

abbrev nBuf : Space → Nat
  | .hbm => 127
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S512x8192, .f32⟩
  | .hbm, ⟨3, _⟩ => ⟨S8192x8192, .f32⟩
  | .hbm, ⟨4, _⟩ => ⟨S8192x1, .i32⟩
  | .hbm, ⟨5, _⟩ => ⟨S1x8192, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x8192, .i32⟩
  | .hbm, ⟨10, _⟩ => ⟨S8192x8192, .i32⟩
  | .hbm, ⟨11, _⟩ => ⟨S_, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S8192x8192, .i1⟩
  | .hbm, ⟨16, _⟩ => ⟨S8192x8192, .i1⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S8192x8192, .f32⟩
  | .hbm, ⟨32, _⟩ => ⟨S8192x8192, .i1⟩
  | .hbm, ⟨33, _⟩ => ⟨S8192x8192, .i1⟩
  | .hbm, ⟨34, _⟩ => ⟨S8192x1, .f32⟩
  | .hbm, ⟨35, _⟩ => ⟨S8192x8192, .f32⟩
  | .hbm, ⟨36, _⟩ => ⟨S8192x8192, .i1⟩
  | .hbm, ⟨37, _⟩ => ⟨S8192x8192, .i1⟩
  | .hbm, ⟨38, _⟩ => ⟨S8192x8192, .i32⟩
  | .hbm, ⟨39, _⟩ => ⟨S_, .i32⟩
  | .hbm, ⟨40, _⟩ => ⟨S8192, .i32⟩
  | .hbm, ⟨41, _⟩ => ⟨S8192x8192, .i32⟩
  | .hbm, ⟨42, _⟩ => ⟨S_, .i32⟩
  | .hbm, ⟨43, _⟩ => ⟨S8192, .i32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192, .f32⟩
  | .hbm, ⟨53, _⟩ => ⟨S_, .i32⟩
  | .hbm, ⟨54, _⟩ => ⟨S8192, .i32⟩
  | .hbm, ⟨55, _⟩ => ⟨S8192, .i1⟩
  | .hbm, ⟨56, _⟩ => ⟨S_, .i32⟩
  | .hbm, ⟨57, _⟩ => ⟨S8192, .i32⟩
  | .hbm, ⟨58, _⟩ => ⟨S8192, .i32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S8192x8192, .f32⟩
  | .hbm, ⟨67, _⟩ => ⟨S8192x8192, .f32⟩
  | .hbm, ⟨68, _⟩ => ⟨S_, .f32⟩
  | .hbm, ⟨69, _⟩ => ⟨S8192x8192, .f32⟩
  | .hbm, ⟨70, _⟩ => ⟨S8192x8192, .f32⟩
  | .hbm, ⟨71, _⟩ => ⟨S8192x8192, .f32⟩
  | .hbm, ⟨72, _⟩ => ⟨S_, .f32⟩
  | .hbm, ⟨73, _⟩ => ⟨S_, .f32⟩
  | .hbm, ⟨74, _⟩ => ⟨S8192x8192, .f32⟩
  | .hbm, ⟨75, _⟩ => ⟨S8192x8192, .f32⟩
  | .hbm, ⟨76, _⟩ => ⟨S_, .f32⟩
  | .hbm, ⟨77, _⟩ => ⟨S8192, .f32⟩
  | .hbm, ⟨78, _⟩ => ⟨S_, .f32⟩
  | .hbm, ⟨79, _⟩ => ⟨S_, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S8192, .f32⟩
  | .hbm, ⟨84, _⟩ => ⟨S_, .i32⟩
  | .hbm, ⟨85, _⟩ => ⟨S8192, .i32⟩
  | .hbm, ⟨86, _⟩ => ⟨S8192, .i32⟩
  | .hbm, ⟨87, _⟩ => ⟨S8192, .f32⟩
  | .hbm, ⟨88, _⟩ => ⟨S8192, .f32⟩
  | .hbm, ⟨89, _⟩ => ⟨S_, .i32⟩
  | .hbm, ⟨90, _⟩ => ⟨S8192, .i32⟩
  | .hbm, ⟨91, _⟩ => ⟨S8192, .i1⟩
  | .hbm, ⟨92, _⟩ => ⟨S8192, .f32⟩
  | .hbm, ⟨93, _⟩ => ⟨S_, .f32⟩
  | .hbm, ⟨94, _⟩ => ⟨S8192, .f32⟩
  | .hbm, ⟨95, _⟩ => ⟨S8192, .f32⟩
  | .hbm, ⟨96, _⟩ => ⟨S8192, .f32⟩
  | .hbm, ⟨97, _⟩ => ⟨S_, .f32⟩
  | .hbm, ⟨98, _⟩ => ⟨S_, .f32⟩
  | .hbm, ⟨99, _⟩ => ⟨S8192, .f32⟩
  | .hbm, ⟨100, _⟩ => ⟨S8192, .f32⟩
  | .hbm, ⟨101, _⟩ => ⟨S8192, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .i32⟩
  | .hbm, ⟨107, _⟩ => ⟨S_, .i32⟩
  | .hbm, ⟨108, _⟩ => ⟨S8192, .i32⟩
  | .hbm, ⟨109, _⟩ => ⟨S8192, .i32⟩
  | .hbm, ⟨110, _⟩ => ⟨S8192, .i32⟩
  | .hbm, ⟨111, _⟩ => ⟨S_, .i32⟩
  | .hbm, ⟨112, _⟩ => ⟨S8192, .i32⟩
  | .hbm, ⟨113, _⟩ => ⟨S8192, .i1⟩
  | .hbm, ⟨114, _⟩ => ⟨S8192, .i32⟩
  | .hbm, ⟨115, _⟩ => ⟨S8192, .i32⟩
  | .hbm, ⟨116, _⟩ => ⟨S_, .i32⟩
  | .hbm, ⟨117, _⟩ => ⟨S8192, .i32⟩
  | .hbm, ⟨118, _⟩ => ⟨S8192, .i1⟩
  | .hbm, ⟨119, _⟩ => ⟨S8192, .i1⟩
  | .hbm, ⟨120, _⟩ => ⟨S_, .i32⟩
  | .hbm, ⟨121, _⟩ => ⟨S8192, .i32⟩
  | .hbm, ⟨122, _⟩ => ⟨S8192, .i32⟩
  | .hbm, ⟨123, _⟩ => ⟨S8192, .i32⟩
  | .hbm, ⟨124, _⟩ => ⟨S_, .i32⟩
  | .hbm, ⟨125, _⟩ => ⟨S_, .i32⟩
  | .hbm, ⟨126, _⟩ => ⟨S_, .i32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_3 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_call2_v0 : Ref sig .tc := ⟨.hbm, 48, rfl⟩
abbrev main_call2_v1 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_call3_v0 : Ref sig .tc := ⟨.hbm, 62, rfl⟩
abbrev main_call3_v1 : Ref sig .tc := ⟨.hbm, 63, rfl⟩
abbrev main_v41 : Ref sig .tc := ⟨.hbm, 64, rfl⟩
abbrev main_cst_11 : Ref sig .tc := ⟨.hbm, 65, rfl⟩
abbrev main_v42 : Ref sig .tc := ⟨.hbm, 66, rfl⟩
abbrev main_v43 : Ref sig .tc := ⟨.hbm, 67, rfl⟩
abbrev main_cst_12 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_13 : Ref sig .tc := ⟨.hbm, 72, rfl⟩
abbrev main_call4_v0 : Ref sig .tc := ⟨.hbm, 73, rfl⟩
abbrev main_call4_v1 : Ref sig .tc := ⟨.hbm, 74, rfl⟩
abbrev main_v47 : Ref sig .tc := ⟨.hbm, 75, rfl⟩
abbrev main_cst_14 : Ref sig .tc := ⟨.hbm, 76, rfl⟩
abbrev main_v48 : Ref sig .tc := ⟨.hbm, 77, rfl⟩
abbrev main_cst_15 : Ref sig .tc := ⟨.hbm, 78, rfl⟩
abbrev main_call5_v0 : Ref sig .tc := ⟨.hbm, 79, rfl⟩
abbrev main_call5_v1 : Ref sig .tc := ⟨.hbm, 80, rfl⟩
abbrev main_v49 : Ref sig .tc := ⟨.hbm, 81, rfl⟩
abbrev main_cst_16 : Ref sig .tc := ⟨.hbm, 82, rfl⟩
abbrev main_v50 : Ref sig .tc := ⟨.hbm, 83, rfl⟩
abbrev main_c_17 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_c_18 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_19 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_20 : Ref sig .tc := ⟨.hbm, 97, rfl⟩
abbrev main_call6_v0 : Ref sig .tc := ⟨.hbm, 98, rfl⟩
abbrev main_call6_v1 : Ref sig .tc := ⟨.hbm, 99, rfl⟩
abbrev main_v61 : Ref sig .tc := ⟨.hbm, 100, rfl⟩
abbrev main_v62 : Ref sig .tc := ⟨.hbm, 101, rfl⟩
abbrev main_cst_21 : Ref sig .tc := ⟨.hbm, 102, rfl⟩
abbrev main_v63 : Ref sig .tc := ⟨.hbm, 103, rfl⟩
abbrev main_cst_22 : Ref sig .tc := ⟨.hbm, 104, rfl⟩
abbrev main_v64 : Ref sig .tc := ⟨.hbm, 105, rfl⟩
abbrev main_c_23 : Ref sig .tc := ⟨.hbm, 106, rfl⟩
abbrev main_call7_v0 : Ref sig .tc := ⟨.hbm, 107, rfl⟩
abbrev main_call7_v1 : Ref sig .tc := ⟨.hbm, 108, rfl⟩
abbrev main_call7_v2 : Ref sig .tc := ⟨.hbm, 109, rfl⟩
abbrev main_call7_v3 : Ref sig .tc := ⟨.hbm, 110, rfl⟩
abbrev main_call7_v4 : Ref sig .tc := ⟨.hbm, 111, rfl⟩
abbrev main_call7_v5 : Ref sig .tc := ⟨.hbm, 112, rfl⟩
abbrev main_call7_v6 : Ref sig .tc := ⟨.hbm, 113, rfl⟩
abbrev main_call7_v7 : Ref sig .tc := ⟨.hbm, 114, rfl⟩
abbrev main_call7_v8 : Ref sig .tc := ⟨.hbm, 115, rfl⟩
abbrev main_call7_c : Ref sig .tc := ⟨.hbm, 116, rfl⟩
abbrev main_call7_v9 : Ref sig .tc := ⟨.hbm, 117, rfl⟩
abbrev main_call7_v10 : Ref sig .tc := ⟨.hbm, 118, rfl⟩
abbrev main_call7_v11 : Ref sig .tc := ⟨.hbm, 119, rfl⟩
abbrev main_call7_c_0 : Ref sig .tc := ⟨.hbm, 120, rfl⟩
abbrev main_call7_v12 : Ref sig .tc := ⟨.hbm, 121, rfl⟩
abbrev main_call7_v13 : Ref sig .tc := ⟨.hbm, 122, rfl⟩
abbrev main_v65 : Ref sig .tc := ⟨.hbm, 123, rfl⟩
abbrev main_c_24 : Ref sig .tc := ⟨.hbm, 124, rfl⟩
abbrev main_v66 : Ref sig .tc := ⟨.hbm, 125, rfl⟩
abbrev main_c_25 : Ref sig .tc := ⟨.hbm, 126, rfl⟩

abbrev nD : Nat := 1
abbrev τ : Topo := Topo.v7x

variable {F : FTy → Type} [FloatOps F]

class Facts₀ : Prop where
  transposes_S8192x512_S512x8192_1_0 : S8192x512.Transposes [1, 0] S512x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  natLt_1_32 : 1 < 32
  bcast_S_S8192 : S_.BroadcastsInDim S8192 (![] : Fin 0 → Fin S8192.rank)
  reducesTo_S8192_S_d0 : S8192.ReducesTo [0] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.LibSharedWindows.lean ====
/-
  THE FRAME RUN OF A REGION WHOSE WINDOWS SHARE AN ARRAY, for an @main that continues after the region.

  A pallas_call may be handed ONE array through several `in_specs` (the same table read a row tile at a time by one
  window and held whole by another).  The pipeline's arrays are then not distinct, so the launch cannot give every window
  its array at the full share: the array's share has to be dealt among the windows on it.  This file proves the frame
  run for such a region once and for all, from two equations that are the certificate's to prove for its own windows:

  * `hentry` — the DISTINCT buffers behind the windows' arrays, each whole at the full share at the region-entry
    contents, make the proof data's `arrays` at entry (an array read by two input windows is dealt as the two halves
    of its share, `pointsTo_share` with `PosShare.mem_left_op_right`; the proof data's `q` names each window's share);
  * `hexit` — at the region's exit the proof data's `arrays` ARE the full points-tos of a subfamily `sel` of the windows
    that has one window per buffer (an input's array is never written, `Dat.arrAt_in`, so the windows on one buffer end
    with equal contents and their shares can be put together again).

  Between the two the run is the library's `θ_run_region_pf_tail`; after the region the host lines run over the
  subfamily, whose arrays are distinct, by the library's `tail_seqs`.  The statement has the shape of the library's
  `θ_run_frame_around_track` (Lib/Pipeline/FrameSuffix.lean), whose proof this one follows step by step; the two steps
  that used the arrays' distinctness are replaced by `hentry` and `hexit`.
-/
import Idealize.ShloMosaic.Lib.Pipeline.FrameSuffix

noncomputable section

namespace Idealize.ShloMosaic.Pipeline.SharedWindows

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- A points-to at the full share is its two halves, as an equation (so that it can be rewritten in either direction
    under `∗`): what deals one array's share between two input windows at entry and puts it together again at the exit. -/
theorem halves {ℓ : Loc nD τ sig} (I : Finset (Idx ℓ)) (X : Buf Val ℓ) :
    ((ℓ ↦[I]{fullShare} X : sProp 𝕄)) = iprop((ℓ ↦[I]{fullShare.left} X) ∗ ℓ ↦[I]{fullShare.right} X) :=
  Entails.antisymm (pointsTo_share (PosShare.mem_left_op_right fullShare)).1 (pointsTo_share (PosShare.mem_left_op_right fullShare)).2

/-! ### How a certificate proves its two equations

For proof data `dat` whose `q` gives the two windows on the shared buffer `fullShare.left` and `fullShare.right` and every
other input window `fullShare` (an output's share is `fullShare` by `Dat.share`'s definition):

* the EXIT equation `dat.arrays F = arrPts (sub cfgs p sel) c (fun j => F (sel j))`, for `F` equal on the two windows:
  unfold `Dat.arrays` and `arrPts`; turn both `bigSep Finset.univ` into `∗`-chains (the generated `Gen.bigSep_WK` on the
  left, `bigSep_univ_eq_bigSepL` with the listed indices on the right); rewrite each `dat.share w` (unfold `Dat.share`,
  `if_neg` / `if_pos` by `decide` on `isOut`) and each element set (`(Gen.arr_wholeK w).set_eq_univ`; after the first of two
  windows on one buffer the second is already rewritten); rewrite the second window's contents to the first's; then
  re-associate (`sep_assoc'.antisymm sep_assoc`) and fold the halves by `congrArg (fun P => iprop(P ∗ _)) (halves _ _).symm`.
  The remaining factors agree by definitional unfolding.
* the ENTRY entailment from `arrBufs`: rewrite the goal by the exit equation read at the entry contents, then
  `unfold arrBufs arrPts`, rewrite the image of the arrays' references by the decided `himg`, turn the image of the
  injective subfamily into a `Finset.map` (`Finset.map_eq_image`), `bigSep_map`, and `bigSep_congr`.
* at the use site the two windows' contents at the exit are equal because neither is written: `Dat.arrAt_in w rfl _` for both
  and the proof data's `A` read at one buffer. `hinj`, `himg` and the layout facts are `by decide` / the generated Launch module's. -/

/-- The subfamily of the windows chosen by `sel`. -/
abbrev sub {W' : Nat} (sel : Fin W' → Fin (cfg).W) : Fin W' → WinSpec sig (cfg).grid.rank := fun j => (cfg).spec (sel j)

/-- The bypassing buffers of the windows and of a subfamily with the same buffers behind it are the same. -/
theorem rest_eq {W' : Nat} (sel : Fin W' → Fin (cfg).W)
    (himg : (Finset.univ.image (arrRef (sub cfgs p sel)) : Finset (Ref sig .tc)) = Finset.univ.image (arrRef (cfg).spec))
    (c : Dev nD) (V : (b : Ref sig .tc) → Buf Val ((c.tc : Thread nD τ).loc b)) :
    (unscopedRestP Prefetch.none (cfg).spec c V : sProp 𝕄) = unscopedRestP Prefetch.none (sub cfgs p sel) c V := by
  unfold unscopedRestP; rw [himg]

/-- What core `c`'s unscoped buffers hold after the host lines `opss` that follow the region: the lines' result from the
    region's exit contents — the subfamily's arrays at what the proof data compute, every other buffer at the
    region-entry contents `V₀`. -/
abbrev afterTailSub {W' : Nat} (sel : Fin W' → Fin (cfg).W)
    (V₀ : Dev nD → Valuation τ sig Val) (opss : List (List (HloOp τ sig Val))) (c : Dev nD) (b : Ref sig .tc) :
    Buf Val ((c.tc : Thread nD τ).loc b) :=
  StableHlo.after opss.flatten (withArrays (sub cfgs p sel) c (V₀ c) fun j => (dats p c).arrAt (sel j) (cfg).N) (Proc.devRef .tc b)

set_option maxHeartbeats 4000000 in
/-- THE FRAME RUN with a tracking invariant of a region whose windows may share arrays, for an @main that continues
    after the region with the host lines `opss`.  The post: every window's array at what the library computes from the
    proof data (`Dat.arrAt … N`), every other unscoped buffer at the lines' `StableHlo.after` (`afterTailSub`). -/
theorem θ_run_frame_around_track_shared
    (hcell : Function.Injective (cellOf (nD := nD) (τ := τ) cfgs))
    (hw : WinFacts₀ (cfg).spec)
    (hne : ∀ w : Fin (cfg).W, 0 < ((cfg).spec w).block.numel)
    (harr : ∀ w : Fin (cfg).W, ((cfg).spec w).arr.IsWhole)
    (hstage : ∀ (w : Fin (cfg).W) (s : Fin ((cfg).spec w).nbuf), (((cfg).spec w).stage s).IsWhole)
    {W' : Nat} (sel : Fin W' → Fin (cfg).W)
    (hinj : Function.Injective (arrRef (sub cfgs p sel)))
    (himg : (Finset.univ.image (arrRef (sub cfgs p sel)) : Finset (Ref sig .tc)) = Finset.univ.image (arrRef (cfg).spec))
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ : Dev nD → Valuation τ sig Val) (opss : List (List (HloOp τ sig Val)))
    (hentry : ∀ c, (arrBufs (cfg).spec c (fun b => V₀ c (Proc.devRef .tc b)) : sProp 𝕄) ⊢ (dats p c).arrays ((dats p c).arrAt · 0))
    (hexit : ∀ c, ((dats p c).arrays ((dats p c).arrAt · (cfg).N) : sProp 𝕄)
      = arrPts (sub cfgs p sel) c (fun j => (dats p c).arrAt (sel j) (cfg).N))
    (hsub : ∀ ops ∈ opss, ∀ op ∈ ops, op.bufs ⊆ tailRefs sig Prefetch.none (sub cfgs p sel))
    (hfresh : ∀ ops ∈ opss, ∀ op ∈ ops, op.fresh = ∅)
    (hkeep : ∀ ops ∈ opss, ∀ op ∈ ops, ∀ j, Proc.devRef .tc (arrRef (sub cfgs p sel) j) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hin : ∀ c, ΦA (cfg).spec c ⊢ (dats p c).Φ 0) (hout : ∀ c, (dats p c).Φ (Fin.last (cfg).N) ⊢ ΦA (cfg).spec c) :
    θ_run 𝔻 (onTc main) (s₀ m g) (fun r => ∀ c : Dev nD,
      (∀ w, r.2.mem (((cfg).spec w).arr.view.loc (c.tc : Thread nD τ)) = (dats p c).arrAt w (cfg).N)
      ∧ ∀ b ∈ restRefs sig (cfg).spec, r.2.mem ((c.tc : Thread nD τ).loc b) = afterTailSub cfgs dats p sel V₀ opss c b) := by
  classical
  exact θ_run_region_pf_tail (fun q => (cfgs q).toPCfg (Val := Val)) (fun q => (cfgs q).toPCfg_adm) dats () hcell p hw
    (OwnSemFacts.none (cfg).spec) (PreFacts.none _) emb₁ defs₀ 𝒱₀ m g main
    (fun _ => chain (opss.map StableHlo.seq)) hbody
    hne harr hstage howed
    (G := fun _ => iprop(emp)) (u₀ := initOf (cells cfgs hcell) (launchToks cfgs hcell))
    (hu₀ := by
      iintro Hu; imodintro
      isplitl [Hu]; · iapply (show (ownU _ : sProp 𝕄) ⊢ BI.own (emb₁ (initOf (cells cfgs hcell) (launchToks cfgs hcell))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hentry)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfg).spec c (fun b => V₀ c (Proc.devRef .tc b)))
    (Z' := fun c => unscopedRestP (Ix := Unit) (Name := ℕ) (U := UR sig nD τ) (Lvl := ℕ) Prefetch.none (cfg).spec c (afterTailSub cfgs dats p sel V₀ opss c))
    (hX := fun c => by
      iintro ⟨HU, -, -, -, Hp, -⟩; imodintro
      isplitl [Hp]; · iexists _; iexact Hp
      iexact HU)
    (hin := fun c => (show _ ⊢ ΦA (cfg).spec c by
      unfold ΦA; iintro ⟨Hp, Ht, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => by
      have E : ((dats p c).arrays (fun x => (dats p c).arrAt x (pin (fun q => (cfgs q).toPCfg (Val := Val)) (fun q => (cfgs q).toPCfg_adm) p).N) : sProp 𝕄)
          = arrPts (sub cfgs p sel) c (fun j => (dats p c).arrAt (sel j) (cfg).N) := hexit c
      rw [E, rest_eq cfgs p sel himg, rest_eq cfgs p sel himg]
      exact tail_seqs (fun q => (cfgs q).toPCfg (Val := Val)) defs₀ 𝒱₀ Prefetch.none (sub cfgs p sel) hinj c (V₀ c) (fun j => (dats p c).arrAt (sel j) (cfg).N)
        opss hsub hfresh hkeep Q')
    (QY := fun c s => ∀ b ∈ restRefsP sig Prefetch.none (cfg).spec, s.mem ((c.tc : Thread nD τ).loc b) = afterTailSub cfgs dats p sel V₀ opss c b)
    (hY := fun c s' => by
      iintro ⟨-, HU, HSI⟩
      unfold unscopedRestP
      imodintro
      iapply (pointsTo_read_all (restRefsP sig Prefetch.none (cfg).spec) (fun b => (c.tc : Thread nD τ).loc b) (afterTailSub cfgs dats p sel V₀ opss c) s')
      isplitl [HU] <;> iassumption)
    (hQ := fun s h c => ⟨(h c).1, rest_of_restP Prefetch.none (cfg).spec (fun k => k.elim0) c (afterTailSub cfgs dats p sel V₀ opss c) s (fun k => k.elim0) (fun k => k.elim0) (h c).2.2⟩)

end Idealize.ShloMosaic.Pipeline.SharedWindows

end
-- ==== Proof.SharedRunBits.lean ====
/-
  The pallas_call of this program hands ONE array (the embedding table cast to bf16) to two input windows:
  window 0 reads it a row tile at a time, window 1 holds it whole.  The launch gives the pipeline the five
  DISTINCT buffers behind its six windows, each whole at the full share; the pipeline's proof data want one
  points-to per WINDOW.  The table's full share is therefore dealt as its two halves, the left half to
  window 0 and the right half to window 1, every other window keeping its array whole; neither window writes the
  table, so at the region's exit the halves hold equal contents and are put together again.  With these two
  equations the frame run around the region is the general one for windows that share an array.
-/
import proofs.«140287_j55817394979145_2_alg».proof.Proof.Gen.Kernel.Launch
import proofs.«140287_j55817394979145_2_alg».proof.Proof.LibSharedWindows

noncomputable section

namespace Cert.Kernel.Shared

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline Idealize.ShloMosaic.Pipeline.SharedWindows
open Cert.Kernel Cert.Kernel.Gen

variable {F : FTy → Type} [FloatOps F]

local notation "𝕄" => MT nD τ sig Unit (Elt F) ℕ (UR sig nD τ) ℕ

/-- The windows with window 1 left out: five windows on five distinct arrays. -/
abbrev keep : Fin 5 → Fin 6 := ![0, 2, 3, 4, 5]
abbrev spec5 : Fin 5 → Pipeline.WinSpec sig grid0.rank := sub cfgs (0 : Fin 1) keep

theorem spec5_inj : Function.Injective (Pipeline.arrRef spec5) := by decide

theorem img_eq : (Finset.univ.image (Pipeline.arrRef spec5) : Finset (Ref sig .tc)) = Finset.univ.image (Pipeline.arrRef cfg0.spec) := by decide

/-- The table's full share is its two halves. -/
theorem halves (c : Dev nD) (X : Buf (Elt F) ((c.tc : Thread nD τ).loc main_v0)) :
    (((c.tc : Thread nD τ).loc main_v0 ↦{fullShare} X : sProp 𝕄))
      = iprop(((c.tc : Thread nD τ).loc main_v0 ↦{fullShare.left} X) ∗ (c.tc : Thread nD τ).loc main_v0 ↦{fullShare.right} X) :=
  Entails.antisymm (pointsTo_share (PosShare.mem_left_op_right fullShare)).1 (pointsTo_share (PosShare.mem_left_op_right fullShare)).2

/-- The six windows' arrays at the dealt shares, windows 0 and 1 at equal contents, are the five buffers whole at the
    full share. -/
theorem arrays_eq5 (c : Dev nD) (dat : Dat τ (Elt F) Unit ℕ (UR sig nD τ) ℕ cfg0 c)
    (h0 : dat.q 0 = fullShare.left) (h1 : dat.q 1 = fullShare.right) (h2 : dat.q 2 = fullShare) (h3 : dat.q 3 = fullShare)
    (F6 : (w : Fin cfg0.W) → Buf (Elt F) ((cfg0.win w).arr.view.loc (c.tc : Thread nD τ)))
    (h01 : F6 1 = F6 0) :
    (dat.arrays F6 : sProp 𝕄) = Pipeline.arrPts spec5 c (fun j => F6 (keep j)) := by
  unfold Dat.arrays Pipeline.arrPts
  rw [bigSep_W0, bigSep_univ_eq_bigSepL [(0 : Fin 5), 1, 2, 3, 4] (by decide) (by decide)]
  have s0 : dat.share 0 = fullShare.left := by unfold Dat.share; rw [if_neg (by decide)]; exact h0
  have s1 : dat.share 1 = fullShare.right := by unfold Dat.share; rw [if_neg (by decide)]; exact h1
  have s2 : dat.share 2 = fullShare := by unfold Dat.share; rw [if_neg (by decide)]; exact h2
  have s3 : dat.share 3 = fullShare := by unfold Dat.share; rw [if_neg (by decide)]; exact h3
  have s4 : dat.share 4 = fullShare := by unfold Dat.share; rw [if_pos (by decide)]
  have s5 : dat.share 5 = fullShare := by unfold Dat.share; rw [if_pos (by decide)]
  have e0 : (cfg0.win 0).arr.view.set = Finset.univ := (arr_whole0 0).set_eq_univ
  have e1 : (cfg0.win 1).arr.view.set = Finset.univ := (arr_whole0 1).set_eq_univ
  have e2 : (cfg0.win 2).arr.view.set = Finset.univ := (arr_whole0 2).set_eq_univ
  have e3 : (cfg0.win 3).arr.view.set = Finset.univ := (arr_whole0 3).set_eq_univ
  have e4 : (cfg0.win 4).arr.view.set = Finset.univ := (arr_whole0 4).set_eq_univ
  have e5 : (cfg0.win 5).arr.view.set = Finset.univ := (arr_whole0 5).set_eq_univ
  rw [s0, s1, s2, s3, s4, s5, h01]
  (try rw [e0]); (try rw [e1]); (try rw [e2]); (try rw [e3]); (try rw [e4]); (try rw [e5])
  refine (sep_assoc'.antisymm sep_assoc).trans ?_
  exact congrArg (fun P : sProp 𝕄 => iprop(P ∗ _)) (halves c (F6 0)).symm

/-- The entry split: the five buffers, whole at the full share at the region-entry contents `V`, are the six windows'
    arrays at the proof data's shares. -/
theorem entry_split (c : Dev nD) (dat : Dat τ (Elt F) Unit ℕ (UR sig nD τ) ℕ cfg0 c)
    (h0 : dat.q 0 = fullShare.left) (h1 : dat.q 1 = fullShare.right) (h2 : dat.q 2 = fullShare) (h3 : dat.q 3 = fullShare)
    (V : (b : Ref sig .tc) → Buf (Elt F) ((c.tc : Thread nD τ).loc b))
    (F6 : (w : Fin cfg0.W) → Buf (Elt F) ((cfg0.win w).arr.view.loc (c.tc : Thread nD τ)))
    (hF : ∀ w, F6 w = V (Pipeline.arrRef cfg0.spec w)) :
    (Pipeline.arrBufs cfg0.spec c V : sProp 𝕄) ⊢ dat.arrays F6 := by
  rw [arrays_eq5 c dat h0 h1 h2 h3 F6 ((hF 1).trans (hF 0).symm)]
  unfold Pipeline.arrBufs Pipeline.arrPts
  rw [← img_eq, show Finset.univ.image (Pipeline.arrRef spec5) = Finset.univ.map ⟨Pipeline.arrRef spec5, spec5_inj⟩ from (Finset.map_eq_image ⟨Pipeline.arrRef spec5, spec5_inj⟩ Finset.univ).symm,
    bigSep_map]
  exact Entails.of_eq (bigSep_congr fun j _ => by
    show _ = ((c.tc : Thread nD τ).loc (Pipeline.arrRef spec5 j) ↦{fullShare} F6 (keep j))
    rw [hF (keep j)]; rfl)

set_option maxHeartbeats 4000000 in
/-- THE FRAME RUN of this program's one region for an @main that continues after it with the host lines `opss`, for
    any proof data that deal the table's halves to windows 0 and 1: every window's array ends at what the library
    computes from the proof data, every other unscoped buffer at the lines' result. -/
theorem run_around
    (dats : (p : Fin 1) → (c : Dev nD) → Dat τ (Elt F) Unit ℕ (UR sig nD τ) ℕ (cfgs p) c)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (𝒱₀ : Variants)
    (m : (ℓ : Loc nD τ sig) → Buf (Elt F) ℓ) (g : Dev nD → PrngReg)
    (hbody : ∀ c, BodyObligationLoose (dats 0 c) (defs₀ (F := F)) 𝒱₀ () Set.univ)
    (howed : ∀ c t, (dats 0 c).owed t = 0)
    (V₀ : Dev nD → Valuation τ sig (Elt F)) (opss : List (List (HloOp τ sig (Elt F))))
    (hsub : ∀ ops ∈ opss, ∀ op ∈ ops, op.bufs ⊆ tailRefs sig Prefetch.none spec5)
    (hfresh : ∀ ops ∈ opss, ∀ op ∈ ops, op.fresh = ∅)
    (hkeep : ∀ ops ∈ opss, ∀ op ∈ ops, ∀ j, Proc.devRef .tc (arrRef spec5 j) ∉ op.writes)
    (hmain : HMainK (Ix := Unit) (Name := ℕ) (U := UR sig nD τ) (Lvl := ℕ) cfgs 0 defs₀ 𝒱₀ m (main (F := F))
      (fun c b => V₀ c (Proc.devRef .tc b)) (fun _ => chain (opss.map StableHlo.seq)))
    (hA : ∀ c w, (dats 0 c).A w = V₀ c (Proc.devRef .tc (arrRef cfg0.spec w)))
    (hin : ∀ c, ΦA cfg0.spec c ⊢ (dats 0 c).Φ 0) (hout : ∀ c, (dats 0 c).Φ (Fin.last cfg0.N) ⊢ ΦA cfg0.spec c) :
    θ_run (defs (F := F)) (onTc (τ := τ) (main (F := F))) (s₀ m g) (fun r => ∀ c : Dev nD,
      (∀ w, r.2.mem ((cfg0.spec w).arr.view.loc (c.tc : Thread nD τ)) = (dats 0 c).arrAt w cfg0.N)
      ∧ ∀ b ∈ restRefs sig cfg0.spec, r.2.mem ((c.tc : Thread nD τ).loc b) = afterTailSub cfgs dats 0 keep V₀ opss c b) :=
  θ_run_frame_around_track_shared cfgs dats 0 defs₀ 𝒱₀ cellOf_inj winFacts₀0 block_pos0 arr_whole0 stage_whole0 keep spec5_inj img_eq
    m g main hbody howed V₀ opss
    (fun c => entry_split c (dats 0 c) (hq0 c) (hq1 c) (hq2 c) (hq3 c) _ _ fun w => hA c w)
    (fun c => arrays_eq5 c (dats 0 c) (hq0 c) (hq1 c) (hq2 c) (hq3 c) (fun x => (dats 0 c).arrAt x cfg0.N)
      (((dats 0 c).arrAt_in 1 rfl _).trans ((hA c 1).trans ((hA c 0).symm.trans ((dats 0 c).arrAt_in 0 rfl _).symm))))
    hsub hfresh hkeep hmain hin hout

end Cert.Kernel.Shared

end
-- ==== Proof.KitBits.lean ====
/-
  What the frame of this program's one region is stated over: the buffers' contents when the region is entered (after the
  three host lines before it: the cast of the embedding table and the two reshapes of the labels), @main as those lines, the
  region, and the twenty-seven host lines after it (the two reductions of the region's results, the rounding and the
  floor division of the counts), and the facts about those later lines the frame run asks for: they touch unscoped
  TensorCore buffers only, allocate nothing, and write none of the region's arrays.
-/
import proofs.«140287_j55817394979145_2_alg».proof.Proof.SharedRunBits
import proofs.«140287_j55817394979145_2_alg».proof.Proof.Gen.Kernel.Skeleton
import proofs.«140287_j55817394979145_2_alg».proof.Proof.Gen.Kernel.Points
import Idealize.ShloMosaic.Lib.Pipeline.FrameBody
import Idealize.ShloMosaic.Lib.Pipeline.FrameSuffix

noncomputable section

namespace Cert.Kernel.Kit

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.Kernel Cert.Kernel.Gen Cert.Kernel.Shared

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffer contents when the region is entered: after the three host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines after the region, stretch by stretch. -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main around the region: the host lines before it, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch unscoped TensorCore buffers only: with nothing prefetched, every such buffer is an array of the
    five-window family or bypasses the region. -/
theorem sfx_sub : ∀ ops ∈ (tailOps : List (List (HloOp τ sig (Elt F)))), ∀ op ∈ ops,
    op.bufs ⊆ Pipeline.tailRefs sig Pipeline.Prefetch.none spec5 := by
  rw [Pipeline.tailRefs_none spec5 (fun j => winFacts₀0.arr_unscoped (keep j))]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- No later line writes a given buffer, when the buffer is none of the lines' results. -/
theorem tail_keeps_v0 : ∀ op ∈ (tailOps (F := F)).flatten, Proc.devRef (τ := τ) .tc main_v0 ∉ op.writes := (List.forall_iff_forall_mem.mp (by
    simp only [hostOps1, hostOps1_1, hostOps1_2, hostOps1_3, hostOps1_4, tailOps, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_v1 : ∀ op ∈ (tailOps (F := F)).flatten, Proc.devRef (τ := τ) .tc main_v1 ∉ op.writes := (List.forall_iff_forall_mem.mp (by
    simp only [hostOps1, hostOps1_1, hostOps1_2, hostOps1_3, hostOps1_4, tailOps, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_v2 : ∀ op ∈ (tailOps (F := F)).flatten, Proc.devRef (τ := τ) .tc main_v2 ∉ op.writes := (List.forall_iff_forall_mem.mp (by
    simp only [hostOps1, hostOps1_1, hostOps1_2, hostOps1_3, hostOps1_4, tailOps, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_v3_0 : ∀ op ∈ (tailOps (F := F)).flatten, Proc.devRef (τ := τ) .tc main_v3_0 ∉ op.writes := (List.forall_iff_forall_mem.mp (by
    simp only [hostOps1, hostOps1_1, hostOps1_2, hostOps1_3, hostOps1_4, tailOps, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_v3_1 : ∀ op ∈ (tailOps (F := F)).flatten, Proc.devRef (τ := τ) .tc main_v3_1 ∉ op.writes := (List.forall_iff_forall_mem.mp (by
    simp only [hostOps1, hostOps1_1, hostOps1_2, hostOps1_3, hostOps1_4, tailOps, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_arg0 : ∀ op ∈ (tailOps (F := F)).flatten, Proc.devRef (τ := τ) .tc main_arg0 ∉ op.writes := (List.forall_iff_forall_mem.mp (by
    simp only [hostOps1, hostOps1_1, hostOps1_2, hostOps1_3, hostOps1_4, tailOps, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_arg1 : ∀ op ∈ (tailOps (F := F)).flatten, Proc.devRef (τ := τ) .tc main_arg1 ∉ op.writes := (List.forall_iff_forall_mem.mp (by
    simp only [hostOps1, hostOps1_1, hostOps1_2, hostOps1_3, hostOps1_4, tailOps, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- And they write none of the region's arrays. -/
theorem sfx_keeps : ∀ ops ∈ (tailOps : List (List (HloOp τ sig (Elt F)))), ∀ op ∈ ops,
    ∀ j, Proc.devRef .tc (Pipeline.arrRef spec5 j) ∉ op.writes := by
  intro ops hops op hop j
  have hmem : op ∈ (tailOps (F := F)).flatten := List.mem_flatten.mpr ⟨ops, hops, hop⟩
  fin_cases j
  · exact tail_keeps_v0 op hmem
  · exact tail_keeps_v1 op hmem
  · exact tail_keeps_v2 op hmem
  · exact tail_keeps_v3_0 op hmem
  · exact tail_keeps_v3_1 op hmem

/-- No host line before the region writes an argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does a later line, and an argument is no array of the region: it ends as launched. -/
theorem W_main_arg0 (dats : (p : Fin 1) → (c : Dev nD) → Dat τ (Elt F) Unit ℕ (UR sig nD τ) ℕ (cfgs p) c) (c : Dev nD) :
    Pipeline.SharedWindows.afterTailSub cfgs dats 0 keep (V0 m) tailOps c main_arg0 = m ((c : Thread nD τ).loc main_arg0) := by
  unfold Pipeline.SharedWindows.afterTailSub
  rw [StableHlo.after_of_forall_not_mem (b := Proc.devRef .tc main_arg0) _ _ tail_keeps_arg0,
    Pipeline.withArrays_of_ne _ c (V0 m c) _ main_arg0 (by exact (by decide : ∀ j, Pipeline.arrRef spec5 j ≠ main_arg0))]
  exact V_main_arg0 m c
theorem W_main_arg1 (dats : (p : Fin 1) → (c : Dev nD) → Dat τ (Elt F) Unit ℕ (UR sig nD τ) ℕ (cfgs p) c) (c : Dev nD) :
    Pipeline.SharedWindows.afterTailSub cfgs dats 0 keep (V0 m) tailOps c main_arg1 = m ((c : Thread nD τ).loc main_arg1) := by
  unfold Pipeline.SharedWindows.afterTailSub
  rw [StableHlo.after_of_forall_not_mem (b := Proc.devRef .tc main_arg1) _ _ tail_keeps_arg1,
    Pipeline.withArrays_of_ne _ c (V0 m c) _ main_arg1 (by exact (by decide : ∀ j, Pipeline.arrRef spec5 j ≠ main_arg1))]
  exact V_main_arg1 m c

/-- THE FRAME from the frame run: both arguments are buffers that bypass the region, so the run's post for those
    buffers, read through the later lines, is the frame claim's post. -/
theorem frame_of (dats : (p : Fin 1) → (c : Dev nD) → Dat τ (Elt F) Unit ℕ (UR sig nD τ) ℕ (cfgs p) c)
    (h : θ_run (defs (F := F)) (onTc (τ := τ) (main (F := F))) (s₀ m ρ) (fun r => ∀ c : Dev nD,
      (∀ w, r.2.mem ((cfg0.spec w).arr.view.loc (c.tc : Thread nD τ)) = (dats 0 c).arrAt w cfg0.N)
      ∧ ∀ b ∈ Pipeline.restRefs sig cfg0.spec, r.2.mem ((c.tc : Thread nD τ).loc b) = Pipeline.SharedWindows.afterTailSub cfgs dats 0 keep (V0 m) tailOps c b)) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

end Cert.Kernel.Kit

end
-- ==== Proof.RunsBaseBits.lean ====
/-
  What the runs of the kernel body are stated over. The body branches on the grid coordinates i = (row tile, phase, column
  tile) through five conditions; the point t = 32·(row tile) + 16·(phase) + (column tile) meets them as: the first at
  t % 32 = 0 (phase 0, column tile 0), the second at t % 32 < 16 (phase 0), the third at t % 32 = 16 (phase 1, column tile 0),
  the fourth at 16 ≤ t % 32 (phase 1), the fifth at t % 32 = 31 (phase 1, last column tile). The two output windows are idle
  and are not written back except at the points of the fifth condition; the four input windows are never idle. The staging
  memrefs of the six windows at a point and the eight scratch operands as whole memrefs, and the region's invariant beside
  the windows as the eight scratch operands each owned at some contents.
-/
import proofs.«140287_j55817394979145_2_alg».proof.Proof.KitBits
import Idealize.ShloMosaic.Lib.Ring
import Idealize.ShloMosaic.Lib.Tactic
import Idealize.ShloMosaic.Lib.Pipeline.FrameBody

set_option maxRecDepth 16384

noncomputable section

namespace Cert.Kernel.Runs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The condition of the body's first `scf.if` (phase 0 and column tile 0), from the grid coordinates. -/
abbrev cond1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- The condition of the second `scf.if` (phase 0). -/
abbrev cond2 (i : grid0.Coords) : Prop := k0_cond2 i = 1#1
/-- The condition of the third `scf.if` (phase 1 and column tile 0), from the grid coordinates. -/
abbrev cond3 (i : grid0.Coords) : Prop := (Scalar.cmpi .ne (Scalar.extui (Scalar.andi (Scalar.cmpi .eq (BitVec.ofNat 32 (i 1).val) 1#32) (Scalar.cmpi .eq (BitVec.ofNat 32 (i 2).val) 0#32))) 0#32) = 1#1
/-- The condition of the fourth `scf.if` (phase 1). -/
abbrev cond4 (i : grid0.Coords) : Prop := k0_cond4 i = 1#1
/-- The condition of the fifth `scf.if` (phase 1 and the last column tile). -/
abbrev cond5 (i : grid0.Coords) : Prop := k0_cond5 i = 1#1

/-- The five conditions in closed form over the grid, the point written t = 32·(row tile) + 16·(phase) + (column tile):
    decided over the grid's 512 points. -/
theorem hcond1 : ∀ t : Fin cfg0.N, cond1 (grid0.coords t) ↔ t.val % 32 = 0 :=
  (by decide +kernel : ∀ t : Fin grid0.N, cond1 (grid0.coords t) ↔ t.val % 32 = 0)
theorem hcond2 : ∀ t : Fin cfg0.N, cond2 (grid0.coords t) ↔ t.val % 32 < 16 :=
  (by decide +kernel : ∀ t : Fin grid0.N, cond2 (grid0.coords t) ↔ t.val % 32 < 16)
theorem hcond3 : ∀ t : Fin cfg0.N, cond3 (grid0.coords t) ↔ t.val % 32 = 16 :=
  (by decide +kernel : ∀ t : Fin grid0.N, cond3 (grid0.coords t) ↔ t.val % 32 = 16)
theorem hcond4 : ∀ t : Fin cfg0.N, cond4 (grid0.coords t) ↔ 16 ≤ t.val % 32 :=
  (by decide +kernel : ∀ t : Fin grid0.N, cond4 (grid0.coords t) ↔ 16 ≤ t.val % 32)
theorem hcond5 : ∀ t : Fin cfg0.N, cond5 (grid0.coords t) ↔ t.val % 32 = 31 :=
  (by decide +kernel : ∀ t : Fin grid0.N, cond5 (grid0.coords t) ↔ t.val % 32 = 31)

/-! ## Where the windows are idle -/

/-- The four input windows are never idle. -/
theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
/-- Away from a row tile's last point the two outputs are idle (nothing is stored into them) and are not written back. -/
theorem idleAt_4 : ∀ t : Fin cfg0.N, ¬cond5 (grid0.coords t) → cfg0.idle 4 (grid0.coords t) = true := by decide +kernel
theorem noFlush_4 : ∀ t : Fin cfg0.N, ¬cond5 (grid0.coords t) → (cfg0.win 4).flush t = false := by decide +kernel
theorem idleAt_5 : ∀ t : Fin cfg0.N, ¬cond5 (grid0.coords t) → cfg0.idle 5 (grid0.coords t) = true := by decide +kernel
theorem noFlush_5 : ∀ t : Fin cfg0.N, ¬cond5 (grid0.coords t) → (cfg0.win 5).flush t = false := by decide +kernel
/-- At a row tile's last point both outputs are live: the body stores each whole. -/
theorem liveAt_4 : ∀ t : Fin cfg0.N, cond5 (grid0.coords t) → cfg0.idle 4 (grid0.coords t) = false := by decide +kernel
theorem liveAt_5 : ∀ t : Fin cfg0.N, cond5 (grid0.coords t) → cfg0.idle 5 (grid0.coords t) = false := by decide +kernel

/-! ## The staging and scratch memrefs the body is called on -/

/-- Each window's current staging memref at point `t`, spelled as the pipeline passes it, and its wholeness. -/
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
/-- The eight scratch operands: whole scoped buffers of the kernel's own, passed beside the windows and carried from point to point. -/
abbrev scM0_0 : Memref sig .tc .vmem S512x8192 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3
abbrev scM0_4 : Memref sig .tc .vmem S512x1 .f32 := Memref.whole cc0_scratch4
abbrev scM0_5 : Memref sig .tc .vmem S512x1 .f32 := Memref.whole cc0_scratch5
abbrev scM0_6 : Memref sig .tc .vmem S512x1 .f32 := Memref.whole cc0_scratch6
abbrev scM0_7 : Memref sig .tc .vmem S512x1 .f32 := Memref.whole cc0_scratch7

/-- The region's invariant beside the windows, with the eight scratch operands as memrefs each owned at some contents, and the
    generator register at some state: what the body obligation hands a run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

/-- The body at point `t` is the kernel on these memrefs. -/
theorem bodyAt0_eq (t : Fin cfg0.N) : bodyAt0 (F := F) t = cc0__triplet_kernel (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) := rfl

end Cert.Kernel.Runs

end
-- ==== Proof.RunsBits.lean ====
/-
  The kernel body's run in each of its five control cases. The grid point t = 32·(row tile) + 16·(phase) + (column tile) falls
  in exactly one: A (t % 32 = 0), B (1 ≤ t % 32 ≤ 15), C (t % 32 = 16), D (17 ≤ t % 32 ≤ 30), E (t % 32 = 31). In phase 0
  (A, B) the body computes one 512x512 block of the similarity matrix, stores it into its column range of the 512x8192 cache
  and folds it into the running per-row maximum over positives and minimum over negatives (seeded first in A); in phase 1
  (C, D, E) it reads the block back and accumulates five per-row sums (zeroed first in C), and at the row tile's last point (E)
  stores the two 512x1 outputs from the sums. Every scratch operand is carried from point to point, so each run is stated from
  NAMED contents of the eight scratch operands to those contents with the case's pieces written over them; the cache is stored
  one block per point and never whole, the 512x1 operands a case stores into are stored whole (the cover facts).
-/
import proofs.«140287_j55817394979145_2_alg».proof.Proof.RunsBaseBits
import Idealize.ShloMosaic.Lib.Ring
import Idealize.ShloMosaic.Lib.Tactic
import Idealize.ShloMosaic.Lib.Pipeline.FrameBody

set_option maxRecDepth 16384

noncomputable section

namespace Cert.Kernel.Runs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
set_option maxHeartbeats 4000000 in
/-- The body's run at a later point of phase 0: the block of the similarity matrix is computed, cached and folded into the two running thresholds. On whole memrefs, the four inputs owned at their contents, the two outputs owned at any contents and handed back untouched, the eight
    scratch operands owned at the contents the point before left, the body runs to the continuation holding the inputs as they
    were, and every scratch operand at its contents before with the case's pieces written over them (none for an operand
    the case does not store into): the new contents are a function of the old and the pieces. -/
noncomputable def kernelRun_B (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : cond2 i) (hc3 : ¬cond3 i) (hc4 : ¬cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) :
    Σ' (LS0 : List (View.Piece (Elt F) S512x8192 .f32)), Σ' (LS1 : List (View.Piece (Elt F) S512x1 .f32)), Σ' (LS2 : List (View.Piece (Elt F) S512x1 .f32)), Σ' (LS3 : List (View.Piece (Elt F) S512x1 .f32)), Σ' (LS4 : List (View.Piece (Elt F) S512x1 .f32)), Σ' (LS5 : List (View.Piece (Elt F) S512x1 .f32)), Σ' (LS6 : List (View.Piece (Elt F) S512x1 .f32)), { LS7 : List (View.Piece (Elt F) S512x1 .f32) //
      ∀ (xi4 xi5 : Vec F S512x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4 ∗ owns (c : Thread nD τ) arg14 fullShare xs5 ∗ owns (c : Thread nD τ) arg15 fullShare xs6 ∗ owns (c : Thread nD τ) arg16 fullShare xs7
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2) ∗ (arg12.view.loc (c : Thread nD τ) ↦[arg12.view.set]{fullShare} arg12.view.writes (Elt F) (harg12.unread xs3) LS3) ∗ (arg13.view.loc (c : Thread nD τ) ↦[arg13.view.set]{fullShare} arg13.view.writes (Elt F) (harg13.unread xs4) LS4) ∗ (arg14.view.loc (c : Thread nD τ) ↦[arg14.view.set]{fullShare} arg14.view.writes (Elt F) (harg14.unread xs5) LS5) ∗ (arg15.view.loc (c : Thread nD τ) ↦[arg15.view.set]{fullShare} arg15.view.writes (Elt F) (harg15.unread xs6) LS6) ∗ (arg16.view.loc (c : Thread nD τ) ↦[arg16.view.set]{fullShare} arg16.view.writes (Elt F) (harg16.unread xs7) LS7)) -∗ K ⟨⟩))
          ⊢ wp frame (wpE (defs₀ (F := F)) Variants.none c none) E (cc0__triplet_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, [], [], [], [], [], fun xi4 xi5 E K => ?run⟩
  case run =>
    simp only [cc0__triplet_kernel_eq_skeleton]; unfold cc0__triplet_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2; obtain rfl := harg12.eq_unread hfs3; obtain rfl := harg13.eq_unread hfs4; obtain rfl := harg14.eq_unread hfs5; obtain rfl := harg15.eq_unread hfs6; obtain rfl := harg16.eq_unread hfs7
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7

/-- Case B's pieces for scratch operand 1 (`arg10`) cover it: the buffer is stored whole. -/
theorem scover_B_1 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : cond2 i) (hc3 : ¬cond3 i) (hc4 : ¬cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_B c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.1, y ∈ pc.1.set :=
  View.cover_of_tiledL (kernelRun_B c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.1 S512x1.size (by sl_kernel_rfl) y

/-- Case B's pieces for scratch operand 2 (`arg11`) cover it: the buffer is stored whole. -/
theorem scover_B_2 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : cond2 i) (hc3 : ¬cond3 i) (hc4 : ¬cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_B c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.1, y ∈ pc.1.set :=
  View.cover_of_tiledL (kernelRun_B c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.1 S512x1.size (by sl_kernel_rfl) y

set_option maxHeartbeats 4000000 in
/-- The body's run at the first point of a row tile (phase 0, column tile 0): the two running thresholds are seeded, then the block of the similarity matrix is computed, cached and folded into them. On whole memrefs, the four inputs owned at their contents, the two outputs owned at any contents and handed back untouched, the eight
    scratch operands owned at the contents the point before left, the body runs to the continuation holding the inputs as they
    were, and every scratch operand at its contents before with the case's pieces written over them (none for an operand
    the case does not store into): the new contents are a function of the old and the pieces. -/
noncomputable def kernelRun_A (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : cond1 i) (hc2 : cond2 i) (hc3 : ¬cond3 i) (hc4 : ¬cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) :
    Σ' (LS0 : List (View.Piece (Elt F) S512x8192 .f32)), Σ' (LS1 : List (View.Piece (Elt F) S512x1 .f32)), Σ' (LS2 : List (View.Piece (Elt F) S512x1 .f32)), Σ' (LS3 : List (View.Piece (Elt F) S512x1 .f32)), Σ' (LS4 : List (View.Piece (Elt F) S512x1 .f32)), Σ' (LS5 : List (View.Piece (Elt F) S512x1 .f32)), Σ' (LS6 : List (View.Piece (Elt F) S512x1 .f32)), { LS7 : List (View.Piece (Elt F) S512x1 .f32) //
      ∀ (xi4 xi5 : Vec F S512x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4 ∗ owns (c : Thread nD τ) arg14 fullShare xs5 ∗ owns (c : Thread nD τ) arg15 fullShare xs6 ∗ owns (c : Thread nD τ) arg16 fullShare xs7
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2) ∗ (arg12.view.loc (c : Thread nD τ) ↦[arg12.view.set]{fullShare} arg12.view.writes (Elt F) (harg12.unread xs3) LS3) ∗ (arg13.view.loc (c : Thread nD τ) ↦[arg13.view.set]{fullShare} arg13.view.writes (Elt F) (harg13.unread xs4) LS4) ∗ (arg14.view.loc (c : Thread nD τ) ↦[arg14.view.set]{fullShare} arg14.view.writes (Elt F) (harg14.unread xs5) LS5) ∗ (arg15.view.loc (c : Thread nD τ) ↦[arg15.view.set]{fullShare} arg15.view.writes (Elt F) (harg15.unread xs6) LS6) ∗ (arg16.view.loc (c : Thread nD τ) ↦[arg16.view.set]{fullShare} arg16.view.writes (Elt F) (harg16.unread xs7) LS7)) -∗ K ⟨⟩))
          ⊢ wp frame (wpE (defs₀ (F := F)) Variants.none c none) E (cc0__triplet_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, [], [], [], [], [], fun xi4 xi5 E K => ?run⟩
  case run =>
    simp only [cc0__triplet_kernel_eq_skeleton]; unfold cc0__triplet_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2; obtain rfl := harg12.eq_unread hfs3; obtain rfl := harg13.eq_unread hfs4; obtain rfl := harg14.eq_unread hfs5; obtain rfl := harg15.eq_unread hfs6; obtain rfl := harg16.eq_unread hfs7
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7

/-- Case A's pieces for scratch operand 1 (`arg10`) cover it: the buffer is stored whole. -/
theorem scover_A_1 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : cond1 i) (hc2 : cond2 i) (hc3 : ¬cond3 i) (hc4 : ¬cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_A c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.1, y ∈ pc.1.set :=
  View.cover_of_tiledL (kernelRun_A c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.1 S512x1.size (by sl_kernel_rfl) y

/-- Case A's pieces for scratch operand 2 (`arg11`) cover it: the buffer is stored whole. -/
theorem scover_A_2 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : cond1 i) (hc2 : cond2 i) (hc3 : ¬cond3 i) (hc4 : ¬cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_A c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.1, y ∈ pc.1.set :=
  View.cover_of_tiledL (kernelRun_A c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.1 S512x1.size (by sl_kernel_rfl) y

set_option maxHeartbeats 4000000 in
/-- The body's run at the last point of a row tile (phase 1, last column tile): the cached block is accumulated into the five per-row sums, and the two outputs are stored whole from them. On whole memrefs, the four inputs owned at their contents, the two outputs owned at anything, the eight
    scratch operands owned at the contents the point before left, the body runs to the continuation holding the inputs as they
    were, each output with its pieces written, and every scratch operand at its contents before with the case's pieces written over them (none for an operand
    the case does not store into): the new contents are a function of the old and the pieces. -/
noncomputable def kernelRun_E (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) :
    Σ' (L4 : List (View.Piece (Elt F) S512x1 .f32)), Σ' (L5 : List (View.Piece (Elt F) S512x1 .f32)), Σ' (LS0 : List (View.Piece (Elt F) S512x8192 .f32)), Σ' (LS1 : List (View.Piece (Elt F) S512x1 .f32)), Σ' (LS2 : List (View.Piece (Elt F) S512x1 .f32)), Σ' (LS3 : List (View.Piece (Elt F) S512x1 .f32)), Σ' (LS4 : List (View.Piece (Elt F) S512x1 .f32)), Σ' (LS5 : List (View.Piece (Elt F) S512x1 .f32)), Σ' (LS6 : List (View.Piece (Elt F) S512x1 .f32)), { LS7 : List (View.Piece (Elt F) S512x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4 ∗ owns (c : Thread nD τ) arg14 fullShare xs5 ∗ owns (c : Thread nD τ) arg15 fullShare xs6 ∗ owns (c : Thread nD τ) arg16 fullShare xs7
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2) ∗ (arg12.view.loc (c : Thread nD τ) ↦[arg12.view.set]{fullShare} arg12.view.writes (Elt F) (harg12.unread xs3) LS3) ∗ (arg13.view.loc (c : Thread nD τ) ↦[arg13.view.set]{fullShare} arg13.view.writes (Elt F) (harg13.unread xs4) LS4) ∗ (arg14.view.loc (c : Thread nD τ) ↦[arg14.view.set]{fullShare} arg14.view.writes (Elt F) (harg14.unread xs5) LS5) ∗ (arg15.view.loc (c : Thread nD τ) ↦[arg15.view.set]{fullShare} arg15.view.writes (Elt F) (harg15.unread xs6) LS6) ∗ (arg16.view.loc (c : Thread nD τ) ↦[arg16.view.set]{fullShare} arg16.view.writes (Elt F) (harg16.unread xs7) LS7)) -∗ K ⟨⟩))
          ⊢ wp frame (wpE (defs₀ (F := F)) Variants.none c none) E (cc0__triplet_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, [], [], [], ?_, ?_, ?_, ?_, ?_, fun E K => ?run⟩
  case run =>
    simp only [cc0__triplet_kernel_eq_skeleton]; unfold cc0__triplet_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, Hk⟩
    obtain rfl := harg3.eq_unread hf0; obtain rfl := harg4.eq_unread hf1; obtain rfl := harg5.eq_unread hf2; obtain rfl := harg6.eq_unread hf3; obtain rfl := harg9.eq_unread hfs0; obtain rfl := harg10.eq_unread hfs1; obtain rfl := harg11.eq_unread hfs2; obtain rfl := harg12.eq_unread hfs3; obtain rfl := harg13.eq_unread hfs4; obtain rfl := harg14.eq_unread hfs5; obtain rfl := harg15.eq_unread hfs6; obtain rfl := harg16.eq_unread hfs7
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7

/-- Case E's pieces for output window 4's staging memref `arg7` cover it: the buffer is stored whole. -/
theorem cover_E_4 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).1, y ∈ pc.1.set :=
  View.cover_of_tiledL (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).1 S512x1.size (by sl_kernel_rfl) y

/-- Case E's pieces for output window 5's staging memref `arg8` cover it: the buffer is stored whole. -/
theorem cover_E_5 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.1, y ∈ pc.1.set :=
  View.cover_of_tiledL (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.1 S512x1.size (by sl_kernel_rfl) y

/-- Case E's pieces for scratch operand 3 (`arg12`) cover it: the buffer is stored whole. -/
theorem scover_E_3 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.1, y ∈ pc.1.set :=
  View.cover_of_tiledL (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.1 S512x1.size (by sl_kernel_rfl) y

/-- Case E's pieces for scratch operand 4 (`arg13`) cover it: the buffer is stored whole. -/
theorem scover_E_4 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.1, y ∈ pc.1.set :=
  View.cover_of_tiledL (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.1 S512x1.size (by sl_kernel_rfl) y

/-- Case E's pieces for scratch operand 5 (`arg14`) cover it: the buffer is stored whole. -/
theorem scover_E_5 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.2.1, y ∈ pc.1.set :=
  View.cover_of_tiledL (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.2.1 S512x1.size (by sl_kernel_rfl) y

/-- Case E's pieces for scratch operand 6 (`arg15`) cover it: the buffer is stored whole. -/
theorem scover_E_6 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.2.2.1, y ∈ pc.1.set :=
  View.cover_of_tiledL (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.2.2.1 S512x1.size (by sl_kernel_rfl) y

/-- Case E's pieces for scratch operand 7 (`arg16`) cover it: the buffer is stored whole. -/
theorem scover_E_7 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.2.2.2.1, y ∈ pc.1.set :=
  View.cover_of_tiledL (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.2.2.2.1 S512x1.size (by sl_kernel_rfl) y

set_option maxHeartbeats 4000000 in
/-- The body's run at the first point of phase 1 (column tile 0): the five per-row sums are zeroed, then the cached block is read back and accumulated into them. On whole memrefs, the four inputs owned at their contents, the two outputs owned at any contents and handed back untouched, the eight
    scratch operands owned at the contents the point before left, the body runs to the continuation holding the inputs as they
    were, and every scratch operand at its contents before with the case's pieces written over them (none for an operand
    the case does not store into): the new contents are a function of the old and the pieces. -/
noncomputable def kernelRun_C (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) :
    Σ' (LS0 : List (View.Piece (Elt F) S512x8192 .f32)), Σ' (LS1 : List (View.Piece (Elt F) S512x1 .f32)), Σ' (LS2 : List (View.Piece (Elt F) S512x1 .f32)), Σ' (LS3 : List (View.Piece (Elt F) S512x1 .f32)), Σ' (LS4 : List (View.Piece (Elt F) S512x1 .f32)), Σ' (LS5 : List (View.Piece (Elt F) S512x1 .f32)), Σ' (LS6 : List (View.Piece (Elt F) S512x1 .f32)), { LS7 : List (View.Piece (Elt F) S512x1 .f32) //
      ∀ (xi4 xi5 : Vec F S512x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4 ∗ owns (c : Thread nD τ) arg14 fullShare xs5 ∗ owns (c : Thread nD τ) arg15 fullShare xs6 ∗ owns (c : Thread nD τ) arg16 fullShare xs7
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2) ∗ (arg12.view.loc (c : Thread nD τ) ↦[arg12.view.set]{fullShare} arg12.view.writes (Elt F) (harg12.unread xs3) LS3) ∗ (arg13.view.loc (c : Thread nD τ) ↦[arg13.view.set]{fullShare} arg13.view.writes (Elt F) (harg13.unread xs4) LS4) ∗ (arg14.view.loc (c : Thread nD τ) ↦[arg14.view.set]{fullShare} arg14.view.writes (Elt F) (harg14.unread xs5) LS5) ∗ (arg15.view.loc (c : Thread nD τ) ↦[arg15.view.set]{fullShare} arg15.view.writes (Elt F) (harg15.unread xs6) LS6) ∗ (arg16.view.loc (c : Thread nD τ) ↦[arg16.view.set]{fullShare} arg16.view.writes (Elt F) (harg16.unread xs7) LS7)) -∗ K ⟨⟩))
          ⊢ wp frame (wpE (defs₀ (F := F)) Variants.none c none) E (cc0__triplet_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], [], [], ?_, ?_, ?_, ?_, ?_, fun xi4 xi5 E K => ?run⟩
  case run =>
    simp only [cc0__triplet_kernel_eq_skeleton]; unfold cc0__triplet_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2; obtain rfl := harg12.eq_unread hfs3; obtain rfl := harg13.eq_unread hfs4; obtain rfl := harg14.eq_unread hfs5; obtain rfl := harg15.eq_unread hfs6; obtain rfl := harg16.eq_unread hfs7
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7

/-- Case C's pieces for scratch operand 3 (`arg12`) cover it: the buffer is stored whole. -/
theorem scover_C_3 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.1, y ∈ pc.1.set :=
  View.cover_of_tiledL (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.1 S512x1.size (by sl_kernel_rfl) y

/-- Case C's pieces for scratch operand 4 (`arg13`) cover it: the buffer is stored whole. -/
theorem scover_C_4 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.1, y ∈ pc.1.set :=
  View.cover_of_tiledL (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.1 S512x1.size (by sl_kernel_rfl) y

/-- Case C's pieces for scratch operand 5 (`arg14`) cover it: the buffer is stored whole. -/
theorem scover_C_5 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.1, y ∈ pc.1.set :=
  View.cover_of_tiledL (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.1 S512x1.size (by sl_kernel_rfl) y

/-- Case C's pieces for scratch operand 6 (`arg15`) cover it: the buffer is stored whole. -/
theorem scover_C_6 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.1, y ∈ pc.1.set :=
  View.cover_of_tiledL (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.1 S512x1.size (by sl_kernel_rfl) y

/-- Case C's pieces for scratch operand 7 (`arg16`) cover it: the buffer is stored whole. -/
theorem scover_C_7 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.2.1, y ∈ pc.1.set :=
  View.cover_of_tiledL (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.2.1 S512x1.size (by sl_kernel_rfl) y

set_option maxHeartbeats 4000000 in
/-- The body's run at a later point of phase 1 but the last: the cached block is read back and accumulated into the five per-row sums. On whole memrefs, the four inputs owned at their contents, the two outputs owned at any contents and handed back untouched, the eight
    scratch operands owned at the contents the point before left, the body runs to the continuation holding the inputs as they
    were, and every scratch operand at its contents before with the case's pieces written over them (none for an operand
    the case does not store into): the new contents are a function of the old and the pieces. -/
noncomputable def kernelRun_D (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) :
    Σ' (LS0 : List (View.Piece (Elt F) S512x8192 .f32)), Σ' (LS1 : List (View.Piece (Elt F) S512x1 .f32)), Σ' (LS2 : List (View.Piece (Elt F) S512x1 .f32)), Σ' (LS3 : List (View.Piece (Elt F) S512x1 .f32)), Σ' (LS4 : List (View.Piece (Elt F) S512x1 .f32)), Σ' (LS5 : List (View.Piece (Elt F) S512x1 .f32)), Σ' (LS6 : List (View.Piece (Elt F) S512x1 .f32)), { LS7 : List (View.Piece (Elt F) S512x1 .f32) //
      ∀ (xi4 xi5 : Vec F S512x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4 ∗ owns (c : Thread nD τ) arg14 fullShare xs5 ∗ owns (c : Thread nD τ) arg15 fullShare xs6 ∗ owns (c : Thread nD τ) arg16 fullShare xs7
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2) ∗ (arg12.view.loc (c : Thread nD τ) ↦[arg12.view.set]{fullShare} arg12.view.writes (Elt F) (harg12.unread xs3) LS3) ∗ (arg13.view.loc (c : Thread nD τ) ↦[arg13.view.set]{fullShare} arg13.view.writes (Elt F) (harg13.unread xs4) LS4) ∗ (arg14.view.loc (c : Thread nD τ) ↦[arg14.view.set]{fullShare} arg14.view.writes (Elt F) (harg14.unread xs5) LS5) ∗ (arg15.view.loc (c : Thread nD τ) ↦[arg15.view.set]{fullShare} arg15.view.writes (Elt F) (harg15.unread xs6) LS6) ∗ (arg16.view.loc (c : Thread nD τ) ↦[arg16.view.set]{fullShare} arg16.view.writes (Elt F) (harg16.unread xs7) LS7)) -∗ K ⟨⟩))
          ⊢ wp frame (wpE (defs₀ (F := F)) Variants.none c none) E (cc0__triplet_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], [], [], ?_, ?_, ?_, ?_, ?_, fun xi4 xi5 E K => ?run⟩
  case run =>
    simp only [cc0__triplet_kernel_eq_skeleton]; unfold cc0__triplet_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2; obtain rfl := harg12.eq_unread hfs3; obtain rfl := harg13.eq_unread hfs4; obtain rfl := harg14.eq_unread hfs5; obtain rfl := harg15.eq_unread hfs6; obtain rfl := harg16.eq_unread hfs7
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7

/-- Case D's pieces for scratch operand 3 (`arg12`) cover it: the buffer is stored whole. -/
theorem scover_D_3 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_D c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.1, y ∈ pc.1.set :=
  View.cover_of_tiledL (kernelRun_D c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.1 S512x1.size (by sl_kernel_rfl) y

/-- Case D's pieces for scratch operand 4 (`arg13`) cover it: the buffer is stored whole. -/
theorem scover_D_4 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_D c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.1, y ∈ pc.1.set :=
  View.cover_of_tiledL (kernelRun_D c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.1 S512x1.size (by sl_kernel_rfl) y

/-- Case D's pieces for scratch operand 5 (`arg14`) cover it: the buffer is stored whole. -/
theorem scover_D_5 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_D c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.1, y ∈ pc.1.set :=
  View.cover_of_tiledL (kernelRun_D c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.1 S512x1.size (by sl_kernel_rfl) y

/-- Case D's pieces for scratch operand 6 (`arg15`) cover it: the buffer is stored whole. -/
theorem scover_D_6 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_D c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.1, y ∈ pc.1.set :=
  View.cover_of_tiledL (kernelRun_D c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.1 S512x1.size (by sl_kernel_rfl) y

/-- Case D's pieces for scratch operand 7 (`arg16`) cover it: the buffer is stored whole. -/
theorem scover_D_7 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_D c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.2.1, y ∈ pc.1.set :=
  View.cover_of_tiledL (kernelRun_D c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.2.1 S512x1.size (by sl_kernel_rfl) y

end Cert.Kernel.Runs

end
-- ==== Proof.DataDefsBits.lean ====
/-
  The proof data of the region.  Eight scratch operands are carried from grid point to grid point: the similarity cache
  (one 512x512 block stored per point of the first phase), the two running thresholds, and the five partial sums of the
  second phase.  Point t lies in row tile t / 32 at position j = t % 32: j = 0 seeds the thresholds and stores block 0,
  1 ≤ j ≤ 15 store block j, j = 16 zeroes the sums and adds block 0's part, 17 ≤ j ≤ 30 add block j - 16's part, j = 31
  adds the last part and stores the two results.  `tileRun n S₀` is what the scratch holds after point n when the row tile
  was entered with the scratch at S₀; the region's invariant after point n is that the scratch holds `tileRun n S₀` for SOME
  S₀ (what the tile before left, or anything at the very first point).  The two results a tile stores do not depend on S₀
  (every part of the scratch the last point reads was written earlier in the same tile); the proof data name them from a
  fixed S₀.
-/
import proofs.«140287_j55817394979145_2_alg».proof.Proof.RunsBits

set_option maxRecDepth 16384

noncomputable section

namespace Cert.Kernel.Data

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Shared Cert.Kernel.Kit Cert.Kernel.Runs

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the eight scratch operands hold. -/
structure St (F : FTy → Type) [FloatOps F] where
  s0 : Vec F S512x8192 .f32
  s1 : Vec F S512x1 .f32
  s2 : Vec F S512x1 .f32
  s3 : Vec F S512x1 .f32
  s4 : Vec F S512x1 .f32
  s5 : Vec F S512x1 .f32
  s6 : Vec F S512x1 .f32
  s7 : Vec F S512x1 .f32

abbrev hsc0 : (scM0_0).IsWhole := Memref.isWhole_whole _
abbrev hsc1 : (scM0_1).IsWhole := Memref.isWhole_whole _
abbrev hsc2 : (scM0_2).IsWhole := Memref.isWhole_whole _
abbrev hsc3 : (scM0_3).IsWhole := Memref.isWhole_whole _
abbrev hsc4 : (scM0_4).IsWhole := Memref.isWhole_whole _
abbrev hsc5 : (scM0_5).IsWhole := Memref.isWhole_whole _
abbrev hsc6 : (scM0_6).IsWhole := Memref.isWhole_whole _
abbrev hsc7 : (scM0_7).IsWhole := Memref.isWhole_whole _

/-- A scratch operand's contents after a list of stores over what it held. -/
abbrev rb0 (xs : Vec F S512x8192 .f32) (L : List (View.Piece (Elt F) S512x8192 .f32)) : Vec F S512x8192 .f32 :=
  (scM0_0).view.read (Elt F) ((scM0_0).view.writes (Elt F) ((hsc0).unread xs) L)
abbrev rb1 (xs : Vec F S512x1 .f32) (L : List (View.Piece (Elt F) S512x1 .f32)) : Vec F S512x1 .f32 :=
  (scM0_1).view.read (Elt F) ((scM0_1).view.writes (Elt F) ((hsc1).unread xs) L)
abbrev rb2 (xs : Vec F S512x1 .f32) (L : List (View.Piece (Elt F) S512x1 .f32)) : Vec F S512x1 .f32 :=
  (scM0_2).view.read (Elt F) ((scM0_2).view.writes (Elt F) ((hsc2).unread xs) L)
abbrev rb3 (xs : Vec F S512x1 .f32) (L : List (View.Piece (Elt F) S512x1 .f32)) : Vec F S512x1 .f32 :=
  (scM0_3).view.read (Elt F) ((scM0_3).view.writes (Elt F) ((hsc3).unread xs) L)
abbrev rb4 (xs : Vec F S512x1 .f32) (L : List (View.Piece (Elt F) S512x1 .f32)) : Vec F S512x1 .f32 :=
  (scM0_4).view.read (Elt F) ((scM0_4).view.writes (Elt F) ((hsc4).unread xs) L)
abbrev rb5 (xs : Vec F S512x1 .f32) (L : List (View.Piece (Elt F) S512x1 .f32)) : Vec F S512x1 .f32 :=
  (scM0_5).view.read (Elt F) ((scM0_5).view.writes (Elt F) ((hsc5).unread xs) L)
abbrev rb6 (xs : Vec F S512x1 .f32) (L : List (View.Piece (Elt F) S512x1 .f32)) : Vec F S512x1 .f32 :=
  (scM0_6).view.read (Elt F) ((scM0_6).view.writes (Elt F) ((hsc6).unread xs) L)
abbrev rb7 (xs : Vec F S512x1 .f32) (L : List (View.Piece (Elt F) S512x1 .f32)) : Vec F S512x1 .f32 :=
  (scM0_7).view.read (Elt F) ((scM0_7).view.writes (Elt F) ((hsc7).unread xs) L)

/-- Case A: what the body leaves in the eight scratch operands, from what it found there. -/
def step_A (c : Dev nD) (t : Fin cfg0.N) (h : t.val % 32 = 0) (S : St F) : St F :=
  ⟨rb0 S.s0 (kernelRun_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond1 t).mpr h) ((hcond2 t).mpr (by omega)) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).1,
   rb1 S.s1 (kernelRun_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond1 t).mpr h) ((hcond2 t).mpr (by omega)) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.1,
   rb2 S.s2 (kernelRun_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond1 t).mpr h) ((hcond2 t).mpr (by omega)) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.1,
   rb3 S.s3 (kernelRun_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond1 t).mpr h) ((hcond2 t).mpr (by omega)) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.2.1,
   rb4 S.s4 (kernelRun_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond1 t).mpr h) ((hcond2 t).mpr (by omega)) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.2.2.1,
   rb5 S.s5 (kernelRun_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond1 t).mpr h) ((hcond2 t).mpr (by omega)) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.2.2.2.1,
   rb6 S.s6 (kernelRun_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond1 t).mpr h) ((hcond2 t).mpr (by omega)) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.2.2.2.2.1,
   rb7 S.s7 (kernelRun_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond1 t).mpr h) ((hcond2 t).mpr (by omega)) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.2.2.2.2.2.1⟩

/-- Case B: what the body leaves in the eight scratch operands, from what it found there. -/
def step_B (c : Dev nD) (t : Fin cfg0.N) (h0 : t.val % 32 ≠ 0) (h : t.val % 32 < 16) (S : St F) : St F :=
  ⟨rb0 S.s0 (kernelRun_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => h0 ((hcond1 t).mp q)) ((hcond2 t).mpr h) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).1,
   rb1 S.s1 (kernelRun_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => h0 ((hcond1 t).mp q)) ((hcond2 t).mpr h) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.1,
   rb2 S.s2 (kernelRun_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => h0 ((hcond1 t).mp q)) ((hcond2 t).mpr h) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.1,
   rb3 S.s3 (kernelRun_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => h0 ((hcond1 t).mp q)) ((hcond2 t).mpr h) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.2.1,
   rb4 S.s4 (kernelRun_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => h0 ((hcond1 t).mp q)) ((hcond2 t).mpr h) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.2.2.1,
   rb5 S.s5 (kernelRun_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => h0 ((hcond1 t).mp q)) ((hcond2 t).mpr h) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.2.2.2.1,
   rb6 S.s6 (kernelRun_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => h0 ((hcond1 t).mp q)) ((hcond2 t).mpr h) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.2.2.2.2.1,
   rb7 S.s7 (kernelRun_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => h0 ((hcond1 t).mp q)) ((hcond2 t).mpr h) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.2.2.2.2.2.1⟩

/-- Case C: what the body leaves in the eight scratch operands, from what it found there. -/
def step_C (c : Dev nD) (t : Fin cfg0.N) (h : t.val % 32 = 16) (S : St F) : St F :=
  ⟨rb0 S.s0 (kernelRun_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) ((hcond3 t).mpr h) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).1,
   rb1 S.s1 (kernelRun_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) ((hcond3 t).mpr h) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.1,
   rb2 S.s2 (kernelRun_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) ((hcond3 t).mpr h) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.1,
   rb3 S.s3 (kernelRun_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) ((hcond3 t).mpr h) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.2.1,
   rb4 S.s4 (kernelRun_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) ((hcond3 t).mpr h) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.2.2.1,
   rb5 S.s5 (kernelRun_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) ((hcond3 t).mpr h) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.2.2.2.1,
   rb6 S.s6 (kernelRun_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) ((hcond3 t).mpr h) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.2.2.2.2.1,
   rb7 S.s7 (kernelRun_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) ((hcond3 t).mpr h) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.2.2.2.2.2.1⟩

/-- Case D: what the body leaves in the eight scratch operands, from what it found there. -/
def step_D (c : Dev nD) (t : Fin cfg0.N) (h0 : 16 < t.val % 32) (h : t.val % 32 < 31) (S : St F) : St F :=
  ⟨rb0 S.s0 (kernelRun_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).1,
   rb1 S.s1 (kernelRun_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.1,
   rb2 S.s2 (kernelRun_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.1,
   rb3 S.s3 (kernelRun_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.2.1,
   rb4 S.s4 (kernelRun_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.2.2.1,
   rb5 S.s5 (kernelRun_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.2.2.2.1,
   rb6 S.s6 (kernelRun_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.2.2.2.2.1,
   rb7 S.s7 (kernelRun_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.2.2.2.2.2.1⟩

/-- Case E: what the body leaves in the eight scratch operands, from what it found there. -/
def step_E (c : Dev nD) (t : Fin cfg0.N) (h : t.val % 32 = 31) (S : St F) : St F :=
  ⟨rb0 S.s0 (kernelRun_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) ((hcond5 t).mpr h) (iblk m c 0 t) (iblk m c 1 t) (iblk m c 2 t) (iblk m c 3 t) S.s0 S.s1 S.s2 S.s3 S.s4 S.s5 S.s6 S.s7).2.2.1,
   rb1 S.s1 (kernelRun_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) ((hcond5 t).mpr h) (iblk m c 0 t) (iblk m c 1 t) (iblk m c 2 t) (iblk m c 3 t) S.s0 S.s1 S.s2 S.s3 S.s4 S.s5 S.s6 S.s7).2.2.2.1,
   rb2 S.s2 (kernelRun_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) ((hcond5 t).mpr h) (iblk m c 0 t) (iblk m c 1 t) (iblk m c 2 t) (iblk m c 3 t) S.s0 S.s1 S.s2 S.s3 S.s4 S.s5 S.s6 S.s7).2.2.2.2.1,
   rb3 S.s3 (kernelRun_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) ((hcond5 t).mpr h) (iblk m c 0 t) (iblk m c 1 t) (iblk m c 2 t) (iblk m c 3 t) S.s0 S.s1 S.s2 S.s3 S.s4 S.s5 S.s6 S.s7).2.2.2.2.2.1,
   rb4 S.s4 (kernelRun_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) ((hcond5 t).mpr h) (iblk m c 0 t) (iblk m c 1 t) (iblk m c 2 t) (iblk m c 3 t) S.s0 S.s1 S.s2 S.s3 S.s4 S.s5 S.s6 S.s7).2.2.2.2.2.2.1,
   rb5 S.s5 (kernelRun_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) ((hcond5 t).mpr h) (iblk m c 0 t) (iblk m c 1 t) (iblk m c 2 t) (iblk m c 3 t) S.s0 S.s1 S.s2 S.s3 S.s4 S.s5 S.s6 S.s7).2.2.2.2.2.2.2.1,
   rb6 S.s6 (kernelRun_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) ((hcond5 t).mpr h) (iblk m c 0 t) (iblk m c 1 t) (iblk m c 2 t) (iblk m c 3 t) S.s0 S.s1 S.s2 S.s3 S.s4 S.s5 S.s6 S.s7).2.2.2.2.2.2.2.2.1,
   rb7 S.s7 (kernelRun_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) ((hcond5 t).mpr h) (iblk m c 0 t) (iblk m c 1 t) (iblk m c 2 t) (iblk m c 3 t) S.s0 S.s1 S.s2 S.s3 S.s4 S.s5 S.s6 S.s7).2.2.2.2.2.2.2.2.2.1⟩

/-- The step at point `t`: the case its position in the row tile selects. -/
def stepAt (c : Dev nD) (t : Fin cfg0.N) (S : St F) : St F :=
  if h0 : t.val % 32 = 0 then step_A m c t h0 S
  else if h1 : t.val % 32 < 16 then step_B m c t h0 h1 S
  else if h2 : t.val % 32 = 16 then step_C m c t h2 S
  else if h3 : t.val % 32 < 31 then step_D m c t (by omega) h3 S
  else step_E m c t (by omega) S

/-- The scratch after point `n`, the row tile entered at `S₀`. -/
def tileRun (c : Dev nD) : (n : ℕ) → n < cfg0.N → St F → St F
  | 0, hn, S₀ => stepAt m c ⟨0, hn⟩ S₀
  | n + 1, hn, S₀ => if (n + 1) % 32 = 0 then stepAt m c ⟨n + 1, hn⟩ S₀
      else stepAt m c ⟨n + 1, hn⟩ (tileRun c n (Nat.lt_of_succ_lt hn) S₀)

theorem stepAt_A (c : Dev nD) (t : Fin cfg0.N) (h : t.val % 32 = 0) (S : St F) : stepAt m c t S = step_A m c t h S := dif_pos h
theorem stepAt_B (c : Dev nD) (t : Fin cfg0.N) (h0 : t.val % 32 ≠ 0) (h : t.val % 32 < 16) (S : St F) : stepAt m c t S = step_B m c t h0 h S :=
  (dif_neg h0).trans (dif_pos h)
theorem stepAt_C (c : Dev nD) (t : Fin cfg0.N) (h : t.val % 32 = 16) (S : St F) : stepAt m c t S = step_C m c t h S :=
  (dif_neg (by omega)).trans ((dif_neg (by omega)).trans (dif_pos h))
theorem stepAt_D (c : Dev nD) (t : Fin cfg0.N) (h0 : 16 < t.val % 32) (h : t.val % 32 < 31) (S : St F) : stepAt m c t S = step_D m c t h0 h S :=
  (dif_neg (by omega)).trans ((dif_neg (by omega)).trans ((dif_neg (by omega)).trans (dif_pos h)))
theorem stepAt_E (c : Dev nD) (t : Fin cfg0.N) (h : t.val % 32 = 31) (S : St F) : stepAt m c t S = step_E m c t h S :=
  (dif_neg (by omega)).trans ((dif_neg (by omega)).trans ((dif_neg (by omega)).trans (dif_neg (by omega))))

/-- At a row tile's first point the run restarts from the entry state. -/
theorem tileRun_first (c : Dev nD) (t : Fin cfg0.N) (h : t.val % 32 = 0) (S₀ : St F) :
    tileRun m c t.val t.isLt S₀ = stepAt m c t S₀ := by
  obtain ⟨n, hn⟩ := t
  cases n with
  | zero => rfl
  | succ n => exact if_pos h
/-- At any other point it continues from the point before. -/
theorem tileRun_next (c : Dev nD) (t : Fin cfg0.N) (h : t.val % 32 ≠ 0) (S₀ : St F) :
    tileRun m c t.val t.isLt S₀ = stepAt m c t (tileRun m c (t.val - 1) (Nat.lt_of_le_of_lt (Nat.sub_le _ _) t.isLt) S₀) := by
  obtain ⟨n, hn⟩ := t
  cases n with
  | zero => exact absurd (Nat.zero_mod _) h
  | succ n => exact if_neg h

/-- One staging buffer of each output window, through which its contents are stated. -/
abbrev VO4 : View sig .tc .vmem S512x1 .f32 := (Memref.whole cc0_stg4_0 : Memref sig .tc .vmem S512x1 .f32).view
abbrev VO5 : View sig .tc .vmem S512x1 .f32 := (Memref.whole cc0_stg5_0 : Memref sig .tc .vmem S512x1 .f32).view

/-- A scratch state nobody chose: the fixed entry state the proof data name the results from. -/
def St.junk : St F :=
  ⟨(scM0_0).view.read (Elt F) (scM0_0).view.junk, (scM0_1).view.read (Elt F) (scM0_1).view.junk, (scM0_2).view.read (Elt F) (scM0_2).view.junk,
   (scM0_3).view.read (Elt F) (scM0_3).view.junk, (scM0_4).view.read (Elt F) (scM0_4).view.junk, (scM0_5).view.read (Elt F) (scM0_5).view.junk,
   (scM0_6).view.read (Elt F) (scM0_6).view.junk, (scM0_7).view.read (Elt F) (scM0_7).view.junk⟩

/-- What the last point of a row tile stores into the two output windows' staging buffers, from the scratch it finds. -/
def out4_E (c : Dev nD) (t : Fin cfg0.N) (h : t.val % 32 = 31) (S : St F) : Vec F S512x1 .f32 :=
  VO4.read (Elt F) (VO4.writes (Elt F) VO4.junk (kernelRun_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) ((hcond5 t).mpr h) (iblk m c 0 t) (iblk m c 1 t) (iblk m c 2 t) (iblk m c 3 t) S.s0 S.s1 S.s2 S.s3 S.s4 S.s5 S.s6 S.s7).1)
def out5_E (c : Dev nD) (t : Fin cfg0.N) (h : t.val % 32 = 31) (S : St F) : Vec F S512x1 .f32 :=
  VO5.read (Elt F) (VO5.writes (Elt F) VO5.junk (kernelRun_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) ((hcond5 t).mpr h) (iblk m c 0 t) (iblk m c 1 t) (iblk m c 2 t) (iblk m c 3 t) S.s0 S.s1 S.s2 S.s3 S.s4 S.s5 S.s6 S.s7).2.1)

/-- What the proof data say the output windows' staging buffers hold after point `t` (consulted at the write-back
    points only: elsewhere the windows are idle). -/
def outAt4 (c : Dev nD) (t : Fin cfg0.N) : Vec F S512x1 .f32 :=
  if h : t.val % 32 = 31 then out4_E m c t h (tileRun m c (t.val - 1) (Nat.lt_of_le_of_lt (Nat.sub_le _ _) t.isLt) St.junk)
  else VO4.read (Elt F) VO4.junk
def outAt5 (c : Dev nD) (t : Fin cfg0.N) : Vec F S512x1 .f32 :=
  if h : t.val % 32 = 31 then out5_E m c t h (tileRun m c (t.val - 1) (Nat.lt_of_le_of_lt (Nat.sub_le _ _) t.isLt) St.junk)
  else VO5.read (Elt F) VO5.junk

/-- The eight scratch operands owned at a state. -/
def ownsSt (c : Dev nD) (S : St F) : sProp 𝕄 :=
  iprop(owns (c : Thread nD τ) scM0_0 fullShare S.s0 ∗ owns (c : Thread nD τ) scM0_1 fullShare S.s1 ∗ owns (c : Thread nD τ) scM0_2 fullShare S.s2
    ∗ owns (c : Thread nD τ) scM0_3 fullShare S.s3 ∗ owns (c : Thread nD τ) scM0_4 fullShare S.s4 ∗ owns (c : Thread nD τ) scM0_5 fullShare S.s5
    ∗ owns (c : Thread nD τ) scM0_6 fullShare S.s6 ∗ owns (c : Thread nD τ) scM0_7 fullShare S.s7)

/-- The region's invariant before position `n`: before the first point every scratch at anything; afterwards the scratch at
    the row tile's run from SOME entry state, and the generator register at some state. -/
def PhiS (c : Dev nD) : (n : ℕ) → n ≤ cfg0.N → sProp 𝕄
  | 0, _ => Pipeline.ΦA spec0 c
  | n + 1, hn => iprop(iprop(∃ S₀ : St F, ownsSt c (tileRun m c n hn S₀)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(∃ S₀ : St F, ownsSt c (tileRun m c n hn S₀)) ∗ (∃ r, prngReg c r)) := rfl
theorem PhiS_pos (c : Dev nD) (n : ℕ) (h : n ≤ cfg0.N) (hz : n ≠ 0) :
    PhiS m c n h = iprop(iprop(∃ S₀ : St F, ownsSt c (tileRun m c (n - 1) (by omega) S₀)) ∗ (∃ r, prngReg c r)) := by
  cases n with
  | zero => exact absurd rfl hz
  | succ n => rfl

/-- The proof data of the one pipeline on core `c`. The embedding table's share is dealt in halves to the two windows
    that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt4 m c t
    | ⟨5, _⟩ => outAt5 m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt4 m c t := by dsimp only [dats]
theorem after_5 (c : Dev nD) (t : Fin cfg0.N) : (dats m 0 c).after 5 t = outAt5 m c t := by dsimp only [dats]

/-- Each input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- What a row tile's last point stores does not depend on the scratch the tile was entered with. -/
def Indep : Prop := ∀ (c : Dev nD) (t : Fin cfg0.N) (h : t.val % 32 = 31) (S₀ : St F),
  out4_E m c t h (tileRun m c (t.val - 1) (Nat.lt_of_le_of_lt (Nat.sub_le _ _) t.isLt) S₀) = outAt4 m c t
  ∧ out5_E m c t h (tileRun m c (t.val - 1) (Nat.lt_of_le_of_lt (Nat.sub_le _ _) t.isLt) S₀) = outAt5 m c t

end Cert.Kernel.Data

end
-- ==== Proof.DataBodyBits.lean ====
/-
  The body obligation of the region and its frame run.  At every grid point the body is handed the four input windows
  at their blocks, the two output windows (idle except at a row tile's last point) and the eight scratch operands at the
  row tile's run so far; it runs the case the point's position selects and leaves the scratch at the run's next state.
  At a row tile's last point what it stores into the output windows is what the proof data name (the independence of
  the entry state).  With the launch for windows that share an array this gives the frame run of the program, and the
  frame: both arguments end as launched.
-/
import proofs.«140287_j55817394979145_2_alg».proof.Proof.DataDefsBits

set_option maxRecDepth 16384

noncomputable section

namespace Cert.Kernel.Data

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Shared Cert.Kernel.Kit Cert.Kernel.Runs

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

set_option maxHeartbeats 8000000 in
/-- One point of the body from a named scratch state `S`: it runs, hands the input windows back as found, leaves the
    scratch at the step's state, and the output windows as the pipeline expects them — idle and untouched, or, at a row
    tile's last point, stored with the tile's results (`hE`: what is stored there is what the proof data name). -/
theorem sound_step (c : Dev nD) (t : Fin cfg0.N) (S : St F)
    (hE : ∀ h : t.val % 32 = 31, out4_E m c t h S = outAt4 m c t ∧ out5_E m c t h S = outAt5 m c t)
    (K : PUnit → sProp 𝕄) :
    iprop(ownsSt c S ∗ (∃ r, prngReg c r) ∗ (dats m 0 c).owesAt () t.castSucc
        ∗ owns (c : Thread nD τ) (ms0_0 t) fullShare (iblk m c 0 t) ∗ owns (c : Thread nD τ) (ms0_1 t) fullShare (iblk m c 1 t)
        ∗ owns (c : Thread nD τ) (ms0_2 t) fullShare (iblk m c 2 t) ∗ owns (c : Thread nD τ) (ms0_3 t) fullShare (iblk m c 3 t)
        ∗ (∃ d, owns (c : Thread nD τ) (ms0_4 t) fullShare ((dats m 0 c).before 4 t d))
        ∗ (∃ d, owns (c : Thread nD τ) (ms0_5 t) fullShare ((dats m 0 c).before 5 t d))
        ∗ (iprop(ownsSt c (stepAt m c t S) ∗ (∃ r, prngReg c r) ∗ (dats m 0 c).owesAt () t.castSucc
            ∗ owns (c : Thread nD τ) (ms0_0 t) fullShare (iblk m c 0 t) ∗ owns (c : Thread nD τ) (ms0_1 t) fullShare (iblk m c 1 t)
            ∗ owns (c : Thread nD τ) (ms0_2 t) fullShare (iblk m c 2 t) ∗ owns (c : Thread nD τ) (ms0_3 t) fullShare (iblk m c 3 t)
            ∗ (dats m 0 c).leavesExact 4 t ∗ (dats m 0 c).leavesExact 5 t) -∗ K ⟨⟩))
      ⊢ wp frame (wpE (defs₀ (F := F)) Variants.none c none) Set.univ (bodyAt0 t) K := by
  rw [bodyAt0_eq]
  by_cases hA : t.val % 32 = 0
  · have h := hA
    rw [stepAt_A m c t h]
    have hc5 : ¬cond5 (grid0.coords t) := (fun q => by have := (hcond5 t).mp q; omega)
    rw [Dat.leavesExact_idle (dats m 0 c) 4 t (idleAt_4 t hc5) (noFlush_4 t hc5), Dat.leavesExact_idle (dats m 0 c) 5 t (idleAt_5 t hc5) (noFlush_5 t hc5)]
    unfold ownsSt step_A
    iintro ⟨⟨HS0, HS1, HS2, HS3, HS4, HS5, HS6, HS7⟩, Hg, Ho, H0, H1, H2, H3, ⟨%d4, H4⟩, ⟨%d5, H5⟩, Hk⟩
    iapply ((kernelRun_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond1 t).mpr h) ((hcond2 t).mpr (by omega)) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.2.2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, HS0, HS1, HS2, HS3, HS4, HS5, HS6, HS7⟩
    iapply Hk
    isplitl [HS0 HS1 HS2 HS3 HS4 HS5 HS6 HS7]
    · isplitl [HS0]
      · unfold owns; iexists _; isplitr
        swap; · iexact HS0
        ipureintro; rfl
      isplitl [HS1]
      · unfold owns; iexists _; isplitr
        swap; · iexact HS1
        ipureintro; rfl
      isplitl [HS2]
      · unfold owns; iexists _; isplitr
        swap; · iexact HS2
        ipureintro; rfl
      isplitl [HS3]
      · unfold owns; iexists _; isplitr
        swap; · iexact HS3
        ipureintro; rfl
      isplitl [HS4]
      · unfold owns; iexists _; isplitr
        swap; · iexact HS4
        ipureintro; rfl
      isplitl [HS5]
      · unfold owns; iexists _; isplitr
        swap; · iexact HS5
        ipureintro; rfl
      isplitl [HS6]
      · unfold owns; iexists _; isplitr
        swap; · iexact HS6
        ipureintro; rfl
      unfold owns; iexists _; isplitr
      swap; · iexact HS7
      ipureintro; rfl
    isplitl [Hg]; · iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  by_cases hB : t.val % 32 < 16
  · have h0 := hA; have h := hB
    rw [stepAt_B m c t h0 h]
    have hc5 : ¬cond5 (grid0.coords t) := (fun q => by have := (hcond5 t).mp q; omega)
    rw [Dat.leavesExact_idle (dats m 0 c) 4 t (idleAt_4 t hc5) (noFlush_4 t hc5), Dat.leavesExact_idle (dats m 0 c) 5 t (idleAt_5 t hc5) (noFlush_5 t hc5)]
    unfold ownsSt step_B
    iintro ⟨⟨HS0, HS1, HS2, HS3, HS4, HS5, HS6, HS7⟩, Hg, Ho, H0, H1, H2, H3, ⟨%d4, H4⟩, ⟨%d5, H5⟩, Hk⟩
    iapply ((kernelRun_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => h0 ((hcond1 t).mp q)) ((hcond2 t).mpr h) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.2.2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, HS0, HS1, HS2, HS3, HS4, HS5, HS6, HS7⟩
    iapply Hk
    isplitl [HS0 HS1 HS2 HS3 HS4 HS5 HS6 HS7]
    · isplitl [HS0]
      · unfold owns; iexists _; isplitr
        swap; · iexact HS0
        ipureintro; rfl
      isplitl [HS1]
      · unfold owns; iexists _; isplitr
        swap; · iexact HS1
        ipureintro; rfl
      isplitl [HS2]
      · unfold owns; iexists _; isplitr
        swap; · iexact HS2
        ipureintro; rfl
      isplitl [HS3]
      · unfold owns; iexists _; isplitr
        swap; · iexact HS3
        ipureintro; rfl
      isplitl [HS4]
      · unfold owns; iexists _; isplitr
        swap; · iexact HS4
        ipureintro; rfl
      isplitl [HS5]
      · unfold owns; iexists _; isplitr
        swap; · iexact HS5
        ipureintro; rfl
      isplitl [HS6]
      · unfold owns; iexists _; isplitr
        swap; · iexact HS6
        ipureintro; rfl
      unfold owns; iexists _; isplitr
      swap; · iexact HS7
      ipureintro; rfl
    isplitl [Hg]; · iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  by_cases hC : t.val % 32 = 16
  · have h := hC
    rw [stepAt_C m c t h]
    have hc5 : ¬cond5 (grid0.coords t) := (fun q => by have := (hcond5 t).mp q; omega)
    rw [Dat.leavesExact_idle (dats m 0 c) 4 t (idleAt_4 t hc5) (noFlush_4 t hc5), Dat.leavesExact_idle (dats m 0 c) 5 t (idleAt_5 t hc5) (noFlush_5 t hc5)]
    unfold ownsSt step_C
    iintro ⟨⟨HS0, HS1, HS2, HS3, HS4, HS5, HS6, HS7⟩, Hg, Ho, H0, H1, H2, H3, ⟨%d4, H4⟩, ⟨%d5, H5⟩, Hk⟩
    iapply ((kernelRun_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) ((hcond3 t).mpr h) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.2.2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, HS0, HS1, HS2, HS3, HS4, HS5, HS6, HS7⟩
    iapply Hk
    isplitl [HS0 HS1 HS2 HS3 HS4 HS5 HS6 HS7]
    · isplitl [HS0]
      · unfold owns; iexists _; isplitr
        swap; · iexact HS0
        ipureintro; rfl
      isplitl [HS1]
      · unfold owns; iexists _; isplitr
        swap; · iexact HS1
        ipureintro; rfl
      isplitl [HS2]
      · unfold owns; iexists _; isplitr
        swap; · iexact HS2
        ipureintro; rfl
      isplitl [HS3]
      · unfold owns; iexists _; isplitr
        swap; · iexact HS3
        ipureintro; rfl
      isplitl [HS4]
      · unfold owns; iexists _; isplitr
        swap; · iexact HS4
        ipureintro; rfl
      isplitl [HS5]
      · unfold owns; iexists _; isplitr
        swap; · iexact HS5
        ipureintro; rfl
      isplitl [HS6]
      · unfold owns; iexists _; isplitr
        swap; · iexact HS6
        ipureintro; rfl
      unfold owns; iexists _; isplitr
      swap; · iexact HS7
      ipureintro; rfl
    isplitl [Hg]; · iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  by_cases hD : t.val % 32 < 31
  · have h0 : 16 < t.val % 32 := by omega
    have h := hD
    rw [stepAt_D m c t h0 h]
    have hc5 : ¬cond5 (grid0.coords t) := (fun q => by have := (hcond5 t).mp q; omega)
    rw [Dat.leavesExact_idle (dats m 0 c) 4 t (idleAt_4 t hc5) (noFlush_4 t hc5), Dat.leavesExact_idle (dats m 0 c) 5 t (idleAt_5 t hc5) (noFlush_5 t hc5)]
    unfold ownsSt step_D
    iintro ⟨⟨HS0, HS1, HS2, HS3, HS4, HS5, HS6, HS7⟩, Hg, Ho, H0, H1, H2, H3, ⟨%d4, H4⟩, ⟨%d5, H5⟩, Hk⟩
    iapply ((kernelRun_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.2.2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, HS0, HS1, HS2, HS3, HS4, HS5, HS6, HS7⟩
    iapply Hk
    isplitl [HS0 HS1 HS2 HS3 HS4 HS5 HS6 HS7]
    · isplitl [HS0]
      · unfold owns; iexists _; isplitr
        swap; · iexact HS0
        ipureintro; rfl
      isplitl [HS1]
      · unfold owns; iexists _; isplitr
        swap; · iexact HS1
        ipureintro; rfl
      isplitl [HS2]
      · unfold owns; iexists _; isplitr
        swap; · iexact HS2
        ipureintro; rfl
      isplitl [HS3]
      · unfold owns; iexists _; isplitr
        swap; · iexact HS3
        ipureintro; rfl
      isplitl [HS4]
      · unfold owns; iexists _; isplitr
        swap; · iexact HS4
        ipureintro; rfl
      isplitl [HS5]
      · unfold owns; iexists _; isplitr
        swap; · iexact HS5
        ipureintro; rfl
      isplitl [HS6]
      · unfold owns; iexists _; isplitr
        swap; · iexact HS6
        ipureintro; rfl
      unfold owns; iexists _; isplitr
      swap; · iexact HS7
      ipureintro; rfl
    isplitl [Hg]; · iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have h : t.val % 32 = 31 := by omega
    rw [stepAt_E m c t h]
    have hc5 : cond5 (grid0.coords t) := ((hcond5 t).mpr h)
    rw [show (dats m 0 c).leavesExact 4 t = owns (c : Thread nD τ) (ms0_4 t) fullShare ((dats m 0 c).after 4 t) from by
      unfold Dat.leavesExact; rw [liveAt_4 t hc5], after_4, ← (hE h).1]
    rw [show (dats m 0 c).leavesExact 5 t = owns (c : Thread nD τ) (ms0_5 t) fullShare ((dats m 0 c).after 5 t) from by
      unfold Dat.leavesExact; rw [liveAt_5 t hc5], after_5, ← (hE h).2]
    unfold ownsSt step_E
    iintro ⟨⟨HS0, HS1, HS2, HS3, HS4, HS5, HS6, HS7⟩, Hg, Ho, H0, H1, H2, H3, ⟨%d4, H4⟩, ⟨%d5, H5⟩, Hk⟩
    iapply ((kernelRun_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) ((hcond5 t).mpr h) (iblk m c 0 t) (iblk m c 1 t) (iblk m c 2 t) (iblk m c 3 t) S.s0 S.s1 S.s2 S.s3 S.s4 S.s5 S.s6 S.s7).2.2.2.2.2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, ⟨%e4, H4⟩, ⟨%e5, H5⟩, HS0, HS1, HS2, HS3, HS4, HS5, HS6, HS7⟩
    iapply Hk
    isplitl [HS0 HS1 HS2 HS3 HS4 HS5 HS6 HS7]
    · isplitl [HS0]
      · unfold owns; iexists _; isplitr
        swap; · iexact HS0
        ipureintro; rfl
      isplitl [HS1]
      · unfold owns; iexists _; isplitr
        swap; · iexact HS1
        ipureintro; rfl
      isplitl [HS2]
      · unfold owns; iexists _; isplitr
        swap; · iexact HS2
        ipureintro; rfl
      isplitl [HS3]
      · unfold owns; iexists _; isplitr
        swap; · iexact HS3
        ipureintro; rfl
      isplitl [HS4]
      · unfold owns; iexists _; isplitr
        swap; · iexact HS4
        ipureintro; rfl
      isplitl [HS5]
      · unfold owns; iexists _; isplitr
        swap; · iexact HS5
        ipureintro; rfl
      isplitl [HS6]
      · unfold owns; iexists _; isplitr
        swap; · iexact HS6
        ipureintro; rfl
      unfold owns; iexists _; isplitr
      swap; · iexact HS7
      ipureintro; rfl
    isplitl [Hg]; · iexact Hg
    isplitl [Ho]; · iexact Ho
    isplitl [H0]; · iexact H0
    isplitl [H1]; · iexact H1
    isplitl [H2]; · iexact H2
    isplitl [H3]; · iexact H3
    isplitl [H4]
    · unfold owns out4_E; iexists _; isplitr
      swap; · iexact H4
      ipureintro; exact View.read_writes_of_cover _ _ _ _ _ (cover_E_4 c _ _ _ _ _ _ _ _ _ _ _ _ _ _ _ _ _ _ _ _ _ _ _ _ _ _ _ _ _ _ _ _ _ _ _ _ _ _ _ _ _ _ _ _ _ _)
    unfold owns out5_E; iexists _; isplitr
    swap; · iexact H5
    ipureintro; exact View.read_writes_of_cover _ _ _ _ _ (cover_E_5 c _ _ _ _ _ _ _ _ _ _ _ _ _ _ _ _ _ _ _ _ _ _ _ _ _ _ _ _ _ _ _ _ _ _ _ _ _ _ _ _ _ _ _ _ _ _)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4000000 in
/-- The body at any point. -/
theorem sound_body (indep : Indep m) (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt_0 t], after_0]
  rw [show (dats m 0 c).leavesExact 1 t = owns (c : Thread nD τ) (ms0_1 t) fullShare ((dats m 0 c).after 1 t) from by
    unfold Dat.leavesExact; rw [liveAt_1 t], after_1]
  rw [show (dats m 0 c).leavesExact 2 t = owns (c : Thread nD τ) (ms0_2 t) fullShare ((dats m 0 c).after 2 t) from by
    unfold Dat.leavesExact; rw [liveAt_2 t], after_2]
  rw [show (dats m 0 c).leavesExact 3 t = owns (c : Thread nD τ) (ms0_3 t) fullShare ((dats m 0 c).after 3 t) from by
    unfold Dat.leavesExact; rw [liveAt_3 t], after_3]
  rw [PhiS_castSucc m c t]
  by_cases hz : t.val = 0
  · -- the very first point: every scratch at anything
    rw [PhiS_zero m c _ _ hz, PhiA0_eq]
    iintro ⟨⟨⟨⟨%d0, HS0⟩, ⟨%d1, HS1⟩, ⟨%d2, HS2⟩, ⟨%d3, HS3⟩, ⟨%d4, HS4⟩, ⟨%d5, HS5⟩, ⟨%d6, HS6⟩, ⟨%d7, HS7⟩⟩, Hg⟩, Ho, ⟨%e0, H0⟩, ⟨%e1, H1⟩, ⟨%e2, H2⟩, ⟨%e3, H3⟩, H4, H5⟩
    iapply (sound_step m c t ⟨d0, d1, d2, d3, d4, d5, d6, d7⟩ (fun h => absurd h (by omega)) _)
    isplitl [HS0 HS1 HS2 HS3 HS4 HS5 HS6 HS7]
    · unfold ownsSt
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iintro ⟨HS, Hg, Ho, H0, H1, H2, H3, H4, H5⟩
    isplitl [HS Hg]
    · isplitl [HS]
      · iexists (⟨d0, d1, d2, d3, d4, d5, d6, d7⟩ : St F)
        rw [tileRun_first m c t (by omega)]
        iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS_pos m c _ _ hz]
    iintro ⟨⟨⟨%S₀, HS⟩, Hg⟩, Ho, ⟨%e0, H0⟩, ⟨%e1, H1⟩, ⟨%e2, H2⟩, ⟨%e3, H3⟩, H4, H5⟩
    by_cases h0 : t.val % 32 = 0
    · -- a later row tile's first point: the run restarts from what the tile before left
      iapply (sound_step m c t (tileRun m c (t.val - 1) (by omega) S₀) (fun h => absurd h (by omega)) _)
      isplitl [HS]; · iexact HS
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iintro ⟨HS, Hg, Ho, H0, H1, H2, H3, H4, H5⟩
      isplitl [HS Hg]
      · isplitl [HS]
        · iexists (tileRun m c (t.val - 1) (by omega) S₀)
          rw [tileRun_first m c t h0]
          iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · iapply (sound_step m c t (tileRun m c (t.val - 1) (by omega) S₀) (fun h => indep c t h S₀) _)
      isplitl [HS]; · iexact HS
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iintro ⟨HS, Hg, Ho, H0, H1, H2, H3, H4, H5⟩
      isplitl [HS Hg]
      · isplitl [HS]
        · iexists S₀
          rw [tileRun_next m c t h0]
          iexact HS
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (indep : Indep m) (c : Dev nD) : BodyObligation (dats (F := F) m 0 c) (defs₀ (F := F)) Variants.none () Set.univ := fun t => by
  rw [bigSep_W0, bigSep_W0]
  exact sound_body m indep c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 512 := N_0; omega), PhiA0_eq]
  unfold ownsSt
  iintro ⟨⟨%S₀, HS0, HS1, HS2, HS3, HS4, HS5, HS6, HS7⟩, Hg⟩
  isplitl [HS0 HS1 HS2 HS3 HS4 HS5 HS6 HS7]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7
  iexact Hg

/-! ## The run and the frame -/

set_option backward.isDefEq.respectTransparency.types false in
/-- THE FRAME RUN: every weakly fair execution of @main terminates, every array of the region ends at what the library
    computes from the proof data, every other unscoped buffer at what the lines after the region leave. -/
theorem run_main (indep : Indep m) : θ_run (defs (F := F)) (onTc (τ := τ) (main (F := F))) (s₀ m ρ) (fun r => ∀ c : Dev nD,
      (∀ w, r.2.mem ((cfg0.spec w).arr.view.loc (c.tc : Thread nD τ)) = (dats m 0 c).arrAt w cfg0.N)
      ∧ ∀ b ∈ Pipeline.restRefs sig cfg0.spec, r.2.mem ((c.tc : Thread nD τ).loc b) = Pipeline.SharedWindows.afterTailSub cfgs (dats m) 0 keep (V0 m) tailOps c b) :=
  run_around (dats m) (fun _ => rfl) (fun _ => rfl) (fun _ => rfl) (fun _ => rfl) Variants.none m ρ
    (fun c => (body_obligation m indep c).loose) (fun _ _ => rfl) (V0 m) tailOps sfx_sub sfx_fresh sfx_keeps (hmain m Variants.none)
    (A_eq m) (hin m) (hout m)

/-- THE FRAME at any `F`. -/
theorem frame (indep : Indep m) : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ indep)

end Cert.Kernel.Data

end
-- ==== Proof.IndepBaseBits.lean ====
/-
  What a row tile's last point stores does not depend on the scratch the tile was entered with: the run-level facts. The piece
  lists of the body's runs in the three cases that matter (the first point of a row tile, a later point of phase 0, the first
  point of phase 1) depend on the scratch they found only through what the case reads: nothing in the first case, the
  threshold itself for a threshold's update in the second, the cache and the two thresholds in the third. A 512x1 operand a
  case stores whole reads back independently of what it held; the cache, stored one block per point, reads back the same on
  the columns up to the block's end when it was the same on the columns below the block.
-/
import proofs.«140287_j55817394979145_2_alg».proof.Proof.DataDefsBits
import Idealize.ShloMosaic.Lib.WritesUnit

set_option maxRecDepth 16384

noncomputable section

namespace Cert.Kernel.Data

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Shared Cert.Kernel.Kit Cert.Kernel.Runs

variable {F : FTy → Type} [FloatOps F]

local notation "𝕄" => MT nD τ sig Unit (Elt F) ℕ (UR sig nD τ) ℕ

variable (m : (ℓ : Loc nD τ sig) → Buf (Elt F) ℓ)

/-- In phase 0 a point's column tile is its position in the row tile. -/
theorem col_of_phase0 : ∀ t : Fin cfg0.N, t.val % 32 < 16 → ((grid0.coords t) 2).val = t.val % 32 := by decide +kernel

/-- Two scratch states agree up to column block `k`: the two running thresholds are equal, and the similarity cache is equal on
    the columns below `512 * k`. -/
def Agree0 (k : ℕ) (S S' : St F) : Prop :=
  S.s1 = S'.s1 ∧ S.s2 = S'.s2 ∧ ∀ y : S512x8192.Idx, (y 1).val < 512 * k → S.s0 y = S'.s0 y

/-- One 512x512 block stored at column offset `512 * k` over two contents of the cache that agree on the columns below
    `512 * k`: what is read back agrees on the columns below `512 * (k + 1)`. -/
theorem rd0_agree (arg9 : Memref sig .tc .vmem S512x8192 .f32) (harg9 : arg9.IsWhole) (k : ℕ) (xs xs' : Vec F S512x8192 .f32)
    (off : Fin 2 → ℕ) (inb : ∀ a, off a + S512x512.size a ≤ S512x8192.size a)
    (w : (Rect.unit (s := S512x8192) off S512x512.size inb).shape.Idx → Elt F .f32) (heq : off = ![0, 512 * k])
    (hag : ∀ y : S512x8192.Idx, (y 1).val < 512 * k → xs y = xs' y) (y : S512x8192.Idx) (hy : (y 1).val < 512 * (k + 1)) :
    arg9.view.read (Elt F) (arg9.view.writes (Elt F) (harg9.unread xs) [⟨Rect.unit (s := S512x8192) off S512x512.size inb, w⟩]) y
      = arg9.view.read (Elt F) (arg9.view.writes (Elt F) (harg9.unread xs') [⟨Rect.unit (s := S512x8192) off S512x512.size inb, w⟩]) y := by
  rw [View.read_writes_cons_unit arg9.view _ inb w [] y heq, View.read_writes_cons_unit arg9.view _ inb w [] y heq]
  by_cases h : ∀ a, (![0, 512 * k] : Fin 2 → ℕ) a ≤ (y a).val ∧ (y a).val < (![0, 512 * k] : Fin 2 → ℕ) a + S512x512.size a
  · rw [dif_pos h, dif_pos h]
  · rw [dif_neg h, dif_neg h, View.writes_nil, View.writes_nil, harg9.read_unread, harg9.read_unread]
    apply hag
    by_contra hc
    refine h (Fin.forall_fin_two.mpr ⟨⟨Nat.zero_le _, ?_⟩, ⟨?_, ?_⟩⟩)
    · show (y 0).val < 0 + 512
      have : (y 0).val < 512 := (y 0).isLt
      omega
    · show 512 * k ≤ (y 1).val
      omega
    · show (y 1).val < 512 * k + 512
      omega

/-- Case A stores one block into the cache, at the column offset of the point's column tile, whatever the scratch held. -/
theorem runA_LS0 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : cond1 i) (hc2 : cond2 i) (hc3 : ¬cond3 i) (hc4 : ¬cond4 i) (hc5 : ¬cond5 i)
    (x0 : Vec F S512x512 .bf16) (x1 : Vec F S8192x512 .bf16) (x2 : Vec F S512x1 .i32) (x3 : Vec F S1x512 .i32) :
    ∃ w, ∀ (xs0 : Vec F S512x8192 .f32) (xs1 xs2 xs3 xs4 xs5 xs6 xs7 : Vec F S512x1 .f32),
      (kernelRun_A c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).1 = [⟨Rect.unit (s := S512x8192) (k0_off2 i) S512x512.size (k0_off2_inb i hc2), w⟩] := by
  unfold kernelRun_A
  exact ⟨_, fun _ _ _ _ _ _ _ _ => rfl⟩

/-- So after case A two caches that agreed on the columns below the point's block agree on the columns up to its end. -/
theorem runA_s0 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : cond1 i) (hc2 : cond2 i) (hc3 : ¬cond3 i) (hc4 : ¬cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (xs0' : Vec F S512x8192 .f32) (xs1' xs2' xs3' xs4' xs5' xs6' xs7' : Vec F S512x1 .f32)
    (hag : ∀ y : S512x8192.Idx, (y 1).val < 512 * (i 2).val → xs0 y = xs0' y) (y : S512x8192.Idx) (hy : (y 1).val < 512 * ((i 2).val + 1)) :
    arg9.view.read (Elt F) (arg9.view.writes (Elt F) (harg9.unread xs0) (kernelRun_A c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).1) y
      = arg9.view.read (Elt F) (arg9.view.writes (Elt F) (harg9.unread xs0') (kernelRun_A c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0' xs1' xs2' xs3' xs4' xs5' xs6' xs7').1) y := by
  obtain ⟨w, hw⟩ := runA_LS0 c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3
  rw [hw, hw]
  exact rd0_agree arg9 harg9 (i 2).val xs0 xs0' (k0_off2 i) (k0_off2_inb i hc2) w (k0_off2_eq i) hag y hy

/-- Case B stores one block into the cache, at the column offset of the point's column tile, whatever the scratch held. -/
theorem runB_LS0 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : cond2 i) (hc3 : ¬cond3 i) (hc4 : ¬cond4 i) (hc5 : ¬cond5 i)
    (x0 : Vec F S512x512 .bf16) (x1 : Vec F S8192x512 .bf16) (x2 : Vec F S512x1 .i32) (x3 : Vec F S1x512 .i32) :
    ∃ w, ∀ (xs0 : Vec F S512x8192 .f32) (xs1 xs2 xs3 xs4 xs5 xs6 xs7 : Vec F S512x1 .f32),
      (kernelRun_B c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).1 = [⟨Rect.unit (s := S512x8192) (k0_off2 i) S512x512.size (k0_off2_inb i hc2), w⟩] := by
  unfold kernelRun_B
  exact ⟨_, fun _ _ _ _ _ _ _ _ => rfl⟩

/-- So after case B two caches that agreed on the columns below the point's block agree on the columns up to its end. -/
theorem runB_s0 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : cond2 i) (hc3 : ¬cond3 i) (hc4 : ¬cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (xs0' : Vec F S512x8192 .f32) (xs1' xs2' xs3' xs4' xs5' xs6' xs7' : Vec F S512x1 .f32)
    (hag : ∀ y : S512x8192.Idx, (y 1).val < 512 * (i 2).val → xs0 y = xs0' y) (y : S512x8192.Idx) (hy : (y 1).val < 512 * ((i 2).val + 1)) :
    arg9.view.read (Elt F) (arg9.view.writes (Elt F) (harg9.unread xs0) (kernelRun_B c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).1) y
      = arg9.view.read (Elt F) (arg9.view.writes (Elt F) (harg9.unread xs0') (kernelRun_B c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0' xs1' xs2' xs3' xs4' xs5' xs6' xs7').1) y := by
  obtain ⟨w, hw⟩ := runB_LS0 c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3
  rw [hw, hw]
  exact rd0_agree arg9 harg9 (i 2).val xs0 xs0' (k0_off2 i) (k0_off2_inb i hc2) w (k0_off2_eq i) hag y hy

/-- Case A seeds threshold 1 and folds the block in: what it leaves does not depend on the scratch it found. -/
theorem runA_s1 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : cond1 i) (hc2 : cond2 i) (hc3 : ¬cond3 i) (hc4 : ¬cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (xs0' : Vec F S512x8192 .f32) (xs1' xs2' xs3' xs4' xs5' xs6' xs7' : Vec F S512x1 .f32) :
    arg10.view.read (Elt F) (arg10.view.writes (Elt F) (harg10.unread xs1) (kernelRun_A c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.1)
      = arg10.view.read (Elt F) (arg10.view.writes (Elt F) (harg10.unread xs1') (kernelRun_A c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0' xs1' xs2' xs3' xs4' xs5' xs6' xs7').2.1) := by
  have e : (kernelRun_A c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.1 = (kernelRun_A c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0' xs1' xs2' xs3' xs4' xs5' xs6' xs7').2.1 := by unfold kernelRun_A; (try dsimp only); (try rfl)
  exact (View.read_writes_of_cover _ _ _ _ _ (scover_A_1 c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7)).trans
    (congrArg (fun L => arg10.view.read (Elt F) (arg10.view.writes (Elt F) (harg10.unread xs1') L)) e)

/-- Case A seeds threshold 2 and folds the block in: what it leaves does not depend on the scratch it found. -/
theorem runA_s2 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : cond1 i) (hc2 : cond2 i) (hc3 : ¬cond3 i) (hc4 : ¬cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (xs0' : Vec F S512x8192 .f32) (xs1' xs2' xs3' xs4' xs5' xs6' xs7' : Vec F S512x1 .f32) :
    arg11.view.read (Elt F) (arg11.view.writes (Elt F) (harg11.unread xs2) (kernelRun_A c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.1)
      = arg11.view.read (Elt F) (arg11.view.writes (Elt F) (harg11.unread xs2') (kernelRun_A c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0' xs1' xs2' xs3' xs4' xs5' xs6' xs7').2.2.1) := by
  have e : (kernelRun_A c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.1 = (kernelRun_A c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0' xs1' xs2' xs3' xs4' xs5' xs6' xs7').2.2.1 := by unfold kernelRun_A; (try dsimp only); (try rfl)
  exact (View.read_writes_of_cover _ _ _ _ _ (scover_A_2 c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7)).trans
    (congrArg (fun L => arg11.view.read (Elt F) (arg11.view.writes (Elt F) (harg11.unread xs2') L)) e)

/-- Case B folds the block into threshold 1: what it leaves depends on that threshold alone of the scratch. -/
theorem runB_s1 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : cond2 i) (hc3 : ¬cond3 i) (hc4 : ¬cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (xs0' : Vec F S512x8192 .f32) (xs1' xs2' xs3' xs4' xs5' xs6' xs7' : Vec F S512x1 .f32) (h : xs1 = xs1') :
    arg10.view.read (Elt F) (arg10.view.writes (Elt F) (harg10.unread xs1) (kernelRun_B c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.1)
      = arg10.view.read (Elt F) (arg10.view.writes (Elt F) (harg10.unread xs1') (kernelRun_B c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0' xs1' xs2' xs3' xs4' xs5' xs6' xs7').2.1) := by
  subst h
  have e : (kernelRun_B c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.1 = (kernelRun_B c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0' xs1 xs2' xs3' xs4' xs5' xs6' xs7').2.1 := by unfold kernelRun_B; (try dsimp only); (try rfl)
  exact congrArg (fun L => arg10.view.read (Elt F) (arg10.view.writes (Elt F) (harg10.unread xs1) L)) e

/-- Case B folds the block into threshold 2: what it leaves depends on that threshold alone of the scratch. -/
theorem runB_s2 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : cond2 i) (hc3 : ¬cond3 i) (hc4 : ¬cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (xs0' : Vec F S512x8192 .f32) (xs1' xs2' xs3' xs4' xs5' xs6' xs7' : Vec F S512x1 .f32) (h : xs2 = xs2') :
    arg11.view.read (Elt F) (arg11.view.writes (Elt F) (harg11.unread xs2) (kernelRun_B c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.1)
      = arg11.view.read (Elt F) (arg11.view.writes (Elt F) (harg11.unread xs2') (kernelRun_B c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0' xs1' xs2' xs3' xs4' xs5' xs6' xs7').2.2.1) := by
  subst h
  have e : (kernelRun_B c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.1 = (kernelRun_B c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0' xs1' xs2 xs3' xs4' xs5' xs6' xs7').2.2.1 := by unfold kernelRun_B; (try dsimp only); (try rfl)
  exact congrArg (fun L => arg11.view.read (Elt F) (arg11.view.writes (Elt F) (harg11.unread xs2) L)) e

/-- Case C does not store into scratch operand 0. -/
theorem runC_s0 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (xs3' xs4' xs5' xs6' xs7' : Vec F S512x1 .f32) :
    arg9.view.read (Elt F) (arg9.view.writes (Elt F) (harg9.unread xs0) (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).1)
      = arg9.view.read (Elt F) (arg9.view.writes (Elt F) (harg9.unread xs0) (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3' xs4' xs5' xs6' xs7').1) := by
  have e : (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).1 = (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3' xs4' xs5' xs6' xs7').1 := by unfold kernelRun_C; (try dsimp only); (try rfl)
  exact congrArg (fun L => arg9.view.read (Elt F) (arg9.view.writes (Elt F) (harg9.unread xs0) L)) e

/-- Case C does not store into scratch operand 1. -/
theorem runC_s1 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (xs3' xs4' xs5' xs6' xs7' : Vec F S512x1 .f32) :
    arg10.view.read (Elt F) (arg10.view.writes (Elt F) (harg10.unread xs1) (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.1)
      = arg10.view.read (Elt F) (arg10.view.writes (Elt F) (harg10.unread xs1) (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3' xs4' xs5' xs6' xs7').2.1) := by
  have e : (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.1 = (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3' xs4' xs5' xs6' xs7').2.1 := by unfold kernelRun_C; (try dsimp only); (try rfl)
  exact congrArg (fun L => arg10.view.read (Elt F) (arg10.view.writes (Elt F) (harg10.unread xs1) L)) e

/-- Case C does not store into scratch operand 2. -/
theorem runC_s2 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (xs3' xs4' xs5' xs6' xs7' : Vec F S512x1 .f32) :
    arg11.view.read (Elt F) (arg11.view.writes (Elt F) (harg11.unread xs2) (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.1)
      = arg11.view.read (Elt F) (arg11.view.writes (Elt F) (harg11.unread xs2) (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3' xs4' xs5' xs6' xs7').2.2.1) := by
  have e : (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.1 = (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3' xs4' xs5' xs6' xs7').2.2.1 := by unfold kernelRun_C; (try dsimp only); (try rfl)
  exact congrArg (fun L => arg11.view.read (Elt F) (arg11.view.writes (Elt F) (harg11.unread xs2) L)) e

/-- Case C zeroes sum 1 and adds block 0's part, from the cache and the two thresholds alone. -/
theorem runC_s3 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (xs3' xs4' xs5' xs6' xs7' : Vec F S512x1 .f32) :
    arg12.view.read (Elt F) (arg12.view.writes (Elt F) (harg12.unread xs3) (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.1)
      = arg12.view.read (Elt F) (arg12.view.writes (Elt F) (harg12.unread xs3') (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3' xs4' xs5' xs6' xs7').2.2.2.1) := by
  have e : (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.1 = (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3' xs4' xs5' xs6' xs7').2.2.2.1 := by unfold kernelRun_C; (try dsimp only); (try rfl)
  exact (View.read_writes_of_cover _ _ _ _ _ (scover_C_3 c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7)).trans
    (congrArg (fun L => arg12.view.read (Elt F) (arg12.view.writes (Elt F) (harg12.unread xs3') L)) e)

/-- Case C zeroes sum 2 and adds block 0's part, from the cache and the two thresholds alone. -/
theorem runC_s4 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (xs3' xs4' xs5' xs6' xs7' : Vec F S512x1 .f32) :
    arg13.view.read (Elt F) (arg13.view.writes (Elt F) (harg13.unread xs4) (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.1)
      = arg13.view.read (Elt F) (arg13.view.writes (Elt F) (harg13.unread xs4') (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3' xs4' xs5' xs6' xs7').2.2.2.2.1) := by
  have e : (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.1 = (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3' xs4' xs5' xs6' xs7').2.2.2.2.1 := by unfold kernelRun_C; (try dsimp only); (try rfl)
  exact (View.read_writes_of_cover _ _ _ _ _ (scover_C_4 c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7)).trans
    (congrArg (fun L => arg13.view.read (Elt F) (arg13.view.writes (Elt F) (harg13.unread xs4') L)) e)

/-- Case C zeroes sum 3 and adds block 0's part, from the cache and the two thresholds alone. -/
theorem runC_s5 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (xs3' xs4' xs5' xs6' xs7' : Vec F S512x1 .f32) :
    arg14.view.read (Elt F) (arg14.view.writes (Elt F) (harg14.unread xs5) (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.1)
      = arg14.view.read (Elt F) (arg14.view.writes (Elt F) (harg14.unread xs5') (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3' xs4' xs5' xs6' xs7').2.2.2.2.2.1) := by
  have e : (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.1 = (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3' xs4' xs5' xs6' xs7').2.2.2.2.2.1 := by unfold kernelRun_C; (try dsimp only); (try rfl)
  exact (View.read_writes_of_cover _ _ _ _ _ (scover_C_5 c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7)).trans
    (congrArg (fun L => arg14.view.read (Elt F) (arg14.view.writes (Elt F) (harg14.unread xs5') L)) e)

/-- Case C zeroes sum 4 and adds block 0's part, from the cache and the two thresholds alone. -/
theorem runC_s6 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (xs3' xs4' xs5' xs6' xs7' : Vec F S512x1 .f32) :
    arg15.view.read (Elt F) (arg15.view.writes (Elt F) (harg15.unread xs6) (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.1)
      = arg15.view.read (Elt F) (arg15.view.writes (Elt F) (harg15.unread xs6') (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3' xs4' xs5' xs6' xs7').2.2.2.2.2.2.1) := by
  have e : (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.1 = (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3' xs4' xs5' xs6' xs7').2.2.2.2.2.2.1 := by unfold kernelRun_C; (try dsimp only); (try rfl)
  exact (View.read_writes_of_cover _ _ _ _ _ (scover_C_6 c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7)).trans
    (congrArg (fun L => arg15.view.read (Elt F) (arg15.view.writes (Elt F) (harg15.unread xs6') L)) e)

/-- Case C zeroes sum 5 and adds block 0's part, from the cache and the two thresholds alone. -/
theorem runC_s7 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (xs3' xs4' xs5' xs6' xs7' : Vec F S512x1 .f32) :
    arg16.view.read (Elt F) (arg16.view.writes (Elt F) (harg16.unread xs7) (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.2.1)
      = arg16.view.read (Elt F) (arg16.view.writes (Elt F) (harg16.unread xs7') (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3' xs4' xs5' xs6' xs7').2.2.2.2.2.2.2.1) := by
  have e : (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.2.1 = (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3' xs4' xs5' xs6' xs7').2.2.2.2.2.2.2.1 := by unfold kernelRun_C; (try dsimp only); (try rfl)
  exact (View.read_writes_of_cover _ _ _ _ _ (scover_C_7 c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7)).trans
    (congrArg (fun L => arg16.view.read (Elt F) (arg16.view.writes (Elt F) (harg16.unread xs7') L)) e)

end Cert.Kernel.Data

end
-- ==== Proof.IndepStepBits.lean ====
/-
  What a row tile's last point stores does not depend on the scratch the tile was entered with: one step. Two scratch states
  AGREE up to block k when the two running thresholds are equal and the similarity cache is equal on the columns below 512·k.
  The first point of a row tile reseeds the thresholds and stores block 0, so from ANY two states it leaves states agreeing up
  to block 1; a later point of phase 0 keeps the agreement and extends it by its own block; and the first point of phase 1,
  from states agreeing up to block 16 (the whole cache), zeroes and rebuilds the five sums from the cache and the thresholds
  alone, so it leaves EQUAL states.
-/
import proofs.«140287_j55817394979145_2_alg».proof.Proof.IndepBaseBits

set_option maxRecDepth 16384

noncomputable section

namespace Cert.Kernel.Data

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Shared Cert.Kernel.Kit Cert.Kernel.Runs

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- Case A from ANY two scratch states: the thresholds are reseeded and block 0 stored, so the states agree up to block 1. -/
theorem step_A_agree (c : Dev nD) (t : Fin cfg0.N) (h : t.val % 32 = 0) (S S' : St F) :
    Agree0 (t.val % 32 + 1) (step_A m c t h S) (step_A m c t h S') := by
  have hcol := col_of_phase0 t (by omega)
  refine ⟨?_, ?_, fun y hy => ?_⟩
  · exact runA_s1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0 scM0_1 hsc1 scM0_2 hsc2 scM0_3 hsc3 scM0_4 hsc4 scM0_5 hsc5 scM0_6 hsc6 scM0_7 hsc7 ((hcond1 t).mpr h) ((hcond2 t).mpr (by omega)) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7 S'.s0 S'.s1 S'.s2 S'.s3 S'.s4 S'.s5 S'.s6 S'.s7
  · exact runA_s2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0 scM0_1 hsc1 scM0_2 hsc2 scM0_3 hsc3 scM0_4 hsc4 scM0_5 hsc5 scM0_6 hsc6 scM0_7 hsc7 ((hcond1 t).mpr h) ((hcond2 t).mpr (by omega)) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7 S'.s0 S'.s1 S'.s2 S'.s3 S'.s4 S'.s5 S'.s6 S'.s7
  · exact runA_s0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0 scM0_1 hsc1 scM0_2 hsc2 scM0_3 hsc3 scM0_4 hsc4 scM0_5 hsc5 scM0_6 hsc6 scM0_7 hsc7 ((hcond1 t).mpr h) ((hcond2 t).mpr (by omega)) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7 S'.s0 S'.s1 S'.s2 S'.s3 S'.s4 S'.s5 S'.s6 S'.s7
      (fun y' hy' => absurd hy' (by rw [hcol, h]; omega)) y (by rw [hcol]; exact hy)

set_option maxHeartbeats 4000000 in
/-- Case B keeps the agreement and extends it by the point's own block. -/
theorem step_B_agree (c : Dev nD) (t : Fin cfg0.N) (h0 : t.val % 32 ≠ 0) (h : t.val % 32 < 16) (S S' : St F)
    (hA : Agree0 (t.val % 32) S S') : Agree0 (t.val % 32 + 1) (step_B m c t h0 h S) (step_B m c t h0 h S') := by
  have hcol := col_of_phase0 t h
  obtain ⟨h1, h2, h3⟩ := hA
  refine ⟨?_, ?_, fun y hy => ?_⟩
  · exact runB_s1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0 scM0_1 hsc1 scM0_2 hsc2 scM0_3 hsc3 scM0_4 hsc4 scM0_5 hsc5 scM0_6 hsc6 scM0_7 hsc7 (fun q => h0 ((hcond1 t).mp q)) ((hcond2 t).mpr h) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7 S'.s0 S'.s1 S'.s2 S'.s3 S'.s4 S'.s5 S'.s6 S'.s7 h1
  · exact runB_s2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0 scM0_1 hsc1 scM0_2 hsc2 scM0_3 hsc3 scM0_4 hsc4 scM0_5 hsc5 scM0_6 hsc6 scM0_7 hsc7 (fun q => h0 ((hcond1 t).mp q)) ((hcond2 t).mpr h) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7 S'.s0 S'.s1 S'.s2 S'.s3 S'.s4 S'.s5 S'.s6 S'.s7 h2
  · exact runB_s0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0 scM0_1 hsc1 scM0_2 hsc2 scM0_3 hsc3 scM0_4 hsc4 scM0_5 hsc5 scM0_6 hsc6 scM0_7 hsc7 (fun q => h0 ((hcond1 t).mp q)) ((hcond2 t).mpr h) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7 S'.s0 S'.s1 S'.s2 S'.s3 S'.s4 S'.s5 S'.s6 S'.s7
      (fun y' hy' => h3 y' (by rw [hcol] at hy'; exact hy')) y (by rw [hcol]; exact hy)

set_option maxHeartbeats 4000000 in
/-- Case C from two states that agree up to block 16 (the whole cache and both thresholds): the five sums are zeroed and
    rebuilt from these alone, so the states it leaves are EQUAL. -/
theorem step_C_eq (c : Dev nD) (t : Fin cfg0.N) (h : t.val % 32 = 16) (S S' : St F) (hA : Agree0 16 S S') :
    step_C m c t h S = step_C m c t h S' := by
  obtain ⟨h1, h2, h3⟩ := hA
  have h0 : S.s0 = S'.s0 := funext fun y => h3 y (by have : (y 1).val < 8192 := (y 1).isLt; omega)
  obtain ⟨s0, s1, s2, s3, s4, s5, s6, s7⟩ := S
  obtain ⟨s0', s1', s2', s3', s4', s5', s6', s7'⟩ := S'
  dsimp only at h0 h1 h2
  subst h0 h1 h2
  unfold step_C
  rw [St.mk.injEq]
  refine ⟨?_, ?_, ?_, ?_, ?_, ?_, ?_, ?_⟩
  · exact runC_s0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0 scM0_1 hsc1 scM0_2 hsc2 scM0_3 hsc3 scM0_4 hsc4 scM0_5 hsc5 scM0_6 hsc6 scM0_7 hsc7 (fun q => by have := (hcond1 t).mp q; omega) (fun q => by have := (hcond2 t).mp q; omega) ((hcond3 t).mpr h) ((hcond4 t).mpr (by omega)) (fun q => by have := (hcond5 t).mp q; omega) (iblk m c 0 t) (iblk m c 1 t) (iblk m c 2 t) (iblk m c 3 t) s0 s1 s2 s3 s4 s5 s6 s7 s3' s4' s5' s6' s7'
  · exact runC_s1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0 scM0_1 hsc1 scM0_2 hsc2 scM0_3 hsc3 scM0_4 hsc4 scM0_5 hsc5 scM0_6 hsc6 scM0_7 hsc7 (fun q => by have := (hcond1 t).mp q; omega) (fun q => by have := (hcond2 t).mp q; omega) ((hcond3 t).mpr h) ((hcond4 t).mpr (by omega)) (fun q => by have := (hcond5 t).mp q; omega) (iblk m c 0 t) (iblk m c 1 t) (iblk m c 2 t) (iblk m c 3 t) s0 s1 s2 s3 s4 s5 s6 s7 s3' s4' s5' s6' s7'
  · exact runC_s2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0 scM0_1 hsc1 scM0_2 hsc2 scM0_3 hsc3 scM0_4 hsc4 scM0_5 hsc5 scM0_6 hsc6 scM0_7 hsc7 (fun q => by have := (hcond1 t).mp q; omega) (fun q => by have := (hcond2 t).mp q; omega) ((hcond3 t).mpr h) ((hcond4 t).mpr (by omega)) (fun q => by have := (hcond5 t).mp q; omega) (iblk m c 0 t) (iblk m c 1 t) (iblk m c 2 t) (iblk m c 3 t) s0 s1 s2 s3 s4 s5 s6 s7 s3' s4' s5' s6' s7'
  · exact runC_s3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0 scM0_1 hsc1 scM0_2 hsc2 scM0_3 hsc3 scM0_4 hsc4 scM0_5 hsc5 scM0_6 hsc6 scM0_7 hsc7 (fun q => by have := (hcond1 t).mp q; omega) (fun q => by have := (hcond2 t).mp q; omega) ((hcond3 t).mpr h) ((hcond4 t).mpr (by omega)) (fun q => by have := (hcond5 t).mp q; omega) (iblk m c 0 t) (iblk m c 1 t) (iblk m c 2 t) (iblk m c 3 t) s0 s1 s2 s3 s4 s5 s6 s7 s3' s4' s5' s6' s7'
  · exact runC_s4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0 scM0_1 hsc1 scM0_2 hsc2 scM0_3 hsc3 scM0_4 hsc4 scM0_5 hsc5 scM0_6 hsc6 scM0_7 hsc7 (fun q => by have := (hcond1 t).mp q; omega) (fun q => by have := (hcond2 t).mp q; omega) ((hcond3 t).mpr h) ((hcond4 t).mpr (by omega)) (fun q => by have := (hcond5 t).mp q; omega) (iblk m c 0 t) (iblk m c 1 t) (iblk m c 2 t) (iblk m c 3 t) s0 s1 s2 s3 s4 s5 s6 s7 s3' s4' s5' s6' s7'
  · exact runC_s5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0 scM0_1 hsc1 scM0_2 hsc2 scM0_3 hsc3 scM0_4 hsc4 scM0_5 hsc5 scM0_6 hsc6 scM0_7 hsc7 (fun q => by have := (hcond1 t).mp q; omega) (fun q => by have := (hcond2 t).mp q; omega) ((hcond3 t).mpr h) ((hcond4 t).mpr (by omega)) (fun q => by have := (hcond5 t).mp q; omega) (iblk m c 0 t) (iblk m c 1 t) (iblk m c 2 t) (iblk m c 3 t) s0 s1 s2 s3 s4 s5 s6 s7 s3' s4' s5' s6' s7'
  · exact runC_s6 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0 scM0_1 hsc1 scM0_2 hsc2 scM0_3 hsc3 scM0_4 hsc4 scM0_5 hsc5 scM0_6 hsc6 scM0_7 hsc7 (fun q => by have := (hcond1 t).mp q; omega) (fun q => by have := (hcond2 t).mp q; omega) ((hcond3 t).mpr h) ((hcond4 t).mpr (by omega)) (fun q => by have := (hcond5 t).mp q; omega) (iblk m c 0 t) (iblk m c 1 t) (iblk m c 2 t) (iblk m c 3 t) s0 s1 s2 s3 s4 s5 s6 s7 s3' s4' s5' s6' s7'
  · exact runC_s7 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0 scM0_1 hsc1 scM0_2 hsc2 scM0_3 hsc3 scM0_4 hsc4 scM0_5 hsc5 scM0_6 hsc6 scM0_7 hsc7 (fun q => by have := (hcond1 t).mp q; omega) (fun q => by have := (hcond2 t).mp q; omega) ((hcond3 t).mpr h) ((hcond4 t).mpr (by omega)) (fun q => by have := (hcond5 t).mp q; omega) (iblk m c 0 t) (iblk m c 1 t) (iblk m c 2 t) (iblk m c 3 t) s0 s1 s2 s3 s4 s5 s6 s7 s3' s4' s5' s6' s7'

end Cert.Kernel.Data

end
-- ==== Proof.IndepBits.lean ====
/-
  What a row tile's last point stores does not depend on the scratch the tile was entered with. Along a row tile, from ANY two
  entry states, by induction on the position: through phase 0 the two runs agree up to the blocks stored so far (the first
  point needs nothing of the entry states; each later point keeps the agreement and extends it by its own block); after the
  sixteenth block they agree on the whole cache and both thresholds, so the first point of phase 1 leaves EQUAL states, and
  so does every later point. The two results the last point stores are read off the state before it, which is therefore the
  same whatever the tile was entered with.
-/
import proofs.«140287_j55817394979145_2_alg».proof.Proof.IndepStepBits

set_option maxRecDepth 16384

noncomputable section

namespace Cert.Kernel.Data

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Shared Cert.Kernel.Kit Cert.Kernel.Runs

variable {F : FTy → Type} [FloatOps F]

local notation "𝕄" => MT nD τ sig Unit (Elt F) ℕ (UR sig nD τ) ℕ

variable (m : (ℓ : Loc nD τ sig) → Buf (Elt F) ℓ)

/-- The run's defining equations: it restarts from the entry state at a row tile's first point and continues from the point
    before elsewhere. -/
theorem tileRun_zero (c : Dev nD) (hn : 0 < cfg0.N) (S : St F) : tileRun m c 0 hn S = stepAt m c ⟨0, hn⟩ S := rfl
theorem tileRun_succ_first (c : Dev nD) (n : ℕ) (hn : n + 1 < cfg0.N) (h0 : (n + 1) % 32 = 0) (S : St F) :
    tileRun m c (n + 1) hn S = stepAt m c ⟨n + 1, hn⟩ S := if_pos h0
theorem tileRun_succ_next (c : Dev nD) (n : ℕ) (hn : n + 1 < cfg0.N) (h0 : (n + 1) % 32 ≠ 0) (S : St F) :
    tileRun m c (n + 1) hn S = stepAt m c ⟨n + 1, hn⟩ (tileRun m c n (Nat.lt_of_succ_lt hn) S) := if_neg h0

/-- Along a row tile, from ANY two entry states: through phase 0 the runs agree up to the blocks stored so far, and from the
    first point of phase 1 on they are equal. -/
theorem tileRun_agree (c : Dev nD) (S₀ S₀' : St F) : ∀ (n : ℕ) (hn : n < cfg0.N),
    (n % 32 < 16 → Agree0 (n % 32 + 1) (tileRun m c n hn S₀) (tileRun m c n hn S₀')) ∧
    (16 ≤ n % 32 → tileRun m c n hn S₀ = tileRun m c n hn S₀') := by
  intro n
  induction n with
  | zero =>
    intro hn
    rw [tileRun_zero, tileRun_zero, stepAt_A m c ⟨0, hn⟩ rfl, stepAt_A m c ⟨0, hn⟩ rfl]
    exact ⟨fun _ => step_A_agree m c ⟨0, hn⟩ rfl S₀ S₀', fun h => absurd h (by omega)⟩
  | succ n ih =>
    intro hn
    have ih' := ih (Nat.lt_of_succ_lt hn)
    by_cases h0 : (n + 1) % 32 = 0
    · rw [tileRun_succ_first m c n hn h0, tileRun_succ_first m c n hn h0, stepAt_A m c ⟨n + 1, hn⟩ h0, stepAt_A m c ⟨n + 1, hn⟩ h0]
      exact ⟨fun _ => step_A_agree m c ⟨n + 1, hn⟩ h0 S₀ S₀', fun h => by omega⟩
    · rw [tileRun_succ_next m c n hn h0, tileRun_succ_next m c n hn h0]
      by_cases h1 : (n + 1) % 32 < 16
      · have hp : Agree0 ((n + 1) % 32) (tileRun m c n (Nat.lt_of_succ_lt hn) S₀) (tileRun m c n (Nat.lt_of_succ_lt hn) S₀') := by
          have hq := ih'.1 (by omega)
          have e2 : n % 32 + 1 = (n + 1) % 32 := by omega
          rw [e2] at hq
          exact hq
        rw [stepAt_B m c ⟨n + 1, hn⟩ h0 h1, stepAt_B m c ⟨n + 1, hn⟩ h0 h1]
        exact ⟨fun _ => step_B_agree m c ⟨n + 1, hn⟩ h0 h1 _ _ hp, fun h => by omega⟩
      · by_cases h2 : (n + 1) % 32 = 16
        · have hp : Agree0 16 (tileRun m c n (Nat.lt_of_succ_lt hn) S₀) (tileRun m c n (Nat.lt_of_succ_lt hn) S₀') := by
            have hq := ih'.1 (by omega)
            have e2 : n % 32 + 1 = 16 := by omega
            rw [e2] at hq
            exact hq
          rw [stepAt_C m c ⟨n + 1, hn⟩ h2, stepAt_C m c ⟨n + 1, hn⟩ h2]
          exact ⟨fun h => by omega, fun _ => step_C_eq m c ⟨n + 1, hn⟩ h2 _ _ hp⟩
        · have hq := ih'.2 (by omega)
          rw [hq]
          exact ⟨fun h => by omega, fun _ => rfl⟩

/-- What a row tile's last point stores does not depend on the scratch the tile was entered with: from position 16 on the
    scratch itself does not. -/
theorem indep : Indep m := by
  intro c t h S₀
  have key := (tileRun_agree m c S₀ (St.junk : St F) (t.val - 1) (Nat.lt_of_le_of_lt (Nat.sub_le _ _) t.isLt)).2 (by omega)
  unfold outAt4 outAt5
  rw [dif_pos h, dif_pos h, key]
  exact ⟨rfl, rfl⟩

end Cert.Kernel.Data

end
-- ==== Proof.SharedRunIdeal.lean ====
/-
  The pallas_call of this program hands ONE array (the embedding table cast to bf16) to two input windows:
  window 0 reads it a row tile at a time, window 1 holds it whole.  The launch gives the pipeline the five
  DISTINCT buffers behind its six windows, each whole at the full share; the pipeline's proof data want one
  points-to per WINDOW.  The table's full share is therefore dealt as its two halves, the left half to
  window 0 and the right half to window 1, every other window keeping its array whole; neither window writes the
  table, so at the region's exit the halves hold equal contents and are put together again.  With these two
  equations the frame run around the region is the general one for windows that share an array.
-/
import proofs.«140287_j55817394979145_2_alg».proof.Proof.Gen.KernelIdeal.Launch
import proofs.«140287_j55817394979145_2_alg».proof.Proof.LibSharedWindows

noncomputable section

namespace Cert.KernelIdeal.Shared

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline Idealize.ShloMosaic.Pipeline.SharedWindows
open Cert.KernelIdeal Cert.KernelIdeal.Gen

variable {F : FTy → Type} [FloatOps F]

local notation "𝕄" => MT nD τ sig Unit (Elt F) ℕ (UR sig nD τ) ℕ

/-- The windows with window 1 left out: five windows on five distinct arrays. -/
abbrev keep : Fin 5 → Fin 6 := ![0, 2, 3, 4, 5]
abbrev spec5 : Fin 5 → Pipeline.WinSpec sig grid0.rank := sub cfgs (0 : Fin 1) keep

theorem spec5_inj : Function.Injective (Pipeline.arrRef spec5) := by decide

theorem img_eq : (Finset.univ.image (Pipeline.arrRef spec5) : Finset (Ref sig .tc)) = Finset.univ.image (Pipeline.arrRef cfg0.spec) := by decide

/-- The table's full share is its two halves. -/
theorem halves (c : Dev nD) (X : Buf (Elt F) ((c.tc : Thread nD τ).loc main_v0)) :
    (((c.tc : Thread nD τ).loc main_v0 ↦{fullShare} X : sProp 𝕄))
      = iprop(((c.tc : Thread nD τ).loc main_v0 ↦{fullShare.left} X) ∗ (c.tc : Thread nD τ).loc main_v0 ↦{fullShare.right} X) :=
  Entails.antisymm (pointsTo_share (PosShare.mem_left_op_right fullShare)).1 (pointsTo_share (PosShare.mem_left_op_right fullShare)).2

/-- The six windows' arrays at the dealt shares, windows 0 and 1 at equal contents, are the five buffers whole at the
    full share. -/
theorem arrays_eq5 (c : Dev nD) (dat : Dat τ (Elt F) Unit ℕ (UR sig nD τ) ℕ cfg0 c)
    (h0 : dat.q 0 = fullShare.left) (h1 : dat.q 1 = fullShare.right) (h2 : dat.q 2 = fullShare) (h3 : dat.q 3 = fullShare)
    (F6 : (w : Fin cfg0.W) → Buf (Elt F) ((cfg0.win w).arr.view.loc (c.tc : Thread nD τ)))
    (h01 : F6 1 = F6 0) :
    (dat.arrays F6 : sProp 𝕄) = Pipeline.arrPts spec5 c (fun j => F6 (keep j)) := by
  unfold Dat.arrays Pipeline.arrPts
  rw [bigSep_W0, bigSep_univ_eq_bigSepL [(0 : Fin 5), 1, 2, 3, 4] (by decide) (by decide)]
  have s0 : dat.share 0 = fullShare.left := by unfold Dat.share; rw [if_neg (by decide)]; exact h0
  have s1 : dat.share 1 = fullShare.right := by unfold Dat.share; rw [if_neg (by decide)]; exact h1
  have s2 : dat.share 2 = fullShare := by unfold Dat.share; rw [if_neg (by decide)]; exact h2
  have s3 : dat.share 3 = fullShare := by unfold Dat.share; rw [if_neg (by decide)]; exact h3
  have s4 : dat.share 4 = fullShare := by unfold Dat.share; rw [if_pos (by decide)]
  have s5 : dat.share 5 = fullShare := by unfold Dat.share; rw [if_pos (by decide)]
  have e0 : (cfg0.win 0).arr.view.set = Finset.univ := (arr_whole0 0).set_eq_univ
  have e1 : (cfg0.win 1).arr.view.set = Finset.univ := (arr_whole0 1).set_eq_univ
  have e2 : (cfg0.win 2).arr.view.set = Finset.univ := (arr_whole0 2).set_eq_univ
  have e3 : (cfg0.win 3).arr.view.set = Finset.univ := (arr_whole0 3).set_eq_univ
  have e4 : (cfg0.win 4).arr.view.set = Finset.univ := (arr_whole0 4).set_eq_univ
  have e5 : (cfg0.win 5).arr.view.set = Finset.univ := (arr_whole0 5).set_eq_univ
  rw [s0, s1, s2, s3, s4, s5, h01]
  (try rw [e0]); (try rw [e1]); (try rw [e2]); (try rw [e3]); (try rw [e4]); (try rw [e5])
  refine (sep_assoc'.antisymm sep_assoc).trans ?_
  exact congrArg (fun P : sProp 𝕄 => iprop(P ∗ _)) (halves c (F6 0)).symm

/-- The entry split: the five buffers, whole at the full share at the region-entry contents `V`, are the six windows'
    arrays at the proof data's shares. -/
theorem entry_split (c : Dev nD) (dat : Dat τ (Elt F) Unit ℕ (UR sig nD τ) ℕ cfg0 c)
    (h0 : dat.q 0 = fullShare.left) (h1 : dat.q 1 = fullShare.right) (h2 : dat.q 2 = fullShare) (h3 : dat.q 3 = fullShare)
    (V : (b : Ref sig .tc) → Buf (Elt F) ((c.tc : Thread nD τ).loc b))
    (F6 : (w : Fin cfg0.W) → Buf (Elt F) ((cfg0.win w).arr.view.loc (c.tc : Thread nD τ)))
    (hF : ∀ w, F6 w = V (Pipeline.arrRef cfg0.spec w)) :
    (Pipeline.arrBufs cfg0.spec c V : sProp 𝕄) ⊢ dat.arrays F6 := by
  rw [arrays_eq5 c dat h0 h1 h2 h3 F6 ((hF 1).trans (hF 0).symm)]
  unfold Pipeline.arrBufs Pipeline.arrPts
  rw [← img_eq, show Finset.univ.image (Pipeline.arrRef spec5) = Finset.univ.map ⟨Pipeline.arrRef spec5, spec5_inj⟩ from (Finset.map_eq_image ⟨Pipeline.arrRef spec5, spec5_inj⟩ Finset.univ).symm,
    bigSep_map]
  exact Entails.of_eq (bigSep_congr fun j _ => by
    show _ = ((c.tc : Thread nD τ).loc (Pipeline.arrRef spec5 j) ↦{fullShare} F6 (keep j))
    rw [hF (keep j)]; rfl)

set_option maxHeartbeats 4000000 in
/-- THE FRAME RUN of this program's one region for an @main that continues after it with the host lines `opss`, for
    any proof data that deal the table's halves to windows 0 and 1: every window's array ends at what the library
    computes from the proof data, every other unscoped buffer at the lines' result. -/
theorem run_around
    (dats : (p : Fin 1) → (c : Dev nD) → Dat τ (Elt F) Unit ℕ (UR sig nD τ) ℕ (cfgs p) c)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (𝒱₀ : Variants)
    (m : (ℓ : Loc nD τ sig) → Buf (Elt F) ℓ) (g : Dev nD → PrngReg)
    (hbody : ∀ c, BodyObligationLoose (dats 0 c) (defs₀ (F := F)) 𝒱₀ () Set.univ)
    (howed : ∀ c t, (dats 0 c).owed t = 0)
    (V₀ : Dev nD → Valuation τ sig (Elt F)) (opss : List (List (HloOp τ sig (Elt F))))
    (hsub : ∀ ops ∈ opss, ∀ op ∈ ops, op.bufs ⊆ tailRefs sig Prefetch.none spec5)
    (hfresh : ∀ ops ∈ opss, ∀ op ∈ ops, op.fresh = ∅)
    (hkeep : ∀ ops ∈ opss, ∀ op ∈ ops, ∀ j, Proc.devRef .tc (arrRef spec5 j) ∉ op.writes)
    (hmain : HMainK (Ix := Unit) (Name := ℕ) (U := UR sig nD τ) (Lvl := ℕ) cfgs 0 defs₀ 𝒱₀ m (main (F := F))
      (fun c b => V₀ c (Proc.devRef .tc b)) (fun _ => chain (opss.map StableHlo.seq)))
    (hA : ∀ c w, (dats 0 c).A w = V₀ c (Proc.devRef .tc (arrRef cfg0.spec w)))
    (hin : ∀ c, ΦA cfg0.spec c ⊢ (dats 0 c).Φ 0) (hout : ∀ c, (dats 0 c).Φ (Fin.last cfg0.N) ⊢ ΦA cfg0.spec c) :
    θ_run (defs (F := F)) (onTc (τ := τ) (main (F := F))) (s₀ m g) (fun r => ∀ c : Dev nD,
      (∀ w, r.2.mem ((cfg0.spec w).arr.view.loc (c.tc : Thread nD τ)) = (dats 0 c).arrAt w cfg0.N)
      ∧ ∀ b ∈ restRefs sig cfg0.spec, r.2.mem ((c.tc : Thread nD τ).loc b) = afterTailSub cfgs dats 0 keep V₀ opss c b) :=
  θ_run_frame_around_track_shared cfgs dats 0 defs₀ 𝒱₀ cellOf_inj winFacts₀0 block_pos0 arr_whole0 stage_whole0 keep spec5_inj img_eq
    m g main hbody howed V₀ opss
    (fun c => entry_split c (dats 0 c) (hq0 c) (hq1 c) (hq2 c) (hq3 c) _ _ fun w => hA c w)
    (fun c => arrays_eq5 c (dats 0 c) (hq0 c) (hq1 c) (hq2 c) (hq3 c) (fun x => (dats 0 c).arrAt x cfg0.N)
      (((dats 0 c).arrAt_in 1 rfl _).trans ((hA c 1).trans ((hA c 0).symm.trans ((dats 0 c).arrAt_in 0 rfl _).symm))))
    hsub hfresh hkeep hmain hin hout

end Cert.KernelIdeal.Shared

end
-- ==== Proof.KitIdeal.lean ====
/-
  What the frame of this program's one region is stated over: the buffers' contents when the region is entered (after the
  three host lines before it: the cast of the embedding table and the two reshapes of the labels), @main as those lines, the
  region, and the twenty-seven host lines after it (the two reductions of the region's results, the rounding and the
  floor division of the counts), and the facts about those later lines the frame run asks for: they touch unscoped
  TensorCore buffers only, allocate nothing, and write none of the region's arrays.
-/
import proofs.«140287_j55817394979145_2_alg».proof.Proof.SharedRunIdeal
import proofs.«140287_j55817394979145_2_alg».proof.Proof.Gen.KernelIdeal.Skeleton
import proofs.«140287_j55817394979145_2_alg».proof.Proof.Gen.KernelIdeal.Points
import Idealize.ShloMosaic.Lib.Pipeline.FrameBody
import Idealize.ShloMosaic.Lib.Pipeline.FrameSuffix

noncomputable section

namespace Cert.KernelIdeal.Kit

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.KernelIdeal Cert.KernelIdeal.Gen Cert.KernelIdeal.Shared

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffer contents when the region is entered: after the three host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines after the region, stretch by stretch. -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main around the region: the host lines before it, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch unscoped TensorCore buffers only: with nothing prefetched, every such buffer is an array of the
    five-window family or bypasses the region. -/
theorem sfx_sub : ∀ ops ∈ (tailOps : List (List (HloOp τ sig (Elt F)))), ∀ op ∈ ops,
    op.bufs ⊆ Pipeline.tailRefs sig Pipeline.Prefetch.none spec5 := by
  rw [Pipeline.tailRefs_none spec5 (fun j => winFacts₀0.arr_unscoped (keep j))]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- No later line writes a given buffer, when the buffer is none of the lines' results. -/
theorem tail_keeps_v0 : ∀ op ∈ (tailOps (F := F)).flatten, Proc.devRef (τ := τ) .tc main_v0 ∉ op.writes := (List.forall_iff_forall_mem.mp (by
    simp only [hostOps1, hostOps1_1, hostOps1_2, hostOps1_3, hostOps1_4, tailOps, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_v1 : ∀ op ∈ (tailOps (F := F)).flatten, Proc.devRef (τ := τ) .tc main_v1 ∉ op.writes := (List.forall_iff_forall_mem.mp (by
    simp only [hostOps1, hostOps1_1, hostOps1_2, hostOps1_3, hostOps1_4, tailOps, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_v2 : ∀ op ∈ (tailOps (F := F)).flatten, Proc.devRef (τ := τ) .tc main_v2 ∉ op.writes := (List.forall_iff_forall_mem.mp (by
    simp only [hostOps1, hostOps1_1, hostOps1_2, hostOps1_3, hostOps1_4, tailOps, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_v3_0 : ∀ op ∈ (tailOps (F := F)).flatten, Proc.devRef (τ := τ) .tc main_v3_0 ∉ op.writes := (List.forall_iff_forall_mem.mp (by
    simp only [hostOps1, hostOps1_1, hostOps1_2, hostOps1_3, hostOps1_4, tailOps, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_v3_1 : ∀ op ∈ (tailOps (F := F)).flatten, Proc.devRef (τ := τ) .tc main_v3_1 ∉ op.writes := (List.forall_iff_forall_mem.mp (by
    simp only [hostOps1, hostOps1_1, hostOps1_2, hostOps1_3, hostOps1_4, tailOps, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_arg0 : ∀ op ∈ (tailOps (F := F)).flatten, Proc.devRef (τ := τ) .tc main_arg0 ∉ op.writes := (List.forall_iff_forall_mem.mp (by
    simp only [hostOps1, hostOps1_1, hostOps1_2, hostOps1_3, hostOps1_4, tailOps, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_arg1 : ∀ op ∈ (tailOps (F := F)).flatten, Proc.devRef (τ := τ) .tc main_arg1 ∉ op.writes := (List.forall_iff_forall_mem.mp (by
    simp only [hostOps1, hostOps1_1, hostOps1_2, hostOps1_3, hostOps1_4, tailOps, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- And they write none of the region's arrays. -/
theorem sfx_keeps : ∀ ops ∈ (tailOps : List (List (HloOp τ sig (Elt F)))), ∀ op ∈ ops,
    ∀ j, Proc.devRef .tc (Pipeline.arrRef spec5 j) ∉ op.writes := by
  intro ops hops op hop j
  have hmem : op ∈ (tailOps (F := F)).flatten := List.mem_flatten.mpr ⟨ops, hops, hop⟩
  fin_cases j
  · exact tail_keeps_v0 op hmem
  · exact tail_keeps_v1 op hmem
  · exact tail_keeps_v2 op hmem
  · exact tail_keeps_v3_0 op hmem
  · exact tail_keeps_v3_1 op hmem

/-- No host line before the region writes an argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does a later line, and an argument is no array of the region: it ends as launched. -/
theorem W_main_arg0 (dats : (p : Fin 1) → (c : Dev nD) → Dat τ (Elt F) Unit ℕ (UR sig nD τ) ℕ (cfgs p) c) (c : Dev nD) :
    Pipeline.SharedWindows.afterTailSub cfgs dats 0 keep (V0 m) tailOps c main_arg0 = m ((c : Thread nD τ).loc main_arg0) := by
  unfold Pipeline.SharedWindows.afterTailSub
  rw [StableHlo.after_of_forall_not_mem (b := Proc.devRef .tc main_arg0) _ _ tail_keeps_arg0,
    Pipeline.withArrays_of_ne _ c (V0 m c) _ main_arg0 (by exact (by decide : ∀ j, Pipeline.arrRef spec5 j ≠ main_arg0))]
  exact V_main_arg0 m c
theorem W_main_arg1 (dats : (p : Fin 1) → (c : Dev nD) → Dat τ (Elt F) Unit ℕ (UR sig nD τ) ℕ (cfgs p) c) (c : Dev nD) :
    Pipeline.SharedWindows.afterTailSub cfgs dats 0 keep (V0 m) tailOps c main_arg1 = m ((c : Thread nD τ).loc main_arg1) := by
  unfold Pipeline.SharedWindows.afterTailSub
  rw [StableHlo.after_of_forall_not_mem (b := Proc.devRef .tc main_arg1) _ _ tail_keeps_arg1,
    Pipeline.withArrays_of_ne _ c (V0 m c) _ main_arg1 (by exact (by decide : ∀ j, Pipeline.arrRef spec5 j ≠ main_arg1))]
  exact V_main_arg1 m c

/-- THE FRAME from the frame run: both arguments are buffers that bypass the region, so the run's post for those
    buffers, read through the later lines, is the frame claim's post. -/
theorem frame_of (dats : (p : Fin 1) → (c : Dev nD) → Dat τ (Elt F) Unit ℕ (UR sig nD τ) ℕ (cfgs p) c)
    (h : θ_run (defs (F := F)) (onTc (τ := τ) (main (F := F))) (s₀ m ρ) (fun r => ∀ c : Dev nD,
      (∀ w, r.2.mem ((cfg0.spec w).arr.view.loc (c.tc : Thread nD τ)) = (dats 0 c).arrAt w cfg0.N)
      ∧ ∀ b ∈ Pipeline.restRefs sig cfg0.spec, r.2.mem ((c.tc : Thread nD τ).loc b) = Pipeline.SharedWindows.afterTailSub cfgs dats 0 keep (V0 m) tailOps c b)) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

end Cert.KernelIdeal.Kit

end
-- ==== Proof.RunsBaseIdeal.lean ====
/-
  What the runs of the kernel body are stated over. The body branches on the grid coordinates i = (row tile, phase, column
  tile) through five conditions; the point t = 32·(row tile) + 16·(phase) + (column tile) meets them as: the first at
  t % 32 = 0 (phase 0, column tile 0), the second at t % 32 < 16 (phase 0), the third at t % 32 = 16 (phase 1, column tile 0),
  the fourth at 16 ≤ t % 32 (phase 1), the fifth at t % 32 = 31 (phase 1, last column tile). The two output windows are idle
  and are not written back except at the points of the fifth condition; the four input windows are never idle. The staging
  memrefs of the six windows at a point and the eight scratch operands as whole memrefs, and the region's invariant beside
  the windows as the eight scratch operands each owned at some contents.
-/
import proofs.«140287_j55817394979145_2_alg».proof.Proof.KitIdeal
import Idealize.ShloMosaic.Lib.Ring
import Idealize.ShloMosaic.Lib.Tactic
import Idealize.ShloMosaic.Lib.Pipeline.FrameBody

set_option maxRecDepth 16384

noncomputable section

namespace Cert.KernelIdeal.Runs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The condition of the body's first `scf.if` (phase 0 and column tile 0), from the grid coordinates. -/
abbrev cond1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- The condition of the second `scf.if` (phase 0). -/
abbrev cond2 (i : grid0.Coords) : Prop := k0_cond2 i = 1#1
/-- The condition of the third `scf.if` (phase 1 and column tile 0), from the grid coordinates. -/
abbrev cond3 (i : grid0.Coords) : Prop := (Scalar.cmpi .ne (Scalar.extui (Scalar.andi (Scalar.cmpi .eq (BitVec.ofNat 32 (i 1).val) 1#32) (Scalar.cmpi .eq (BitVec.ofNat 32 (i 2).val) 0#32))) 0#32) = 1#1
/-- The condition of the fourth `scf.if` (phase 1). -/
abbrev cond4 (i : grid0.Coords) : Prop := k0_cond4 i = 1#1
/-- The condition of the fifth `scf.if` (phase 1 and the last column tile). -/
abbrev cond5 (i : grid0.Coords) : Prop := k0_cond5 i = 1#1

/-- The five conditions in closed form over the grid, the point written t = 32·(row tile) + 16·(phase) + (column tile):
    decided over the grid's 512 points. -/
theorem hcond1 : ∀ t : Fin cfg0.N, cond1 (grid0.coords t) ↔ t.val % 32 = 0 :=
  (by decide +kernel : ∀ t : Fin grid0.N, cond1 (grid0.coords t) ↔ t.val % 32 = 0)
theorem hcond2 : ∀ t : Fin cfg0.N, cond2 (grid0.coords t) ↔ t.val % 32 < 16 :=
  (by decide +kernel : ∀ t : Fin grid0.N, cond2 (grid0.coords t) ↔ t.val % 32 < 16)
theorem hcond3 : ∀ t : Fin cfg0.N, cond3 (grid0.coords t) ↔ t.val % 32 = 16 :=
  (by decide +kernel : ∀ t : Fin grid0.N, cond3 (grid0.coords t) ↔ t.val % 32 = 16)
theorem hcond4 : ∀ t : Fin cfg0.N, cond4 (grid0.coords t) ↔ 16 ≤ t.val % 32 :=
  (by decide +kernel : ∀ t : Fin grid0.N, cond4 (grid0.coords t) ↔ 16 ≤ t.val % 32)
theorem hcond5 : ∀ t : Fin cfg0.N, cond5 (grid0.coords t) ↔ t.val % 32 = 31 :=
  (by decide +kernel : ∀ t : Fin grid0.N, cond5 (grid0.coords t) ↔ t.val % 32 = 31)

/-! ## Where the windows are idle -/

/-- The four input windows are never idle. -/
theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
/-- Away from a row tile's last point the two outputs are idle (nothing is stored into them) and are not written back. -/
theorem idleAt_4 : ∀ t : Fin cfg0.N, ¬cond5 (grid0.coords t) → cfg0.idle 4 (grid0.coords t) = true := by decide +kernel
theorem noFlush_4 : ∀ t : Fin cfg0.N, ¬cond5 (grid0.coords t) → (cfg0.win 4).flush t = false := by decide +kernel
theorem idleAt_5 : ∀ t : Fin cfg0.N, ¬cond5 (grid0.coords t) → cfg0.idle 5 (grid0.coords t) = true := by decide +kernel
theorem noFlush_5 : ∀ t : Fin cfg0.N, ¬cond5 (grid0.coords t) → (cfg0.win 5).flush t = false := by decide +kernel
/-- At a row tile's last point both outputs are live: the body stores each whole. -/
theorem liveAt_4 : ∀ t : Fin cfg0.N, cond5 (grid0.coords t) → cfg0.idle 4 (grid0.coords t) = false := by decide +kernel
theorem liveAt_5 : ∀ t : Fin cfg0.N, cond5 (grid0.coords t) → cfg0.idle 5 (grid0.coords t) = false := by decide +kernel

/-! ## The staging and scratch memrefs the body is called on -/

/-- Each window's current staging memref at point `t`, spelled as the pipeline passes it, and its wholeness. -/
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
/-- The eight scratch operands: whole scoped buffers of the kernel's own, passed beside the windows and carried from point to point. -/
abbrev scM0_0 : Memref sig .tc .vmem S512x8192 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3
abbrev scM0_4 : Memref sig .tc .vmem S512x1 .f32 := Memref.whole cc0_scratch4
abbrev scM0_5 : Memref sig .tc .vmem S512x1 .f32 := Memref.whole cc0_scratch5
abbrev scM0_6 : Memref sig .tc .vmem S512x1 .f32 := Memref.whole cc0_scratch6
abbrev scM0_7 : Memref sig .tc .vmem S512x1 .f32 := Memref.whole cc0_scratch7

/-- The region's invariant beside the windows, with the eight scratch operands as memrefs each owned at some contents, and the
    generator register at some state: what the body obligation hands a run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

/-- The body at point `t` is the kernel on these memrefs. -/
theorem bodyAt0_eq (t : Fin cfg0.N) : bodyAt0 (F := F) t = cc0__triplet_kernel (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) := rfl

end Cert.KernelIdeal.Runs

end
-- ==== Proof.RunsIdeal.lean ====
/-
  The kernel body's run in each of its five control cases. The grid point t = 32·(row tile) + 16·(phase) + (column tile) falls
  in exactly one: A (t % 32 = 0), B (1 ≤ t % 32 ≤ 15), C (t % 32 = 16), D (17 ≤ t % 32 ≤ 30), E (t % 32 = 31). In phase 0
  (A, B) the body computes one 512x512 block of the similarity matrix, stores it into its column range of the 512x8192 cache
  and folds it into the running per-row maximum over positives and minimum over negatives (seeded first in A); in phase 1
  (C, D, E) it reads the block back and accumulates five per-row sums (zeroed first in C), and at the row tile's last point (E)
  stores the two 512x1 outputs from the sums. Every scratch operand is carried from point to point, so each run is stated from
  NAMED contents of the eight scratch operands to those contents with the case's pieces written over them; the cache is stored
  one block per point and never whole, the 512x1 operands a case stores into are stored whole (the cover facts).
-/
import proofs.«140287_j55817394979145_2_alg».proof.Proof.RunsBaseIdeal
import Idealize.ShloMosaic.Lib.Ring
import Idealize.ShloMosaic.Lib.Tactic
import Idealize.ShloMosaic.Lib.Pipeline.FrameBody

set_option maxRecDepth 16384

noncomputable section

namespace Cert.KernelIdeal.Runs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
set_option maxHeartbeats 4000000 in
/-- The body's run at a later point of phase 0: the block of the similarity matrix is computed, cached and folded into the two running thresholds. On whole memrefs, the four inputs owned at their contents, the two outputs owned at any contents and handed back untouched, the eight
    scratch operands owned at the contents the point before left, the body runs to the continuation holding the inputs as they
    were, and every scratch operand at its contents before with the case's pieces written over them (none for an operand
    the case does not store into): the new contents are a function of the old and the pieces. -/
noncomputable def kernelRun_B (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : cond2 i) (hc3 : ¬cond3 i) (hc4 : ¬cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) :
    Σ' (LS0 : List (View.Piece (Elt F) S512x8192 .f32)), Σ' (LS1 : List (View.Piece (Elt F) S512x1 .f32)), Σ' (LS2 : List (View.Piece (Elt F) S512x1 .f32)), Σ' (LS3 : List (View.Piece (Elt F) S512x1 .f32)), Σ' (LS4 : List (View.Piece (Elt F) S512x1 .f32)), Σ' (LS5 : List (View.Piece (Elt F) S512x1 .f32)), Σ' (LS6 : List (View.Piece (Elt F) S512x1 .f32)), { LS7 : List (View.Piece (Elt F) S512x1 .f32) //
      ∀ (xi4 xi5 : Vec F S512x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4 ∗ owns (c : Thread nD τ) arg14 fullShare xs5 ∗ owns (c : Thread nD τ) arg15 fullShare xs6 ∗ owns (c : Thread nD τ) arg16 fullShare xs7
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2) ∗ (arg12.view.loc (c : Thread nD τ) ↦[arg12.view.set]{fullShare} arg12.view.writes (Elt F) (harg12.unread xs3) LS3) ∗ (arg13.view.loc (c : Thread nD τ) ↦[arg13.view.set]{fullShare} arg13.view.writes (Elt F) (harg13.unread xs4) LS4) ∗ (arg14.view.loc (c : Thread nD τ) ↦[arg14.view.set]{fullShare} arg14.view.writes (Elt F) (harg14.unread xs5) LS5) ∗ (arg15.view.loc (c : Thread nD τ) ↦[arg15.view.set]{fullShare} arg15.view.writes (Elt F) (harg15.unread xs6) LS6) ∗ (arg16.view.loc (c : Thread nD τ) ↦[arg16.view.set]{fullShare} arg16.view.writes (Elt F) (harg16.unread xs7) LS7)) -∗ K ⟨⟩))
          ⊢ wp frame (wpE (defs₀ (F := F)) Variants.none c none) E (cc0__triplet_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, [], [], [], [], [], fun xi4 xi5 E K => ?run⟩
  case run =>
    simp only [cc0__triplet_kernel_eq_skeleton]; unfold cc0__triplet_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2; obtain rfl := harg12.eq_unread hfs3; obtain rfl := harg13.eq_unread hfs4; obtain rfl := harg14.eq_unread hfs5; obtain rfl := harg15.eq_unread hfs6; obtain rfl := harg16.eq_unread hfs7
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7

/-- Case B's pieces for scratch operand 1 (`arg10`) cover it: the buffer is stored whole. -/
theorem scover_B_1 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : cond2 i) (hc3 : ¬cond3 i) (hc4 : ¬cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_B c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.1, y ∈ pc.1.set :=
  View.cover_of_tiledL (kernelRun_B c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.1 S512x1.size (by sl_kernel_rfl) y

/-- Case B's pieces for scratch operand 2 (`arg11`) cover it: the buffer is stored whole. -/
theorem scover_B_2 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : cond2 i) (hc3 : ¬cond3 i) (hc4 : ¬cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_B c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.1, y ∈ pc.1.set :=
  View.cover_of_tiledL (kernelRun_B c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.1 S512x1.size (by sl_kernel_rfl) y

set_option maxHeartbeats 4000000 in
/-- The body's run at the first point of a row tile (phase 0, column tile 0): the two running thresholds are seeded, then the block of the similarity matrix is computed, cached and folded into them. On whole memrefs, the four inputs owned at their contents, the two outputs owned at any contents and handed back untouched, the eight
    scratch operands owned at the contents the point before left, the body runs to the continuation holding the inputs as they
    were, and every scratch operand at its contents before with the case's pieces written over them (none for an operand
    the case does not store into): the new contents are a function of the old and the pieces. -/
noncomputable def kernelRun_A (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : cond1 i) (hc2 : cond2 i) (hc3 : ¬cond3 i) (hc4 : ¬cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) :
    Σ' (LS0 : List (View.Piece (Elt F) S512x8192 .f32)), Σ' (LS1 : List (View.Piece (Elt F) S512x1 .f32)), Σ' (LS2 : List (View.Piece (Elt F) S512x1 .f32)), Σ' (LS3 : List (View.Piece (Elt F) S512x1 .f32)), Σ' (LS4 : List (View.Piece (Elt F) S512x1 .f32)), Σ' (LS5 : List (View.Piece (Elt F) S512x1 .f32)), Σ' (LS6 : List (View.Piece (Elt F) S512x1 .f32)), { LS7 : List (View.Piece (Elt F) S512x1 .f32) //
      ∀ (xi4 xi5 : Vec F S512x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4 ∗ owns (c : Thread nD τ) arg14 fullShare xs5 ∗ owns (c : Thread nD τ) arg15 fullShare xs6 ∗ owns (c : Thread nD τ) arg16 fullShare xs7
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2) ∗ (arg12.view.loc (c : Thread nD τ) ↦[arg12.view.set]{fullShare} arg12.view.writes (Elt F) (harg12.unread xs3) LS3) ∗ (arg13.view.loc (c : Thread nD τ) ↦[arg13.view.set]{fullShare} arg13.view.writes (Elt F) (harg13.unread xs4) LS4) ∗ (arg14.view.loc (c : Thread nD τ) ↦[arg14.view.set]{fullShare} arg14.view.writes (Elt F) (harg14.unread xs5) LS5) ∗ (arg15.view.loc (c : Thread nD τ) ↦[arg15.view.set]{fullShare} arg15.view.writes (Elt F) (harg15.unread xs6) LS6) ∗ (arg16.view.loc (c : Thread nD τ) ↦[arg16.view.set]{fullShare} arg16.view.writes (Elt F) (harg16.unread xs7) LS7)) -∗ K ⟨⟩))
          ⊢ wp frame (wpE (defs₀ (F := F)) Variants.none c none) E (cc0__triplet_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, [], [], [], [], [], fun xi4 xi5 E K => ?run⟩
  case run =>
    simp only [cc0__triplet_kernel_eq_skeleton]; unfold cc0__triplet_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2; obtain rfl := harg12.eq_unread hfs3; obtain rfl := harg13.eq_unread hfs4; obtain rfl := harg14.eq_unread hfs5; obtain rfl := harg15.eq_unread hfs6; obtain rfl := harg16.eq_unread hfs7
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7

/-- Case A's pieces for scratch operand 1 (`arg10`) cover it: the buffer is stored whole. -/
theorem scover_A_1 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : cond1 i) (hc2 : cond2 i) (hc3 : ¬cond3 i) (hc4 : ¬cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_A c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.1, y ∈ pc.1.set :=
  View.cover_of_tiledL (kernelRun_A c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.1 S512x1.size (by sl_kernel_rfl) y

/-- Case A's pieces for scratch operand 2 (`arg11`) cover it: the buffer is stored whole. -/
theorem scover_A_2 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : cond1 i) (hc2 : cond2 i) (hc3 : ¬cond3 i) (hc4 : ¬cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_A c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.1, y ∈ pc.1.set :=
  View.cover_of_tiledL (kernelRun_A c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.1 S512x1.size (by sl_kernel_rfl) y

set_option maxHeartbeats 4000000 in
/-- The body's run at the last point of a row tile (phase 1, last column tile): the cached block is accumulated into the five per-row sums, and the two outputs are stored whole from them. On whole memrefs, the four inputs owned at their contents, the two outputs owned at anything, the eight
    scratch operands owned at the contents the point before left, the body runs to the continuation holding the inputs as they
    were, each output with its pieces written, and every scratch operand at its contents before with the case's pieces written over them (none for an operand
    the case does not store into): the new contents are a function of the old and the pieces. -/
noncomputable def kernelRun_E (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) :
    Σ' (L4 : List (View.Piece (Elt F) S512x1 .f32)), Σ' (L5 : List (View.Piece (Elt F) S512x1 .f32)), Σ' (LS0 : List (View.Piece (Elt F) S512x8192 .f32)), Σ' (LS1 : List (View.Piece (Elt F) S512x1 .f32)), Σ' (LS2 : List (View.Piece (Elt F) S512x1 .f32)), Σ' (LS3 : List (View.Piece (Elt F) S512x1 .f32)), Σ' (LS4 : List (View.Piece (Elt F) S512x1 .f32)), Σ' (LS5 : List (View.Piece (Elt F) S512x1 .f32)), Σ' (LS6 : List (View.Piece (Elt F) S512x1 .f32)), { LS7 : List (View.Piece (Elt F) S512x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4 ∗ owns (c : Thread nD τ) arg14 fullShare xs5 ∗ owns (c : Thread nD τ) arg15 fullShare xs6 ∗ owns (c : Thread nD τ) arg16 fullShare xs7
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2) ∗ (arg12.view.loc (c : Thread nD τ) ↦[arg12.view.set]{fullShare} arg12.view.writes (Elt F) (harg12.unread xs3) LS3) ∗ (arg13.view.loc (c : Thread nD τ) ↦[arg13.view.set]{fullShare} arg13.view.writes (Elt F) (harg13.unread xs4) LS4) ∗ (arg14.view.loc (c : Thread nD τ) ↦[arg14.view.set]{fullShare} arg14.view.writes (Elt F) (harg14.unread xs5) LS5) ∗ (arg15.view.loc (c : Thread nD τ) ↦[arg15.view.set]{fullShare} arg15.view.writes (Elt F) (harg15.unread xs6) LS6) ∗ (arg16.view.loc (c : Thread nD τ) ↦[arg16.view.set]{fullShare} arg16.view.writes (Elt F) (harg16.unread xs7) LS7)) -∗ K ⟨⟩))
          ⊢ wp frame (wpE (defs₀ (F := F)) Variants.none c none) E (cc0__triplet_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, [], [], [], ?_, ?_, ?_, ?_, ?_, fun E K => ?run⟩
  case run =>
    simp only [cc0__triplet_kernel_eq_skeleton]; unfold cc0__triplet_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, Hk⟩
    obtain rfl := harg3.eq_unread hf0; obtain rfl := harg4.eq_unread hf1; obtain rfl := harg5.eq_unread hf2; obtain rfl := harg6.eq_unread hf3; obtain rfl := harg9.eq_unread hfs0; obtain rfl := harg10.eq_unread hfs1; obtain rfl := harg11.eq_unread hfs2; obtain rfl := harg12.eq_unread hfs3; obtain rfl := harg13.eq_unread hfs4; obtain rfl := harg14.eq_unread hfs5; obtain rfl := harg15.eq_unread hfs6; obtain rfl := harg16.eq_unread hfs7
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7

/-- Case E's pieces for output window 4's staging memref `arg7` cover it: the buffer is stored whole. -/
theorem cover_E_4 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).1, y ∈ pc.1.set :=
  View.cover_of_tiledL (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).1 S512x1.size (by sl_kernel_rfl) y

/-- Case E's pieces for output window 5's staging memref `arg8` cover it: the buffer is stored whole. -/
theorem cover_E_5 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.1, y ∈ pc.1.set :=
  View.cover_of_tiledL (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.1 S512x1.size (by sl_kernel_rfl) y

/-- Case E's pieces for scratch operand 3 (`arg12`) cover it: the buffer is stored whole. -/
theorem scover_E_3 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.1, y ∈ pc.1.set :=
  View.cover_of_tiledL (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.1 S512x1.size (by sl_kernel_rfl) y

/-- Case E's pieces for scratch operand 4 (`arg13`) cover it: the buffer is stored whole. -/
theorem scover_E_4 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.1, y ∈ pc.1.set :=
  View.cover_of_tiledL (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.1 S512x1.size (by sl_kernel_rfl) y

/-- Case E's pieces for scratch operand 5 (`arg14`) cover it: the buffer is stored whole. -/
theorem scover_E_5 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.2.1, y ∈ pc.1.set :=
  View.cover_of_tiledL (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.2.1 S512x1.size (by sl_kernel_rfl) y

/-- Case E's pieces for scratch operand 6 (`arg15`) cover it: the buffer is stored whole. -/
theorem scover_E_6 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.2.2.1, y ∈ pc.1.set :=
  View.cover_of_tiledL (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.2.2.1 S512x1.size (by sl_kernel_rfl) y

/-- Case E's pieces for scratch operand 7 (`arg16`) cover it: the buffer is stored whole. -/
theorem scover_E_7 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.2.2.2.1, y ∈ pc.1.set :=
  View.cover_of_tiledL (kernelRun_E c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.2.2.2.1 S512x1.size (by sl_kernel_rfl) y

set_option maxHeartbeats 4000000 in
/-- The body's run at the first point of phase 1 (column tile 0): the five per-row sums are zeroed, then the cached block is read back and accumulated into them. On whole memrefs, the four inputs owned at their contents, the two outputs owned at any contents and handed back untouched, the eight
    scratch operands owned at the contents the point before left, the body runs to the continuation holding the inputs as they
    were, and every scratch operand at its contents before with the case's pieces written over them (none for an operand
    the case does not store into): the new contents are a function of the old and the pieces. -/
noncomputable def kernelRun_C (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) :
    Σ' (LS0 : List (View.Piece (Elt F) S512x8192 .f32)), Σ' (LS1 : List (View.Piece (Elt F) S512x1 .f32)), Σ' (LS2 : List (View.Piece (Elt F) S512x1 .f32)), Σ' (LS3 : List (View.Piece (Elt F) S512x1 .f32)), Σ' (LS4 : List (View.Piece (Elt F) S512x1 .f32)), Σ' (LS5 : List (View.Piece (Elt F) S512x1 .f32)), Σ' (LS6 : List (View.Piece (Elt F) S512x1 .f32)), { LS7 : List (View.Piece (Elt F) S512x1 .f32) //
      ∀ (xi4 xi5 : Vec F S512x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4 ∗ owns (c : Thread nD τ) arg14 fullShare xs5 ∗ owns (c : Thread nD τ) arg15 fullShare xs6 ∗ owns (c : Thread nD τ) arg16 fullShare xs7
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2) ∗ (arg12.view.loc (c : Thread nD τ) ↦[arg12.view.set]{fullShare} arg12.view.writes (Elt F) (harg12.unread xs3) LS3) ∗ (arg13.view.loc (c : Thread nD τ) ↦[arg13.view.set]{fullShare} arg13.view.writes (Elt F) (harg13.unread xs4) LS4) ∗ (arg14.view.loc (c : Thread nD τ) ↦[arg14.view.set]{fullShare} arg14.view.writes (Elt F) (harg14.unread xs5) LS5) ∗ (arg15.view.loc (c : Thread nD τ) ↦[arg15.view.set]{fullShare} arg15.view.writes (Elt F) (harg15.unread xs6) LS6) ∗ (arg16.view.loc (c : Thread nD τ) ↦[arg16.view.set]{fullShare} arg16.view.writes (Elt F) (harg16.unread xs7) LS7)) -∗ K ⟨⟩))
          ⊢ wp frame (wpE (defs₀ (F := F)) Variants.none c none) E (cc0__triplet_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], [], [], ?_, ?_, ?_, ?_, ?_, fun xi4 xi5 E K => ?run⟩
  case run =>
    simp only [cc0__triplet_kernel_eq_skeleton]; unfold cc0__triplet_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2; obtain rfl := harg12.eq_unread hfs3; obtain rfl := harg13.eq_unread hfs4; obtain rfl := harg14.eq_unread hfs5; obtain rfl := harg15.eq_unread hfs6; obtain rfl := harg16.eq_unread hfs7
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7

/-- Case C's pieces for scratch operand 3 (`arg12`) cover it: the buffer is stored whole. -/
theorem scover_C_3 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.1, y ∈ pc.1.set :=
  View.cover_of_tiledL (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.1 S512x1.size (by sl_kernel_rfl) y

/-- Case C's pieces for scratch operand 4 (`arg13`) cover it: the buffer is stored whole. -/
theorem scover_C_4 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.1, y ∈ pc.1.set :=
  View.cover_of_tiledL (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.1 S512x1.size (by sl_kernel_rfl) y

/-- Case C's pieces for scratch operand 5 (`arg14`) cover it: the buffer is stored whole. -/
theorem scover_C_5 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.1, y ∈ pc.1.set :=
  View.cover_of_tiledL (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.1 S512x1.size (by sl_kernel_rfl) y

/-- Case C's pieces for scratch operand 6 (`arg15`) cover it: the buffer is stored whole. -/
theorem scover_C_6 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.1, y ∈ pc.1.set :=
  View.cover_of_tiledL (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.1 S512x1.size (by sl_kernel_rfl) y

/-- Case C's pieces for scratch operand 7 (`arg16`) cover it: the buffer is stored whole. -/
theorem scover_C_7 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.2.1, y ∈ pc.1.set :=
  View.cover_of_tiledL (kernelRun_C c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.2.1 S512x1.size (by sl_kernel_rfl) y

set_option maxHeartbeats 4000000 in
/-- The body's run at a later point of phase 1 but the last: the cached block is read back and accumulated into the five per-row sums. On whole memrefs, the four inputs owned at their contents, the two outputs owned at any contents and handed back untouched, the eight
    scratch operands owned at the contents the point before left, the body runs to the continuation holding the inputs as they
    were, and every scratch operand at its contents before with the case's pieces written over them (none for an operand
    the case does not store into): the new contents are a function of the old and the pieces. -/
noncomputable def kernelRun_D (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) :
    Σ' (LS0 : List (View.Piece (Elt F) S512x8192 .f32)), Σ' (LS1 : List (View.Piece (Elt F) S512x1 .f32)), Σ' (LS2 : List (View.Piece (Elt F) S512x1 .f32)), Σ' (LS3 : List (View.Piece (Elt F) S512x1 .f32)), Σ' (LS4 : List (View.Piece (Elt F) S512x1 .f32)), Σ' (LS5 : List (View.Piece (Elt F) S512x1 .f32)), Σ' (LS6 : List (View.Piece (Elt F) S512x1 .f32)), { LS7 : List (View.Piece (Elt F) S512x1 .f32) //
      ∀ (xi4 xi5 : Vec F S512x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4 ∗ owns (c : Thread nD τ) arg14 fullShare xs5 ∗ owns (c : Thread nD τ) arg15 fullShare xs6 ∗ owns (c : Thread nD τ) arg16 fullShare xs7
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2) ∗ (arg12.view.loc (c : Thread nD τ) ↦[arg12.view.set]{fullShare} arg12.view.writes (Elt F) (harg12.unread xs3) LS3) ∗ (arg13.view.loc (c : Thread nD τ) ↦[arg13.view.set]{fullShare} arg13.view.writes (Elt F) (harg13.unread xs4) LS4) ∗ (arg14.view.loc (c : Thread nD τ) ↦[arg14.view.set]{fullShare} arg14.view.writes (Elt F) (harg14.unread xs5) LS5) ∗ (arg15.view.loc (c : Thread nD τ) ↦[arg15.view.set]{fullShare} arg15.view.writes (Elt F) (harg15.unread xs6) LS6) ∗ (arg16.view.loc (c : Thread nD τ) ↦[arg16.view.set]{fullShare} arg16.view.writes (Elt F) (harg16.unread xs7) LS7)) -∗ K ⟨⟩))
          ⊢ wp frame (wpE (defs₀ (F := F)) Variants.none c none) E (cc0__triplet_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], [], [], ?_, ?_, ?_, ?_, ?_, fun xi4 xi5 E K => ?run⟩
  case run =>
    simp only [cc0__triplet_kernel_eq_skeleton]; unfold cc0__triplet_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2; obtain rfl := harg12.eq_unread hfs3; obtain rfl := harg13.eq_unread hfs4; obtain rfl := harg14.eq_unread hfs5; obtain rfl := harg15.eq_unread hfs6; obtain rfl := harg16.eq_unread hfs7
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7

/-- Case D's pieces for scratch operand 3 (`arg12`) cover it: the buffer is stored whole. -/
theorem scover_D_3 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_D c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.1, y ∈ pc.1.set :=
  View.cover_of_tiledL (kernelRun_D c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.1 S512x1.size (by sl_kernel_rfl) y

/-- Case D's pieces for scratch operand 4 (`arg13`) cover it: the buffer is stored whole. -/
theorem scover_D_4 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_D c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.1, y ∈ pc.1.set :=
  View.cover_of_tiledL (kernelRun_D c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.1 S512x1.size (by sl_kernel_rfl) y

/-- Case D's pieces for scratch operand 5 (`arg14`) cover it: the buffer is stored whole. -/
theorem scover_D_5 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_D c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.1, y ∈ pc.1.set :=
  View.cover_of_tiledL (kernelRun_D c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.1 S512x1.size (by sl_kernel_rfl) y

/-- Case D's pieces for scratch operand 6 (`arg15`) cover it: the buffer is stored whole. -/
theorem scover_D_6 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_D c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.1, y ∈ pc.1.set :=
  View.cover_of_tiledL (kernelRun_D c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.1 S512x1.size (by sl_kernel_rfl) y

/-- Case D's pieces for scratch operand 7 (`arg16`) cover it: the buffer is stored whole. -/
theorem scover_D_7 (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc1 : ¬cond1 i) (hc2 : ¬cond2 i) (hc3 : ¬cond3 i) (hc4 : cond4 i) (hc5 : ¬cond5 i)
    (x0 : Vec F S512x512 .bf16) (x1 : Vec F S8192x512 .bf16) (x2 : Vec F S512x1 .i32) (x3 : Vec F S1x512 .i32)
    (xs0 : Vec F S512x8192 .f32) (xs1 xs2 xs3 xs4 xs5 xs6 xs7 : Vec F S512x1 .f32) (y : S512x1.Idx) :
    ∃ pc ∈ (kernelRun_D c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.2.1, y ∈ pc.1.set :=
  View.cover_of_tiledL (kernelRun_D c i arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 xs0 xs1 xs2 xs3 xs4 xs5 xs6 xs7).2.2.2.2.2.2.2.1 S512x1.size (by sl_kernel_rfl) y

end Cert.KernelIdeal.Runs

end
-- ==== Proof.DataDefsIdeal.lean ====
/-
  The proof data of the region.  Eight scratch operands are carried from grid point to grid point: the similarity cache
  (one 512x512 block stored per point of the first phase), the two running thresholds, and the five partial sums of the
  second phase.  Point t lies in row tile t / 32 at position j = t % 32: j = 0 seeds the thresholds and stores block 0,
  1 ≤ j ≤ 15 store block j, j = 16 zeroes the sums and adds block 0's part, 17 ≤ j ≤ 30 add block j - 16's part, j = 31
  adds the last part and stores the two results.  `tileRun n S₀` is what the scratch holds after point n when the row tile
  was entered with the scratch at S₀; the region's invariant after point n is that the scratch holds `tileRun n S₀` for SOME
  S₀ (what the tile before left, or anything at the very first point).  The two results a tile stores do not depend on S₀
  (every part of the scratch the last point reads was written earlier in the same tile); the proof data name them from a
  fixed S₀.
-/
import proofs.«140287_j55817394979145_2_alg».proof.Proof.RunsIdeal

set_option maxRecDepth 16384

noncomputable section

namespace Cert.KernelIdeal.Data

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Shared Cert.KernelIdeal.Kit Cert.KernelIdeal.Runs

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the eight scratch operands hold. -/
structure St (F : FTy → Type) [FloatOps F] where
  s0 : Vec F S512x8192 .f32
  s1 : Vec F S512x1 .f32
  s2 : Vec F S512x1 .f32
  s3 : Vec F S512x1 .f32
  s4 : Vec F S512x1 .f32
  s5 : Vec F S512x1 .f32
  s6 : Vec F S512x1 .f32
  s7 : Vec F S512x1 .f32

abbrev hsc0 : (scM0_0).IsWhole := Memref.isWhole_whole _
abbrev hsc1 : (scM0_1).IsWhole := Memref.isWhole_whole _
abbrev hsc2 : (scM0_2).IsWhole := Memref.isWhole_whole _
abbrev hsc3 : (scM0_3).IsWhole := Memref.isWhole_whole _
abbrev hsc4 : (scM0_4).IsWhole := Memref.isWhole_whole _
abbrev hsc5 : (scM0_5).IsWhole := Memref.isWhole_whole _
abbrev hsc6 : (scM0_6).IsWhole := Memref.isWhole_whole _
abbrev hsc7 : (scM0_7).IsWhole := Memref.isWhole_whole _

/-- A scratch operand's contents after a list of stores over what it held. -/
abbrev rb0 (xs : Vec F S512x8192 .f32) (L : List (View.Piece (Elt F) S512x8192 .f32)) : Vec F S512x8192 .f32 :=
  (scM0_0).view.read (Elt F) ((scM0_0).view.writes (Elt F) ((hsc0).unread xs) L)
abbrev rb1 (xs : Vec F S512x1 .f32) (L : List (View.Piece (Elt F) S512x1 .f32)) : Vec F S512x1 .f32 :=
  (scM0_1).view.read (Elt F) ((scM0_1).view.writes (Elt F) ((hsc1).unread xs) L)
abbrev rb2 (xs : Vec F S512x1 .f32) (L : List (View.Piece (Elt F) S512x1 .f32)) : Vec F S512x1 .f32 :=
  (scM0_2).view.read (Elt F) ((scM0_2).view.writes (Elt F) ((hsc2).unread xs) L)
abbrev rb3 (xs : Vec F S512x1 .f32) (L : List (View.Piece (Elt F) S512x1 .f32)) : Vec F S512x1 .f32 :=
  (scM0_3).view.read (Elt F) ((scM0_3).view.writes (Elt F) ((hsc3).unread xs) L)
abbrev rb4 (xs : Vec F S512x1 .f32) (L : List (View.Piece (Elt F) S512x1 .f32)) : Vec F S512x1 .f32 :=
  (scM0_4).view.read (Elt F) ((scM0_4).view.writes (Elt F) ((hsc4).unread xs) L)
abbrev rb5 (xs : Vec F S512x1 .f32) (L : List (View.Piece (Elt F) S512x1 .f32)) : Vec F S512x1 .f32 :=
  (scM0_5).view.read (Elt F) ((scM0_5).view.writes (Elt F) ((hsc5).unread xs) L)
abbrev rb6 (xs : Vec F S512x1 .f32) (L : List (View.Piece (Elt F) S512x1 .f32)) : Vec F S512x1 .f32 :=
  (scM0_6).view.read (Elt F) ((scM0_6).view.writes (Elt F) ((hsc6).unread xs) L)
abbrev rb7 (xs : Vec F S512x1 .f32) (L : List (View.Piece (Elt F) S512x1 .f32)) : Vec F S512x1 .f32 :=
  (scM0_7).view.read (Elt F) ((scM0_7).view.writes (Elt F) ((hsc7).unread xs) L)

/-- Case A: what the body leaves in the eight scratch operands, from what it found there. -/
def step_A (c : Dev nD) (t : Fin cfg0.N) (h : t.val % 32 = 0) (S : St F) : St F :=
  ⟨rb0 S.s0 (kernelRun_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond1 t).mpr h) ((hcond2 t).mpr (by omega)) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).1,
   rb1 S.s1 (kernelRun_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond1 t).mpr h) ((hcond2 t).mpr (by omega)) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.1,
   rb2 S.s2 (kernelRun_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond1 t).mpr h) ((hcond2 t).mpr (by omega)) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.1,
   rb3 S.s3 (kernelRun_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond1 t).mpr h) ((hcond2 t).mpr (by omega)) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.2.1,
   rb4 S.s4 (kernelRun_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond1 t).mpr h) ((hcond2 t).mpr (by omega)) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.2.2.1,
   rb5 S.s5 (kernelRun_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond1 t).mpr h) ((hcond2 t).mpr (by omega)) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.2.2.2.1,
   rb6 S.s6 (kernelRun_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond1 t).mpr h) ((hcond2 t).mpr (by omega)) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.2.2.2.2.1,
   rb7 S.s7 (kernelRun_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond1 t).mpr h) ((hcond2 t).mpr (by omega)) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.2.2.2.2.2.1⟩

/-- Case B: what the body leaves in the eight scratch operands, from what it found there. -/
def step_B (c : Dev nD) (t : Fin cfg0.N) (h0 : t.val % 32 ≠ 0) (h : t.val % 32 < 16) (S : St F) : St F :=
  ⟨rb0 S.s0 (kernelRun_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => h0 ((hcond1 t).mp q)) ((hcond2 t).mpr h) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).1,
   rb1 S.s1 (kernelRun_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => h0 ((hcond1 t).mp q)) ((hcond2 t).mpr h) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.1,
   rb2 S.s2 (kernelRun_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => h0 ((hcond1 t).mp q)) ((hcond2 t).mpr h) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.1,
   rb3 S.s3 (kernelRun_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => h0 ((hcond1 t).mp q)) ((hcond2 t).mpr h) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.2.1,
   rb4 S.s4 (kernelRun_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => h0 ((hcond1 t).mp q)) ((hcond2 t).mpr h) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.2.2.1,
   rb5 S.s5 (kernelRun_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => h0 ((hcond1 t).mp q)) ((hcond2 t).mpr h) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.2.2.2.1,
   rb6 S.s6 (kernelRun_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => h0 ((hcond1 t).mp q)) ((hcond2 t).mpr h) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.2.2.2.2.1,
   rb7 S.s7 (kernelRun_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => h0 ((hcond1 t).mp q)) ((hcond2 t).mpr h) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.2.2.2.2.2.1⟩

/-- Case C: what the body leaves in the eight scratch operands, from what it found there. -/
def step_C (c : Dev nD) (t : Fin cfg0.N) (h : t.val % 32 = 16) (S : St F) : St F :=
  ⟨rb0 S.s0 (kernelRun_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) ((hcond3 t).mpr h) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).1,
   rb1 S.s1 (kernelRun_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) ((hcond3 t).mpr h) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.1,
   rb2 S.s2 (kernelRun_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) ((hcond3 t).mpr h) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.1,
   rb3 S.s3 (kernelRun_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) ((hcond3 t).mpr h) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.2.1,
   rb4 S.s4 (kernelRun_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) ((hcond3 t).mpr h) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.2.2.1,
   rb5 S.s5 (kernelRun_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) ((hcond3 t).mpr h) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.2.2.2.1,
   rb6 S.s6 (kernelRun_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) ((hcond3 t).mpr h) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.2.2.2.2.1,
   rb7 S.s7 (kernelRun_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) ((hcond3 t).mpr h) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.2.2.2.2.2.1⟩

/-- Case D: what the body leaves in the eight scratch operands, from what it found there. -/
def step_D (c : Dev nD) (t : Fin cfg0.N) (h0 : 16 < t.val % 32) (h : t.val % 32 < 31) (S : St F) : St F :=
  ⟨rb0 S.s0 (kernelRun_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).1,
   rb1 S.s1 (kernelRun_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.1,
   rb2 S.s2 (kernelRun_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.1,
   rb3 S.s3 (kernelRun_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.2.1,
   rb4 S.s4 (kernelRun_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.2.2.1,
   rb5 S.s5 (kernelRun_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.2.2.2.1,
   rb6 S.s6 (kernelRun_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.2.2.2.2.1,
   rb7 S.s7 (kernelRun_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.2.2.2.2.2.1⟩

/-- Case E: what the body leaves in the eight scratch operands, from what it found there. -/
def step_E (c : Dev nD) (t : Fin cfg0.N) (h : t.val % 32 = 31) (S : St F) : St F :=
  ⟨rb0 S.s0 (kernelRun_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) ((hcond5 t).mpr h) (iblk m c 0 t) (iblk m c 1 t) (iblk m c 2 t) (iblk m c 3 t) S.s0 S.s1 S.s2 S.s3 S.s4 S.s5 S.s6 S.s7).2.2.1,
   rb1 S.s1 (kernelRun_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) ((hcond5 t).mpr h) (iblk m c 0 t) (iblk m c 1 t) (iblk m c 2 t) (iblk m c 3 t) S.s0 S.s1 S.s2 S.s3 S.s4 S.s5 S.s6 S.s7).2.2.2.1,
   rb2 S.s2 (kernelRun_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) ((hcond5 t).mpr h) (iblk m c 0 t) (iblk m c 1 t) (iblk m c 2 t) (iblk m c 3 t) S.s0 S.s1 S.s2 S.s3 S.s4 S.s5 S.s6 S.s7).2.2.2.2.1,
   rb3 S.s3 (kernelRun_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) ((hcond5 t).mpr h) (iblk m c 0 t) (iblk m c 1 t) (iblk m c 2 t) (iblk m c 3 t) S.s0 S.s1 S.s2 S.s3 S.s4 S.s5 S.s6 S.s7).2.2.2.2.2.1,
   rb4 S.s4 (kernelRun_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) ((hcond5 t).mpr h) (iblk m c 0 t) (iblk m c 1 t) (iblk m c 2 t) (iblk m c 3 t) S.s0 S.s1 S.s2 S.s3 S.s4 S.s5 S.s6 S.s7).2.2.2.2.2.2.1,
   rb5 S.s5 (kernelRun_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) ((hcond5 t).mpr h) (iblk m c 0 t) (iblk m c 1 t) (iblk m c 2 t) (iblk m c 3 t) S.s0 S.s1 S.s2 S.s3 S.s4 S.s5 S.s6 S.s7).2.2.2.2.2.2.2.1,
   rb6 S.s6 (kernelRun_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) ((hcond5 t).mpr h) (iblk m c 0 t) (iblk m c 1 t) (iblk m c 2 t) (iblk m c 3 t) S.s0 S.s1 S.s2 S.s3 S.s4 S.s5 S.s6 S.s7).2.2.2.2.2.2.2.2.1,
   rb7 S.s7 (kernelRun_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) ((hcond5 t).mpr h) (iblk m c 0 t) (iblk m c 1 t) (iblk m c 2 t) (iblk m c 3 t) S.s0 S.s1 S.s2 S.s3 S.s4 S.s5 S.s6 S.s7).2.2.2.2.2.2.2.2.2.1⟩

/-- The step at point `t`: the case its position in the row tile selects. -/
def stepAt (c : Dev nD) (t : Fin cfg0.N) (S : St F) : St F :=
  if h0 : t.val % 32 = 0 then step_A m c t h0 S
  else if h1 : t.val % 32 < 16 then step_B m c t h0 h1 S
  else if h2 : t.val % 32 = 16 then step_C m c t h2 S
  else if h3 : t.val % 32 < 31 then step_D m c t (by omega) h3 S
  else step_E m c t (by omega) S

/-- The scratch after point `n`, the row tile entered at `S₀`. -/
def tileRun (c : Dev nD) : (n : ℕ) → n < cfg0.N → St F → St F
  | 0, hn, S₀ => stepAt m c ⟨0, hn⟩ S₀
  | n + 1, hn, S₀ => if (n + 1) % 32 = 0 then stepAt m c ⟨n + 1, hn⟩ S₀
      else stepAt m c ⟨n + 1, hn⟩ (tileRun c n (Nat.lt_of_succ_lt hn) S₀)

theorem stepAt_A (c : Dev nD) (t : Fin cfg0.N) (h : t.val % 32 = 0) (S : St F) : stepAt m c t S = step_A m c t h S := dif_pos h
theorem stepAt_B (c : Dev nD) (t : Fin cfg0.N) (h0 : t.val % 32 ≠ 0) (h : t.val % 32 < 16) (S : St F) : stepAt m c t S = step_B m c t h0 h S :=
  (dif_neg h0).trans (dif_pos h)
theorem stepAt_C (c : Dev nD) (t : Fin cfg0.N) (h : t.val % 32 = 16) (S : St F) : stepAt m c t S = step_C m c t h S :=
  (dif_neg (by omega)).trans ((dif_neg (by omega)).trans (dif_pos h))
theorem stepAt_D (c : Dev nD) (t : Fin cfg0.N) (h0 : 16 < t.val % 32) (h : t.val % 32 < 31) (S : St F) : stepAt m c t S = step_D m c t h0 h S :=
  (dif_neg (by omega)).trans ((dif_neg (by omega)).trans ((dif_neg (by omega)).trans (dif_pos h)))
theorem stepAt_E (c : Dev nD) (t : Fin cfg0.N) (h : t.val % 32 = 31) (S : St F) : stepAt m c t S = step_E m c t h S :=
  (dif_neg (by omega)).trans ((dif_neg (by omega)).trans ((dif_neg (by omega)).trans (dif_neg (by omega))))

/-- At a row tile's first point the run restarts from the entry state. -/
theorem tileRun_first (c : Dev nD) (t : Fin cfg0.N) (h : t.val % 32 = 0) (S₀ : St F) :
    tileRun m c t.val t.isLt S₀ = stepAt m c t S₀ := by
  obtain ⟨n, hn⟩ := t
  cases n with
  | zero => rfl
  | succ n => exact if_pos h
/-- At any other point it continues from the point before. -/
theorem tileRun_next (c : Dev nD) (t : Fin cfg0.N) (h : t.val % 32 ≠ 0) (S₀ : St F) :
    tileRun m c t.val t.isLt S₀ = stepAt m c t (tileRun m c (t.val - 1) (Nat.lt_of_le_of_lt (Nat.sub_le _ _) t.isLt) S₀) := by
  obtain ⟨n, hn⟩ := t
  cases n with
  | zero => exact absurd (Nat.zero_mod _) h
  | succ n => exact if_neg h

/-- One staging buffer of each output window, through which its contents are stated. -/
abbrev VO4 : View sig .tc .vmem S512x1 .f32 := (Memref.whole cc0_stg4_0 : Memref sig .tc .vmem S512x1 .f32).view
abbrev VO5 : View sig .tc .vmem S512x1 .f32 := (Memref.whole cc0_stg5_0 : Memref sig .tc .vmem S512x1 .f32).view

/-- A scratch state nobody chose: the fixed entry state the proof data name the results from. -/
def St.junk : St F :=
  ⟨(scM0_0).view.read (Elt F) (scM0_0).view.junk, (scM0_1).view.read (Elt F) (scM0_1).view.junk, (scM0_2).view.read (Elt F) (scM0_2).view.junk,
   (scM0_3).view.read (Elt F) (scM0_3).view.junk, (scM0_4).view.read (Elt F) (scM0_4).view.junk, (scM0_5).view.read (Elt F) (scM0_5).view.junk,
   (scM0_6).view.read (Elt F) (scM0_6).view.junk, (scM0_7).view.read (Elt F) (scM0_7).view.junk⟩

/-- What the last point of a row tile stores into the two output windows' staging buffers, from the scratch it finds. -/
def out4_E (c : Dev nD) (t : Fin cfg0.N) (h : t.val % 32 = 31) (S : St F) : Vec F S512x1 .f32 :=
  VO4.read (Elt F) (VO4.writes (Elt F) VO4.junk (kernelRun_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) ((hcond5 t).mpr h) (iblk m c 0 t) (iblk m c 1 t) (iblk m c 2 t) (iblk m c 3 t) S.s0 S.s1 S.s2 S.s3 S.s4 S.s5 S.s6 S.s7).1)
def out5_E (c : Dev nD) (t : Fin cfg0.N) (h : t.val % 32 = 31) (S : St F) : Vec F S512x1 .f32 :=
  VO5.read (Elt F) (VO5.writes (Elt F) VO5.junk (kernelRun_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) ((hcond5 t).mpr h) (iblk m c 0 t) (iblk m c 1 t) (iblk m c 2 t) (iblk m c 3 t) S.s0 S.s1 S.s2 S.s3 S.s4 S.s5 S.s6 S.s7).2.1)

/-- What the proof data say the output windows' staging buffers hold after point `t` (consulted at the write-back
    points only: elsewhere the windows are idle). -/
def outAt4 (c : Dev nD) (t : Fin cfg0.N) : Vec F S512x1 .f32 :=
  if h : t.val % 32 = 31 then out4_E m c t h (tileRun m c (t.val - 1) (Nat.lt_of_le_of_lt (Nat.sub_le _ _) t.isLt) St.junk)
  else VO4.read (Elt F) VO4.junk
def outAt5 (c : Dev nD) (t : Fin cfg0.N) : Vec F S512x1 .f32 :=
  if h : t.val % 32 = 31 then out5_E m c t h (tileRun m c (t.val - 1) (Nat.lt_of_le_of_lt (Nat.sub_le _ _) t.isLt) St.junk)
  else VO5.read (Elt F) VO5.junk

/-- The eight scratch operands owned at a state. -/
def ownsSt (c : Dev nD) (S : St F) : sProp 𝕄 :=
  iprop(owns (c : Thread nD τ) scM0_0 fullShare S.s0 ∗ owns (c : Thread nD τ) scM0_1 fullShare S.s1 ∗ owns (c : Thread nD τ) scM0_2 fullShare S.s2
    ∗ owns (c : Thread nD τ) scM0_3 fullShare S.s3 ∗ owns (c : Thread nD τ) scM0_4 fullShare S.s4 ∗ owns (c : Thread nD τ) scM0_5 fullShare S.s5
    ∗ owns (c : Thread nD τ) scM0_6 fullShare S.s6 ∗ owns (c : Thread nD τ) scM0_7 fullShare S.s7)

/-- The region's invariant before position `n`: before the first point every scratch at anything; afterwards the scratch at
    the row tile's run from SOME entry state, and the generator register at some state. -/
def PhiS (c : Dev nD) : (n : ℕ) → n ≤ cfg0.N → sProp 𝕄
  | 0, _ => Pipeline.ΦA spec0 c
  | n + 1, hn => iprop(iprop(∃ S₀ : St F, ownsSt c (tileRun m c n hn S₀)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(∃ S₀ : St F, ownsSt c (tileRun m c n hn S₀)) ∗ (∃ r, prngReg c r)) := rfl
theorem PhiS_pos (c : Dev nD) (n : ℕ) (h : n ≤ cfg0.N) (hz : n ≠ 0) :
    PhiS m c n h = iprop(iprop(∃ S₀ : St F, ownsSt c (tileRun m c (n - 1) (by omega) S₀)) ∗ (∃ r, prngReg c r)) := by
  cases n with
  | zero => exact absurd rfl hz
  | succ n => rfl

/-- The proof data of the one pipeline on core `c`. The embedding table's share is dealt in halves to the two windows
    that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt4 m c t
    | ⟨5, _⟩ => outAt5 m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt4 m c t := by dsimp only [dats]
theorem after_5 (c : Dev nD) (t : Fin cfg0.N) : (dats m 0 c).after 5 t = outAt5 m c t := by dsimp only [dats]

/-- Each input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- What a row tile's last point stores does not depend on the scratch the tile was entered with. -/
def Indep : Prop := ∀ (c : Dev nD) (t : Fin cfg0.N) (h : t.val % 32 = 31) (S₀ : St F),
  out4_E m c t h (tileRun m c (t.val - 1) (Nat.lt_of_le_of_lt (Nat.sub_le _ _) t.isLt) S₀) = outAt4 m c t
  ∧ out5_E m c t h (tileRun m c (t.val - 1) (Nat.lt_of_le_of_lt (Nat.sub_le _ _) t.isLt) S₀) = outAt5 m c t

end Cert.KernelIdeal.Data

end
-- ==== Proof.LibColumn.lean ====
/-
  Column-shaped layout operations read at an index: a column [a, 1] flattened to [a] and back, a column
  broadcast along its rows to [a, b], and a lane reduction of an [a, b] array read at a row as a sum or a
  maximum over the row. Each says which single element (or which row) of the operand an element of the result reads.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnIdx

open Idealize.ShloMosaic ValueIdx

variable {α : Type}

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of an `[a, b]` array (a `multi_reduction <add>` over axis 1 from the zero word), read at row `p`
    at the ideal instance: the sum of the row. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (funext fun ax => Fin.ext (by
      match ax with
      | ⟨0, _⟩ => rfl
      | ⟨1, _⟩ => rfl)))

/-- A lane maximum of an `[a, b]` array (a `multi_reduction <maximumf>` over axis 1 from the word of -∞), read at row
    `p` at the ideal instance: the fold of `max` over the row, from -∞. -/
theorem rowMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src _ h hφ hacc (ix1 p)).trans
    (congrArg ((Finset.univ : Finset (Fin b)).fold max (Ideal.ofBits .f32 0xFF800000#32)) (funext fun k =>
      congrArg src (funext fun ax => Fin.ext (by
        match ax with
        | ⟨0, _⟩ => rfl
        | ⟨1, _⟩ => rfl))))

/-- Seven columns `[a, 1]` joined side by side into `[a, 7]`: entry `(p, k)` is column `k`'s entry of row `p`. -/
theorem concat7_apply {a : ℕ} (x0 x1 x2 x3 x4 x5 x6 : (⟨2, ![a, 1]⟩ : Shape).Idx → α)
    (h : Shape.Concatenates (([⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] : List ((s : Shape) × (s.Idx → α))).map (·.1)) ⟨2, ![a, 7]⟩ 1)
    (p : Fin a) (k : Fin 7) :
    concatenate ⟨2, ![a, 7]⟩ 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] h (ix2 p k) = (![x0, x1, x2, x3, x4, x5, x6] k) (ix2 p (0 : Fin 1)) := by
  have hi : ∀ (n : Fin 7) (b : Fin (⟨2, ![a, 1]⟩ : Shape).rank), b.cast (rfl : (2 : ℕ) = 2) ≠ (1 : Fin 2) →
      ((ix2 p (0 : Fin 1) : (⟨2, ![a, 1]⟩ : Shape).Idx) b).val = ((ix2 p n : (⟨2, ![a, 7]⟩ : Shape).Idx) (b.cast rfl)).val := by
    intro n b hb
    match b with
    | ⟨0, _⟩ => rfl
    | ⟨1, _⟩ => exact absurd rfl hb
  match k with
  | ⟨0, _⟩ => exact concatenate_apply_piece 1 _ h _ 0 (by simp) _ x0 rfl rfl 0 rfl (ix2 p (0 : Fin 1)) (hi 0) rfl
  | ⟨1, _⟩ => exact concatenate_apply_piece 1 _ h _ 1 (by simp) _ x1 rfl rfl 1 rfl (ix2 p (0 : Fin 1)) (hi 1) rfl
  | ⟨2, _⟩ => exact concatenate_apply_piece 1 _ h _ 2 (by simp) _ x2 rfl rfl 2 rfl (ix2 p (0 : Fin 1)) (hi 2) rfl
  | ⟨3, _⟩ => exact concatenate_apply_piece 1 _ h _ 3 (by simp) _ x3 rfl rfl 3 rfl (ix2 p (0 : Fin 1)) (hi 3) rfl
  | ⟨4, _⟩ => exact concatenate_apply_piece 1 _ h _ 4 (by simp) _ x4 rfl rfl 4 rfl (ix2 p (0 : Fin 1)) (hi 4) rfl
  | ⟨5, _⟩ => exact concatenate_apply_piece 1 _ h _ 5 (by simp) _ x5 rfl rfl 5 rfl (ix2 p (0 : Fin 1)) (hi 5) rfl
  | ⟨6, _⟩ => exact concatenate_apply_piece 1 _ h _ 6 (by simp) _ x6 rfl rfl 6 rfl (ix2 p (0 : Fin 1)) (hi 6) rfl

end Idealize.ShloMosaic.ColumnIdx

end
-- ==== Proof.PayloadsIdeal.lean ====
/-
  The kernel's stored values read at an index, at the ideal instance: each pure value the kernel body stores is a
  definition over the vectors loaded before it; here each is read at explicit coordinates as a closed formula on the
  extended reals (sums over a row, maxima and minima over a row, products over the contracted axis), with the float
  literals kept as the words the program prints.
-/
import proofs.«140287_j55817394979145_2_alg».proof.Proof.Gen.KernelIdeal.Skeleton
import proofs.«140287_j55817394979145_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Idealize.ShloMosaic.ColumnIdx
open Cert.KernelIdeal Cert.KernelIdeal.Gen

/-! ## Integer vector operations read at an index (definitional) -/

section IntAt
variable {s : Shape} {w : ℕ}

/-- A lanewise conjunction at an index. -/
theorem andi_apply (x y : IVec s w) (j : s.Idx) : andi x y j = IntOp.andi (x j) (y j) := rfl
/-- A lanewise exclusive-or at an index. -/
theorem xori_apply (x y : IVec s w) (j : s.Idx) : xori x y j = IntOp.xori (x j) (y j) := rfl
/-- A lanewise sum of words at an index. -/
theorem addi_apply (x y : IVec s w) (j : s.Idx) : addi x y j = IntOp.addi (x j) (y j) := rfl
/-- A lanewise integer comparison at an index. -/
theorem cmpi_apply (p : CmpIPredicate) (x y : IVec s w) (j : s.Idx) : cmpi p x y j = IntOp.cmpi p (x j) (y j) := rfl

end IntAt

/-- On one bit, exclusive-or with 1 is set exactly when the bit is not. -/
theorem xori_one_eq_one_iff : ∀ b : BitVec 1, IntOp.xori b 1#1 = 1#1 ↔ ¬ b = 1#1 := by decide

/-- Two row or column numbers below 8192, written as 512 times a tile number plus an offset in 32-bit words, are equal
    as words exactly when they are equal as numbers. -/
theorem tile_word_eq_iff {a b p q : ℕ} (ha : a < 16) (hb : b < 16) (hp : p < 512) (hq : q < 512) :
    IntOp.addi (Scalar.muli (BitVec.ofNat 32 a) 512#32) (BitVec.ofNat 32 p)
        = IntOp.addi (Scalar.muli (BitVec.ofNat 32 b) 512#32) (BitVec.ofNat 32 q)
      ↔ 512 * a + p = 512 * b + q := by
  unfold IntOp.addi Scalar.muli IntOp.muli
  rw [← BitVec.toNat_inj]
  simp only [BitVec.toNat_add, BitVec.toNat_mul, BitVec.toNat_ofNat]
  norm_num
  omega

/-! ## The similarity block: a product of two blocks contracted along their second axes -/

/-- The block product at (r, c): the sum over the contracted coordinate of the products of row r of the left block and
    row c of the right block (both operands are contracted along axis 1; the accumulator is the zero splat). -/
theorem pay15_apply (v44 v47 : Vec Ideal S512x512 .bf16) (r c : Fin 512) :
    Gen.k0_pay15 v44 v47 (ix2 r c) = ∑ k : Fin 512, v44 (ix2 r k) * v47 (ix2 c k) := by
  unfold Gen.k0_pay15
  simp only [shapeCast_self, matmul]
  rw [Ideal.matmul_constant_zero_apply,
    ← Equiv.sum_comp (contrEquiv1 dot_S512x512_S512x512_S512x512_1_1_0_0_n_n 512 rfl rfl).symm]
  refine Finset.sum_congr rfl fun k _ => ?_
  have ck := contrEquiv1_symm_val dot_S512x512_S512x512_S512x512_1_1_0_0_n_n 512 rfl rfl k
  have hl : dot_S512x512_S512x512_S512x512_1_1_0_0_n_n.lhsIdx (ix2 r c)
      ((contrEquiv1 dot_S512x512_S512x512_S512x512_1_1_0_0_n_n 512 rfl rfl).symm k) = ix2 r k := by
    funext ax; apply Fin.ext
    match ax with
    | ⟨0, _⟩ => simp [DotDims.lhsIdx, dot_S512x512_S512x512_S512x512_1_1_0_0_n_n]; rfl
    | ⟨1, _⟩ => simp [DotDims.lhsIdx, dot_S512x512_S512x512_S512x512_1_1_0_0_n_n]; exact ck
  have hr : dot_S512x512_S512x512_S512x512_1_1_0_0_n_n.rhsIdx (ix2 r c)
      ((contrEquiv1 dot_S512x512_S512x512_S512x512_1_1_0_0_n_n 512 rfl rfl).symm k) = ix2 c k := by
    funext ax; apply Fin.ext
    match ax with
    | ⟨0, _⟩ => simp [DotDims.rhsIdx, dot_S512x512_S512x512_S512x512_1_1_0_0_n_n]; rfl
    | ⟨1, _⟩ => simp [DotDims.rhsIdx, dot_S512x512_S512x512_S512x512_1_1_0_0_n_n]; exact ck
  rw [hl, hr]

/-- The stored block is the product itself (a cast to its own shape). -/
theorem pay16_apply (v44 v47 : Vec Ideal S512x512 .bf16) (r c : Fin 512) :
    Gen.k0_pay16 v44 v47 (ix2 r c) = ∑ k : Fin 512, v44 (ix2 r k) * v47 (ix2 c k) := by
  unfold Gen.k0_pay16
  simp only [shapeCast_self]
  exact pay15_apply v44 v47 r c

/-! ## The three masks -/

/-- The same-label mask at (r, c): set exactly when row r's label is column c's label. -/
theorem pay10_apply (v13 : Vec Ideal S512x1 .i32) (v15 : Vec Ideal S1x512 .i32) (r c : Fin 512) :
    Gen.k0_pay10 v13 v15 (ix2 r c) = 1#1 ↔ v13 (ix2 r (0 : Fin 1)) = v15 (ix2 (0 : Fin 1) c) := by
  unfold Gen.k0_pay10
  simp only [shapeCast_self]
  show IntOp.cmpi .eq (broadcastTo S512x512 v13 broadcasts_S512x1_S512x512 (ix2 r c))
    (broadcastTo S512x512 v15 broadcasts_S1x512_S512x512 (ix2 r c)) = 1#1 ↔ _
  rw [broadcastTo_a1_ab_apply, broadcastTo_1b_ab_apply]
  exact IntOp.cmpi_eq

/-- The negative mask at (r, c): set exactly when the two labels differ. -/
theorem pay12_apply (v13 : Vec Ideal S512x1 .i32) (v15 : Vec Ideal S1x512 .i32) (r c : Fin 512) :
    Gen.k0_pay12 v13 v15 (ix2 r c) = 1#1 ↔ v13 (ix2 r (0 : Fin 1)) ≠ v15 (ix2 (0 : Fin 1) c) := by
  rw [Ne, ← pay10_apply v13 v15 r c]
  unfold Gen.k0_pay12
  show IntOp.xori (Gen.k0_pay10 v13 v15 (ix2 r c)) 1#1 = 1#1 ↔ _
  generalize Gen.k0_pay10 v13 v15 (ix2 r c) = b
  revert b
  decide

/-- The positive mask at (r, c): set exactly when the labels agree and the entry is off the diagonal of the whole
    matrix, row tile `i 0` and column tile `i 2` placing (r, c) at row 512·(i 0) + r and column 512·(i 2) + c. -/
theorem pay11_apply (i : grid0.Coords) (v13 : Vec Ideal S512x1 .i32) (v15 : Vec Ideal S1x512 .i32) (r c : Fin 512) :
    Gen.k0_pay11 i v13 v15 (ix2 r c) = 1#1
      ↔ v13 (ix2 r (0 : Fin 1)) = v15 (ix2 (0 : Fin 1) c) ∧ 512 * (i 0).val + r.val ≠ 512 * (i 2).val + c.val := by
  have h0 : (i 0).val < 16 := (i 0).isLt
  have h2 : (i 2).val < 16 := (i 2).isLt
  unfold Gen.k0_pay11
  simp only []
  rw [andi_apply, IntOp.andi_eq_one, pay10_apply, xori_apply, constantI_apply, xori_one_eq_one_iff, cmpi_apply,
    IntOp.cmpi_eq, broadcastTo_a1_ab_apply, broadcastTo_1b_ab_apply, addi_apply, addi_apply, broadcast_apply,
    broadcast_apply, iota_single_apply, iota_single_apply]
  exact and_congr_right fun _ => not_congr (tile_word_eq_iff h0 h2 r.isLt c.isLt)

/-! ## The running thresholds: the carried value against the masked row's maximum or minimum -/

/-- A lane minimum of an `[a, b]` array (a minimum reduction over axis 1 from the word of +∞), read at row `p` at the
    ideal instance: the fold of `min` over the row, from +∞. -/
theorem rowMin_apply {a b : ℕ} (src : FVec Ideal ⟨2, ![a, b]⟩ .f32) (h : Shape.Reduces ⟨2, ![a, b]⟩ [1] ⟨1, ![a]⟩)
    (hφ : FKind.Formats .f32) (hacc : (0x7F800000#32 : BitVec 32) = FKind.minimumf.neutral .f32 hφ) (p : Fin a) :
    multiReduction .minimumf [1] ⟨1, ![a]⟩ src 0x7F800000#32 h hφ hacc (ix1 p)
      = (Finset.univ : Finset (Fin b)).fold min (Ideal.ofBits .f32 0x7F800000#32) (fun k => src (ix2 p k)) := by
  rw [multiReduction_minimumf_eq_fold]
  refine (h.fold_filter_drop_single _ _ src (ix1 p)).trans ?_
  exact congrArg ((Finset.univ : Finset (Fin b)).fold min (Ideal.ofBits .f32 0x7F800000#32)) (funext fun k =>
    congrArg src (funext fun ax => Fin.ext (by
      match ax with
      | ⟨0, _⟩ => rfl
      | ⟨1, _⟩ => rfl)))

/-- The running maximum over positives at row r: the carried value against the maximum, from −∞, over the row of the
    block masked by the positive mask (an entry off the mask reads the word of −1e9). -/
theorem pay17_apply (i : grid0.Coords) (v13 : Vec Ideal S512x1 .i32) (v15 : Vec Ideal S1x512 .i32)
    (v44 v47 : Vec Ideal S512x512 .bf16) (v62 : Vec Ideal S512x1 .f32) (r : Fin 512) :
    Gen.k0_pay17 i v13 v15 v44 v47 v62 (ix2 r (0 : Fin 1))
      = max (v62 (ix2 r (0 : Fin 1)))
          ((Finset.univ : Finset (Fin 512)).fold max (Ideal.ofBits .f32 0xFF800000#32) fun c =>
            if Gen.k0_pay11 i v13 v15 (ix2 r c) = 1#1 then Gen.k0_pay15 v44 v47 (ix2 r c)
            else Ideal.ofBits .f32 0xCE6E6B28#32) := by
  unfold Gen.k0_pay17
  simp only [shapeCast_self]
  rw [maximumf_apply, shapeCast_a_a1_apply]
  exact congrArg (max (v62 (ix2 r (0 : Fin 1)))) (rowMax_apply _ _ _ _ r)

/-- The running minimum over negatives at row r: the carried value against the minimum, from +∞, over the row of the
    block masked by the negative mask (an entry off the mask reads the word of +1e9). -/
theorem pay18_apply (v13 : Vec Ideal S512x1 .i32) (v15 : Vec Ideal S1x512 .i32)
    (v44 v47 : Vec Ideal S512x512 .bf16) (v67 : Vec Ideal S512x1 .f32) (r : Fin 512) :
    Gen.k0_pay18 v13 v15 v44 v47 v67 (ix2 r (0 : Fin 1))
      = min (v67 (ix2 r (0 : Fin 1)))
          ((Finset.univ : Finset (Fin 512)).fold min (Ideal.ofBits .f32 0x7F800000#32) fun c =>
            if Gen.k0_pay12 v13 v15 (ix2 r c) = 1#1 then Gen.k0_pay15 v44 v47 (ix2 r c)
            else Ideal.ofBits .f32 0x4E6E6B28#32) := by
  unfold Gen.k0_pay18
  simp only [shapeCast_self]
  rw [minimumf_apply, shapeCast_a_a1_apply]
  exact congrArg (min (v67 (ix2 r (0 : Fin 1)))) (rowMin_apply _ _ _ _ r)

/-! ## The indicators as floats, and the exponential weight -/

/-- A bit widened to a 32-bit word and read signed is 1 when set and 0 when not. -/
theorem toInt_setWidth_bit : ∀ b : BitVec 1, (b.setWidth 32).toInt = if b = 1#1 then (1 : ℤ) else 0 := by decide

/-- So a bit widened to a word and converted to a float is 1 when set and 0 when not. -/
theorem sitofp_extui_bit (b : BitVec 1) :
    (FloatOps.sitofp (F := Ideal) .f32 (b.setWidth 32) : EReal) = if b = 1#1 then 1 else 0 := by
  show ((((b.setWidth 32).toInt : ℤ) : ℝ) : EReal) = _
  rw [toInt_setWidth_bit]
  split <;> simp

/-- The same with the bit's meaning named. -/
theorem bit_float_eq (b : BitVec 1) (P : Prop) [Decidable P] (h : b = 1#1 ↔ P) :
    (FloatOps.sitofp (F := Ideal) .f32 (b.setWidth 32) : EReal) = if P then 1 else 0 := by
  rw [sitofp_extui_bit]
  by_cases hp : P
  · rw [if_pos hp, if_pos (h.mpr hp)]
  · rw [if_neg hp, if_neg (mt h.mp hp)]

/-- The ordered "less than" on the extended reals, as a bit. -/
theorem cmpf_olt_eq_one_iff (x y : EReal) : FloatOps.cmpf (F := Ideal) (φ := .f32) .olt x y = 1#1 ↔ x < y := by
  show BitVec.ofBool (decide (x < y)) = 1#1 ↔ _
  by_cases h : x < y <;> simp [h]

/-- The ordered "greater than" on the extended reals, as a bit. -/
theorem cmpf_ogt_eq_one_iff (x y : EReal) : FloatOps.cmpf (F := Ideal) (φ := .f32) .ogt x y = 1#1 ↔ y < x := by
  show BitVec.ofBool (decide (y < x)) = 1#1 ↔ _
  by_cases h : y < x <;> simp [h]

/-- The selected-negative indicator at (r, c): 1 when the negative mask is set and the similarity is below the row's
    threshold (the running maximum over positives), else 0. -/
theorem pay5_apply (v22 : IVec S512x512 1) (v45 : Vec Ideal S512x512 .f32) (v46 : Vec Ideal S512x1 .f32)
    (r c : Fin 512) :
    Gen.k0_pay5 v22 v45 v46 (ix2 r c)
      = if v22 (ix2 r c) = 1#1 ∧ v45 (ix2 r c) < v46 (ix2 r (0 : Fin 1)) then (1 : EReal) else 0 := by
  unfold Gen.k0_pay5
  rw [sitofp_apply, extui_apply, andi_apply, cmpf_apply, broadcastTo_a1_ab_apply]
  exact bit_float_eq _ _ (IntOp.andi_eq_one.trans (and_congr_right fun _ => cmpf_olt_eq_one_iff _ _))

/-- The selected-positive indicator at (r, c): 1 when the positive mask is set and the similarity is above the row's
    threshold (the running minimum over negatives), else 0. -/
theorem pay6_apply (v21 : IVec S512x512 1) (v45 : Vec Ideal S512x512 .f32) (v47 : Vec Ideal S512x1 .f32)
    (r c : Fin 512) :
    Gen.k0_pay6 v21 v45 v47 (ix2 r c)
      = if v21 (ix2 r c) = 1#1 ∧ v47 (ix2 r (0 : Fin 1)) < v45 (ix2 r c) then (1 : EReal) else 0 := by
  unfold Gen.k0_pay6
  rw [sitofp_apply, extui_apply, andi_apply, cmpf_apply, broadcastTo_a1_ab_apply]
  exact bit_float_eq _ _ (IntOp.andi_eq_one.trans (and_congr_right fun _ => cmpf_ogt_eq_one_iff _ _))

/-- The exponential weight at (r, c): exp (40 · (similarity − 0.5)), the two literals as the program's words. -/
theorem pay7_apply (v45 : Vec Ideal S512x512 .f32) (r c : Fin 512) :
    Gen.k0_pay7 v45 (ix2 r c)
      = Ideal.exp (Ideal.ofBits .f32 0x42200000#32 * (v45 (ix2 r c) - Ideal.ofBits .f32 0x3F000000#32)) := by
  unfold Gen.k0_pay7
  rfl

/-! ## The five running sums: the carried column plus the row's sum -/

/-- The count of selected negatives: the carried value plus the sum of the row of indicators. -/
theorem pay1_apply (v55 : FVec Ideal S512x512 .f32) (v80 : Vec Ideal S512x1 .f32) (r : Fin 512) :
    Gen.k0_pay1 v55 v80 (ix2 r (0 : Fin 1)) = v80 (ix2 r (0 : Fin 1)) + ∑ c : Fin 512, v55 (ix2 r c) := by
  unfold Gen.k0_pay1
  simp only [shapeCast_self]
  rw [addf_apply, shapeCast_a_a1_apply]
  exact congrArg (v80 (ix2 r (0 : Fin 1)) + ·) (rowSum_apply _ _ _ _ r)

/-- The exponential sum over the selected negatives: the carried value plus the row's sum of indicator times weight. -/
theorem pay2_apply (v55 v62 : FVec Ideal S512x512 .f32) (v87 : Vec Ideal S512x1 .f32) (r : Fin 512) :
    Gen.k0_pay2 v55 v62 v87 (ix2 r (0 : Fin 1))
      = v87 (ix2 r (0 : Fin 1)) + ∑ c : Fin 512, v55 (ix2 r c) * v62 (ix2 r c) := by
  unfold Gen.k0_pay2
  simp only [shapeCast_self]
  rw [addf_apply, shapeCast_a_a1_apply]
  exact congrArg (v87 (ix2 r (0 : Fin 1)) + ·) (rowSum_apply _ _ _ _ r)

/-- The similarity sum over the selected negatives: the carried value plus the row's sum of indicator times similarity. -/
theorem pay3_apply (v45 : Vec Ideal S512x512 .f32) (v55 : FVec Ideal S512x512 .f32) (v95 : Vec Ideal S512x1 .f32)
    (r : Fin 512) :
    Gen.k0_pay3 v45 v55 v95 (ix2 r (0 : Fin 1))
      = v95 (ix2 r (0 : Fin 1)) + ∑ c : Fin 512, v55 (ix2 r c) * v45 (ix2 r c) := by
  unfold Gen.k0_pay3
  simp only [shapeCast_self]
  rw [addf_apply, shapeCast_a_a1_apply]
  exact congrArg (v95 (ix2 r (0 : Fin 1)) + ·) (rowSum_apply _ _ _ _ r)

/-- The loss sum over the selected positives: the carried value plus the row's sum of indicator times (1 - similarity). -/
theorem pay8_apply (v21 : IVec S512x512 1) (v45 : Vec Ideal S512x512 .f32) (v47 v63 : Vec Ideal S512x1 .f32)
    (r : Fin 512) :
    Gen.k0_pay8 v21 v45 v47 v63 (ix2 r (0 : Fin 1))
      = v63 (ix2 r (0 : Fin 1))
        + ∑ c : Fin 512, Gen.k0_pay6 v21 v45 v47 (ix2 r c) * (Ideal.ofBits .f32 0x3F800000#32 - v45 (ix2 r c)) := by
  unfold Gen.k0_pay8
  simp only [shapeCast_self]
  rw [addf_apply, shapeCast_a_a1_apply]
  exact congrArg (v63 (ix2 r (0 : Fin 1)) + ·) (rowSum_apply _ _ _ _ r)

/-- The count of selected positives: the carried value plus the sum of the row of indicators. -/
theorem pay9_apply (v21 : IVec S512x512 1) (v45 : Vec Ideal S512x512 .f32) (v47 v73 : Vec Ideal S512x1 .f32)
    (r : Fin 512) :
    Gen.k0_pay9 v21 v45 v47 v73 (ix2 r (0 : Fin 1))
      = v73 (ix2 r (0 : Fin 1)) + ∑ c : Fin 512, Gen.k0_pay6 v21 v45 v47 (ix2 r c) := by
  unfold Gen.k0_pay9
  simp only [shapeCast_self]
  rw [addf_apply, shapeCast_a_a1_apply]
  exact congrArg (v73 (ix2 r (0 : Fin 1)) + ·) (rowSum_apply _ _ _ _ r)

/-! ## The row's loss -/

/-- A select on an ordered "greater than" is the `if` on the order. -/
theorem select_cmpf_ogt (x y a b : EReal) :
    Scalar.select (FloatOps.cmpf (F := Ideal) (φ := .f32) .ogt x y) a b = if y < x then a else b := by
  unfold Scalar.select
  by_cases h : y < x
  · rw [if_pos h]
    exact if_pos ((cmpf_ogt_eq_one_iff x y).mpr h)
  · rw [if_neg h]
    exact if_neg (mt (cmpf_ogt_eq_one_iff x y).mp h)

/-- The row's loss at row r, from the five sums: where the positive count is above zero, the positive loss sum divided
    by the count raised to at least one, else zero; plus, where the negative count is above zero, 0.05 · log1p of the
    exponential sum plus the negative similarity sum divided by the count raised to at least one, else zero. The
    division, `log1p` and the order are the ideal instance's; the literals are the program's words. -/
theorem pay4_apply (v44 v45 v48 v54 v60 : Vec Ideal S512x1 .f32) (r : Fin 512) :
    Gen.k0_pay4 v44 v45 v48 v54 v60 (ix2 r (0 : Fin 1))
      = (if Ideal.ofBits .f32 0x00000000#32 < v44 (ix2 r (0 : Fin 1))
          then Ideal.div (v48 (ix2 r (0 : Fin 1))) (max (v44 (ix2 r (0 : Fin 1))) (Ideal.ofBits .f32 0x3F800000#32))
          else Ideal.ofBits .f32 0x00000000#32)
        + (if Ideal.ofBits .f32 0x00000000#32 < v45 (ix2 r (0 : Fin 1))
          then Ideal.ofBits .f32 0x3D4CCCCD#32 * Ideal.log1p (v60 (ix2 r (0 : Fin 1)))
            + Ideal.div (v54 (ix2 r (0 : Fin 1))) (max (v45 (ix2 r (0 : Fin 1))) (Ideal.ofBits .f32 0x3F800000#32))
          else Ideal.ofBits .f32 0x00000000#32) := by
  unfold Gen.k0_pay4
  rw [addf_apply, select_apply, select_apply, cmpf_apply, cmpf_apply, select_cmpf_ogt, select_cmpf_ogt]
  rfl

/-! ## The constant columns: the two threshold seeds and the five zeros -/

/-- The seed of the running maximum over positives: the word of -1e9 at every row. -/
theorem pay13_apply (r : Fin 512) :
    Gen.k0_pay13 (F := Ideal) (ix2 r (0 : Fin 1)) = Ideal.ofBits .f32 0xCE6E6B28#32 := by
  unfold Gen.k0_pay13
  simp only [shapeCast_self]
  rfl

/-- The seed of the running minimum over negatives: the word of +1e9 at every row. -/
theorem pay14_apply (r : Fin 512) :
    Gen.k0_pay14 (F := Ideal) (ix2 r (0 : Fin 1)) = Ideal.ofBits .f32 0x4E6E6B28#32 := by
  unfold Gen.k0_pay14
  simp only [shapeCast_self]
  rfl

/-- The five running sums start from the zero word. -/
theorem pay19_apply (r : Fin 512) :
    Gen.k0_pay19 (F := Ideal) (ix2 r (0 : Fin 1)) = Ideal.ofBits .f32 0x00000000#32 := by
  unfold Gen.k0_pay19
  simp only [shapeCast_self]
  rfl

theorem pay20_apply (r : Fin 512) :
    Gen.k0_pay20 (F := Ideal) (ix2 r (0 : Fin 1)) = Ideal.ofBits .f32 0x00000000#32 := by
  unfold Gen.k0_pay20
  simp only [shapeCast_self]
  rfl

theorem pay21_apply (r : Fin 512) :
    Gen.k0_pay21 (F := Ideal) (ix2 r (0 : Fin 1)) = Ideal.ofBits .f32 0x00000000#32 := by
  unfold Gen.k0_pay21
  simp only [shapeCast_self]
  rfl

theorem pay22_apply (r : Fin 512) :
    Gen.k0_pay22 (F := Ideal) (ix2 r (0 : Fin 1)) = Ideal.ofBits .f32 0x00000000#32 := by
  unfold Gen.k0_pay22
  simp only [shapeCast_self]
  rfl

theorem pay23_apply (r : Fin 512) :
    Gen.k0_pay23 (F := Ideal) (ix2 r (0 : Fin 1)) = Ideal.ofBits .f32 0x00000000#32 := by
  unfold Gen.k0_pay23
  simp only [shapeCast_self]
  rfl

/-! ## The reduction seeds evaluated: the thresholds as a supremum and an infimum over the row -/

/-- The word the maximum reduction starts from denotes −∞, the bottom of the extended reals. -/
theorem ofBits_neg_inf_f32 : Ideal.ofBits .f32 0xFF800000#32 = ⊥ := by simp [Ideal.ofBits, Ideal.ieee]

/-- The word the minimum reduction starts from denotes +∞, the top of the extended reals. -/
theorem ofBits_pos_inf_f32 : Ideal.ofBits .f32 0x7F800000#32 = ⊤ := by simp [Ideal.ofBits, Ideal.ieee]

/-- A fold of `max` from the bottom is the supremum over the set. -/
theorem fold_max_bot_eq_sup {ι : Type} (s : Finset ι) (f : ι → EReal) : s.fold max ⊥ f = s.sup f := by
  unfold Finset.sup
  congr 1

/-- A fold of `min` from the top is the infimum over the set. -/
theorem fold_min_top_eq_inf {ι : Type} (s : Finset ι) (f : ι → EReal) : s.fold min ⊤ f = s.inf f := by
  unfold Finset.inf
  congr 1

/-- The running maximum over positives at row r, with the seed evaluated: the carried value against the supremum over
    the row of the block masked by the positive mask. -/
theorem pay17_apply_sup (i : grid0.Coords) (v13 : Vec Ideal S512x1 .i32) (v15 : Vec Ideal S1x512 .i32)
    (v44 v47 : Vec Ideal S512x512 .bf16) (v62 : Vec Ideal S512x1 .f32) (r : Fin 512) :
    Gen.k0_pay17 i v13 v15 v44 v47 v62 (ix2 r (0 : Fin 1))
      = max (v62 (ix2 r (0 : Fin 1)))
          ((Finset.univ : Finset (Fin 512)).sup fun c =>
            if Gen.k0_pay11 i v13 v15 (ix2 r c) = 1#1 then Gen.k0_pay15 v44 v47 (ix2 r c)
            else Ideal.ofBits .f32 0xCE6E6B28#32) := by
  rw [pay17_apply, ofBits_neg_inf_f32, fold_max_bot_eq_sup]

/-- The running minimum over negatives at row r, with the seed evaluated: the carried value against the infimum over
    the row of the block masked by the negative mask. -/
theorem pay18_apply_inf (v13 : Vec Ideal S512x1 .i32) (v15 : Vec Ideal S1x512 .i32)
    (v44 v47 : Vec Ideal S512x512 .bf16) (v67 : Vec Ideal S512x1 .f32) (r : Fin 512) :
    Gen.k0_pay18 v13 v15 v44 v47 v67 (ix2 r (0 : Fin 1))
      = min (v67 (ix2 r (0 : Fin 1)))
          ((Finset.univ : Finset (Fin 512)).inf fun c =>
            if Gen.k0_pay12 v13 v15 (ix2 r c) = 1#1 then Gen.k0_pay15 v44 v47 (ix2 r c)
            else Ideal.ofBits .f32 0x4E6E6B28#32) := by
  rw [pay18_apply, ofBits_pos_inf_f32, fold_min_top_eq_inf]

/-- The fill of the masked entries on the maximum side denotes −10⁹. -/
theorem ofBits_neg_1e9_f32 : Ideal.ofBits .f32 0xCE6E6B28#32 = ((-1000000000 : ℝ) : EReal) := by
  simp [Ideal.ofBits, Ideal.ieee, -EReal.coe_mul]; norm_num

/-- The fill of the masked entries on the minimum side denotes 10⁹. -/
theorem ofBits_pos_1e9_f32 : Ideal.ofBits .f32 0x4E6E6B28#32 = ((1000000000 : ℝ) : EReal) := by
  simp [Ideal.ofBits, Ideal.ieee, -EReal.coe_mul]; norm_num

end Cert.KernelIdeal.Pay

end
-- ==== Proof.Spec.lean ====
/-
  What both programs compute, as functions of the embedding table e (8192 rows of 512 extended reals) and the labels.

  sim r c is the inner product of rows r and c.  Column c is a POSITIVE of row r when the labels agree and c ≠ r, a
  NEGATIVE when the labels differ.  The row's thresholds are the largest similarity among its positives and the
  smallest among its negatives, every other column standing in with the sentinel -10⁹ (resp. +10⁹); since the diagonal
  column is neither a positive nor a negative, the sentinel is always among the values, so a running maximum seeded with
  the sentinel is the row's maximum.  A negative is SELECTED when its similarity is below the positive threshold, a
  positive when above the negative threshold.  The row's loss is the mean of 1 - sim over the selected positives (0 if
  there is none) plus (1/20)·log(1 + Σ exp(40·(sim - 1/2))) + the mean of sim, both over the selected negatives (0 if there
  is none).  The second result counts the selected negatives of each row.
-/
import Idealize.ShloMosaic.PureOps.Ideal
import Idealize.ShloMosaic.Lib.ValueIdx

noncomputable section

namespace Cert.Spec

open Idealize.ShloMosaic Idealize.ShloMosaic.ValueIdx
open Classical

abbrev S8192x512 : Shape := ⟨2, ![8192, 512]⟩
abbrev S8192 : Shape := ⟨1, ![8192]⟩
abbrev S8192x1 : Shape := ⟨2, ![8192, 1]⟩

/-- The literals, as both programs carry them. -/
def negBig : EReal := Ideal.ofBits .f32 0xCE6E6B28#32
def posBig : EReal := Ideal.ofBits .f32 0x4E6E6B28#32
def one : EReal := Ideal.ofBits .f32 0x3F800000#32
def half : EReal := Ideal.ofBits .f32 0x3F000000#32
def forty : EReal := Ideal.ofBits .f32 0x42200000#32
def inv20 : EReal := Ideal.ofBits .f32 0x3D4CCCCD#32

variable (e : Vec Ideal S8192x512 .f32) (lab : IVec S8192 32)

/-- The similarity of rows r and c. -/
def sim (r c : Fin 8192) : EReal := ∑ k : Fin 512, e (ix2 r k) * e (ix2 c k)
def same (r c : Fin 8192) : Prop := lab (ix1 r) = lab (ix1 c)
def pos (r c : Fin 8192) : Prop := same lab r c ∧ r ≠ c
def neg (r c : Fin 8192) : Prop := ¬ same lab r c

/-- The row's thresholds. -/
def maxPos (r : Fin 8192) : EReal := Finset.univ.sup fun c : Fin 8192 => if pos lab r c then sim e r c else negBig
def minNeg (r : Fin 8192) : EReal := Finset.univ.inf fun c : Fin 8192 => if neg lab r c then sim e r c else posBig

def negSel (r c : Fin 8192) : Prop := neg lab r c ∧ sim e r c < maxPos e lab r
def posSel (r c : Fin 8192) : Prop := pos lab r c ∧ minNeg e lab r < sim e r c

def posCnt (r : Fin 8192) : ℕ := (Finset.univ.filter fun c : Fin 8192 => posSel e lab r c).card
def negCnt (r : Fin 8192) : ℕ := (Finset.univ.filter fun c : Fin 8192 => negSel e lab r c).card

def posSum (r : Fin 8192) : EReal := ∑ c : Fin 8192, if posSel e lab r c then one - sim e r c else 0
def expSum (r : Fin 8192) : EReal := ∑ c : Fin 8192, if negSel e lab r c then Ideal.exp (forty * (sim e r c - half)) else 0
def negSum (r : Fin 8192) : EReal := ∑ c : Fin 8192, if negSel e lab r c then sim e r c else 0

def posLoss (r : Fin 8192) : EReal :=
  if 0 < posCnt e lab r then Ideal.div (posSum e lab r) (max ((posCnt e lab r : ℝ) : EReal) one) else 0
def negLoss (r : Fin 8192) : EReal :=
  if 0 < negCnt e lab r then inv20 * Ideal.log1p (expSum e lab r) + Ideal.div (negSum e lab r) (max ((negCnt e lab r : ℝ) : EReal) one) else 0
def rowLoss (r : Fin 8192) : EReal := posLoss e lab r + negLoss e lab r

/-- The region's two results: the loss of each row, and the number of its selected negatives, as columns f32[8192, 1]. -/
def G4 : Vec Ideal S8192x1 .f32 := fun j => rowLoss e lab (j 0)
def G5 : Vec Ideal S8192x1 .f32 := fun j => ((negCnt e lab (j 0) : ℝ) : EReal)

abbrev S_ : Shape := ⟨0, ![]⟩

/-- The program's first result: the mean of the rows' losses (the sum divided by 8192, as the float 8192.0). -/
def finalLoss : Vec Ideal S_ .f32 := fun _ => Ideal.div (∑ r : Fin 8192, rowLoss e lab r) (Ideal.ofBits .f32 0x46000000#32)
/-- The program's second result: the sum over the rows of half the count of selected negatives (rounded down), as a
    32-bit word (the sum is below 2²⁵). -/
def finalTrip : IVec S_ 32 := fun _ => BitVec.ofNat 32 (∑ r : Fin 8192, negCnt e lab r / 2)

end Cert.Spec

end
-- ==== Proof.SpecLemmas.lean ====
/-
  Arithmetic of the specification that does not mention a program.

  The 8192 columns are visited in 16 blocks of 512.  `P j` is the set of the columns below 512·j: empty for j = 0, everything
  for j = 16, and `P (j + 1)` is `P j` with block j added.  A maximum, a minimum or a sum over `P (j + 1)` is therefore the one
  over `P j` combined with the one over block j: what a running maximum, minimum or sum kept block by block computes.

  The diagonal column of a row is neither a positive nor a negative, so the sentinel is among the values whose maximum
  (minimum) is the row's threshold: a running maximum seeded with the sentinel ends at the threshold itself.

  A sum of indicators (1 where a condition holds, 0 elsewhere) is the number of places where it holds.
-/
import proofs.«140287_j55817394979145_2_alg».proof.Proof.Spec

noncomputable section

namespace Cert.Spec

open Idealize.ShloMosaic Idealize.ShloMosaic.ValueIdx
open Classical

/-- Column `c'` of block `j`. -/
def blk (j : ℕ) (hj : j < 16) (c' : Fin 512) : Fin 8192 := ⟨512 * j + c'.val, by have := c'.isLt; omega⟩

/-- The columns below 512·j. -/
def P (j : ℕ) : Finset (Fin 8192) := Finset.univ.filter fun C => C.val < 512 * j

theorem P_zero : P 0 = ∅ := by
  ext C; simp [P]

theorem P_sixteen : P 16 = Finset.univ := by
  ext C; simp only [P, Finset.mem_filter, Finset.mem_univ, true_and, iff_true]; have := C.isLt; omega

theorem blk_injective (j : ℕ) (hj : j < 16) : Function.Injective (blk j hj) := fun a b h => by
  have := congrArg Fin.val h; simp only [blk] at this; exact Fin.ext (by omega)

theorem P_succ (j : ℕ) (hj : j < 16) : P (j + 1) = P j ∪ Finset.univ.image (blk j hj) := by
  ext C
  simp only [P, Finset.mem_filter, Finset.mem_univ, true_and, Finset.mem_union, Finset.mem_image]
  constructor
  · intro h
    by_cases h' : C.val < 512 * j
    · exact Or.inl h'
    · exact Or.inr ⟨⟨C.val - 512 * j, by omega⟩, Fin.ext (by simp only [blk]; omega)⟩
  · rintro (h | ⟨c', rfl⟩)
    · omega
    · simp only [blk]; have := c'.isLt; omega

theorem P_disjoint (j : ℕ) (hj : j < 16) : Disjoint (P j) (Finset.univ.image (blk j hj)) := by
  rw [Finset.disjoint_left]
  intro C hC hC'
  simp only [P, Finset.mem_filter, Finset.mem_univ, true_and] at hC
  obtain ⟨c', -, rfl⟩ := Finset.mem_image.mp hC'
  simp only [blk] at hC; omega

variable {α : Type}

/-- A maximum over the columns below 512·(j + 1) is the one below 512·j joined with block j's. -/
theorem sup_P_succ [SemilatticeSup α] [OrderBot α] (f : Fin 8192 → α) (j : ℕ) (hj : j < 16) :
    (P (j + 1)).sup f = (P j).sup f ⊔ Finset.univ.sup fun c' : Fin 512 => f (blk j hj c') := by
  rw [P_succ j hj, Finset.sup_union, Finset.sup_image]; rfl

theorem inf_P_succ [SemilatticeInf α] [OrderTop α] (f : Fin 8192 → α) (j : ℕ) (hj : j < 16) :
    (P (j + 1)).inf f = (P j).inf f ⊓ Finset.univ.inf fun c' : Fin 512 => f (blk j hj c') := by
  rw [P_succ j hj, Finset.inf_union, Finset.inf_image]; rfl

theorem sum_P_succ [AddCommMonoid α] (f : Fin 8192 → α) (j : ℕ) (hj : j < 16) :
    ∑ C ∈ P (j + 1), f C = ∑ C ∈ P j, f C + ∑ c' : Fin 512, f (blk j hj c') := by
  rw [P_succ j hj, Finset.sum_union (P_disjoint j hj), Finset.sum_image fun a _ b _ h => blk_injective j hj h]

theorem card_P_succ (p : Fin 8192 → Prop) (j : ℕ) (hj : j < 16) :
    ((P (j + 1)).filter p).card = ((P j).filter p).card + (Finset.univ.filter fun c' : Fin 512 => p (blk j hj c')).card := by
  rw [P_succ j hj, Finset.filter_union, Finset.card_union_of_disjoint (Finset.disjoint_filter_filter (P_disjoint j hj)),
    Finset.filter_image, Finset.card_image_of_injective _ (blk_injective j hj)]

/-- A sum of indicators is a count. -/
theorem sum_indicator {ι : Type} (S : Finset ι) (p : ι → Prop) :
    (∑ i ∈ S, (if p i then (1 : EReal) else 0)) = (((S.filter p).card : ℝ) : EReal) := by
  induction S using Finset.induction_on with
  | empty => simp
  | insert a S ha ih =>
    rw [Finset.sum_insert ha, ih, Finset.filter_insert]
    by_cases h : p a
    · rw [if_pos h, if_pos h, Finset.card_insert_of_notMem (fun hm => ha (Finset.mem_filter.mp hm).1)]
      have hc : (((S.filter p).card + 1 : ℕ) : ℝ) = ((S.filter p).card : ℝ) + 1 := by push_cast; ring
      rw [hc, EReal.coe_add, add_comm, EReal.coe_one]
    · rw [if_neg h, if_neg h, zero_add]

variable (e : Vec Ideal S8192x512 .f32) (lab : IVec S8192 32)

/-- The diagonal column is no positive of its row, so the sentinel is among the values whose maximum is the row's
    positive threshold. -/
theorem negBig_le_maxPos (r : Fin 8192) : negBig ≤ maxPos e lab r := by
  unfold maxPos
  refine le_trans (le_of_eq ?_) (Finset.le_sup (f := fun c : Fin 8192 => if pos lab r c then sim e r c else negBig) (Finset.mem_univ r))
  rw [if_neg (fun h : pos lab r r => h.2 rfl)]

theorem max_negBig_maxPos (r : Fin 8192) : max negBig (maxPos e lab r) = maxPos e lab r :=
  max_eq_right (negBig_le_maxPos e lab r)

/-- Likewise the diagonal column is no negative of its row. -/
theorem minNeg_le_posBig (r : Fin 8192) : minNeg e lab r ≤ posBig := by
  unfold minNeg
  refine le_trans (Finset.inf_le (f := fun c : Fin 8192 => if neg lab r c then sim e r c else posBig) (Finset.mem_univ r)) (le_of_eq ?_)
  rw [if_neg (fun h : neg lab r r => h rfl)]

theorem min_posBig_minNeg (r : Fin 8192) : min posBig (minNeg e lab r) = minNeg e lab r :=
  min_eq_right (minNeg_le_posBig e lab r)

end Cert.Spec

end
-- ==== Proof.EntryIdeal.lean ====
/-
  What the region's three input arrays hold when it is entered: the embedding table cast to bf16, and the label
  array reshaped to a column [8192, 1] and to a row [1, 8192].
-/
import proofs.«140287_j55817394979145_2_alg».proof.Proof.KitIdeal
import Idealize.ShloMosaic.Lib.StableHlo.Run

noncomputable section

namespace Cert.KernelIdeal.Entry

open Idealize.ShloMosaic Idealize.ShloMosaic.TcCoe
open Idealize.SL Idealize.SL.Sem
open Cert.KernelIdeal Cert.KernelIdeal.Gen Cert.KernelIdeal.Kit

variable {F : FTy → Type} [FloatOps F]

variable (m : (ℓ : Loc nD τ sig) → Buf (Elt F) ℓ)

theorem V_main_v0 (c : Dev nD) :
    (V m c main_v0 : (⟨S8192x512, .bf16⟩ : BufTy).Contents (Elt F)) = truncf .bf16 (m ((c : Thread nD τ).loc main_arg0)) bitsLt_bf16_f32 := by
  dsimp only [V, V0]
  simp only [hostOps0, List.flatten_cons, List.flatten_nil, List.append_nil, List.cons_append, List.nil_append]
  after_results
  try rfl

theorem V_main_v1 (c : Dev nD) :
    (V m c main_v1 : (⟨S8192x1, .i32⟩ : BufTy).Contents (Elt F)) = shapeCast S8192x1 (m ((c : Thread nD τ).loc main_arg1)) shapeCasts_S8192_S8192x1 := by
  dsimp only [V, V0]
  simp only [hostOps0, List.flatten_cons, List.flatten_nil, List.append_nil, List.cons_append, List.nil_append]
  after_results
  try rfl

theorem V_main_v2 (c : Dev nD) :
    (V m c main_v2 : (⟨S1x8192, .i32⟩ : BufTy).Contents (Elt F)) = shapeCast S1x8192 (m ((c : Thread nD τ).loc main_arg1)) shapeCasts_S8192_S1x8192 := by
  dsimp only [V, V0]
  simp only [hostOps0, List.flatten_cons, List.flatten_nil, List.append_nil, List.cons_append, List.nil_append]
  after_results
  try rfl

end Cert.KernelIdeal.Entry

end
-- ==== Proof.KernelArraysIdeal.lean ====
/-
  From the write-back points' blocks to the whole output arrays: the two results of the region are written back one
  block of 512 rows per row tile, at the tile's last point; when each written block holds the specification's values
  of its rows, the whole arrays hold the specification's columns.
-/
import proofs.«140287_j55817394979145_2_alg».proof.Proof.DataDefsIdeal
import proofs.«140287_j55817394979145_2_alg».proof.Proof.Spec
import Idealize.ShloMosaic.Lib.Pipeline.Value
import Idealize.ShloMosaic.Lib.ValueIdx

noncomputable section

namespace Cert.KernelIdeal.Arrays

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Shared Cert.KernelIdeal.Kit Cert.KernelIdeal.Data

variable (m : (ℓ : Loc nD τ sig) → Buf (Elt Ideal) ℓ)

/-- The grid has 512 points: 16 row tiles of 32 points. -/
theorem N_eq : cfg0.N = 512 := N_0

/-- The printed index maps of the two output windows, decided once over the grid: at point t the block is row tile
    t / 32, column block 0. -/
theorem idx_facts4 : ∀ t : Fin cfg0.N, win0_4.index t (0 : Fin 2) = t.val / 32 ∧ win0_4.index t (1 : Fin 2) = 0 :=
  (by decide +kernel : ∀ t : Fin grid0.N, _)

/-- The row of the whole array that row y of point t's block is. -/
abbrev rowOf (t : Fin cfg0.N) (y : Fin 512) : Fin 8192 :=
  ⟨512 * (t.val / 32) + y.val, by have := t.isLt; have : cfg0.N = 512 := N_0; have := y.isLt; omega⟩

/-- An index of the array is in point t's block iff each coordinate is in the block's range on its axis. -/
theorem mem_blk4 (t : Fin cfg0.N) (i : S8192x1.Idx) :
    i ∈ ((cfg0.win 4).blk t).view.set
      ↔ ∀ a : Fin 2, win0_4.index t a * S512x1.size a ≤ (i a).val ∧ (i a).val < win0_4.index t a * S512x1.size a + S512x1.size a := by
  show i ∈ ((View.whole main_v3_0).slice (win0_4.rect t)).set ↔ _
  rw [View.set_slice_whole, Rect.mem_set_unit]
  exact Iff.rfl

/-- What a write-back point writes back is its block of the specification's column of row losses. -/
theorem flushed4_eq (c : Dev nD) (e : Vec Ideal Cert.Spec.S8192x512 .f32) (lab : IVec Cert.Spec.S8192 32)
    (hcl : ∀ (t : Fin cfg0.N) (h : t.val % 32 = 31) (y : Fin 512),
      outAt4 m c t (ix2 y (0 : Fin 1)) = Cert.Spec.rowLoss e lab (rowOf t y))
    (t : Fin cfg0.N) (hf : (cfg0.win 4).flush t = true) :
    (dats m 0 c).flushed 4 t = ((cfg0.win 4).blk t).view.read (Elt Ideal) (Cert.Spec.G4 e lab) := by
  have h31 : t.val % 32 = 31 := (flush0_4 t).mp hf
  show (cfg0.win 4).cut (grid0.coords t) ((dats m 0 c).after 4 t) = _
  rw [after_4]
  funext j
  have hj0 : (j 0).val < 512 := (j 0).isLt
  have hj1 : (j 1).val < 1 := (j 1).isLt
  have hj : (j : S512x1.Idx) = ix2 (⟨(j 0).val, hj0⟩ : Fin 512) (0 : Fin 1) := by
    funext a; apply Fin.ext
    match a with
    | ⟨0, _⟩ => rfl
    | ⟨1, _⟩ => show (j 1).val = 0; omega
  show outAt4 m c t j = Cert.Spec.G4 e lab (((cfg0.win 4).blk t).view.emb j)
  rw [show outAt4 m c t j = outAt4 m c t (ix2 (⟨(j 0).val, hj0⟩ : Fin 512) (0 : Fin 1)) from congrArg (outAt4 m c t) hj,
    hcl t h31]
  show Cert.Spec.rowLoss e lab _ = Cert.Spec.rowLoss e lab ((((cfg0.win 4).blk t).view.emb j) 0)
  congr 1
  apply Fin.ext
  show 512 * (t.val / 32) + (j 0).val = win0_4.index t (0 : Fin 2) * 512 + 1 * (j 0).val
  rw [(idx_facts4 t).1]
  omega

/-- THE FIRST RESULT ARRAY after the region: the specification's column of row losses. -/
theorem arrAt4_eq (c : Dev nD) (e : Vec Ideal Cert.Spec.S8192x512 .f32) (lab : IVec Cert.Spec.S8192 32)
    (hcl : ∀ (t : Fin cfg0.N) (h : t.val % 32 = 31) (y : Fin 512),
      outAt4 m c t (ix2 y (0 : Fin 1)) = Cert.Spec.rowLoss e lab (rowOf t y)) :
    (dats m 0 c).arrAt 4 cfg0.N = Cert.Spec.G4 e lab :=
  (dats m 0 c).arrAt_eq_of_cover 4 (Cert.Spec.G4 e lab) (flushed4_eq m c e lab hcl) fun i => by
    have hi0 : (i 0).val < 8192 := (i 0).isLt
    have hi1 : (i 1).val < 1 := (i 1).isLt
    have hN : cfg0.N = 512 := N_0
    let t : Fin cfg0.N := ⟨32 * ((i 0).val / 512) + 31, by omega⟩
    have ht : t.val = 32 * ((i 0).val / 512) + 31 := rfl
    refine ⟨t, (flush0_4 t).mpr (by omega), ?_⟩
    rw [mem_blk4]
    obtain ⟨e0, e1⟩ := idx_facts4 t
    intro a
    match a with
    | ⟨0, _⟩ =>
      show win0_4.index t (0 : Fin 2) * 512 ≤ (i 0).val ∧ (i 0).val < win0_4.index t (0 : Fin 2) * 512 + 512
      rw [e0]; omega
    | ⟨1, _⟩ =>
      show win0_4.index t (1 : Fin 2) * 1 ≤ (i 1).val ∧ (i 1).val < win0_4.index t (1 : Fin 2) * 1 + 1
      rw [e1]; omega

/-! ## The second result array: the same road -/

theorem idx_facts5 : ∀ t : Fin cfg0.N, win0_5.index t (0 : Fin 2) = t.val / 32 ∧ win0_5.index t (1 : Fin 2) = 0 :=
  (by decide +kernel : ∀ t : Fin grid0.N, _)

/-- An index of the array is in point t's block iff each coordinate is in the block's range on its axis. -/
theorem mem_blk5 (t : Fin cfg0.N) (i : S8192x1.Idx) :
    i ∈ ((cfg0.win 5).blk t).view.set
      ↔ ∀ a : Fin 2, win0_5.index t a * S512x1.size a ≤ (i a).val ∧ (i a).val < win0_5.index t a * S512x1.size a + S512x1.size a := by
  show i ∈ ((View.whole main_v3_1).slice (win0_5.rect t)).set ↔ _
  rw [View.set_slice_whole, Rect.mem_set_unit]
  exact Iff.rfl

/-- What a write-back point writes back is its block of the specification's column of counts. -/
theorem flushed5_eq (c : Dev nD) (e : Vec Ideal Cert.Spec.S8192x512 .f32) (lab : IVec Cert.Spec.S8192 32)
    (hcl : ∀ (t : Fin cfg0.N) (h : t.val % 32 = 31) (y : Fin 512),
      outAt5 m c t (ix2 y (0 : Fin 1)) = ((Cert.Spec.negCnt e lab (rowOf t y) : ℝ) : EReal))
    (t : Fin cfg0.N) (hf : (cfg0.win 5).flush t = true) :
    (dats m 0 c).flushed 5 t = ((cfg0.win 5).blk t).view.read (Elt Ideal) (Cert.Spec.G5 e lab) := by
  have h31 : t.val % 32 = 31 := (flush0_5 t).mp hf
  show (cfg0.win 5).cut (grid0.coords t) ((dats m 0 c).after 5 t) = _
  rw [after_5]
  funext j
  have hj0 : (j 0).val < 512 := (j 0).isLt
  have hj1 : (j 1).val < 1 := (j 1).isLt
  have hj : (j : S512x1.Idx) = ix2 (⟨(j 0).val, hj0⟩ : Fin 512) (0 : Fin 1) := by
    funext a; apply Fin.ext
    match a with
    | ⟨0, _⟩ => rfl
    | ⟨1, _⟩ => show (j 1).val = 0; omega
  show outAt5 m c t j = Cert.Spec.G5 e lab (((cfg0.win 5).blk t).view.emb j)
  rw [show outAt5 m c t j = outAt5 m c t (ix2 (⟨(j 0).val, hj0⟩ : Fin 512) (0 : Fin 1)) from congrArg (outAt5 m c t) hj,
    hcl t h31]
  show ((Cert.Spec.negCnt e lab _ : ℝ) : EReal) = ((Cert.Spec.negCnt e lab ((((cfg0.win 5).blk t).view.emb j) 0) : ℝ) : EReal)
  congr 3
  apply Fin.ext
  show 512 * (t.val / 32) + (j 0).val = win0_5.index t (0 : Fin 2) * 512 + 1 * (j 0).val
  rw [(idx_facts5 t).1]
  omega

/-- THE SECOND RESULT ARRAY after the region: the specification's column of counts, as floats. -/
theorem arrAt5_eq (c : Dev nD) (e : Vec Ideal Cert.Spec.S8192x512 .f32) (lab : IVec Cert.Spec.S8192 32)
    (hcl : ∀ (t : Fin cfg0.N) (h : t.val % 32 = 31) (y : Fin 512),
      outAt5 m c t (ix2 y (0 : Fin 1)) = ((Cert.Spec.negCnt e lab (rowOf t y) : ℝ) : EReal)) :
    (dats m 0 c).arrAt 5 cfg0.N = Cert.Spec.G5 e lab :=
  (dats m 0 c).arrAt_eq_of_cover 5 (Cert.Spec.G5 e lab) (flushed5_eq m c e lab hcl) fun i => by
    have hi0 : (i 0).val < 8192 := (i 0).isLt
    have hi1 : (i 1).val < 1 := (i 1).isLt
    have hN : cfg0.N = 512 := N_0
    let t : Fin cfg0.N := ⟨32 * ((i 0).val / 512) + 31, by omega⟩
    have ht : t.val = 32 * ((i 0).val / 512) + 31 := rfl
    refine ⟨t, (flush0_5 t).mpr (by omega), ?_⟩
    rw [mem_blk5]
    obtain ⟨e0, e1⟩ := idx_facts5 t
    intro a
    match a with
    | ⟨0, _⟩ =>
      show win0_5.index t (0 : Fin 2) * 512 ≤ (i 0).val ∧ (i 0).val < win0_5.index t (0 : Fin 2) * 512 + 512
      rw [e0]; omega
    | ⟨1, _⟩ =>
      show win0_5.index t (1 : Fin 2) * 1 ≤ (i 1).val ∧ (i 1).val < win0_5.index t (1 : Fin 2) * 1 + 1
      rw [e1]; omega

end Cert.KernelIdeal.Arrays

end
-- ==== Proof.BlocksIdeal.lean ====
/-
  The input windows' blocks at a grid point, read at an index.  Point t lies in row tile t / 32 and, within it, at column
  tile t % 16.  Window 0's block is the 512 table rows of the row tile; window 1's block is the whole table; window 2's
  block is the row tile's 512 labels (a column); window 3's block is the column tile's 512 labels (a row).  At the ideal
  instance the table's cast to bf16 is the identity, so these are entries of the two argument arrays.
-/
import proofs.«140287_j55817394979145_2_alg».proof.Proof.DataDefsIdeal
import proofs.«140287_j55817394979145_2_alg».proof.Proof.EntryIdeal
import proofs.«140287_j55817394979145_2_alg».proof.Proof.Spec
import Idealize.ShloMosaic.Lib.ValueIdx
import Idealize.ShloMosaic.Lib.Pipeline.Value

noncomputable section

namespace Cert.KernelIdeal.Blocks

open Idealize.ShloMosaic Idealize.ShloMosaic.TcCoe Idealize.ShloMosaic.ValueIdx
open Idealize.SL Idealize.SL.Sem
open Idealize.ShloMosaic.Pipeline (Dat Cfg Window cellOf)
open Cert.KernelIdeal Cert.KernelIdeal.Gen Cert.KernelIdeal.Shared Cert.KernelIdeal.Kit Cert.KernelIdeal.Data

variable {F : FTy → Type} [FloatOps F]
variable (m : (ℓ : Loc nD τ sig) → Buf (Elt F) ℓ)

/-- The printed index maps over the grid: windows 0 and 2 move with the row tile, window 3 with the column tile, window 1
    stays. -/
theorem idx_facts : ∀ t : Fin cfg0.N,
    win0_0.index t (0 : Fin 2) = t.val / 32 ∧ win0_0.index t (1 : Fin 2) = 0
    ∧ win0_1.index t (0 : Fin 2) = 0 ∧ win0_1.index t (1 : Fin 2) = 0
    ∧ win0_2.index t (0 : Fin 2) = t.val / 32 ∧ win0_2.index t (1 : Fin 2) = 0
    ∧ win0_3.index t (0 : Fin 2) = 0 ∧ win0_3.index t (1 : Fin 2) = t.val % 16 :=
  (by decide +kernel : ∀ t : Fin grid0.N, _)

/-- Row r of the row tile of point t, as a row of the whole arrays. -/
abbrev rowOf (t : Fin cfg0.N) (r : Fin 512) : Fin 8192 :=
  ⟨512 * (t.val / 32) + r.val, by have := t.isLt; have : cfg0.N = 512 := N_0; have := r.isLt; omega⟩
/-- Column c' of the column tile of point t. -/
abbrev colOf (t : Fin cfg0.N) (c' : Fin 512) : Fin 8192 :=
  ⟨512 * (t.val % 16) + c'.val, by have := c'.isLt; omega⟩

theorem iblk0_apply (c : Dev nD) (t : Fin cfg0.N) (r k : Fin 512) :
    iblk m c 0 t (ix2 r k) = V m c main_v0 (ix2 (rowOf t r) k) := by
  obtain ⟨e0, e1, -⟩ := idx_facts t
  unfold iblk
  rw [View.read_apply]
  show V m c main_v0 (((cfg0.win 0).blk t).view.emb (ix2 r k)) = V m c main_v0 (ix2 (rowOf t r) k)
  congr 1
  funext a; apply Fin.ext
  match a with
  | ⟨0, _⟩ => show win0_0.index t (0 : Fin 2) * 512 + 1 * r.val = 512 * (t.val / 32) + r.val; omega
  | ⟨1, _⟩ => show win0_0.index t (1 : Fin 2) * 512 + 1 * k.val = k.val; omega

theorem iblk1_apply (c : Dev nD) (t : Fin cfg0.N) (R : Fin 8192) (k : Fin 512) :
    iblk m c 1 t (ix2 R k) = V m c main_v0 (ix2 R k) := by
  obtain ⟨-, -, e0, e1, -⟩ := idx_facts t
  unfold iblk
  rw [View.read_apply]
  show V m c main_v0 (((cfg0.win 1).blk t).view.emb (ix2 R k)) = V m c main_v0 (ix2 R k)
  congr 1
  funext a; apply Fin.ext
  match a with
  | ⟨0, _⟩ => show win0_1.index t (0 : Fin 2) * 8192 + 1 * R.val = R.val; omega
  | ⟨1, _⟩ => show win0_1.index t (1 : Fin 2) * 512 + 1 * k.val = k.val; omega

theorem iblk2_apply (c : Dev nD) (t : Fin cfg0.N) (r : Fin 512) :
    iblk m c 2 t (ix2 r (0 : Fin 1)) = V m c main_v1 (ix2 (rowOf t r) (0 : Fin 1)) := by
  obtain ⟨-, -, -, -, e0, e1, -⟩ := idx_facts t
  unfold iblk
  rw [View.read_apply]
  show V m c main_v1 (((cfg0.win 2).blk t).view.emb (ix2 r (0 : Fin 1))) = V m c main_v1 (ix2 (rowOf t r) (0 : Fin 1))
  congr 1
  funext a; apply Fin.ext
  match a with
  | ⟨0, _⟩ => show win0_2.index t (0 : Fin 2) * 512 + 1 * r.val = 512 * (t.val / 32) + r.val; omega
  | ⟨1, _⟩ => show win0_2.index t (1 : Fin 2) * 1 + 1 * 0 = 0; omega

theorem iblk3_apply (c : Dev nD) (t : Fin cfg0.N) (c' : Fin 512) :
    iblk m c 3 t (ix2 (0 : Fin 1) c') = V m c main_v2 (ix2 (0 : Fin 1) (colOf t c')) := by
  obtain ⟨-, -, -, -, -, -, e0, e1⟩ := idx_facts t
  unfold iblk
  rw [View.read_apply]
  show V m c main_v2 (((cfg0.win 3).blk t).view.emb (ix2 (0 : Fin 1) c')) = V m c main_v2 (ix2 (0 : Fin 1) (colOf t c'))
  congr 1
  funext a; apply Fin.ext
  match a with
  | ⟨0, _⟩ => show win0_3.index t (0 : Fin 2) * 1 + 1 * 0 = 0; omega
  | ⟨1, _⟩ => show win0_3.index t (1 : Fin 2) * 512 + 1 * c'.val = 512 * (t.val % 16) + c'.val; omega

end Cert.KernelIdeal.Blocks

end
-- ==== Proof.BlocksSpecIdeal.lean ====
/-
  The windows' blocks at an index: what each of the four input windows holds at a grid point, read at explicit
  coordinates, in terms of the program's two arguments (the embedding table and the labels).  Point t works on row tile
  t / 32 and column tile t % 16: the first window holds the row tile's 512 rows of the table, the second the whole table,
  the third the row tile's labels as a column, the fourth the column tile's labels as a row.
-/
import proofs.«140287_j55817394979145_2_alg».proof.Proof.DataDefsIdeal
import proofs.«140287_j55817394979145_2_alg».proof.Proof.EntryIdeal
import proofs.«140287_j55817394979145_2_alg».proof.Proof.BlocksIdeal
import proofs.«140287_j55817394979145_2_alg».proof.Proof.PayloadsIdeal
import proofs.«140287_j55817394979145_2_alg».proof.Proof.Spec
import proofs.«140287_j55817394979145_2_alg».proof.Proof.LibColumn
import Idealize.ShloMosaic.Lib.ValueIdx
import Idealize.ShloMosaic.Lib.ValueLayout

set_option maxRecDepth 16384

noncomputable section

namespace Cert.KernelIdeal.BlocksSpec

open Idealize.ShloMosaic Idealize.ShloMosaic.TcCoe Idealize.ShloMosaic.ValueIdx Idealize.ShloMosaic.ColumnIdx
open Idealize.SL Idealize.SL.Sem
open Cert.KernelIdeal Cert.KernelIdeal.Gen Cert.KernelIdeal.Shared Cert.KernelIdeal.Kit Cert.KernelIdeal.Runs
open Cert.KernelIdeal.Data Cert.KernelIdeal.Blocks

variable (m : (ℓ : Loc nD τ sig) → Buf (Elt Ideal) ℓ)

/-- The grid's coordinates at point t, decided once over the grid: row tile, phase, column tile. -/
theorem coord_facts : ∀ t : Fin cfg0.N,
    (grid0.coords t 0).val = t.val / 32 ∧ (grid0.coords t 1).val = t.val % 32 / 16 ∧ (grid0.coords t 2).val = t.val % 16 :=
  (by decide +kernel : ∀ t : Fin grid0.N, _)

theorem coords0 (t : Fin cfg0.N) : (grid0.coords t 0).val = t.val / 32 := (coord_facts t).1
theorem coords1 (t : Fin cfg0.N) : (grid0.coords t 1).val = t.val % 32 / 16 := (coord_facts t).2.1
theorem coords2 (t : Fin cfg0.N) : (grid0.coords t 2).val = t.val % 16 := (coord_facts t).2.2

/-- The first window's block: the row tile's rows of the table (the change of format to bf16 is the identity). -/
theorem iblk0_arg (c : Dev nD) (t : Fin cfg0.N) (r k : Fin 512) :
    (iblk m c 0 t : Vec Ideal S512x512 .bf16) (ix2 r k)
      = (m ((c : Thread nD τ).loc main_arg0) : Vec Ideal S8192x512 .f32) (ix2 (rowOf t r) k) := by
  obtain ⟨e0, e1, -⟩ := idx_facts t
  unfold iblk
  rw [View.read_apply]
  show (V m c main_v0 : Vec Ideal S8192x512 .bf16) (((cfg0.win 0).blk t).view.emb (ix2 r k)) = _
  rw [Entry.V_main_v0]
  show (m ((c : Thread nD τ).loc main_arg0) : Vec Ideal S8192x512 .f32) (((cfg0.win 0).blk t).view.emb (ix2 r k)) = _
  congr 1
  funext a; apply Fin.ext
  match a with
  | ⟨0, _⟩ => show win0_0.index t (0 : Fin 2) * 512 + 1 * r.val = 512 * (t.val / 32) + r.val; rw [e0]; omega
  | ⟨1, _⟩ => show win0_0.index t (1 : Fin 2) * 512 + 1 * k.val = k.val; rw [e1]; omega

/-- The second window's block: the whole table. -/
theorem iblk1_arg (c : Dev nD) (t : Fin cfg0.N) (R : Fin 8192) (k : Fin 512) :
    (iblk m c 1 t : Vec Ideal S8192x512 .bf16) (ix2 R k)
      = (m ((c : Thread nD τ).loc main_arg0) : Vec Ideal S8192x512 .f32) (ix2 R k) := by
  obtain ⟨-, -, e0, e1, -⟩ := idx_facts t
  unfold iblk
  rw [View.read_apply]
  show (V m c main_v0 : Vec Ideal S8192x512 .bf16) (((cfg0.win 1).blk t).view.emb (ix2 R k)) = _
  rw [Entry.V_main_v0]
  show (m ((c : Thread nD τ).loc main_arg0) : Vec Ideal S8192x512 .f32) (((cfg0.win 1).blk t).view.emb (ix2 R k)) = _
  congr 1
  funext a; apply Fin.ext
  match a with
  | ⟨0, _⟩ => show win0_1.index t (0 : Fin 2) * 8192 + 1 * R.val = R.val; rw [e0]; omega
  | ⟨1, _⟩ => show win0_1.index t (1 : Fin 2) * 512 + 1 * k.val = k.val; rw [e1]; omega

/-- The column tile's 512 rows of the table, as the body loads them out of the second window's block at the row offset
    512 · (column tile), whatever the proof that the load is in bounds. -/
theorem ld1_arg (c : Dev nD) (t : Fin cfg0.N)
    (inb : ∀ a, (k0_off1 (grid0.coords t)) a + (![512, 512] : Fin 2 → ℕ) a ≤ S8192x512.size a) (c' k : Fin 512) :
    View.ld (iblk m c 1 t : Vec Ideal S8192x512 .bf16) (Rect.unit (k0_off1 (grid0.coords t)) ![512, 512] inb) (ix2 c' k)
      = (m ((c : Thread nD τ).loc main_arg0) : Vec Ideal S8192x512 .f32) (ix2 (colOf t c') k) := by
  have hoff := k0_off1_eq (grid0.coords t)
  have h2 := coords2 t
  show (iblk m c 1 t : Vec Ideal S8192x512 .bf16)
    ((Rect.unit (s := S8192x512) (k0_off1 (grid0.coords t)) ![512, 512] inb).emb (ix2 c' k)) = _
  have hemb : (Rect.unit (s := S8192x512) (k0_off1 (grid0.coords t)) ![512, 512] inb).emb (ix2 c' k)
      = ix2 (colOf t c') k := by
    funext a; apply Fin.ext
    match a with
    | ⟨0, _⟩ =>
      show k0_off1 (grid0.coords t) (0 : Fin 2) + 1 * c'.val = 512 * (t.val % 16) + c'.val
      rw [hoff]; show 512 * (grid0.coords t 2).val + 1 * c'.val = _; rw [h2]; omega
    | ⟨1, _⟩ =>
      show k0_off1 (grid0.coords t) (1 : Fin 2) + 1 * k.val = k.val
      rw [hoff]; show 0 + 1 * k.val = k.val; omega
  rw [hemb, iblk1_arg]

/-- The third window's block: the row tile's labels, as a column. -/
theorem iblk2_arg (c : Dev nD) (t : Fin cfg0.N) (r : Fin 512) :
    (iblk m c 2 t : Vec Ideal S512x1 .i32) (ix2 r (0 : Fin 1))
      = (m ((c : Thread nD τ).loc main_arg1) : IVec S8192 32) (ix1 (rowOf t r)) := by
  obtain ⟨-, -, -, -, e0, e1, -⟩ := idx_facts t
  unfold iblk
  rw [View.read_apply]
  show (V m c main_v1 : IVec S8192x1 32) (((cfg0.win 2).blk t).view.emb (ix2 r (0 : Fin 1))) = _
  have hemb : ((cfg0.win 2).blk t).view.emb (ix2 r (0 : Fin 1)) = ix2 (rowOf t r) (0 : Fin 1) := by
    funext a; apply Fin.ext
    match a with
    | ⟨0, _⟩ => show win0_2.index t (0 : Fin 2) * 512 + 1 * r.val = 512 * (t.val / 32) + r.val; rw [e0]; omega
    | ⟨1, _⟩ => show win0_2.index t (1 : Fin 2) * 1 + 1 * 0 = 0; rw [e1]
  rw [hemb, Entry.V_main_v1]
  exact shapeCast_a_a1_apply _ _ _ _

/-- The fourth window's block: the column tile's labels, as a row. -/
theorem iblk3_arg (c : Dev nD) (t : Fin cfg0.N) (c' : Fin 512) :
    (iblk m c 3 t : Vec Ideal S1x512 .i32) (ix2 (0 : Fin 1) c')
      = (m ((c : Thread nD τ).loc main_arg1) : IVec S8192 32) (ix1 (colOf t c')) := by
  obtain ⟨-, -, -, -, -, -, e0, e1⟩ := idx_facts t
  unfold iblk
  rw [View.read_apply]
  show (V m c main_v2 : IVec S1x8192 32) (((cfg0.win 3).blk t).view.emb (ix2 (0 : Fin 1) c')) = _
  have hemb : ((cfg0.win 3).blk t).view.emb (ix2 (0 : Fin 1) c') = ix2 (0 : Fin 1) (colOf t c') := by
    funext a; apply Fin.ext
    match a with
    | ⟨0, _⟩ => show win0_3.index t (0 : Fin 2) * 1 + 1 * 0 = 0; rw [e0]
    | ⟨1, _⟩ => show win0_3.index t (1 : Fin 2) * 512 + 1 * c'.val = 512 * (t.val % 16) + c'.val; rw [e1]; omega
  rw [hemb, Entry.V_main_v2]
  exact shapeCast_a_1a_apply _ _ _ _

/-! ## The block's masks and products in the specification's terms -/

/-- The positive mask of point t's block at (r, c') is the specification's "positive" at the whole matrix's row and
    column. -/
theorem mask_pos (c : Dev nD) (t : Fin cfg0.N) (r c' : Fin 512) :
    Gen.k0_pay11 (grid0.coords t) (iblk m c 2 t) (iblk m c 3 t) (ix2 r c') = 1#1
      ↔ Cert.Spec.pos (m ((c : Thread nD τ).loc main_arg1)) (rowOf t r) (colOf t c') := by
  rw [Pay.pay11_apply, iblk2_arg, iblk3_arg, coords0, coords2]
  unfold Cert.Spec.pos Cert.Spec.same
  exact and_congr_right fun _ => not_congr ⟨fun h => Fin.ext h, fun h => congrArg Fin.val h⟩

/-- The negative mask likewise. -/
theorem mask_neg (c : Dev nD) (t : Fin cfg0.N) (r c' : Fin 512) :
    Gen.k0_pay12 (iblk m c 2 t) (iblk m c 3 t) (ix2 r c') = 1#1
      ↔ Cert.Spec.neg (m ((c : Thread nD τ).loc main_arg1)) (rowOf t r) (colOf t c') := by
  rw [Pay.pay12_apply, iblk2_arg, iblk3_arg]
  rfl

/-- The block product at (r, c') is the similarity of the whole matrix's row and column. -/
theorem block_sim (c : Dev nD) (t : Fin cfg0.N)
    (inb : ∀ a, (k0_off1 (grid0.coords t)) a + (![512, 512] : Fin 2 → ℕ) a ≤ S8192x512.size a) (r c' : Fin 512) :
    Gen.k0_pay15 (iblk m c 0 t)
        (View.ld (iblk m c 1 t : Vec Ideal S8192x512 .bf16) (Rect.unit (s := S8192x512) (k0_off1 (grid0.coords t)) ![512, 512] inb))
        (ix2 r c')
      = Cert.Spec.sim (m ((c : Thread nD τ).loc main_arg0)) (rowOf t r) (colOf t c') := by
  rw [Pay.pay15_apply]
  unfold Cert.Spec.sim
  refine Finset.sum_congr rfl fun k _ => ?_
  rw [iblk0_arg, ld1_arg]

end Cert.KernelIdeal.BlocksSpec

end
-- ==== Proof.ClosedIdeal.lean ====
/-
  The second sweep of a row tile in closed form.  In its second sixteen points a row tile re-reads the 512x512 blocks of the
  similarity cache, one column tile per point, and adds to five per-row sums the block's part: the sum of 1 - sim over the
  selected positives, their number, the number of the selected negatives, the sum of exp (40·(sim - 1/2)) over them, and the
  sum of their similarities.  A column is a selected positive (negative) of a row when the positive (negative) mask is set
  and its similarity is above the row's negative threshold (below its positive threshold); the masks are the
  specification's relations on the labels, the thresholds and the cache are what the first sweep left.  So after the point
  of column tile k the sums stand at the columns below 512·(k + 1), and at the last point, where they stand at every
  column, the two stored results are the row's loss and its number of selected negatives.
-/
import proofs.«140287_j55817394979145_2_alg».proof.Proof.DataDefsIdeal
import proofs.«140287_j55817394979145_2_alg».proof.Proof.PayloadsIdeal
import proofs.«140287_j55817394979145_2_alg».proof.Proof.Spec
import proofs.«140287_j55817394979145_2_alg».proof.Proof.SpecLemmas
import proofs.«140287_j55817394979145_2_alg».proof.Proof.EntryIdeal
import proofs.«140287_j55817394979145_2_alg».proof.Proof.KernelArraysIdeal
import proofs.«140287_j55817394979145_2_alg».proof.Proof.BlocksSpecIdeal
import Idealize.ShloMosaic.Lib.WritesUnit
import Idealize.ShloMosaic.Lib.Tactic

set_option maxRecDepth 16384

noncomputable section

namespace Cert.KernelIdeal.Closed

open Idealize.ShloMosaic Idealize.ShloMosaic.TcCoe Idealize.ShloMosaic.Tactic Idealize.ShloMosaic.ValueIdx
open Idealize.ShloMosaic.ColumnIdx
open Idealize.SL Idealize.SL.Sem
open Idealize.ShloMosaic.Pipeline (Dat Cfg Window)
open Cert.KernelIdeal Cert.KernelIdeal.Gen Cert.KernelIdeal.Shared Cert.KernelIdeal.Kit Cert.KernelIdeal.Runs
open Cert.KernelIdeal.Data Cert.KernelIdeal.Pay Cert.KernelIdeal.Arrays

variable (m : (ℓ : Loc nD τ sig) → Buf (Elt Ideal) ℓ)

theorem off00 : (![0, 0] : Fin 2 → Nat) = fun _ => 0 := funext fun a => by fin_cases a <;> rfl

/-! ## Reading the scratch operands back -/

theorem rd0 (X : Vec Ideal S512x8192 .f32) : View.read (Elt Ideal) (View.whole cc0_scratch0) ((hsc0).unread X) = X := (hsc0).read_unread X
theorem rd1 (X : Vec Ideal S512x1 .f32) : View.read (Elt Ideal) (View.whole cc0_scratch1) ((hsc1).unread X) = X := (hsc1).read_unread X
theorem rd2 (X : Vec Ideal S512x1 .f32) : View.read (Elt Ideal) (View.whole cc0_scratch2) ((hsc2).unread X) = X := (hsc2).read_unread X
theorem rd3 (X : Vec Ideal S512x1 .f32) : View.read (Elt Ideal) (View.whole cc0_scratch3) ((hsc3).unread X) = X := (hsc3).read_unread X
theorem rd4 (X : Vec Ideal S512x1 .f32) : View.read (Elt Ideal) (View.whole cc0_scratch4) ((hsc4).unread X) = X := (hsc4).read_unread X
theorem rd5 (X : Vec Ideal S512x1 .f32) : View.read (Elt Ideal) (View.whole cc0_scratch5) ((hsc5).unread X) = X := (hsc5).read_unread X
theorem rd6 (X : Vec Ideal S512x1 .f32) : View.read (Elt Ideal) (View.whole cc0_scratch6) ((hsc6).unread X) = X := (hsc6).read_unread X
theorem rd7 (X : Vec Ideal S512x1 .f32) : View.read (Elt Ideal) (View.whole cc0_scratch7) ((hsc7).unread X) = X := (hsc7).read_unread X

/-- Column c' of the column tile of point t. -/
abbrev colOf (t : Fin cfg0.N) (c' : Fin 512) : Fin 8192 := Blocks.colOf t c'

/-- The 512 columns of the cache that point t's column tile names. -/
def cblk (t : Fin cfg0.N) (X : Vec Ideal S512x8192 .f32) : Vec Ideal S512x512 .f32 :=
  fun x => X (ix2 (x 0) (colOf t (x 1)))

theorem cblk_apply (t : Fin cfg0.N) (X : Vec Ideal S512x8192 .f32) (r c' : Fin 512) :
    cblk t X (ix2 r c') = X (ix2 r (colOf t c')) := rfl

/-- A load of the cache through the column tile's rectangle reads those columns. -/
theorem ld_cblk (t : Fin cfg0.N) (X : Vec Ideal S512x8192 .f32) (inb) :
    View.ld X (Rect.unit (k0_off3 (grid0.coords t)) ![512, 512] inb) = cblk t X := by
  funext x
  show X ((Rect.unit (k0_off3 (grid0.coords t)) ![512, 512] inb).emb x) = X (ix2 (x 0) (colOf t (x 1)))
  congr 1
  funext a; apply Fin.ext
  have e30 : (k0_off3 (grid0.coords t)) 0 = 0 := congrFun (k0_off3_eq (grid0.coords t)) 0
  have e31 : (k0_off3 (grid0.coords t)) 1 = 512 * (grid0.coords t 2).val := congrFun (k0_off3_eq (grid0.coords t)) 1
  have e2 := BlocksSpec.coords2 t
  match a with
  | ⟨0, _⟩ =>
    show (k0_off3 (grid0.coords t)) 0 + 1 * (x 0).val = (x 0).val
    omega
  | ⟨1, _⟩ =>
    show (k0_off3 (grid0.coords t)) 1 + 1 * (x 1).val = 512 * (t.val % 16) + (x 1).val
    omega

/-- A whole 512x1 store read back whole is its payload. -/
theorem rc1 {sg : RefSig} {κ : Kind} {sp : Space} (v : View sg κ sp S512x1 .f32)
    (inb : ∀ a, (![0, 0] : Fin 2 → ℕ) a + (![512, 1] : Fin 2 → ℕ) a ≤ S512x1.size a) (w : S512x1.Idx → Elt Ideal .f32) :
    v.readCov [(⟨Rect.unit ![0, 0] ![512, 1] inb, w⟩ : View.Piece (Elt Ideal) S512x1 .f32)] (Rect.unit ![0, 0] ![512, 1] inb).toLoadRect = w :=
  View.readCov_unit_zero (S := S512x1) v off00 inb w

/-! ## A later point of the second sweep (positions 17 to 30): each sum gains the block's part; the cache and the
    thresholds stay -/

section StepD
variable (c : Dev nD) (t : Fin cfg0.N) (h0 : 16 < t.val % 32) (h : t.val % 32 < 31) (S : St Ideal)

theorem stepD_s0 : (step_D m c t h0 h S).s0 = S.s0 := by
  unfold step_D
  dsimp only [rb0]
  unfold kernelRun_D
  dsimp only
  rw [View.writes_nil]
  exact rd0 _

theorem stepD_s1 : (step_D m c t h0 h S).s1 = S.s1 := by
  unfold step_D
  dsimp only [rb1]
  unfold kernelRun_D
  dsimp only
  rw [View.writes_nil]
  exact rd1 _

theorem stepD_s2 : (step_D m c t h0 h S).s2 = S.s2 := by
  unfold step_D
  dsimp only [rb2]
  unfold kernelRun_D
  dsimp only
  rw [View.writes_nil]
  exact rd2 _

set_option maxHeartbeats 1000000 in
theorem stepD_s3 : (step_D m c t h0 h S).s3
    = k0_pay8 (k0_pay11 (grid0.coords t) (iblk m c 2 t) (iblk m c 3 t)) (cblk t S.s0) S.s2 S.s3 := by
  unfold step_D
  dsimp only [rb3]
  rw [View.read_writes_eq_canon _ _ _ (fun y => scover_D_3 (y := y) ..)]
  unfold kernelRun_D
  dsimp only
  sl_unfold_run_names
  rw [View.canon_unit_zero off00]
  simp only [View.readAt_eq_ld, rd0, rd1, rd2, rd3, rd4, rd5, rd6, rd7, Memref.IsWhole.read_unread, View.ld_unit_zero (S := S512x1) off00,
    View.ld_unit_zero (S := S512x512) off00, View.ld_unit_zero (S := S1x512) off00, ld_cblk]

set_option maxHeartbeats 1000000 in
theorem stepD_s4 : (step_D m c t h0 h S).s4
    = k0_pay9 (k0_pay11 (grid0.coords t) (iblk m c 2 t) (iblk m c 3 t)) (cblk t S.s0) S.s2 S.s4 := by
  unfold step_D
  dsimp only [rb4]
  rw [View.read_writes_eq_canon _ _ _ (fun y => scover_D_4 (y := y) ..)]
  unfold kernelRun_D
  dsimp only
  sl_unfold_run_names
  rw [View.canon_unit_zero off00]
  simp only [View.readAt_eq_ld, rd0, rd1, rd2, rd3, rd4, rd5, rd6, rd7, Memref.IsWhole.read_unread, View.ld_unit_zero (S := S512x1) off00,
    View.ld_unit_zero (S := S512x512) off00, View.ld_unit_zero (S := S1x512) off00, ld_cblk]

set_option maxHeartbeats 1000000 in
theorem stepD_s5 : (step_D m c t h0 h S).s5
    = k0_pay1 (k0_pay5 (k0_pay12 (iblk m c 2 t) (iblk m c 3 t)) (cblk t S.s0) S.s1) S.s5 := by
  unfold step_D
  dsimp only [rb5]
  rw [View.read_writes_eq_canon _ _ _ (fun y => scover_D_5 (y := y) ..)]
  unfold kernelRun_D
  dsimp only
  sl_unfold_run_names
  rw [View.canon_unit_zero off00]
  simp only [View.readAt_eq_ld, rd0, rd1, rd2, rd3, rd4, rd5, rd6, rd7, Memref.IsWhole.read_unread, View.ld_unit_zero (S := S512x1) off00,
    View.ld_unit_zero (S := S512x512) off00, View.ld_unit_zero (S := S1x512) off00, ld_cblk]

set_option maxHeartbeats 1000000 in
theorem stepD_s6 : (step_D m c t h0 h S).s6
    = k0_pay2 (k0_pay5 (k0_pay12 (iblk m c 2 t) (iblk m c 3 t)) (cblk t S.s0) S.s1) (k0_pay7 (cblk t S.s0)) S.s6 := by
  unfold step_D
  dsimp only [rb6]
  rw [View.read_writes_eq_canon _ _ _ (fun y => scover_D_6 (y := y) ..)]
  unfold kernelRun_D
  dsimp only
  sl_unfold_run_names
  rw [View.canon_unit_zero off00]
  simp only [View.readAt_eq_ld, rd0, rd1, rd2, rd3, rd4, rd5, rd6, rd7, Memref.IsWhole.read_unread, View.ld_unit_zero (S := S512x1) off00,
    View.ld_unit_zero (S := S512x512) off00, View.ld_unit_zero (S := S1x512) off00, ld_cblk]

set_option maxHeartbeats 1000000 in
theorem stepD_s7 : (step_D m c t h0 h S).s7
    = k0_pay3 (cblk t S.s0) (k0_pay5 (k0_pay12 (iblk m c 2 t) (iblk m c 3 t)) (cblk t S.s0) S.s1) S.s7 := by
  unfold step_D
  dsimp only [rb7]
  rw [View.read_writes_eq_canon _ _ _ (fun y => scover_D_7 (y := y) ..)]
  unfold kernelRun_D
  dsimp only
  sl_unfold_run_names
  rw [View.canon_unit_zero off00]
  simp only [View.readAt_eq_ld, rd0, rd1, rd2, rd3, rd4, rd5, rd6, rd7, Memref.IsWhole.read_unread, View.ld_unit_zero (S := S512x1) off00,
    View.ld_unit_zero (S := S512x512) off00, View.ld_unit_zero (S := S1x512) off00, ld_cblk]

end StepD

/-! ## The first point of the second sweep (position 16): each sum is the block's part over a fresh zero -/

section StepC
variable (c : Dev nD) (t : Fin cfg0.N) (h : t.val % 32 = 16) (S : St Ideal)

theorem stepC_s0 : (step_C m c t h S).s0 = S.s0 := by
  unfold step_C
  dsimp only [rb0]
  unfold kernelRun_C
  dsimp only
  rw [View.writes_nil]
  exact rd0 _

theorem stepC_s1 : (step_C m c t h S).s1 = S.s1 := by
  unfold step_C
  dsimp only [rb1]
  unfold kernelRun_C
  dsimp only
  rw [View.writes_nil]
  exact rd1 _

theorem stepC_s2 : (step_C m c t h S).s2 = S.s2 := by
  unfold step_C
  dsimp only [rb2]
  unfold kernelRun_C
  dsimp only
  rw [View.writes_nil]
  exact rd2 _

set_option maxHeartbeats 1000000 in
theorem stepC_s3 : (step_C m c t h S).s3
    = k0_pay8 (k0_pay11 (grid0.coords t) (iblk m c 2 t) (iblk m c 3 t)) (cblk t S.s0) S.s2 (k0_pay19 (F := Ideal)) := by
  unfold step_C
  dsimp only [rb3]
  rw [View.read_writes_eq_canon _ _ _ (fun y => scover_C_3 (y := y) ..)]
  unfold kernelRun_C
  dsimp only
  sl_unfold_run_names
  rw [View.canon_cons_unit_zero off00, View.readCov_unit_zero _ off00]
  simp only [View.readAt_eq_ld, rd0, rd1, rd2, rd3, rd4, rd5, rd6, rd7, Memref.IsWhole.read_unread, View.ld_unit_zero (S := S512x1) off00,
    View.ld_unit_zero (S := S512x512) off00, View.ld_unit_zero (S := S1x512) off00, ld_cblk]

set_option maxHeartbeats 1000000 in
theorem stepC_s4 : (step_C m c t h S).s4
    = k0_pay9 (k0_pay11 (grid0.coords t) (iblk m c 2 t) (iblk m c 3 t)) (cblk t S.s0) S.s2 (k0_pay20 (F := Ideal)) := by
  unfold step_C
  dsimp only [rb4]
  rw [View.read_writes_eq_canon _ _ _ (fun y => scover_C_4 (y := y) ..)]
  unfold kernelRun_C
  dsimp only
  sl_unfold_run_names
  rw [View.canon_cons_unit_zero off00, View.readCov_unit_zero _ off00]
  simp only [View.readAt_eq_ld, rd0, rd1, rd2, rd3, rd4, rd5, rd6, rd7, Memref.IsWhole.read_unread, View.ld_unit_zero (S := S512x1) off00,
    View.ld_unit_zero (S := S512x512) off00, View.ld_unit_zero (S := S1x512) off00, ld_cblk]

set_option maxHeartbeats 1000000 in
theorem stepC_s5 : (step_C m c t h S).s5
    = k0_pay1 (k0_pay5 (k0_pay12 (iblk m c 2 t) (iblk m c 3 t)) (cblk t S.s0) S.s1) (k0_pay21 (F := Ideal)) := by
  unfold step_C
  dsimp only [rb5]
  rw [View.read_writes_eq_canon _ _ _ (fun y => scover_C_5 (y := y) ..)]
  unfold kernelRun_C
  dsimp only
  sl_unfold_run_names
  rw [View.canon_cons_unit_zero off00, View.readCov_unit_zero _ off00]
  simp only [View.readAt_eq_ld, rd0, rd1, rd2, rd3, rd4, rd5, rd6, rd7, Memref.IsWhole.read_unread, View.ld_unit_zero (S := S512x1) off00,
    View.ld_unit_zero (S := S512x512) off00, View.ld_unit_zero (S := S1x512) off00, ld_cblk]

set_option maxHeartbeats 1000000 in
theorem stepC_s6 : (step_C m c t h S).s6
    = k0_pay2 (k0_pay5 (k0_pay12 (iblk m c 2 t) (iblk m c 3 t)) (cblk t S.s0) S.s1) (k0_pay7 (cblk t S.s0)) (k0_pay22 (F := Ideal)) := by
  unfold step_C
  dsimp only [rb6]
  rw [View.read_writes_eq_canon _ _ _ (fun y => scover_C_6 (y := y) ..)]
  unfold kernelRun_C
  dsimp only
  sl_unfold_run_names
  rw [View.canon_cons_unit_zero off00, View.readCov_unit_zero _ off00]
  simp only [View.readAt_eq_ld, rd0, rd1, rd2, rd3, rd4, rd5, rd6, rd7, Memref.IsWhole.read_unread, View.ld_unit_zero (S := S512x1) off00,
    View.ld_unit_zero (S := S512x512) off00, View.ld_unit_zero (S := S1x512) off00, ld_cblk]

set_option maxHeartbeats 1000000 in
theorem stepC_s7 : (step_C m c t h S).s7
    = k0_pay3 (cblk t S.s0) (k0_pay5 (k0_pay12 (iblk m c 2 t) (iblk m c 3 t)) (cblk t S.s0) S.s1) (k0_pay23 (F := Ideal)) := by
  unfold step_C
  dsimp only [rb7]
  rw [View.read_writes_eq_canon _ _ _ (fun y => scover_C_7 (y := y) ..)]
  unfold kernelRun_C
  dsimp only
  sl_unfold_run_names
  rw [View.canon_cons_unit_zero off00, View.readCov_unit_zero _ off00]
  simp only [View.readAt_eq_ld, rd0, rd1, rd2, rd3, rd4, rd5, rd6, rd7, Memref.IsWhole.read_unread, View.ld_unit_zero (S := S512x1) off00,
    View.ld_unit_zero (S := S512x512) off00, View.ld_unit_zero (S := S1x512) off00, ld_cblk]

end StepC

/-! ## The last point (position 31): the two results from the sums with the last block's part added -/

section StepE
variable (c : Dev nD) (t : Fin cfg0.N) (h : t.val % 32 = 31) (S : St Ideal)

set_option maxHeartbeats 2000000 in
theorem out4_E_eq : out4_E m c t h S
    = k0_pay4 (k0_pay9 (k0_pay11 (grid0.coords t) (iblk m c 2 t) (iblk m c 3 t)) (cblk t S.s0) S.s2 S.s4) (k0_pay1 (k0_pay5 (k0_pay12 (iblk m c 2 t) (iblk m c 3 t)) (cblk t S.s0) S.s1) S.s5) (k0_pay8 (k0_pay11 (grid0.coords t) (iblk m c 2 t) (iblk m c 3 t)) (cblk t S.s0) S.s2 S.s3) (k0_pay3 (cblk t S.s0) (k0_pay5 (k0_pay12 (iblk m c 2 t) (iblk m c 3 t)) (cblk t S.s0) S.s1) S.s7) (k0_pay2 (k0_pay5 (k0_pay12 (iblk m c 2 t) (iblk m c 3 t)) (cblk t S.s0) S.s1) (k0_pay7 (cblk t S.s0)) S.s6) := by
  unfold out4_E
  rw [View.read_writes_junk_eq_canon]
  unfold kernelRun_E
  dsimp only
  sl_unfold_run_names
  rw [View.canon_unit_zero off00]
  simp only [View.readAt_eq_ld, rd0, rd1, rd2, rd3, rd4, rd5, rd6, rd7, Memref.IsWhole.read_unread, View.ld_unit_zero (S := S512x1) off00,
    View.ld_unit_zero (S := S512x512) off00, View.ld_unit_zero (S := S1x512) off00, ld_cblk, rc1]

set_option maxHeartbeats 2000000 in
theorem out5_E_eq : out5_E m c t h S = k0_pay1 (k0_pay5 (k0_pay12 (iblk m c 2 t) (iblk m c 3 t)) (cblk t S.s0) S.s1) S.s5 := by
  unfold out5_E
  rw [View.read_writes_junk_eq_canon]
  unfold kernelRun_E
  dsimp only
  sl_unfold_run_names
  rw [View.canon_unit_zero off00]
  simp only [View.readAt_eq_ld, rd0, rd1, rd2, rd3, rd4, rd5, rd6, rd7, Memref.IsWhole.read_unread, View.ld_unit_zero (S := S512x1) off00,
    View.ld_unit_zero (S := S512x512) off00, View.ld_unit_zero (S := S1x512) off00, ld_cblk, rc1]

end StepE

/-! ## One block's part of each sum, in the specification's terms -/

section Parts
open Classical
open Cert.Spec (P blk sim pos neg posSel negSel maxPos minNeg)

variable (c : Dev nD)

/-- The two arguments: the embedding table and the labels. -/
abbrev tbl : Vec Ideal Cert.Spec.S8192x512 .f32 := m ((c.tc : Thread nD τ).loc main_arg0)
abbrev lbl : IVec Cert.Spec.S8192 32 := m ((c.tc : Thread nD τ).loc main_arg1)

/-- The cache holds the rows' similarities and the two thresholds are the rows' thresholds (rows named by R). -/
def Thr (R : Fin 512 → Fin 8192) (S : St Ideal) : Prop :=
  (∀ (r : Fin 512) (C : Fin 8192), S.s0 (ix2 r C) = sim (tbl m c) (R r) C)
  ∧ (∀ r : Fin 512, S.s1 (ix2 r (0 : Fin 1)) = maxPos (tbl m c) (lbl m c) (R r))
  ∧ (∀ r : Fin 512, S.s2 (ix2 r (0 : Fin 1)) = minNeg (tbl m c) (lbl m c) (R r))

/-- The five sums stand at the columns below 512·k. -/
def Acc (R : Fin 512 → Fin 8192) (k : ℕ) (a3 a4 a5 a6 a7 : Vec Ideal S512x1 .f32) : Prop :=
  ∀ r : Fin 512,
    a3 (ix2 r (0 : Fin 1)) = (∑ C ∈ P k, if posSel (tbl m c) (lbl m c) (R r) C then Cert.Spec.one - sim (tbl m c) (R r) C else 0)
    ∧ a4 (ix2 r (0 : Fin 1)) = ((((P k).filter (posSel (tbl m c) (lbl m c) (R r))).card : ℝ) : EReal)
    ∧ a5 (ix2 r (0 : Fin 1)) = ((((P k).filter (negSel (tbl m c) (lbl m c) (R r))).card : ℝ) : EReal)
    ∧ a6 (ix2 r (0 : Fin 1)) = (∑ C ∈ P k, if negSel (tbl m c) (lbl m c) (R r) C
        then Ideal.exp (Cert.Spec.forty * (sim (tbl m c) (R r) C - Cert.Spec.half)) else 0)
    ∧ a7 (ix2 r (0 : Fin 1)) = (∑ C ∈ P k, if negSel (tbl m c) (lbl m c) (R r) C then sim (tbl m c) (R r) C else 0)

variable (t : Fin cfg0.N) (S : St Ideal) (hT : Thr m c (rowOf t) S)
include hT

/-- The selected-positive indicator of the block. -/
theorem ind_pos (r c' : Fin 512) :
    k0_pay6 (k0_pay11 (grid0.coords t) (iblk m c 2 t) (iblk m c 3 t)) (cblk t S.s0) S.s2 (ix2 r c')
      = if posSel (tbl m c) (lbl m c) (rowOf t r) (colOf t c') then (1 : EReal) else 0 := by
  rw [pay6_apply, cblk_apply, hT.1, hT.2.2]
  exact if_congr (and_congr (BlocksSpec.mask_pos m c t r c') Iff.rfl) rfl rfl

/-- The selected-negative indicator of the block. -/
theorem ind_neg (r c' : Fin 512) :
    k0_pay5 (k0_pay12 (iblk m c 2 t) (iblk m c 3 t)) (cblk t S.s0) S.s1 (ix2 r c')
      = if negSel (tbl m c) (lbl m c) (rowOf t r) (colOf t c') then (1 : EReal) else 0 := by
  rw [pay5_apply, cblk_apply, hT.1, hT.2.1]
  exact if_congr (and_congr (BlocksSpec.mask_neg m c t r c') Iff.rfl) rfl rfl

theorem part3 (a : Vec Ideal S512x1 .f32) (r : Fin 512) :
    k0_pay8 (k0_pay11 (grid0.coords t) (iblk m c 2 t) (iblk m c 3 t)) (cblk t S.s0) S.s2 a (ix2 r (0 : Fin 1))
      = a (ix2 r (0 : Fin 1)) + ∑ c' : Fin 512, (if posSel (tbl m c) (lbl m c) (rowOf t r) (colOf t c')
          then Cert.Spec.one - sim (tbl m c) (rowOf t r) (colOf t c') else 0) := by
  rw [pay8_apply]
  refine congrArg (a (ix2 r (0 : Fin 1)) + ·) (Finset.sum_congr rfl fun c' _ => ?_)
  rw [ind_pos m c t S hT, cblk_apply, hT.1]
  split_ifs
  · exact one_mul _
  · exact zero_mul _

theorem part4 (a : Vec Ideal S512x1 .f32) (r : Fin 512) :
    k0_pay9 (k0_pay11 (grid0.coords t) (iblk m c 2 t) (iblk m c 3 t)) (cblk t S.s0) S.s2 a (ix2 r (0 : Fin 1))
      = a (ix2 r (0 : Fin 1))
        + (((Finset.univ.filter fun c' : Fin 512 => posSel (tbl m c) (lbl m c) (rowOf t r) (colOf t c')).card : ℝ) : EReal) := by
  rw [pay9_apply, ← Cert.Spec.sum_indicator]
  exact congrArg (a (ix2 r (0 : Fin 1)) + ·) (Finset.sum_congr rfl fun c' _ => ind_pos m c t S hT r c')

theorem part5 (a : Vec Ideal S512x1 .f32) (r : Fin 512) :
    k0_pay1 (k0_pay5 (k0_pay12 (iblk m c 2 t) (iblk m c 3 t)) (cblk t S.s0) S.s1) a (ix2 r (0 : Fin 1))
      = a (ix2 r (0 : Fin 1))
        + (((Finset.univ.filter fun c' : Fin 512 => negSel (tbl m c) (lbl m c) (rowOf t r) (colOf t c')).card : ℝ) : EReal) := by
  rw [pay1_apply, ← Cert.Spec.sum_indicator]
  exact congrArg (a (ix2 r (0 : Fin 1)) + ·) (Finset.sum_congr rfl fun c' _ => ind_neg m c t S hT r c')

theorem part6 (a : Vec Ideal S512x1 .f32) (r : Fin 512) :
    k0_pay2 (k0_pay5 (k0_pay12 (iblk m c 2 t) (iblk m c 3 t)) (cblk t S.s0) S.s1) (k0_pay7 (cblk t S.s0)) a (ix2 r (0 : Fin 1))
      = a (ix2 r (0 : Fin 1)) + ∑ c' : Fin 512, (if negSel (tbl m c) (lbl m c) (rowOf t r) (colOf t c')
          then Ideal.exp (Cert.Spec.forty * (sim (tbl m c) (rowOf t r) (colOf t c') - Cert.Spec.half)) else 0) := by
  rw [pay2_apply]
  refine congrArg (a (ix2 r (0 : Fin 1)) + ·) (Finset.sum_congr rfl fun c' _ => ?_)
  rw [ind_neg m c t S hT, pay7_apply, cblk_apply, hT.1]
  split_ifs
  · exact one_mul _
  · exact zero_mul _

theorem part7 (a : Vec Ideal S512x1 .f32) (r : Fin 512) :
    k0_pay3 (cblk t S.s0) (k0_pay5 (k0_pay12 (iblk m c 2 t) (iblk m c 3 t)) (cblk t S.s0) S.s1) a (ix2 r (0 : Fin 1))
      = a (ix2 r (0 : Fin 1)) + ∑ c' : Fin 512, (if negSel (tbl m c) (lbl m c) (rowOf t r) (colOf t c')
          then sim (tbl m c) (rowOf t r) (colOf t c') else 0) := by
  rw [pay3_apply]
  refine congrArg (a (ix2 r (0 : Fin 1)) + ·) (Finset.sum_congr rfl fun c' _ => ?_)
  rw [ind_neg m c t S hT, cblk_apply, hT.1]
  split_ifs
  · exact one_mul _
  · exact zero_mul _

/-- One point of the second sweep moves the five sums from the columns below 512·k to those below 512·(k + 1), k the
    point's column tile. -/
theorem acc_step (k : ℕ) (hk : k < 16) (htk : t.val % 16 = k) (a3 a4 a5 a6 a7 : Vec Ideal S512x1 .f32)
    (hA : Acc m c (rowOf t) k a3 a4 a5 a6 a7) :
    Acc m c (rowOf t) (k + 1)
      (k0_pay8 (k0_pay11 (grid0.coords t) (iblk m c 2 t) (iblk m c 3 t)) (cblk t S.s0) S.s2 a3)
      (k0_pay9 (k0_pay11 (grid0.coords t) (iblk m c 2 t) (iblk m c 3 t)) (cblk t S.s0) S.s2 a4)
      (k0_pay1 (k0_pay5 (k0_pay12 (iblk m c 2 t) (iblk m c 3 t)) (cblk t S.s0) S.s1) a5)
      (k0_pay2 (k0_pay5 (k0_pay12 (iblk m c 2 t) (iblk m c 3 t)) (cblk t S.s0) S.s1) (k0_pay7 (cblk t S.s0)) a6)
      (k0_pay3 (cblk t S.s0) (k0_pay5 (k0_pay12 (iblk m c 2 t) (iblk m c 3 t)) (cblk t S.s0) S.s1) a7) := by
  intro r
  obtain ⟨h3, h4, h5, h6, h7⟩ := hA r
  have hcol : ∀ c' : Fin 512, colOf t c' = blk k hk c' := fun c' => Fin.ext (by
    show 512 * (t.val % 16) + c'.val = 512 * k + c'.val
    rw [htk])
  refine ⟨?_, ?_, ?_, ?_, ?_⟩
  · rw [part3 m c t S hT, h3, Cert.Spec.sum_P_succ _ k hk]
    simp only [hcol]
  · rw [part4 m c t S hT, h4, Cert.Spec.card_P_succ _ k hk, Nat.cast_add, EReal.coe_add]
    simp only [hcol]
  · rw [part5 m c t S hT, h5, Cert.Spec.card_P_succ _ k hk, Nat.cast_add, EReal.coe_add]
    simp only [hcol]
  · rw [part6 m c t S hT, h6, Cert.Spec.sum_P_succ _ k hk]
    simp only [hcol]
  · rw [part7 m c t S hT, h7, Cert.Spec.sum_P_succ _ k hk]
    simp only [hcol]

end Parts

/-! ## The second sweep: the five sums after each of its points, and the two results -/

section Sweep
open Classical
open Cert.Spec (P sim posSel negSel maxPos minNeg)

variable (c : Dev nD)

/-- The first sweep in closed form: after the sixteenth point of a row tile the thresholds are the rows' thresholds and
    the cache holds the rows' similarities, whatever the scratch held when the tile was entered. -/
def Phase0 : Prop := ∀ (t : Fin cfg0.N) (h : t.val % 32 = 15) (S₀ : St Ideal) (r : Fin 512),
  (tileRun m c t.val t.isLt S₀).s1 (ix2 r (0 : Fin 1)) = Cert.Spec.maxPos (tbl m c) (lbl m c) (rowOf t r)
  ∧ (tileRun m c t.val t.isLt S₀).s2 (ix2 r (0 : Fin 1)) = Cert.Spec.minNeg (tbl m c) (lbl m c) (rowOf t r)
  ∧ ∀ C : Fin 8192, (tileRun m c t.val t.isLt S₀).s0 (ix2 r C) = Cert.Spec.sim (tbl m c) (rowOf t r) C

/-- The point before t. -/
abbrev prev (t : Fin cfg0.N) : Fin cfg0.N := ⟨t.val - 1, Nat.lt_of_le_of_lt (Nat.sub_le _ _) t.isLt⟩

/-- Inside a row tile the point before names the same rows. -/
theorem rowOf_prev (t : Fin cfg0.N) (h : t.val % 32 ≠ 0) : rowOf (prev t) = rowOf t := funext fun r => Fin.ext (by
  show 512 * ((t.val - 1) / 32) + r.val = 512 * (t.val / 32) + r.val
  have : (t.val - 1) / 32 = t.val / 32 := by omega
  rw [this])

/-- The freshly zeroed sums stand at no column. -/
theorem acc_zero (R : Fin 512 → Fin 8192) :
    Acc m c R 0 (k0_pay19 (F := Ideal)) (k0_pay20 (F := Ideal)) (k0_pay21 (F := Ideal)) (k0_pay22 (F := Ideal)) (k0_pay23 (F := Ideal)) := by
  intro r
  rw [pay19_apply, pay20_apply, pay21_apply, pay22_apply, pay23_apply, Ideal.ofBits_zero_f32]
  simp [Cert.Spec.P_zero]

/-- After position 16 + j of a row tile (j ≤ 14) the cache and thresholds are as the first sweep left them and the five
    sums stand at the columns below 512·(j + 1), whatever the scratch held when the tile was entered. -/
theorem sweep (h0 : Phase0 m c) (S₀ : St Ideal) : ∀ (j : ℕ) (t : Fin cfg0.N), t.val % 32 = 16 + j → j ≤ 14 →
    Thr m c (rowOf t) (tileRun m c t.val t.isLt S₀)
    ∧ Acc m c (rowOf t) (j + 1) (tileRun m c t.val t.isLt S₀).s3 (tileRun m c t.val t.isLt S₀).s4
        (tileRun m c t.val t.isLt S₀).s5 (tileRun m c t.val t.isLt S₀).s6 (tileRun m c t.val t.isLt S₀).s7 := by
  intro j
  induction j with
  | zero =>
    intro t ht _
    have hne : t.val % 32 ≠ 0 := by omega
    have h16 : t.val % 32 = 16 := by omega
    rw [tileRun_next m c t hne S₀, stepAt_C m c t h16]
    have hP := h0 (prev t) (by show (t.val - 1) % 32 = 15; omega) S₀
    have hT : Thr m c (rowOf t) (tileRun m c (t.val - 1) (Nat.lt_of_le_of_lt (Nat.sub_le _ _) t.isLt) S₀) := by
      rw [← rowOf_prev t hne]
      exact ⟨fun r C => (hP r).2.2 C, fun r => (hP r).1, fun r => (hP r).2.1⟩
    refine ⟨?_, ?_⟩
    · unfold Thr
      rw [stepC_s0, stepC_s1, stepC_s2]
      exact hT
    · rw [stepC_s3, stepC_s4, stepC_s5, stepC_s6, stepC_s7]
      exact acc_step m c t _ hT 0 (by omega) (by omega) _ _ _ _ _ (acc_zero m c _)
  | succ j ih =>
    intro t ht hj
    have hne : t.val % 32 ≠ 0 := by omega
    rw [tileRun_next m c t hne S₀, stepAt_D m c t (by omega) (by omega)]
    obtain ⟨hT, hA⟩ := ih (prev t) (by show (t.val - 1) % 32 = 16 + j; omega) (by omega)
    rw [rowOf_prev t hne] at hT hA
    refine ⟨?_, ?_⟩
    · unfold Thr
      rw [stepD_s0, stepD_s1, stepD_s2]
      exact hT
    · rw [stepD_s3, stepD_s4, stepD_s5, stepD_s6, stepD_s7]
      exact acc_step m c t _ hT (j + 1) (by omega) (by omega) _ _ _ _ _ hA

/-- The row's loss from the five finished sums. -/
theorem loss_of_acc (R : Fin 512 → Fin 8192) (n3 n4 n5 n6 n7 : Vec Ideal S512x1 .f32)
    (hA : Acc m c R 16 n3 n4 n5 n6 n7) (y : Fin 512) :
    k0_pay4 n4 n5 n3 n7 n6 (ix2 y (0 : Fin 1)) = Cert.Spec.rowLoss (tbl m c) (lbl m c) (R y) := by
  obtain ⟨h3, h4, h5, h6, h7⟩ := hA y
  rw [pay4_apply, h3, h4, h5, h6, h7, Cert.Spec.P_sixteen, Ideal.ofBits_zero_f32]
  unfold Cert.Spec.rowLoss Cert.Spec.posLoss Cert.Spec.negLoss
  refine congrArg₂ (· + ·) (if_congr ?_ rfl rfl) (if_congr ?_ rfl rfl)
  · exact EReal.coe_pos.trans Nat.cast_pos
  · exact EReal.coe_pos.trans Nat.cast_pos

variable (h0 : Phase0 m c)
include h0

/-- At a row tile's last point the five sums with the last block's part added stand at every column. -/
theorem acc_last (t : Fin cfg0.N) (h : t.val % 32 = 31) (S₀ : St Ideal) :
    Thr m c (rowOf t) (tileRun m c (t.val - 1) (Nat.lt_of_le_of_lt (Nat.sub_le _ _) t.isLt) S₀)
    ∧ Acc m c (rowOf t) 15 (tileRun m c (t.val - 1) (Nat.lt_of_le_of_lt (Nat.sub_le _ _) t.isLt) S₀).s3
        (tileRun m c (t.val - 1) (Nat.lt_of_le_of_lt (Nat.sub_le _ _) t.isLt) S₀).s4
        (tileRun m c (t.val - 1) (Nat.lt_of_le_of_lt (Nat.sub_le _ _) t.isLt) S₀).s5
        (tileRun m c (t.val - 1) (Nat.lt_of_le_of_lt (Nat.sub_le _ _) t.isLt) S₀).s6
        (tileRun m c (t.val - 1) (Nat.lt_of_le_of_lt (Nat.sub_le _ _) t.isLt) S₀).s7 := by
  have hne : t.val % 32 ≠ 0 := by omega
  have hs := sweep m c h0 S₀ 14 (prev t) (by show (t.val - 1) % 32 = 16 + 14; omega) le_rfl
  rw [rowOf_prev t hne] at hs
  exact hs

/-- THE FIRST RESULT of a row tile: each row's loss. -/
theorem out4_closed : ∀ (t : Fin cfg0.N) (h : t.val % 32 = 31) (y : Fin 512),
    Data.outAt4 m c t (ix2 y (0 : Fin 1)) = Cert.Spec.rowLoss (tbl m c) (lbl m c) (rowOf t y) := by
  intro t h y
  obtain ⟨hT, hA⟩ := acc_last m c h0 t h St.junk
  unfold outAt4
  rw [dif_pos h, out4_E_eq]
  exact loss_of_acc m c (rowOf t) _ _ _ _ _ (acc_step m c t _ hT 15 (by omega) (by omega) _ _ _ _ _ hA) y

/-- THE SECOND RESULT of a row tile: each row's number of selected negatives. -/
theorem out5_closed : ∀ (t : Fin cfg0.N) (h : t.val % 32 = 31) (y : Fin 512),
    Data.outAt5 m c t (ix2 y (0 : Fin 1)) = ((Cert.Spec.negCnt (tbl m c) (lbl m c) (rowOf t y) : ℝ) : EReal) := by
  intro t h y
  obtain ⟨hT, hA⟩ := acc_last m c h0 t h St.junk
  unfold outAt5
  rw [dif_pos h, out5_E_eq]
  refine ((acc_step m c t _ hT 15 (by omega) (by omega) _ _ _ _ _ hA) y).2.2.1.trans ?_
  rw [Cert.Spec.P_sixteen]
  rfl

end Sweep

end Cert.KernelIdeal.Closed

end
-- ==== Proof.ClosedPhase0Ideal.lean ====
/-
  The first sweep of a row tile in closed form: after the sixteen points of the first phase the similarity cache holds
  the row tile's 512 rows of the similarity matrix, and the two running thresholds are each row's largest similarity
  among its positives and smallest among its negatives.
-/
import proofs.«140287_j55817394979145_2_alg».proof.Proof.DataDefsIdeal
import proofs.«140287_j55817394979145_2_alg».proof.Proof.PayloadsIdeal
import proofs.«140287_j55817394979145_2_alg».proof.Proof.Spec
import proofs.«140287_j55817394979145_2_alg».proof.Proof.SpecLemmas
import proofs.«140287_j55817394979145_2_alg».proof.Proof.EntryIdeal
import proofs.«140287_j55817394979145_2_alg».proof.Proof.BlocksIdeal
import proofs.«140287_j55817394979145_2_alg».proof.Proof.BlocksSpecIdeal
import Idealize.ShloMosaic.Lib.WritesUnit
import Idealize.ShloMosaic.Lib.Tactic

set_option maxRecDepth 16384

noncomputable section

namespace Cert.KernelIdeal.Closed

open Idealize.ShloMosaic Idealize.ShloMosaic.TcCoe Idealize.ShloMosaic.Tactic Idealize.ShloMosaic.ValueIdx
open Idealize.ShloMosaic.ColumnIdx
open Idealize.SL Idealize.SL.Sem
open Idealize.ShloMosaic.Pipeline (Dat Cfg Window)
open Cert.KernelIdeal Cert.KernelIdeal.Gen Cert.KernelIdeal.Shared Cert.KernelIdeal.Kit Cert.KernelIdeal.Runs
open Cert.KernelIdeal.Data Cert.KernelIdeal.Pay

variable (m : (ℓ : Loc nD τ sig) → Buf (Elt Ideal) ℓ)

open Cert.KernelIdeal.Blocks Cert.KernelIdeal.BlocksSpec
open Classical

theorem hz2 : (![0, 0] : Fin 2 → Nat) = fun _ => 0 := funext fun a => by fin_cases a <;> rfl

/-- The stored block at (r, c') is the similarity of the whole matrix's row and column. -/
theorem block_sim16 (c : Dev nD) (t : Fin cfg0.N)
    (inb : ∀ a, (k0_off1 (grid0.coords t)) a + (![512, 512] : Fin 2 → ℕ) a ≤ S8192x512.size a) (r c' : Fin 512) :
    Gen.k0_pay16 (iblk m c 0 t)
        (View.ld (iblk m c 1 t : Vec Ideal S8192x512 .bf16) (Rect.unit (s := S8192x512) (k0_off1 (grid0.coords t)) ![512, 512] inb))
        (ix2 r c')
      = Cert.Spec.sim (m ((c : Thread nD τ).loc main_arg0)) (rowOf t r) (colOf t c') := by
  rw [Pay.pay16_apply, ← Pay.pay15_apply]
  exact block_sim m c t inb r c'

/-- The positives' values of a row: the similarity where the column is a positive of the row, the sentinel elsewhere. -/
def fPos (c : Dev nD) (R C : Fin 8192) : EReal :=
  if Cert.Spec.pos (m ((c : Thread nD τ).loc main_arg1)) R C then Cert.Spec.sim (m ((c : Thread nD τ).loc main_arg0)) R C
  else Cert.Spec.negBig
/-- The negatives' values of a row. -/
def fNeg (c : Dev nD) (R C : Fin 8192) : EReal :=
  if Cert.Spec.neg (m ((c : Thread nD τ).loc main_arg1)) R C then Cert.Spec.sim (m ((c : Thread nD τ).loc main_arg0)) R C
  else Cert.Spec.posBig

set_option maxHeartbeats 1000000 in
/-- A later point of the first phase folds its block into the running maximum over positives. -/
theorem stepB_s1 (c : Dev nD) (t : Fin cfg0.N) (h0 : t.val % 32 ≠ 0) (h : t.val % 32 < 16) (S : St Ideal) (r : Fin 512) :
    (step_B m c t h0 h S).s1 (ix2 r (0 : Fin 1))
      = max (S.s1 (ix2 r (0 : Fin 1))) (Finset.univ.sup fun c' : Fin 512 => fPos m c (rowOf t r) (colOf t c')) := by
  have hvec : (step_B m c t h0 h S).s1
      = Gen.k0_pay17 (grid0.coords t) (iblk m c 2 t) (iblk m c 3 t) (iblk m c 0 t)
          (View.ld (iblk m c 1 t : Vec Ideal S8192x512 .bf16)
            (Rect.unit (s := S8192x512) (k0_off1 (grid0.coords t)) ![512, 512] (k0_off1_inb _ ((hcond2 t).mpr h)))) S.s1 := by
    unfold step_B
    dsimp only [rb1]
    rw [View.read_writes_eq_canon _ _ _ (fun y => scover_B_1 (y := y) ..)]
    unfold kernelRun_B
    dsimp only
    sl_unfold_run_names
    rw [View.canon_unit_zero hz2]
    simp only [View.readAt_eq_ld, Memref.IsWhole.read_unread, View.ld_unit_zero (S := S512x1) hz2,
      View.ld_unit_zero (S := S512x512) hz2, View.ld_unit_zero (S := S1x512) hz2]
    congr 1
    exact hsc1.read_unread S.s1
  rw [hvec, pay17_apply_sup]
  congr 1
  refine Finset.sup_congr rfl fun c' _ => ?_
  unfold fPos
  exact if_congr (mask_pos m c t r c') (block_sim m c t _ r c') rfl

set_option maxHeartbeats 1000000 in
/-- and into the running minimum over negatives. -/
theorem stepB_s2 (c : Dev nD) (t : Fin cfg0.N) (h0 : t.val % 32 ≠ 0) (h : t.val % 32 < 16) (S : St Ideal) (r : Fin 512) :
    (step_B m c t h0 h S).s2 (ix2 r (0 : Fin 1))
      = min (S.s2 (ix2 r (0 : Fin 1))) (Finset.univ.inf fun c' : Fin 512 => fNeg m c (rowOf t r) (colOf t c')) := by
  have hvec : (step_B m c t h0 h S).s2
      = Gen.k0_pay18 (iblk m c 2 t) (iblk m c 3 t) (iblk m c 0 t)
          (View.ld (iblk m c 1 t : Vec Ideal S8192x512 .bf16)
            (Rect.unit (s := S8192x512) (k0_off1 (grid0.coords t)) ![512, 512] (k0_off1_inb _ ((hcond2 t).mpr h)))) S.s2 := by
    unfold step_B
    dsimp only [rb2]
    rw [View.read_writes_eq_canon _ _ _ (fun y => scover_B_2 (y := y) ..)]
    unfold kernelRun_B
    dsimp only
    sl_unfold_run_names
    rw [View.canon_unit_zero hz2]
    simp only [View.readAt_eq_ld, Memref.IsWhole.read_unread, View.ld_unit_zero (S := S512x1) hz2,
      View.ld_unit_zero (S := S512x512) hz2, View.ld_unit_zero (S := S1x512) hz2]
    congr 1
    exact hsc2.read_unread S.s2
  rw [hvec, pay18_apply_inf]
  congr 1
  refine Finset.inf_congr rfl fun c' _ => ?_
  unfold fNeg
  exact if_congr (mask_neg m c t r c') (block_sim m c t _ r c') rfl

set_option maxHeartbeats 1000000 in
/-- The first point of a row tile seeds the running maximum with the sentinel and folds its block into it. -/
theorem stepA_s1 (c : Dev nD) (t : Fin cfg0.N) (h : t.val % 32 = 0) (S : St Ideal) (r : Fin 512) :
    (step_A m c t h S).s1 (ix2 r (0 : Fin 1))
      = max Cert.Spec.negBig (Finset.univ.sup fun c' : Fin 512 => fPos m c (rowOf t r) (colOf t c')) := by
  have hvec : (step_A m c t h S).s1
      = Gen.k0_pay17 (grid0.coords t) (iblk m c 2 t) (iblk m c 3 t) (iblk m c 0 t)
          (View.ld (iblk m c 1 t : Vec Ideal S8192x512 .bf16)
            (Rect.unit (s := S8192x512) (k0_off1 (grid0.coords t)) ![512, 512] (k0_off1_inb _ ((hcond2 t).mpr (by omega)))))
          (Gen.k0_pay13 (F := Ideal)) := by
    unfold step_A
    dsimp only [rb1]
    rw [View.read_writes_eq_canon _ _ _ (fun y => scover_A_1 (y := y) ..)]
    unfold kernelRun_A
    dsimp only
    sl_unfold_run_names
    rw [View.canon_cons_unit_zero hz2, View.readCov_unit_zero _ hz2]
    simp only [View.readAt_eq_ld, Memref.IsWhole.read_unread, View.ld_unit_zero (S := S512x1) hz2,
      View.ld_unit_zero (S := S512x512) hz2, View.ld_unit_zero (S := S1x512) hz2]
    rfl
  rw [hvec, pay17_apply_sup, pay13_apply]
  congr 1
  refine Finset.sup_congr rfl fun c' _ => ?_
  unfold fPos
  exact if_congr (mask_pos m c t r c') (block_sim m c t _ r c') rfl

set_option maxHeartbeats 1000000 in
/-- and the running minimum likewise. -/
theorem stepA_s2 (c : Dev nD) (t : Fin cfg0.N) (h : t.val % 32 = 0) (S : St Ideal) (r : Fin 512) :
    (step_A m c t h S).s2 (ix2 r (0 : Fin 1))
      = min Cert.Spec.posBig (Finset.univ.inf fun c' : Fin 512 => fNeg m c (rowOf t r) (colOf t c')) := by
  have hvec : (step_A m c t h S).s2
      = Gen.k0_pay18 (iblk m c 2 t) (iblk m c 3 t) (iblk m c 0 t)
          (View.ld (iblk m c 1 t : Vec Ideal S8192x512 .bf16)
            (Rect.unit (s := S8192x512) (k0_off1 (grid0.coords t)) ![512, 512] (k0_off1_inb _ ((hcond2 t).mpr (by omega)))))
          (Gen.k0_pay14 (F := Ideal)) := by
    unfold step_A
    dsimp only [rb2]
    rw [View.read_writes_eq_canon _ _ _ (fun y => scover_A_2 (y := y) ..)]
    unfold kernelRun_A
    dsimp only
    sl_unfold_run_names
    rw [View.canon_cons_unit_zero hz2, View.readCov_unit_zero _ hz2]
    simp only [View.readAt_eq_ld, Memref.IsWhole.read_unread, View.ld_unit_zero (S := S512x1) hz2,
      View.ld_unit_zero (S := S512x512) hz2, View.ld_unit_zero (S := S1x512) hz2]
    rfl
  rw [hvec, pay18_apply_inf, pay14_apply]
  congr 1
  refine Finset.inf_congr rfl fun c' _ => ?_
  unfold fNeg
  exact if_congr (mask_neg m c t r c') (block_sim m c t _ r c') rfl

/-- The similarity cache after a point's block store, read at (r, C): inside the stored block the similarity of the
    whole matrix's row and column, elsewhere what the cache held. -/
theorem cache_read (c : Dev nD) (t : Fin cfg0.N)
    (inb2 : ∀ a, (k0_off2 (grid0.coords t)) a + (![512, 512] : Fin 2 → ℕ) a ≤ S512x8192.size a)
    (inb1 : ∀ a, (k0_off1 (grid0.coords t)) a + (![512, 512] : Fin 2 → ℕ) a ≤ S8192x512.size a)
    (X : Vec Ideal S512x8192 .f32) (r : Fin 512) (C : Fin 8192) :
    View.read (Elt Ideal) (View.whole cc0_scratch0)
        ((View.whole cc0_scratch0).writes (Elt Ideal) (hsc0.unread X)
          [⟨Rect.unit (s := S512x8192) (k0_off2 (grid0.coords t)) ![512, 512] inb2,
            Gen.k0_pay16 (iblk m c 0 t)
              (View.ld (iblk m c 1 t : Vec Ideal S8192x512 .bf16)
                (Rect.unit (s := S8192x512) (k0_off1 (grid0.coords t)) ![512, 512] inb1))⟩])
        (ix2 r C)
      = if 512 * (t.val % 16) ≤ C.val ∧ C.val < 512 * (t.val % 16) + 512 then
          Cert.Spec.sim (m ((c : Thread nD τ).loc main_arg0)) (rowOf t r) C
        else X (ix2 r C) := by
  have hoff := k0_off2_eq (grid0.coords t)
  have h2 := coords2 t
  by_cases hC : 512 * (t.val % 16) ≤ C.val ∧ C.val < 512 * (t.val % 16) + 512
  · rw [if_pos hC]
    have hlt : C.val - 512 * (t.val % 16) < 512 := by omega
    rw [View.read_writes_cons_unit_of_mem (View.whole cc0_scratch0) _ inb2 _ [] (ix2 r C)
      (ix2 r (⟨C.val - 512 * (t.val % 16), hlt⟩ : Fin 512) :
        (Rect.unit (s := S512x8192) (k0_off2 (grid0.coords t)) ![512, 512] inb2).shape.Idx) hoff (fun a => by
        match a with
        | ⟨0, _⟩ => show r.val = 0 + r.val; omega
        | ⟨1, _⟩ =>
          show C.val = 512 * (grid0.coords t 2).val + (C.val - 512 * (t.val % 16))
          rw [h2]; omega)]
    rw [block_sim16]
    congr 1
    exact Fin.ext (by show 512 * (t.val % 16) + (C.val - 512 * (t.val % 16)) = C.val; omega)
  · rw [if_neg hC, View.read_writes_cons_unit_of_not_mem (View.whole cc0_scratch0) _ inb2 _ [] (ix2 r C) hoff (1 : Fin 2)
      (by
        show C.val < 512 * (grid0.coords t 2).val ∨ 512 * (grid0.coords t 2).val + 512 ≤ C.val
        rw [h2]; omega)]
    show View.read (Elt Ideal) (View.whole cc0_scratch0) (hsc0.unread X) (ix2 r C) = _
    rw [show View.read (Elt Ideal) (View.whole cc0_scratch0) (hsc0.unread X) = X from hsc0.read_unread X]

set_option maxHeartbeats 1000000 in
/-- A later point of the first phase stores its block of the similarity matrix into the cache. -/
theorem stepB_s0 (c : Dev nD) (t : Fin cfg0.N) (h0 : t.val % 32 ≠ 0) (h : t.val % 32 < 16) (S : St Ideal) (r : Fin 512)
    (C : Fin 8192) :
    (step_B m c t h0 h S).s0 (ix2 r C)
      = if 512 * (t.val % 16) ≤ C.val ∧ C.val < 512 * (t.val % 16) + 512 then
          Cert.Spec.sim (m ((c : Thread nD τ).loc main_arg0)) (rowOf t r) C
        else S.s0 (ix2 r C) := by
  unfold step_B
  dsimp only [rb0]
  unfold kernelRun_B
  dsimp only
  sl_unfold_run_names
  simp only [View.readAt_eq_ld, Memref.IsWhole.read_unread, View.ld_unit_zero (S := S512x512) hz2]
  exact cache_read m c t _ _ S.s0 r C

set_option maxHeartbeats 1000000 in
/-- So does the first point of a row tile. -/
theorem stepA_s0 (c : Dev nD) (t : Fin cfg0.N) (h : t.val % 32 = 0) (S : St Ideal) (r : Fin 512) (C : Fin 8192) :
    (step_A m c t h S).s0 (ix2 r C)
      = if 512 * (t.val % 16) ≤ C.val ∧ C.val < 512 * (t.val % 16) + 512 then
          Cert.Spec.sim (m ((c : Thread nD τ).loc main_arg0)) (rowOf t r) C
        else S.s0 (ix2 r C) := by
  unfold step_A
  dsimp only [rb0]
  unfold kernelRun_A
  dsimp only
  sl_unfold_run_names
  simp only [View.readAt_eq_ld, Memref.IsWhole.read_unread, View.ld_unit_zero (S := S512x512) hz2]
  exact cache_read m c t _ _ S.s0 r C

/-! ## The invariant of the first phase and its sixteen steps -/

/-- After position j of a row tile's first phase, on the scratch S (R r the whole matrix's row of the tile's row r): the
    running maximum is the sentinel against the positives' maximum over the columns below 512·(j + 1), the running
    minimum the twin, and the cache holds the similarities of those columns. -/
def Inv (c : Dev nD) (R : Fin 512 → Fin 8192) (j : ℕ) (S : St Ideal) : Prop :=
  ∀ r : Fin 512,
    S.s1 (ix2 r (0 : Fin 1)) = max Cert.Spec.negBig ((Cert.Spec.P (j + 1)).sup (fPos m c (R r)))
    ∧ S.s2 (ix2 r (0 : Fin 1)) = min Cert.Spec.posBig ((Cert.Spec.P (j + 1)).inf (fNeg m c (R r)))
    ∧ ∀ C : Fin 8192, C.val < 512 * (j + 1) →
        S.s0 (ix2 r C) = Cert.Spec.sim (m ((c : Thread nD τ).loc main_arg0)) (R r) C

/-- In the first phase the column tile of point t is its position in the row tile. -/
theorem colOf_eq_blk (t : Fin cfg0.N) (h : t.val % 32 < 16) (c' : Fin 512) :
    colOf t c' = Cert.Spec.blk (t.val % 32) h c' :=
  Fin.ext (by show 512 * (t.val % 16) + c'.val = 512 * (t.val % 32) + c'.val; omega)

/-- The first point of a row tile establishes the invariant at position 0, whatever the scratch held. -/
theorem inv_A (c : Dev nD) (t : Fin cfg0.N) (h : t.val % 32 = 0) (S : St Ideal) :
    Inv m c (rowOf t) 0 (step_A m c t h S) := by
  intro r
  have hj : t.val % 32 < 16 := by omega
  have hcol : ∀ c' : Fin 512, colOf t c' = Cert.Spec.blk 0 (by omega) c' := fun c' =>
    (colOf_eq_blk t hj c').trans (by simp only [h])
  refine ⟨?_, ?_, fun C hC => ?_⟩
  · rw [stepA_s1, Cert.Spec.sup_P_succ _ 0 (by omega), Cert.Spec.P_zero, Finset.sup_empty, bot_sup_eq]
    simp only [hcol]
  · rw [stepA_s2, Cert.Spec.inf_P_succ _ 0 (by omega), Cert.Spec.P_zero, Finset.inf_empty, top_inf_eq]
    simp only [hcol]
  · rw [stepA_s0, if_pos (by omega)]

/-- A later point of the first phase carries the invariant from the position before to its own. -/
theorem inv_B (c : Dev nD) (t : Fin cfg0.N) (h0 : t.val % 32 ≠ 0) (h : t.val % 32 < 16) (S : St Ideal)
    (hS : Inv m c (rowOf t) (t.val % 32 - 1) S) : Inv m c (rowOf t) (t.val % 32) (step_B m c t h0 h S) := by
  intro r
  obtain ⟨h1, h2, h3⟩ := hS r
  have hj : t.val % 32 - 1 + 1 = t.val % 32 := by omega
  rw [hj] at h1 h2 h3
  have hcol : ∀ c' : Fin 512, colOf t c' = Cert.Spec.blk (t.val % 32) h c' := colOf_eq_blk t h
  refine ⟨?_, ?_, fun C hC => ?_⟩
  · rw [stepB_s1, h1, Cert.Spec.sup_P_succ _ _ h, max_assoc]
    simp only [hcol]
  · rw [stepB_s2, h2, Cert.Spec.inf_P_succ _ _ h, min_assoc]
    simp only [hcol]
  · rw [stepB_s0]
    by_cases hC' : 512 * (t.val % 16) ≤ C.val ∧ C.val < 512 * (t.val % 16) + 512
    · rw [if_pos hC']
    · rw [if_neg hC']
      exact h3 C (by omega)

/-- Two points of one row tile have the same rows. -/
theorem rowOf_succ (n : ℕ) (hn : n + 1 < cfg0.N) (h0 : (n + 1) % 32 ≠ 0) :
    rowOf ⟨n + 1, hn⟩ = rowOf ⟨n, Nat.lt_of_succ_lt hn⟩ :=
  funext fun r => Fin.ext (by show 512 * ((n + 1) / 32) + r.val = 512 * (n / 32) + r.val; omega)

/-- THE INVARIANT ALONG THE RUN: after any point of a first phase, whatever state the row tile was entered with. -/
theorem inv_tileRun (c : Dev nD) (S₀ : St Ideal) : ∀ (n : ℕ) (hn : n < cfg0.N), n % 32 < 16 →
    Inv m c (rowOf ⟨n, hn⟩) (n % 32) (tileRun m c n hn S₀)
  | 0, hn, _ => by
    show Inv m c (rowOf ⟨0, hn⟩) 0 (stepAt m c ⟨0, hn⟩ S₀)
    rw [stepAt_A m c ⟨0, hn⟩ rfl]
    exact inv_A m c ⟨0, hn⟩ rfl S₀
  | n + 1, hn, hlt => by
    by_cases h0 : (n + 1) % 32 = 0
    · rw [show tileRun m c (n + 1) hn S₀ = stepAt m c ⟨n + 1, hn⟩ S₀ from if_pos h0, stepAt_A m c ⟨n + 1, hn⟩ h0, h0]
      exact inv_A m c ⟨n + 1, hn⟩ h0 S₀
    · rw [show tileRun m c (n + 1) hn S₀
          = stepAt m c ⟨n + 1, hn⟩ (tileRun m c n (Nat.lt_of_succ_lt hn) S₀) from if_neg h0,
        stepAt_B m c ⟨n + 1, hn⟩ h0 hlt]
      have ih := inv_tileRun c S₀ n (Nat.lt_of_succ_lt hn) (by omega)
      refine inv_B m c ⟨n + 1, hn⟩ h0 hlt _ ?_
      rw [rowOf_succ n hn h0]
      have hj : (n + 1) % 32 - 1 = n % 32 := by omega
      show Inv m c (rowOf ⟨n, _⟩) ((n + 1) % 32 - 1) _
      rw [hj]
      exact ih

/-- THE FIRST SWEEP IN CLOSED FORM: after the last point of a row tile's first phase the two thresholds are the
    specification's and the cache holds the row tile's rows of the similarity matrix, whatever the row tile was entered
    with. -/
theorem phase0 (c : Dev nD) (t : Fin cfg0.N) (h : t.val % 32 = 15) (S₀ : St Ideal) (r : Fin 512) :
    (tileRun m c t.val t.isLt S₀).s1 (ix2 r (0 : Fin 1))
        = Cert.Spec.maxPos (m ((c : Thread nD τ).loc main_arg0)) (m ((c : Thread nD τ).loc main_arg1)) (rowOf t r)
    ∧ (tileRun m c t.val t.isLt S₀).s2 (ix2 r (0 : Fin 1))
        = Cert.Spec.minNeg (m ((c : Thread nD τ).loc main_arg0)) (m ((c : Thread nD τ).loc main_arg1)) (rowOf t r)
    ∧ ∀ C : Fin 8192, (tileRun m c t.val t.isLt S₀).s0 (ix2 r C)
        = Cert.Spec.sim (m ((c : Thread nD τ).loc main_arg0)) (rowOf t r) C := by
  obtain ⟨h1, h2, h3⟩ := inv_tileRun m c S₀ t.val t.isLt (by omega) r
  rw [h] at h1 h2 h3
  rw [Cert.Spec.P_sixteen] at h1 h2
  refine ⟨?_, ?_, fun C => h3 C (by have := C.isLt; omega)⟩
  · rw [h1]
    exact Cert.Spec.max_negBig_maxPos _ _ _
  · rw [h2]
    exact Cert.Spec.min_posBig_minNeg _ _ _

end Cert.KernelIdeal.Closed

end
-- ==== Proof.IndepFromSweepIdeal.lean ====
/-
  The two results a row tile's last point stores do not depend on the scratch the tile was entered with: whatever it
  held, the second sweep's sums stand at every column when the last point reads them, so each stored row is the
  specification's value of that row.
-/
import proofs.«140287_j55817394979145_2_alg».proof.Proof.ClosedIdeal
import proofs.«140287_j55817394979145_2_alg».proof.Proof.ClosedPhase0Ideal

set_option maxRecDepth 16384

noncomputable section

namespace Cert.KernelIdeal.Closed

open Idealize.ShloMosaic Idealize.ShloMosaic.TcCoe Idealize.ShloMosaic.ValueIdx
open Idealize.SL Idealize.SL.Sem
open Cert.KernelIdeal Cert.KernelIdeal.Gen Cert.KernelIdeal.Shared Cert.KernelIdeal.Kit Cert.KernelIdeal.Runs
open Cert.KernelIdeal.Data Cert.KernelIdeal.Pay Cert.KernelIdeal.Arrays

variable (m : (ℓ : Loc nD τ sig) → Buf (Elt Ideal) ℓ)

/-- An index of a 512x1 column is its row at column 0. -/
theorem col_idx_eq (j : S512x1.Idx) : j = ix2 (⟨(j 0).val, (j 0).isLt⟩ : Fin 512) (0 : Fin 1) := by
  have hj1 : (j 1).val < 1 := (j 1).isLt
  funext a; apply Fin.ext
  match a with
  | ⟨0, _⟩ => rfl
  | ⟨1, _⟩ => show (j 1).val = 0; omega

section Any
variable (c : Dev nD) (h0 : Phase0 m c)
include h0

/-- The first result from ANY entry state. -/
theorem out4_from_any (t : Fin cfg0.N) (h : t.val % 32 = 31) (S₀ : St Ideal) (y : Fin 512) :
    out4_E m c t h (tileRun m c (t.val - 1) (Nat.lt_of_le_of_lt (Nat.sub_le _ _) t.isLt) S₀) (ix2 y (0 : Fin 1))
      = Cert.Spec.rowLoss (tbl m c) (lbl m c) (rowOf t y) := by
  obtain ⟨hT, hA⟩ := acc_last m c h0 t h S₀
  rw [out4_E_eq]
  exact loss_of_acc m c (rowOf t) _ _ _ _ _ (acc_step m c t _ hT 15 (by omega) (by omega) _ _ _ _ _ hA) y

/-- The second result from ANY entry state. -/
theorem out5_from_any (t : Fin cfg0.N) (h : t.val % 32 = 31) (S₀ : St Ideal) (y : Fin 512) :
    out5_E m c t h (tileRun m c (t.val - 1) (Nat.lt_of_le_of_lt (Nat.sub_le _ _) t.isLt) S₀) (ix2 y (0 : Fin 1))
      = ((Cert.Spec.negCnt (tbl m c) (lbl m c) (rowOf t y) : ℝ) : EReal) := by
  obtain ⟨hT, hA⟩ := acc_last m c h0 t h S₀
  rw [out5_E_eq]
  refine ((acc_step m c t _ hT 15 (by omega) (by omega) _ _ _ _ _ hA) y).2.2.1.trans ?_
  rw [Cert.Spec.P_sixteen]
  rfl

end Any

/-- The first sweep's closed form, as the second sweep takes it. -/
theorem phase0_holds (c : Dev nD) : Phase0 m c := fun t h S₀ r => phase0 m c t h S₀ r

/-- What a row tile's last point stores does not depend on the scratch the tile was entered with. -/
theorem indep_ideal : Cert.KernelIdeal.Data.Indep (F := Ideal) m := by
  intro c t h S₀
  refine ⟨?_, ?_⟩
  · funext j
    rw [col_idx_eq j, out4_from_any m c (phase0_holds m c) t h S₀, out4_closed m c (phase0_holds m c) t h]
  · funext j
    rw [col_idx_eq j, out5_from_any m c (phase0_holds m c) t h S₀, out5_closed m c (phase0_holds m c) t h]

end Cert.KernelIdeal.Closed

end
-- ==== Proof.DataBodyIdeal.lean ====
/-
  The body obligation of the region and its frame run.  At every grid point the body is handed the four input windows
  at their blocks, the two output windows (idle except at a row tile's last point) and the eight scratch operands at the
  row tile's run so far; it runs the case the point's position selects and leaves the scratch at the run's next state.
  At a row tile's last point what it stores into the output windows is what the proof data name (the independence of
  the entry state).  With the launch for windows that share an array this gives the frame run of the program, and the
  frame: both arguments end as launched.
-/
import proofs.«140287_j55817394979145_2_alg».proof.Proof.DataDefsIdeal

set_option maxRecDepth 16384

noncomputable section

namespace Cert.KernelIdeal.Data

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Shared Cert.KernelIdeal.Kit Cert.KernelIdeal.Runs

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

set_option maxHeartbeats 8000000 in
/-- One point of the body from a named scratch state `S`: it runs, hands the input windows back as found, leaves the
    scratch at the step's state, and the output windows as the pipeline expects them — idle and untouched, or, at a row
    tile's last point, stored with the tile's results (`hE`: what is stored there is what the proof data name). -/
theorem sound_step (c : Dev nD) (t : Fin cfg0.N) (S : St F)
    (hE : ∀ h : t.val % 32 = 31, out4_E m c t h S = outAt4 m c t ∧ out5_E m c t h S = outAt5 m c t)
    (K : PUnit → sProp 𝕄) :
    iprop(ownsSt c S ∗ (∃ r, prngReg c r) ∗ (dats m 0 c).owesAt () t.castSucc
        ∗ owns (c : Thread nD τ) (ms0_0 t) fullShare (iblk m c 0 t) ∗ owns (c : Thread nD τ) (ms0_1 t) fullShare (iblk m c 1 t)
        ∗ owns (c : Thread nD τ) (ms0_2 t) fullShare (iblk m c 2 t) ∗ owns (c : Thread nD τ) (ms0_3 t) fullShare (iblk m c 3 t)
        ∗ (∃ d, owns (c : Thread nD τ) (ms0_4 t) fullShare ((dats m 0 c).before 4 t d))
        ∗ (∃ d, owns (c : Thread nD τ) (ms0_5 t) fullShare ((dats m 0 c).before 5 t d))
        ∗ (iprop(ownsSt c (stepAt m c t S) ∗ (∃ r, prngReg c r) ∗ (dats m 0 c).owesAt () t.castSucc
            ∗ owns (c : Thread nD τ) (ms0_0 t) fullShare (iblk m c 0 t) ∗ owns (c : Thread nD τ) (ms0_1 t) fullShare (iblk m c 1 t)
            ∗ owns (c : Thread nD τ) (ms0_2 t) fullShare (iblk m c 2 t) ∗ owns (c : Thread nD τ) (ms0_3 t) fullShare (iblk m c 3 t)
            ∗ (dats m 0 c).leavesExact 4 t ∗ (dats m 0 c).leavesExact 5 t) -∗ K ⟨⟩))
      ⊢ wp frame (wpE (defs₀ (F := F)) Variants.none c none) Set.univ (bodyAt0 t) K := by
  rw [bodyAt0_eq]
  by_cases hA : t.val % 32 = 0
  · have h := hA
    rw [stepAt_A m c t h]
    have hc5 : ¬cond5 (grid0.coords t) := (fun q => by have := (hcond5 t).mp q; omega)
    rw [Dat.leavesExact_idle (dats m 0 c) 4 t (idleAt_4 t hc5) (noFlush_4 t hc5), Dat.leavesExact_idle (dats m 0 c) 5 t (idleAt_5 t hc5) (noFlush_5 t hc5)]
    unfold ownsSt step_A
    iintro ⟨⟨HS0, HS1, HS2, HS3, HS4, HS5, HS6, HS7⟩, Hg, Ho, H0, H1, H2, H3, ⟨%d4, H4⟩, ⟨%d5, H5⟩, Hk⟩
    iapply ((kernelRun_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond1 t).mpr h) ((hcond2 t).mpr (by omega)) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.2.2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, HS0, HS1, HS2, HS3, HS4, HS5, HS6, HS7⟩
    iapply Hk
    isplitl [HS0 HS1 HS2 HS3 HS4 HS5 HS6 HS7]
    · isplitl [HS0]
      · unfold owns; iexists _; isplitr
        swap; · iexact HS0
        ipureintro; rfl
      isplitl [HS1]
      · unfold owns; iexists _; isplitr
        swap; · iexact HS1
        ipureintro; rfl
      isplitl [HS2]
      · unfold owns; iexists _; isplitr
        swap; · iexact HS2
        ipureintro; rfl
      isplitl [HS3]
      · unfold owns; iexists _; isplitr
        swap; · iexact HS3
        ipureintro; rfl
      isplitl [HS4]
      · unfold owns; iexists _; isplitr
        swap; · iexact HS4
        ipureintro; rfl
      isplitl [HS5]
      · unfold owns; iexists _; isplitr
        swap; · iexact HS5
        ipureintro; rfl
      isplitl [HS6]
      · unfold owns; iexists _; isplitr
        swap; · iexact HS6
        ipureintro; rfl
      unfold owns; iexists _; isplitr
      swap; · iexact HS7
      ipureintro; rfl
    isplitl [Hg]; · iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  by_cases hB : t.val % 32 < 16
  · have h0 := hA; have h := hB
    rw [stepAt_B m c t h0 h]
    have hc5 : ¬cond5 (grid0.coords t) := (fun q => by have := (hcond5 t).mp q; omega)
    rw [Dat.leavesExact_idle (dats m 0 c) 4 t (idleAt_4 t hc5) (noFlush_4 t hc5), Dat.leavesExact_idle (dats m 0 c) 5 t (idleAt_5 t hc5) (noFlush_5 t hc5)]
    unfold ownsSt step_B
    iintro ⟨⟨HS0, HS1, HS2, HS3, HS4, HS5, HS6, HS7⟩, Hg, Ho, H0, H1, H2, H3, ⟨%d4, H4⟩, ⟨%d5, H5⟩, Hk⟩
    iapply ((kernelRun_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => h0 ((hcond1 t).mp q)) ((hcond2 t).mpr h) (fun q => by have := (hcond3 t).mp q; omega) (fun q => by have := (hcond4 t).mp q; omega) (fun q => by have := (hcond5 t).mp q; omega) (iblk m c 0 t) (iblk m c 1 t) (iblk m c 2 t) (iblk m c 3 t) S.s0 S.s1 S.s2 S.s3 S.s4 S.s5 S.s6 S.s7).2.2.2.2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, HS0, HS1, HS2, HS3, HS4, HS5, HS6, HS7⟩
    iapply Hk
    isplitl [HS0 HS1 HS2 HS3 HS4 HS5 HS6 HS7]
    · isplitl [HS0]
      · unfold owns; iexists _; isplitr
        swap; · iexact HS0
        ipureintro; rfl
      isplitl [HS1]
      · unfold owns; iexists _; isplitr
        swap; · iexact HS1
        ipureintro; rfl
      isplitl [HS2]
      · unfold owns; iexists _; isplitr
        swap; · iexact HS2
        ipureintro; rfl
      isplitl [HS3]
      · unfold owns; iexists _; isplitr
        swap; · iexact HS3
        ipureintro; rfl
      isplitl [HS4]
      · unfold owns; iexists _; isplitr
        swap; · iexact HS4
        ipureintro; rfl
      isplitl [HS5]
      · unfold owns; iexists _; isplitr
        swap; · iexact HS5
        ipureintro; rfl
      isplitl [HS6]
      · unfold owns; iexists _; isplitr
        swap; · iexact HS6
        ipureintro; rfl
      unfold owns; iexists _; isplitr
      swap; · iexact HS7
      ipureintro; rfl
    isplitl [Hg]; · iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  by_cases hC : t.val % 32 = 16
  · have h := hC
    rw [stepAt_C m c t h]
    have hc5 : ¬cond5 (grid0.coords t) := (fun q => by have := (hcond5 t).mp q; omega)
    rw [Dat.leavesExact_idle (dats m 0 c) 4 t (idleAt_4 t hc5) (noFlush_4 t hc5), Dat.leavesExact_idle (dats m 0 c) 5 t (idleAt_5 t hc5) (noFlush_5 t hc5)]
    unfold ownsSt step_C
    iintro ⟨⟨HS0, HS1, HS2, HS3, HS4, HS5, HS6, HS7⟩, Hg, Ho, H0, H1, H2, H3, ⟨%d4, H4⟩, ⟨%d5, H5⟩, Hk⟩
    iapply ((kernelRun_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) ((hcond3 t).mpr h) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.2.2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, HS0, HS1, HS2, HS3, HS4, HS5, HS6, HS7⟩
    iapply Hk
    isplitl [HS0 HS1 HS2 HS3 HS4 HS5 HS6 HS7]
    · isplitl [HS0]
      · unfold owns; iexists _; isplitr
        swap; · iexact HS0
        ipureintro; rfl
      isplitl [HS1]
      · unfold owns; iexists _; isplitr
        swap; · iexact HS1
        ipureintro; rfl
      isplitl [HS2]
      · unfold owns; iexists _; isplitr
        swap; · iexact HS2
        ipureintro; rfl
      isplitl [HS3]
      · unfold owns; iexists _; isplitr
        swap; · iexact HS3
        ipureintro; rfl
      isplitl [HS4]
      · unfold owns; iexists _; isplitr
        swap; · iexact HS4
        ipureintro; rfl
      isplitl [HS5]
      · unfold owns; iexists _; isplitr
        swap; · iexact HS5
        ipureintro; rfl
      isplitl [HS6]
      · unfold owns; iexists _; isplitr
        swap; · iexact HS6
        ipureintro; rfl
      unfold owns; iexists _; isplitr
      swap; · iexact HS7
      ipureintro; rfl
    isplitl [Hg]; · iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  by_cases hD : t.val % 32 < 31
  · have h0 : 16 < t.val % 32 := by omega
    have h := hD
    rw [stepAt_D m c t h0 h]
    have hc5 : ¬cond5 (grid0.coords t) := (fun q => by have := (hcond5 t).mp q; omega)
    rw [Dat.leavesExact_idle (dats m 0 c) 4 t (idleAt_4 t hc5) (noFlush_4 t hc5), Dat.leavesExact_idle (dats m 0 c) 5 t (idleAt_5 t hc5) (noFlush_5 t hc5)]
    unfold ownsSt step_D
    iintro ⟨⟨HS0, HS1, HS2, HS3, HS4, HS5, HS6, HS7⟩, Hg, Ho, H0, H1, H2, H3, ⟨%d4, H4⟩, ⟨%d5, H5⟩, Hk⟩
    iapply ((kernelRun_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) (fun q => by have := (hcond5 t).mp q; omega) (iblk m c 0 t) (iblk m c 1 t) (iblk m c 2 t) (iblk m c 3 t) S.s0 S.s1 S.s2 S.s3 S.s4 S.s5 S.s6 S.s7).2.2.2.2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, HS0, HS1, HS2, HS3, HS4, HS5, HS6, HS7⟩
    iapply Hk
    isplitl [HS0 HS1 HS2 HS3 HS4 HS5 HS6 HS7]
    · isplitl [HS0]
      · unfold owns; iexists _; isplitr
        swap; · iexact HS0
        ipureintro; rfl
      isplitl [HS1]
      · unfold owns; iexists _; isplitr
        swap; · iexact HS1
        ipureintro; rfl
      isplitl [HS2]
      · unfold owns; iexists _; isplitr
        swap; · iexact HS2
        ipureintro; rfl
      isplitl [HS3]
      · unfold owns; iexists _; isplitr
        swap; · iexact HS3
        ipureintro; rfl
      isplitl [HS4]
      · unfold owns; iexists _; isplitr
        swap; · iexact HS4
        ipureintro; rfl
      isplitl [HS5]
      · unfold owns; iexists _; isplitr
        swap; · iexact HS5
        ipureintro; rfl
      isplitl [HS6]
      · unfold owns; iexists _; isplitr
        swap; · iexact HS6
        ipureintro; rfl
      unfold owns; iexists _; isplitr
      swap; · iexact HS7
      ipureintro; rfl
    isplitl [Hg]; · iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have h : t.val % 32 = 31 := by omega
    rw [stepAt_E m c t h]
    have hc5 : cond5 (grid0.coords t) := ((hcond5 t).mpr h)
    rw [show (dats m 0 c).leavesExact 4 t = owns (c : Thread nD τ) (ms0_4 t) fullShare ((dats m 0 c).after 4 t) from by
      unfold Dat.leavesExact; rw [liveAt_4 t hc5], after_4, ← (hE h).1]
    rw [show (dats m 0 c).leavesExact 5 t = owns (c : Thread nD τ) (ms0_5 t) fullShare ((dats m 0 c).after 5 t) from by
      unfold Dat.leavesExact; rw [liveAt_5 t hc5], after_5, ← (hE h).2]
    unfold ownsSt step_E
    iintro ⟨⟨HS0, HS1, HS2, HS3, HS4, HS5, HS6, HS7⟩, Hg, Ho, H0, H1, H2, H3, ⟨%d4, H4⟩, ⟨%d5, H5⟩, Hk⟩
    iapply ((kernelRun_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun q => by have := (hcond1 t).mp q; omega) (fun q => by have := (hcond2 t).mp q; omega) (fun q => by have := (hcond3 t).mp q; omega) ((hcond4 t).mpr (by omega)) ((hcond5 t).mpr h) (iblk m c 0 t) (iblk m c 1 t) (iblk m c 2 t) (iblk m c 3 t) S.s0 S.s1 S.s2 S.s3 S.s4 S.s5 S.s6 S.s7).2.2.2.2.2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, ⟨%e4, H4⟩, ⟨%e5, H5⟩, HS0, HS1, HS2, HS3, HS4, HS5, HS6, HS7⟩
    iapply Hk
    isplitl [HS0 HS1 HS2 HS3 HS4 HS5 HS6 HS7]
    · isplitl [HS0]
      · unfold owns; iexists _; isplitr
        swap; · iexact HS0
        ipureintro; rfl
      isplitl [HS1]
      · unfold owns; iexists _; isplitr
        swap; · iexact HS1
        ipureintro; rfl
      isplitl [HS2]
      · unfold owns; iexists _; isplitr
        swap; · iexact HS2
        ipureintro; rfl
      isplitl [HS3]
      · unfold owns; iexists _; isplitr
        swap; · iexact HS3
        ipureintro; rfl
      isplitl [HS4]
      · unfold owns; iexists _; isplitr
        swap; · iexact HS4
        ipureintro; rfl
      isplitl [HS5]
      · unfold owns; iexists _; isplitr
        swap; · iexact HS5
        ipureintro; rfl
      isplitl [HS6]
      · unfold owns; iexists _; isplitr
        swap; · iexact HS6
        ipureintro; rfl
      unfold owns; iexists _; isplitr
      swap; · iexact HS7
      ipureintro; rfl
    isplitl [Hg]; · iexact Hg
    isplitl [Ho]; · iexact Ho
    isplitl [H0]; · iexact H0
    isplitl [H1]; · iexact H1
    isplitl [H2]; · iexact H2
    isplitl [H3]; · iexact H3
    isplitl [H4]
    · unfold owns out4_E; iexists _; isplitr
      swap; · iexact H4
      ipureintro; exact View.read_writes_of_cover _ _ _ _ _ (cover_E_4 c _ _ _ _ _ _ _ _ _ _ _ _ _ _ _ _ _ _ _ _ _ _ _ _ _ _ _ _ _ _ _ _ _ _ _ _ _ _ _ _ _ _ _ _ _ _)
    unfold owns out5_E; iexists _; isplitr
    swap; · iexact H5
    ipureintro; exact View.read_writes_of_cover _ _ _ _ _ (cover_E_5 c _ _ _ _ _ _ _ _ _ _ _ _ _ _ _ _ _ _ _ _ _ _ _ _ _ _ _ _ _ _ _ _ _ _ _ _ _ _ _ _ _ _ _ _ _ _)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4000000 in
/-- The body at any point. -/
theorem sound_body (indep : Indep m) (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt_0 t], after_0]
  rw [show (dats m 0 c).leavesExact 1 t = owns (c : Thread nD τ) (ms0_1 t) fullShare ((dats m 0 c).after 1 t) from by
    unfold Dat.leavesExact; rw [liveAt_1 t], after_1]
  rw [show (dats m 0 c).leavesExact 2 t = owns (c : Thread nD τ) (ms0_2 t) fullShare ((dats m 0 c).after 2 t) from by
    unfold Dat.leavesExact; rw [liveAt_2 t], after_2]
  rw [show (dats m 0 c).leavesExact 3 t = owns (c : Thread nD τ) (ms0_3 t) fullShare ((dats m 0 c).after 3 t) from by
    unfold Dat.leavesExact; rw [liveAt_3 t], after_3]
  rw [PhiS_castSucc m c t]
  by_cases hz : t.val = 0
  · -- the very first point: every scratch at anything
    rw [PhiS_zero m c _ _ hz, PhiA0_eq]
    iintro ⟨⟨⟨⟨%d0, HS0⟩, ⟨%d1, HS1⟩, ⟨%d2, HS2⟩, ⟨%d3, HS3⟩, ⟨%d4, HS4⟩, ⟨%d5, HS5⟩, ⟨%d6, HS6⟩, ⟨%d7, HS7⟩⟩, Hg⟩, Ho, ⟨%e0, H0⟩, ⟨%e1, H1⟩, ⟨%e2, H2⟩, ⟨%e3, H3⟩, H4, H5⟩
    iapply (sound_step m c t ⟨d0, d1, d2, d3, d4, d5, d6, d7⟩ (fun h => absurd h (by omega)) _)
    isplitl [HS0 HS1 HS2 HS3 HS4 HS5 HS6 HS7]
    · unfold ownsSt
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iintro ⟨HS, Hg, Ho, H0, H1, H2, H3, H4, H5⟩
    isplitl [HS Hg]
    · isplitl [HS]
      · iexists (⟨d0, d1, d2, d3, d4, d5, d6, d7⟩ : St F)
        rw [tileRun_first m c t (by omega)]
        iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS_pos m c _ _ hz]
    iintro ⟨⟨⟨%S₀, HS⟩, Hg⟩, Ho, ⟨%e0, H0⟩, ⟨%e1, H1⟩, ⟨%e2, H2⟩, ⟨%e3, H3⟩, H4, H5⟩
    by_cases h0 : t.val % 32 = 0
    · -- a later row tile's first point: the run restarts from what the tile before left
      iapply (sound_step m c t (tileRun m c (t.val - 1) (by omega) S₀) (fun h => absurd h (by omega)) _)
      isplitl [HS]; · iexact HS
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iintro ⟨HS, Hg, Ho, H0, H1, H2, H3, H4, H5⟩
      isplitl [HS Hg]
      · isplitl [HS]
        · iexists (tileRun m c (t.val - 1) (by omega) S₀)
          rw [tileRun_first m c t h0]
          iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · iapply (sound_step m c t (tileRun m c (t.val - 1) (by omega) S₀) (fun h => indep c t h S₀) _)
      isplitl [HS]; · iexact HS
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iintro ⟨HS, Hg, Ho, H0, H1, H2, H3, H4, H5⟩
      isplitl [HS Hg]
      · isplitl [HS]
        · iexists S₀
          rw [tileRun_next m c t h0]
          iexact HS
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (indep : Indep m) (c : Dev nD) : BodyObligation (dats (F := F) m 0 c) (defs₀ (F := F)) Variants.none () Set.univ := fun t => by
  rw [bigSep_W0, bigSep_W0]
  exact sound_body m indep c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 512 := N_0; omega), PhiA0_eq]
  unfold ownsSt
  iintro ⟨⟨%S₀, HS0, HS1, HS2, HS3, HS4, HS5, HS6, HS7⟩, Hg⟩
  isplitl [HS0 HS1 HS2 HS3 HS4 HS5 HS6 HS7]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7
  iexact Hg

/-! ## The run and the frame -/

set_option backward.isDefEq.respectTransparency.types false in
/-- THE FRAME RUN: every weakly fair execution of @main terminates, every array of the region ends at what the library
    computes from the proof data, every other unscoped buffer at what the lines after the region leave. -/
theorem run_main (indep : Indep m) : θ_run (defs (F := F)) (onTc (τ := τ) (main (F := F))) (s₀ m ρ) (fun r => ∀ c : Dev nD,
      (∀ w, r.2.mem ((cfg0.spec w).arr.view.loc (c.tc : Thread nD τ)) = (dats m 0 c).arrAt w cfg0.N)
      ∧ ∀ b ∈ Pipeline.restRefs sig cfg0.spec, r.2.mem ((c.tc : Thread nD τ).loc b) = Pipeline.SharedWindows.afterTailSub cfgs (dats m) 0 keep (V0 m) tailOps c b) :=
  run_around (dats m) (fun _ => rfl) (fun _ => rfl) (fun _ => rfl) (fun _ => rfl) Variants.none m ρ
    (fun c => (body_obligation m indep c).loose) (fun _ _ => rfl) (V0 m) tailOps sfx_sub sfx_fresh sfx_keeps (hmain m Variants.none)
    (A_eq m) (hin m) (hout m)

/-- THE FRAME at any `F`. -/
theorem frame (indep : Indep m) : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ indep)

end Cert.KernelIdeal.Data

end
-- ==== Proof.TailValueIdeal.lean ====
/-
  The host lines after the region, read against the specification: from any contents of the region's two result arrays
  that are the specification's row losses and row counts, the lines leave the mean of the losses, the sum of the halved
  counts, and a zero word.
-/
import proofs.«140287_j55817394979145_2_alg».proof.Proof.KitIdeal
import proofs.«140287_j55817394979145_2_alg».proof.Proof.Spec
import Idealize.ShloMosaic.Lib.StableHlo.Run
import Idealize.ShloMosaic.Lib.ValueIdx
import Idealize.ShloMosaic.Lib.IdealHost
import Idealize.ShloMosaic.PureOps.Ideal.Laws

noncomputable section

namespace Cert.KernelIdeal.TailValue

open Idealize.ShloMosaic Idealize.ShloMosaic.ValueIdx Idealize.ShloMosaic.StableHlo
open Cert.KernelIdeal Cert.KernelIdeal.Gen Cert.KernelIdeal.Kit

set_option maxHeartbeats 2000000 in
/-- The last line stores the zero word. -/
theorem tail_zero (W : Valuation τ sig (Elt Ideal)) :
    StableHlo.after (Kit.tailOps (F := Ideal)).flatten W (Proc.devRef .tc main_c_2) = constantI S_ 32 0#32 := by
  show StableHlo.after (List.flatten [hostOps1, hostOps1_1, hostOps1_2, hostOps1_3, hostOps1_4]) _ _ = _
  simp only [hostOps1, hostOps1_1, hostOps1_2, hostOps1_3, hostOps1_4, List.flatten_cons, List.flatten_nil, List.append_nil,
    List.cons_append, List.nil_append]
  after_results_simp

set_option maxHeartbeats 2000000 in
/-- From the rows' losses, the first result is their sum divided by 8192: the host's sum over both axes of the column
    from zero is the sum over the rows, and the quotient is the ideal instance's. -/
theorem tail_loss (W : Valuation τ sig (Elt Ideal)) (e : Vec Ideal Cert.Spec.S8192x512 .f32) (lab : IVec Cert.Spec.S8192 32)
    (h : W (Proc.devRef .tc main_v3_0) = Cert.Spec.G4 e lab) :
    StableHlo.after (Kit.tailOps (F := Ideal)).flatten W (Proc.devRef .tc main_v5) = Cert.Spec.finalLoss e lab := by
  show StableHlo.after (List.flatten [hostOps1, hostOps1_1, hostOps1_2, hostOps1_3, hostOps1_4]) _ _ = _
  simp only [hostOps1, hostOps1_1, hostOps1_2, hostOps1_3, hostOps1_4, List.flatten_cons, List.flatten_nil, List.append_nil,
    List.cons_append, List.nil_append]
  after_results_simp
  rw [h]
  funext j
  rw [hostDivf_apply, hostReduceAdd_apply, Ideal.hostReduceAdd_total _ (fun b => b.elim0)]
  show Ideal.div (Ideal.ofBits .f32 0x00000000#32 + ∑ i : S8192x1.Idx, Cert.Spec.G4 e lab i) (Ideal.ofBits .f32 0x46000000#32)
    = Ideal.div (∑ r : Fin 8192, Cert.Spec.rowLoss e lab r) (Ideal.ofBits .f32 0x46000000#32)
  rw [Ideal.ofBits_zero_f32, zero_add, sum_idx2]
  congr 1
  refine Finset.sum_congr rfl fun r _ => ?_
  rw [Fin.sum_univ_one]
  rfl

/-! ## One lane of the count's road: round, convert, halve -/

/-- The sign of a word, as the host's `sign` reads one lane: 0 at zero, −1 where the top bit is set, else 1. -/
def sgnw (x : BitVec 32) : BitVec 32 := if x = 0 then 0 else if x.msb then -1 else 1

/-- The floor division by 2 on one lane, as the program spells it: the truncating quotient, lowered by one where the
    signs of dividend and divisor differ and the remainder is not zero. -/
def floorDiv2 (n : BitVec 32) : BitVec 32 :=
  Scalar.select (IntOp.andi (IntOp.cmpi .ne (sgnw n) (sgnw 2#32)) (IntOp.cmpi .ne (IntOp.remsi .host n 2#32) 0#32))
    (IntOp.subi (IntOp.divsi .host n 2#32) 1#32) (IntOp.divsi .host n 2#32)

theorem msb_ofNat_small (k : ℕ) (hk : k < 2 ^ 31) : (BitVec.ofNat 32 k).msb = false := by
  rw [BitVec.msb_eq_decide]
  simp only [BitVec.toNat_ofNat, decide_eq_false_iff_not, not_le]
  omega

/-- The truncating quotient of a non-negative word by 2 is the natural quotient. -/
theorem divsi_two_ofNat (k : ℕ) (hk : k < 2 ^ 31) :
    IntOp.divsi .host (BitVec.ofNat 32 k) 2#32 = BitVec.ofNat 32 (k / 2) := by
  have hc : ¬ IntOp.SDivCorner (BitVec.ofNat 32 k) 2#32 := by
    rintro (h | ⟨_, h⟩) <;> exact absurd h (by decide)
  unfold IntOp.divsi
  rw [if_neg hc, BitVec.sdiv_eq, msb_ofNat_small k hk, show (2#32 : BitVec 32).msb = false by decide]
  apply BitVec.eq_of_toNat_eq
  simp only [BitVec.udiv_eq, BitVec.toNat_udiv, BitVec.toNat_ofNat]
  have h2 : (2 % 2 ^ 32 : ℕ) = 2 := by norm_num
  rw [h2, Nat.mod_eq_of_lt (by omega : k < 2 ^ 32), Nat.mod_eq_of_lt (by omega : k / 2 < 2 ^ 32)]

/-- The remainder of the zero word is zero. -/
theorem remsi_zero_two : IntOp.remsi .host 0#32 2#32 = 0#32 := by decide

/-- On a non-negative word the correction never fires: the chain is the natural quotient by 2. -/
theorem floorDiv2_ofNat (k : ℕ) (hk : k < 2 ^ 31) : floorDiv2 (BitVec.ofNat 32 k) = BitVec.ofNat 32 (k / 2) := by
  have hcond : IntOp.andi (IntOp.cmpi .ne (sgnw (BitVec.ofNat 32 k)) (sgnw 2#32))
      (IntOp.cmpi .ne (IntOp.remsi .host (BitVec.ofNat 32 k) 2#32) 0#32) = 0#1 := by
    by_cases h0 : k = 0
    · subst h0
      decide
    · have hne : BitVec.ofNat 32 k ≠ 0 := by
        intro h
        have := congrArg BitVec.toNat h
        rw [BitVec.toNat_ofNat, Nat.mod_eq_of_lt (by omega : k < 2 ^ 32)] at this
        exact h0 this
      have hs : sgnw (BitVec.ofNat 32 k) = 1 := by
        unfold sgnw
        rw [if_neg hne, msb_ofNat_small k hk]
        rfl
      rw [hs, show sgnw 2#32 = 1 by decide, show IntOp.cmpi .ne (1 : BitVec 32) 1 = 0#1 by decide]
      generalize IntOp.cmpi .ne (IntOp.remsi .host (BitVec.ofNat 32 k) 2#32) 0#32 = b
      revert b
      decide
  unfold floorDiv2
  rw [hcond, divsi_two_ofNat k hk]
  exact select_zero _ _

/-- Rounding to even fixes a natural number, and the conversion to a signed 32-bit word reads it back. -/
theorem fptosi_roundeven_natCast (k : ℕ) (hk : k < 2 ^ 31) :
    FloatOps.fptosi (F := Ideal) (φ := .f32) 32 (FloatOps.hostUnary (F := Ideal) (φ := .f32) .roundeven (((k : ℝ) : EReal)))
      = BitVec.ofNat 32 k := by
  rw [Ideal.hostUnary_roundeven_def, Ideal.liftRound_coe]
  have hr : Ideal.roundHalfEven (k : ℝ) = (k : ℤ) := by
    unfold Ideal.roundHalfEven
    simp
  rw [hr]
  show Ideal.fptosi 32 ((((k : ℤ) : ℝ)) : EReal) = _
  unfold Ideal.fptosi
  rw [Ideal.toIntClamped_coe]
  have h1 : (0 : ℝ) ≤ ((k : ℤ) : ℝ) := by positivity
  rw [if_pos h1, Int.floor_intCast]
  have hk' : (k : ℤ) < 2 ^ 31 := by exact_mod_cast hk
  have : max (-(2 ^ (32 - 1) : ℕ) : ℤ) (min (((2 ^ (32 - 1) : ℕ) : ℤ) - 1) (k : ℤ)) = (k : ℤ) := by
    norm_num
    omega
  rw [this]
  exact BitVec.ofInt_natCast 32 k

/-! ## The count's road over the whole column -/

/-- The column of halved counts the program's lines compute from a column of floats: each lane rounded to even,
    converted to a signed word, and floor-divided by 2. -/
def halves (g : Vec Ideal S8192x1 .f32) : IVec S8192x1 32 := fun i =>
  floorDiv2 (FloatOps.fptosi (F := Ideal) (φ := .f32) 32 (FloatOps.hostUnary (F := Ideal) (φ := .f32) .roundeven (g i)))

/-- A fold of word addition, from zero, over words that are natural numbers is the word of their sum (the word of a
    sum is the sum of the words: no bound is needed). -/
theorem fold_addi_ofNat {ι : Type} (S : Finset ι) (f : ι → ℕ) :
    S.fold IntOp.addi (0#32) (fun i => BitVec.ofNat 32 (f i)) = BitVec.ofNat 32 (∑ i ∈ S, f i) := by
  classical
  induction S using Finset.induction_on with
  | empty => rfl
  | insert a S ha ih =>
    rw [Finset.fold_insert ha, ih, Finset.sum_insert ha]
    show BitVec.ofNat 32 (f a) + BitVec.ofNat 32 _ = _
    rw [← BitVec.ofNat_add]

open Classical in
/-- A row's count of selected negatives is at most the number of columns. -/
theorem negCnt_le (e : Vec Ideal Cert.Spec.S8192x512 .f32) (lab : IVec Cert.Spec.S8192 32) (r : Fin 8192) :
    Cert.Spec.negCnt e lab r ≤ 8192 := by
  unfold Cert.Spec.negCnt
  exact (Finset.card_filter_le _ _).trans (by simp)

/-- On the specification's column of counts, each lane of the halved column is the word of half the count. -/
theorem halves_G5 (e : Vec Ideal Cert.Spec.S8192x512 .f32) (lab : IVec Cert.Spec.S8192 32) (i : S8192x1.Idx) :
    halves (Cert.Spec.G5 e lab) i = BitVec.ofNat 32 (Cert.Spec.negCnt e lab (i 0) / 2) := by
  have hk : Cert.Spec.negCnt e lab (i 0) < 2 ^ 31 := lt_of_le_of_lt (negCnt_le e lab (i 0)) (by norm_num)
  show floorDiv2 (FloatOps.fptosi (F := Ideal) (φ := .f32) 32 (FloatOps.hostUnary (F := Ideal) (φ := .f32) .roundeven
    (((Cert.Spec.negCnt e lab (i 0) : ℝ) : EReal)))) = _
  rw [fptosi_roundeven_natCast _ hk, floorDiv2_ofNat _ hk]

set_option maxHeartbeats 2000000 in
/-- From the rows' counts as floats, the second result is the word of the sum over the rows of half the count. -/
theorem tail_trip (W : Valuation τ sig (Elt Ideal)) (e : Vec Ideal Cert.Spec.S8192x512 .f32) (lab : IVec Cert.Spec.S8192 32)
    (h : W (Proc.devRef .tc main_v3_1) = Cert.Spec.G5 e lab) :
    StableHlo.after (Kit.tailOps (F := Ideal)).flatten W (Proc.devRef .tc main_v9) = Cert.Spec.finalTrip e lab := by
  show StableHlo.after (List.flatten [hostOps1, hostOps1_1, hostOps1_2, hostOps1_3, hostOps1_4]) _ _ = _
  simp only [hostOps1, hostOps1_1, hostOps1_2, hostOps1_3, hostOps1_4, List.flatten_cons, List.flatten_nil, List.append_nil,
    List.cons_append, List.nil_append]
  after_results_simp
  rw [h]
  simp only [TRef.ofBuf, TRef.toBuf, cast_eq, id_eq]
  funext j
  rw [Host.reduce_eq_fold, Finset.filter_true_of_mem fun i _ => funext fun b => b.elim0]
  refine (Finset.fold_congr (g := fun i => BitVec.ofNat 32 (Cert.Spec.negCnt e lab (i 0) / 2)) fun i _ => ?_).trans ?_
  · exact halves_G5 e lab i
  · show (Finset.univ : Finset S8192x1.Idx).fold IntOp.addi (0#32) _
      = BitVec.ofNat 32 (∑ r : Fin 8192, Cert.Spec.negCnt e lab r / 2)
    rw [fold_addi_ofNat, sum_idx2]
    congr 1

end Cert.KernelIdeal.TailValue

end
-- ==== Proof.ValueRunIdeal.lean ====
/-
  The idealized kernel's run with its results named.  The region leaves its two output arrays at the rows' losses and at
  the rows' counts of selected negatives; the host lines after the region turn them into the program's results: the mean
  loss, the sum of the halved counts, and the constant 0.  Both arguments end as launched.
-/
import proofs.«140287_j55817394979145_2_alg».proof.Proof.DataBodyIdeal
import proofs.«140287_j55817394979145_2_alg».proof.Proof.TailValueIdeal

noncomputable section

namespace Cert.KernelIdeal.ValueRun

open Idealize.ShloMosaic Idealize.ShloMosaic.TcCoe
open Idealize.SL Idealize.SL.Sem
open Idealize.ShloMosaic.Pipeline (Dat Cfg Window cellOf)
open Cert.KernelIdeal Cert.KernelIdeal.Gen Cert.KernelIdeal.Shared Cert.KernelIdeal.Kit Cert.KernelIdeal.Data

variable (m : (ℓ : Loc nD τ sig) → Buf (Elt Ideal) ℓ) (ρ : Dev nD → PrngReg)

/-- The embedding table and the labels on core `c`, as launched. -/
abbrev emb (c : Dev nD) : Vec Ideal Cert.Spec.S8192x512 .f32 := m ((c.tc : Thread nD τ).loc main_arg0)
abbrev lab (c : Dev nD) : IVec Cert.Spec.S8192 32 := m ((c.tc : Thread nD τ).loc main_arg1)

/-- The core's buffers at the region's exit. -/
abbrev Wexit (c : Dev nD) : Valuation τ sig (Elt Ideal) :=
  Pipeline.withArrays spec5 c (V0 m c) fun j => (dats m 0 c).arrAt (keep j) cfg0.N

theorem run_value (indep : Indep m)
    (hG4 : ∀ c, (dats m 0 c).arrAt 4 cfg0.N = Cert.Spec.G4 (emb m c) (lab m c))
    (hG5 : ∀ c, (dats m 0 c).arrAt 5 cfg0.N = Cert.Spec.G5 (emb m c) (lab m c)) :
    θ_run (defs (F := Ideal)) (onTc (τ := τ) (main (F := Ideal))) ⟨m, fun _ => 0, ρ⟩ (fun r => ∀ c : Dev nD,
      r.2.mem ((c.tc : Thread nD τ).loc main_v5) = Cert.Spec.finalLoss (emb m c) (lab m c)
      ∧ r.2.mem ((c.tc : Thread nD τ).loc main_v9) = Cert.Spec.finalTrip (emb m c) (lab m c)
      ∧ r.2.mem ((c.tc : Thread nD τ).loc main_c_2) = constantI S_ 32 0#32
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨?_, ?_, ?_, ?_, ?_⟩) (run_main m ρ indep)
  · refine ((h c).2 main_v5 (Pipeline.mem_restRefs_of main_v5 (by decide) (by decide))).trans ?_
    exact Cert.KernelIdeal.TailValue.tail_loss (Wexit m c) (emb m c) (lab m c)
      ((Pipeline.withArrays_arr spec5 spec5_inj c (V0 m c) _ 3).trans (hG4 c))
  · refine ((h c).2 main_v9 (Pipeline.mem_restRefs_of main_v9 (by decide) (by decide))).trans ?_
    exact Cert.KernelIdeal.TailValue.tail_trip (Wexit m c) (emb m c) (lab m c)
      ((Pipeline.withArrays_arr spec5 spec5_inj c (V0 m c) _ 4).trans (hG5 c))
  · refine ((h c).2 main_c_2 (Pipeline.mem_restRefs_of main_c_2 (by decide) (by decide))).trans ?_
    exact Cert.KernelIdeal.TailValue.tail_zero (Wexit m c)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.KernelIdeal.ValueRun

end
-- ==== Proof.RefRun.lean ====
/- The reference program's @main as a straight line of its 125 host operations, and its run read back.

   @main is printed as two windows run in order; each window is `seq` of its stretch of operations once the
   module-local functions (`_where`, `_where_0`, `floor_divide` and, inside it, `_where_1`) are unfolded at their
   calls, so @main is `seq` of the two stretches appended (`seq_append`). `run_seq` then says every weakly fair
   execution terminates with each buffer at the fold of the operations' results over the launch contents; a buffer
   no operation writes (the two arguments) keeps its launch contents. -/
import proofs.«140287_j55817394979145_2_alg».proof.ReferenceIdeal
import proofs.«140287_j55817394979145_2_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first window's 68 operations: the similarity matrix, the two masks, the per-row thresholds, the selections,
    their counts, and the positive term's sum and mean (a called function's operations stand in its call's place). -/
abbrev ops0 : List (HloOp τ sig (Elt F)) :=
  [ StableHlo.unary main_arg0 main_v0 ((transpose S512x8192 [1, 0] · transposes_S8192x512_S512x8192_1_0) : (⟨S8192x512, .f32⟩ : BufTy).Contents (Elt F) → (⟨S512x8192, .f32⟩ : BufTy).Contents (Elt F)),
    StableHlo.binary main_arg0 main_v0 main_v1 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F)),
    StableHlo.unary main_arg1 main_v2 (broadcastInDim S8192x1 ![0] bcast_S8192_S8192x1_0 : (⟨S8192, .i32⟩ : BufTy).Contents (Elt F) → (⟨S8192x1, .i32⟩ : BufTy).Contents (Elt F)),
    StableHlo.unary main_arg1 main_v3 (broadcastInDim S1x8192 ![1] bcast_S8192_S1x8192_1 : (⟨S8192, .i32⟩ : BufTy).Contents (Elt F) → (⟨S1x8192, .i32⟩ : BufTy).Contents (Elt F)),
    StableHlo.unary main_v2 main_v4 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v3 main_v5 (broadcastInDim S8192x8192 ![0, 1] bcast_S1x8192_S8192x8192_0_1 : (⟨S1x8192, .i32⟩ : BufTy).Contents (Elt F) → (⟨S8192x8192, .i32⟩ : BufTy).Contents (Elt F)),
    StableHlo.binary main_v4 main_v5 main_v6 (cmpi .eq : (⟨S8192x8192, .i32⟩ : BufTy).Contents (Elt F) → (⟨S8192x8192, .i32⟩ : BufTy).Contents (Elt F) → (⟨S8192x8192, .i1⟩ : BufTy).Contents (Elt F)),
    StableHlo.nullary main_v7 (iotaInDim S8192x8192 32 0),
    StableHlo.nullary main_v8 (iotaInDim S8192x8192 32 1),
    StableHlo.nullary main_c (constantI S_ 32 0#32),
    StableHlo.unary main_c main_v9 (broadcastInDim S8192x8192 ![] bcast_S_S8192x8192 : (⟨S_, .i32⟩ : BufTy).Contents (Elt F) → (⟨S8192x8192, .i32⟩ : BufTy).Contents (Elt F)),
    StableHlo.binary main_v7 main_v9 main_v10 (addi : (⟨S8192x8192, .i32⟩ : BufTy).Contents (Elt F) → (⟨S8192x8192, .i32⟩ : BufTy).Contents (Elt F) → (⟨S8192x8192, .i32⟩ : BufTy).Contents (Elt F)),
    StableHlo.binary main_v10 main_v8 main_v11 (cmpi .eq : (⟨S8192x8192, .i32⟩ : BufTy).Contents (Elt F) → (⟨S8192x8192, .i32⟩ : BufTy).Contents (Elt F) → (⟨S8192x8192, .i1⟩ : BufTy).Contents (Elt F)),
    StableHlo.unary main_v11 main_v12 (noti : (⟨S8192x8192, .i1⟩ : BufTy).Contents (Elt F) → (⟨S8192x8192, .i1⟩ : BufTy).Contents (Elt F)),
    StableHlo.binary main_v6 main_v12 main_v13 (andi : (⟨S8192x8192, .i1⟩ : BufTy).Contents (Elt F) → (⟨S8192x8192, .i1⟩ : BufTy).Contents (Elt F) → (⟨S8192x8192, .i1⟩ : BufTy).Contents (Elt F)),
    StableHlo.unary main_v6 main_v14 (noti : (⟨S8192x8192, .i1⟩ : BufTy).Contents (Elt F) → (⟨S8192x8192, .i1⟩ : BufTy).Contents (Elt F)),
    StableHlo.nullary main_cst (constant S_ .f32 0xCE6E6B28#32),
    StableHlo.unary main_cst main_call0_v0 (id : (⟨S_, .f32⟩ : BufTy).Contents (Elt F) → (⟨S_, .f32⟩ : BufTy).Contents (Elt F)),
    StableHlo.unary main_call0_v0 main_call0_v1 (broadcastInDim S8192x8192 ![] bcast_S_S8192x8192 : (⟨S_, .f32⟩ : BufTy).Contents (Elt F) → (⟨S8192x8192, .f32⟩ : BufTy).Contents (Elt F)),
    StableHlo.ternary main_v13 main_v1 main_call0_v1 main_v15 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    StableHlo.nullary main_cst_0 (constant S_ .f32 0xFF800000#32),
    StableHlo.binary main_v15 main_cst_0 main_v16 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_1 (constant S_ .f32 0x4E6E6B28#32),
    StableHlo.unary main_cst_1 main_call1_v0 (id : (⟨S_, .f32⟩ : BufTy).Contents (Elt F) → (⟨S_, .f32⟩ : BufTy).Contents (Elt F)),
    StableHlo.unary main_call1_v0 main_call1_v1 (broadcastInDim S8192x8192 ![] bcast_S_S8192x8192 : (⟨S_, .f32⟩ : BufTy).Contents (Elt F) → (⟨S8192x8192, .f32⟩ : BufTy).Contents (Elt F)),
    StableHlo.ternary main_v14 main_v1 main_call1_v1 main_v17 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    StableHlo.nullary main_cst_2 (constant S_ .f32 0x7F800000#32),
    StableHlo.binary main_v17 main_cst_2 main_v18 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.unary main_v16 main_v19 (broadcastInDim S8192x1 ![0] bcast_S8192_S8192x1_0 : (⟨S8192, .f32⟩ : BufTy).Contents (Elt F) → (⟨S8192x1, .f32⟩ : BufTy).Contents (Elt F)),
    StableHlo.unary main_v19 main_v20 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v1 main_v20 main_v21 (cmpf .olt : (⟨S8192x8192, .f32⟩ : BufTy).Contents (Elt F) → (⟨S8192x8192, .f32⟩ : BufTy).Contents (Elt F) → (⟨S8192x8192, .i1⟩ : BufTy).Contents (Elt F)),
    StableHlo.binary main_v14 main_v21 main_v22 (andi : (⟨S8192x8192, .i1⟩ : BufTy).Contents (Elt F) → (⟨S8192x8192, .i1⟩ : BufTy).Contents (Elt F) → (⟨S8192x8192, .i1⟩ : BufTy).Contents (Elt F)),
    StableHlo.unary main_v18 main_v23 (broadcastInDim S8192x1 ![0] bcast_S8192_S8192x1_0 : (⟨S8192, .f32⟩ : BufTy).Contents (Elt F) → (⟨S8192x1, .f32⟩ : BufTy).Contents (Elt F)),
    StableHlo.unary main_v23 main_v24 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v1 main_v24 main_v25 (cmpf .ogt : (⟨S8192x8192, .f32⟩ : BufTy).Contents (Elt F) → (⟨S8192x8192, .f32⟩ : BufTy).Contents (Elt F) → (⟨S8192x8192, .i1⟩ : BufTy).Contents (Elt F)),
    StableHlo.binary main_v13 main_v25 main_v26 (andi : (⟨S8192x8192, .i1⟩ : BufTy).Contents (Elt F) → (⟨S8192x8192, .i1⟩ : BufTy).Contents (Elt F) → (⟨S8192x8192, .i1⟩ : BufTy).Contents (Elt F)),
    StableHlo.unary main_v26 main_v27 ((extui 32 · natLt_1_32) : (⟨S8192x8192, .i1⟩ : BufTy).Contents (Elt F) → (⟨S8192x8192, .i32⟩ : BufTy).Contents (Elt F)),
    StableHlo.nullary main_c_3 (constantI S_ 32 0#32),
    StableHlo.binary main_v27 main_c_3 main_v28 ((fun x v => Host.reduce IntOp.addi x v reducesTo_S8192x8192_S8192_d1 h_S_) : (⟨S8192x8192, .i32⟩ : BufTy).Contents (Elt F) → (⟨S_, .i32⟩ : BufTy).Contents (Elt F) → (⟨S8192, .i32⟩ : BufTy).Contents (Elt F)),
    StableHlo.unary main_v22 main_v29 ((extui 32 · natLt_1_32) : (⟨S8192x8192, .i1⟩ : BufTy).Contents (Elt F) → (⟨S8192x8192, .i32⟩ : BufTy).Contents (Elt F)),
    StableHlo.nullary main_c_4 (constantI S_ 32 0#32),
    StableHlo.binary main_v29 main_c_4 main_v30 ((fun x v => Host.reduce IntOp.addi x v reducesTo_S8192x8192_S8192_d1 h_S_) : (⟨S8192x8192, .i32⟩ : BufTy).Contents (Elt F) → (⟨S_, .i32⟩ : BufTy).Contents (Elt F) → (⟨S8192, .i32⟩ : BufTy).Contents (Elt F)),
    StableHlo.nullary main_cst_5 (constant S_ .f32 0x3F800000#32),
    StableHlo.unary main_cst_5 main_v31 (broadcastInDim S8192x8192 ![] bcast_S_S8192x8192 : (⟨S_, .f32⟩ : BufTy).Contents (Elt F) → (⟨S8192x8192, .f32⟩ : BufTy).Contents (Elt F)),
    StableHlo.binary main_v31 main_v1 main_v32 (subf : (⟨S8192x8192, .f32⟩ : BufTy).Contents (Elt F) → (⟨S8192x8192, .f32⟩ : BufTy).Contents (Elt F) → (⟨S8192x8192, .f32⟩ : BufTy).Contents (Elt F)),
    StableHlo.nullary main_cst_6 (constant S_ .f32 0x00000000#32),
    StableHlo.unary main_cst_6 main_call2_v0 (id : (⟨S_, .f32⟩ : BufTy).Contents (Elt F) → (⟨S_, .f32⟩ : BufTy).Contents (Elt F)),
    StableHlo.unary main_call2_v0 main_call2_v1 (broadcastInDim S8192x8192 ![] bcast_S_S8192x8192 : (⟨S_, .f32⟩ : BufTy).Contents (Elt F) → (⟨S8192x8192, .f32⟩ : BufTy).Contents (Elt F)),
    StableHlo.ternary main_v26 main_v32 main_call2_v1 main_v33 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    StableHlo.nullary main_cst_7 (constant S_ .f32 0x00000000#32),
    StableHlo.binary main_v33 main_cst_7 main_v34 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_c_8 (constantI S_ 32 0#32),
    StableHlo.unary main_c_8 main_v35 (broadcastInDim S8192 ![] bcast_S_S8192 : (⟨S_, .i32⟩ : BufTy).Contents (Elt F) → (⟨S8192, .i32⟩ : BufTy).Contents (Elt F)),
    StableHlo.binary main_v28 main_v35 main_v36 (cmpi .sgt : (⟨S8192, .i32⟩ : BufTy).Contents (Elt F) → (⟨S8192, .i32⟩ : BufTy).Contents (Elt F) → (⟨S8192, .i1⟩ : BufTy).Contents (Elt F)),
    StableHlo.nullary main_c_9 (constantI S_ 32 1#32),
    StableHlo.unary main_c_9 main_v37 (broadcastInDim S8192 ![] bcast_S_S8192 : (⟨S_, .i32⟩ : BufTy).Contents (Elt F) → (⟨S8192, .i32⟩ : BufTy).Contents (Elt F)),
    StableHlo.binary main_v28 main_v37 main_v38 (maxsi : (⟨S8192, .i32⟩ : BufTy).Contents (Elt F) → (⟨S8192, .i32⟩ : BufTy).Contents (Elt F) → (⟨S8192, .i32⟩ : BufTy).Contents (Elt F)),
    StableHlo.unary main_v38 main_v39 (sitofp .f32 : (⟨S8192, .i32⟩ : BufTy).Contents (Elt F) → (⟨S8192, .f32⟩ : BufTy).Contents (Elt F)),
    StableHlo.binary main_v34 main_v39 main_v40 (Host.divf : (⟨S8192, .f32⟩ : BufTy).Contents (Elt F) → (⟨S8192, .f32⟩ : BufTy).Contents (Elt F) → (⟨S8192, .f32⟩ : BufTy).Contents (Elt F)),
    StableHlo.nullary main_cst_10 (constant S_ .f32 0x00000000#32),
    StableHlo.unary main_cst_10 main_call3_v0 (id : (⟨S_, .f32⟩ : BufTy).Contents (Elt F) → (⟨S_, .f32⟩ : BufTy).Contents (Elt F)),
    StableHlo.unary main_call3_v0 main_call3_v1 (broadcastInDim S8192 ![] bcast_S_S8192 : (⟨S_, .f32⟩ : BufTy).Contents (Elt F) → (⟨S8192, .f32⟩ : BufTy).Contents (Elt F)),
    StableHlo.ternary main_v36 main_v40 main_call3_v1 main_v41 (select : (⟨S8192, .i1⟩ : BufTy).Contents (Elt F) → (⟨S8192, .f32⟩ : BufTy).Contents (Elt F) → (⟨S8192, .f32⟩ : BufTy).Contents (Elt F) → (⟨S8192, .f32⟩ : BufTy).Contents (Elt F)),
    StableHlo.nullary main_cst_11 (constant S_ .f32 0x3F000000#32),
    StableHlo.unary main_cst_11 main_v42 (broadcastInDim S8192x8192 ![] bcast_S_S8192x8192 : (⟨S_, .f32⟩ : BufTy).Contents (Elt F) → (⟨S8192x8192, .f32⟩ : BufTy).Contents (Elt F)),
    StableHlo.binary main_v1 main_v42 main_v43 (subf : (⟨S8192x8192, .f32⟩ : BufTy).Contents (Elt F) → (⟨S8192x8192, .f32⟩ : BufTy).Contents (Elt F) → (⟨S8192x8192, .f32⟩ : BufTy).Contents (Elt F)),
    StableHlo.nullary main_cst_12 (constant S_ .f32 0x42200000#32),
    StableHlo.unary main_cst_12 main_v44 (broadcastInDim S8192x8192 ![] bcast_S_S8192x8192 : (⟨S_, .f32⟩ : BufTy).Contents (Elt F) → (⟨S8192x8192, .f32⟩ : BufTy).Contents (Elt F)) ]

/-- The second window's 57 operations: the negative term's sums, the per-row losses, their mean, and the triplet count
    (the floor division by two spelt out as the called function states it). -/
abbrev ops1 : List (HloOp τ sig (Elt F)) :=
  [ StableHlo.binary main_v44 main_v43 main_v45 (mulf : (⟨S8192x8192, .f32⟩ : BufTy).Contents (Elt F) → (⟨S8192x8192, .f32⟩ : BufTy).Contents (Elt F) → (⟨S8192x8192, .f32⟩ : BufTy).Contents (Elt F)),
    StableHlo.unary main_v45 main_v46 (Host.exp : (⟨S8192x8192, .f32⟩ : BufTy).Contents (Elt F) → (⟨S8192x8192, .f32⟩ : BufTy).Contents (Elt F)),
    StableHlo.nullary main_cst_13 (constant S_ .f32 0x00000000#32),
    StableHlo.unary main_cst_13 main_call4_v0 (id : (⟨S_, .f32⟩ : BufTy).Contents (Elt F) → (⟨S_, .f32⟩ : BufTy).Contents (Elt F)),
    StableHlo.unary main_call4_v0 main_call4_v1 (broadcastInDim S8192x8192 ![] bcast_S_S8192x8192 : (⟨S_, .f32⟩ : BufTy).Contents (Elt F) → (⟨S8192x8192, .f32⟩ : BufTy).Contents (Elt F)),
    StableHlo.ternary main_v22 main_v46 main_call4_v1 main_v47 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    StableHlo.nullary main_cst_14 (constant S_ .f32 0x00000000#32),
    StableHlo.binary main_v47 main_cst_14 main_v48 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_15 (constant S_ .f32 0x00000000#32),
    StableHlo.unary main_cst_15 main_call5_v0 (id : (⟨S_, .f32⟩ : BufTy).Contents (Elt F) → (⟨S_, .f32⟩ : BufTy).Contents (Elt F)),
    StableHlo.unary main_call5_v0 main_call5_v1 (broadcastInDim S8192x8192 ![] bcast_S_S8192x8192 : (⟨S_, .f32⟩ : BufTy).Contents (Elt F) → (⟨S8192x8192, .f32⟩ : BufTy).Contents (Elt F)),
    StableHlo.ternary main_v22 main_v1 main_call5_v1 main_v49 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    StableHlo.nullary main_cst_16 (constant S_ .f32 0x00000000#32),
    StableHlo.binary main_v49 main_cst_16 main_v50 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_c_17 (constantI S_ 32 1#32),
    StableHlo.unary main_c_17 main_v51 (broadcastInDim S8192 ![] bcast_S_S8192 : (⟨S_, .i32⟩ : BufTy).Contents (Elt F) → (⟨S8192, .i32⟩ : BufTy).Contents (Elt F)),
    StableHlo.binary main_v30 main_v51 main_v52 (maxsi : (⟨S8192, .i32⟩ : BufTy).Contents (Elt F) → (⟨S8192, .i32⟩ : BufTy).Contents (Elt F) → (⟨S8192, .i32⟩ : BufTy).Contents (Elt F)),
    StableHlo.unary main_v52 main_v53 (sitofp .f32 : (⟨S8192, .i32⟩ : BufTy).Contents (Elt F) → (⟨S8192, .f32⟩ : BufTy).Contents (Elt F)),
    StableHlo.binary main_v50 main_v53 main_v54 (Host.divf : (⟨S8192, .f32⟩ : BufTy).Contents (Elt F) → (⟨S8192, .f32⟩ : BufTy).Contents (Elt F) → (⟨S8192, .f32⟩ : BufTy).Contents (Elt F)),
    StableHlo.nullary main_c_18 (constantI S_ 32 0#32),
    StableHlo.unary main_c_18 main_v55 (broadcastInDim S8192 ![] bcast_S_S8192 : (⟨S_, .i32⟩ : BufTy).Contents (Elt F) → (⟨S8192, .i32⟩ : BufTy).Contents (Elt F)),
    StableHlo.binary main_v30 main_v55 main_v56 (cmpi .sgt : (⟨S8192, .i32⟩ : BufTy).Contents (Elt F) → (⟨S8192, .i32⟩ : BufTy).Contents (Elt F) → (⟨S8192, .i1⟩ : BufTy).Contents (Elt F)),
    StableHlo.unary main_v48 main_v57 (Host.log1p : (⟨S8192, .f32⟩ : BufTy).Contents (Elt F) → (⟨S8192, .f32⟩ : BufTy).Contents (Elt F)),
    StableHlo.nullary main_cst_19 (constant S_ .f32 0x3D4CCCCD#32),
    StableHlo.unary main_cst_19 main_v58 (broadcastInDim S8192 ![] bcast_S_S8192 : (⟨S_, .f32⟩ : BufTy).Contents (Elt F) → (⟨S8192, .f32⟩ : BufTy).Contents (Elt F)),
    StableHlo.binary main_v58 main_v57 main_v59 (mulf : (⟨S8192, .f32⟩ : BufTy).Contents (Elt F) → (⟨S8192, .f32⟩ : BufTy).Contents (Elt F) → (⟨S8192, .f32⟩ : BufTy).Contents (Elt F)),
    StableHlo.binary main_v59 main_v54 main_v60 (addf : (⟨S8192, .f32⟩ : BufTy).Contents (Elt F) → (⟨S8192, .f32⟩ : BufTy).Contents (Elt F) → (⟨S8192, .f32⟩ : BufTy).Contents (Elt F)),
    StableHlo.nullary main_cst_20 (constant S_ .f32 0x00000000#32),
    StableHlo.unary main_cst_20 main_call6_v0 (id : (⟨S_, .f32⟩ : BufTy).Contents (Elt F) → (⟨S_, .f32⟩ : BufTy).Contents (Elt F)),
    StableHlo.unary main_call6_v0 main_call6_v1 (broadcastInDim S8192 ![] bcast_S_S8192 : (⟨S_, .f32⟩ : BufTy).Contents (Elt F) → (⟨S8192, .f32⟩ : BufTy).Contents (Elt F)),
    StableHlo.ternary main_v56 main_v60 main_call6_v1 main_v61 (select : (⟨S8192, .i1⟩ : BufTy).Contents (Elt F) → (⟨S8192, .f32⟩ : BufTy).Contents (Elt F) → (⟨S8192, .f32⟩ : BufTy).Contents (Elt F) → (⟨S8192, .f32⟩ : BufTy).Contents (Elt F)),
    StableHlo.binary main_v41 main_v61 main_v62 (addf : (⟨S8192, .f32⟩ : BufTy).Contents (Elt F) → (⟨S8192, .f32⟩ : BufTy).Contents (Elt F) → (⟨S8192, .f32⟩ : BufTy).Contents (Elt F)),
    StableHlo.nullary main_cst_21 (constant S_ .f32 0x00000000#32),
    StableHlo.binary main_v62 main_cst_21 main_v63 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_22 (constant S_ .f32 0x46000000#32),
    StableHlo.binary main_v63 main_cst_22 main_v64 (Host.divf : (⟨S_, .f32⟩ : BufTy).Contents (Elt F) → (⟨S_, .f32⟩ : BufTy).Contents (Elt F) → (⟨S_, .f32⟩ : BufTy).Contents (Elt F)),
    StableHlo.nullary main_c_23 (constantI S_ 32 2#32),
    StableHlo.unary main_c_23 main_call7_v0 (id : (⟨S_, .i32⟩ : BufTy).Contents (Elt F) → (⟨S_, .i32⟩ : BufTy).Contents (Elt F)),
    StableHlo.unary main_call7_v0 main_call7_v1 (broadcastInDim S8192 ![] bcast_S_S8192 : (⟨S_, .i32⟩ : BufTy).Contents (Elt F) → (⟨S8192, .i32⟩ : BufTy).Contents (Elt F)),
    StableHlo.binary main_v30 main_call7_v1 main_call7_v2 (Host.divsi : (⟨S8192, .i32⟩ : BufTy).Contents (Elt F) → (⟨S8192, .i32⟩ : BufTy).Contents (Elt F) → (⟨S8192, .i32⟩ : BufTy).Contents (Elt F)),
    StableHlo.unary main_v30 main_call7_v3 (signi : (⟨S8192, .i32⟩ : BufTy).Contents (Elt F) → (⟨S8192, .i32⟩ : BufTy).Contents (Elt F)),
    StableHlo.unary main_call7_v0 main_call7_v4 (signi : (⟨S_, .i32⟩ : BufTy).Contents (Elt F) → (⟨S_, .i32⟩ : BufTy).Contents (Elt F)),
    StableHlo.unary main_call7_v4 main_call7_v5 (broadcastInDim S8192 ![] bcast_S_S8192 : (⟨S_, .i32⟩ : BufTy).Contents (Elt F) → (⟨S8192, .i32⟩ : BufTy).Contents (Elt F)),
    StableHlo.binary main_call7_v3 main_call7_v5 main_call7_v6 (cmpi .ne : (⟨S8192, .i32⟩ : BufTy).Contents (Elt F) → (⟨S8192, .i32⟩ : BufTy).Contents (Elt F) → (⟨S8192, .i1⟩ : BufTy).Contents (Elt F)),
    StableHlo.unary main_call7_v0 main_call7_v7 (broadcastInDim S8192 ![] bcast_S_S8192 : (⟨S_, .i32⟩ : BufTy).Contents (Elt F) → (⟨S8192, .i32⟩ : BufTy).Contents (Elt F)),
    StableHlo.binary main_v30 main_call7_v7 main_call7_v8 (Host.remsi : (⟨S8192, .i32⟩ : BufTy).Contents (Elt F) → (⟨S8192, .i32⟩ : BufTy).Contents (Elt F) → (⟨S8192, .i32⟩ : BufTy).Contents (Elt F)),
    StableHlo.nullary main_call7_c (constantI S_ 32 0#32),
    StableHlo.unary main_call7_c main_call7_v9 (broadcastInDim S8192 ![] bcast_S_S8192 : (⟨S_, .i32⟩ : BufTy).Contents (Elt F) → (⟨S8192, .i32⟩ : BufTy).Contents (Elt F)),
    StableHlo.binary main_call7_v8 main_call7_v9 main_call7_v10 (cmpi .ne : (⟨S8192, .i32⟩ : BufTy).Contents (Elt F) → (⟨S8192, .i32⟩ : BufTy).Contents (Elt F) → (⟨S8192, .i1⟩ : BufTy).Contents (Elt F)),
    StableHlo.binary main_call7_v6 main_call7_v10 main_call7_v11 (andi : (⟨S8192, .i1⟩ : BufTy).Contents (Elt F) → (⟨S8192, .i1⟩ : BufTy).Contents (Elt F) → (⟨S8192, .i1⟩ : BufTy).Contents (Elt F)),
    StableHlo.nullary main_call7_c_0 (constantI S_ 32 1#32),
    StableHlo.unary main_call7_c_0 main_call7_v12 (broadcastInDim S8192 ![] bcast_S_S8192 : (⟨S_, .i32⟩ : BufTy).Contents (Elt F) → (⟨S8192, .i32⟩ : BufTy).Contents (Elt F)),
    StableHlo.binary main_call7_v2 main_call7_v12 main_call7_v13 (subi : (⟨S8192, .i32⟩ : BufTy).Contents (Elt F) → (⟨S8192, .i32⟩ : BufTy).Contents (Elt F) → (⟨S8192, .i32⟩ : BufTy).Contents (Elt F)),
    StableHlo.ternary main_call7_v11 main_call7_v13 main_call7_v2 main_v65 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_24 (constantI S_ 32 0#32),
    StableHlo.binary main_v65 main_c_24 main_v66 ((fun x v => Host.reduce IntOp.addi x v reducesTo_S8192_S_d0 h_S_) : (⟨S8192, .i32⟩ : BufTy).Contents (Elt F) → (⟨S_, .i32⟩ : BufTy).Contents (Elt F) → (⟨S_, .i32⟩ : BufTy).Contents (Elt F)),
    StableHlo.nullary main_c_25 (constantI S_ 32 0#32) ]

/-- @main's 125 operations, in order. -/
abbrev ops : List (HloOp τ sig (Elt F)) := ops0 ++ ops1

set_option maxRecDepth 8192 in
set_option maxHeartbeats 4000000 in
theorem main_part0_eq (c : Dev nD) : main_part0 (F := F) c = seq ops0 := rfl

set_option maxRecDepth 8192 in
set_option maxHeartbeats 4000000 in
theorem main_part1_eq (c : Dev nD) : main_part1 (F := F) c = seq ops1 := rfl

/-- @main runs its two windows in order: `seq` of the two stretches appended. -/
theorem main_eq (c : Dev nD) : main (F := F) c = seq ops := by
  rw [seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., binary_bufs_sub .., unary_bufs_sub .., unary_bufs_sub .., unary_bufs_sub .., unary_bufs_sub ..,
    binary_bufs_sub .., nullary_bufs_sub .., nullary_bufs_sub .., nullary_bufs_sub .., unary_bufs_sub .., binary_bufs_sub ..,
    binary_bufs_sub .., unary_bufs_sub .., binary_bufs_sub .., unary_bufs_sub .., nullary_bufs_sub .., unary_bufs_sub ..,
    unary_bufs_sub .., ternary_bufs_sub .., nullary_bufs_sub .., binary_bufs_sub .., nullary_bufs_sub .., unary_bufs_sub ..,
    unary_bufs_sub .., ternary_bufs_sub .., nullary_bufs_sub .., binary_bufs_sub .., unary_bufs_sub .., unary_bufs_sub ..,
    binary_bufs_sub .., binary_bufs_sub .., unary_bufs_sub .., unary_bufs_sub .., binary_bufs_sub .., binary_bufs_sub ..,
    unary_bufs_sub .., nullary_bufs_sub .., binary_bufs_sub .., unary_bufs_sub .., nullary_bufs_sub .., binary_bufs_sub ..,
    nullary_bufs_sub .., unary_bufs_sub .., binary_bufs_sub .., nullary_bufs_sub .., unary_bufs_sub .., unary_bufs_sub ..,
    ternary_bufs_sub .., nullary_bufs_sub .., binary_bufs_sub .., nullary_bufs_sub .., unary_bufs_sub .., binary_bufs_sub ..,
    nullary_bufs_sub .., unary_bufs_sub .., binary_bufs_sub .., unary_bufs_sub .., binary_bufs_sub .., nullary_bufs_sub ..,
    unary_bufs_sub .., unary_bufs_sub .., ternary_bufs_sub .., nullary_bufs_sub .., unary_bufs_sub .., binary_bufs_sub ..,
    nullary_bufs_sub .., unary_bufs_sub ..⟩

set_option maxRecDepth 8192 in
theorem ops1_sub : (ops1 : List (HloOp τ sig (Elt F))).Forall fun op => op.bufs ⊆ tcRefs τ sig :=
  ⟨binary_bufs_sub .., unary_bufs_sub .., nullary_bufs_sub .., unary_bufs_sub .., unary_bufs_sub .., ternary_bufs_sub ..,
    nullary_bufs_sub .., binary_bufs_sub .., nullary_bufs_sub .., unary_bufs_sub .., unary_bufs_sub .., ternary_bufs_sub ..,
    nullary_bufs_sub .., binary_bufs_sub .., nullary_bufs_sub .., unary_bufs_sub .., binary_bufs_sub .., unary_bufs_sub ..,
    binary_bufs_sub .., nullary_bufs_sub .., unary_bufs_sub .., binary_bufs_sub .., unary_bufs_sub .., nullary_bufs_sub ..,
    unary_bufs_sub .., binary_bufs_sub .., binary_bufs_sub .., nullary_bufs_sub .., unary_bufs_sub .., unary_bufs_sub ..,
    ternary_bufs_sub .., binary_bufs_sub .., nullary_bufs_sub .., binary_bufs_sub .., nullary_bufs_sub .., binary_bufs_sub ..,
    nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., binary_bufs_sub .., nullary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

/-- Every weakly fair execution of @main terminates, and every final state has each TensorCore buffer at the fold of the
    125 operations' results over its launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold over the 125 operations is the second window's fold over the first's. -/
theorem after_ops (V : Valuation τ sig (Elt F)) : after ops V = after ops1 (after ops0 V) :=
  StableHlo.after_append ops0 ops1 V

set_option maxRecDepth 8192 in
set_option maxHeartbeats 4000000 in
/-- No operation writes the first argument's buffer. -/
theorem after_arg0 (V : Valuation τ sig (Elt F)) : after ops V (main_arg0 : DevRef τ sig) = V (main_arg0 : DevRef τ sig) := by
  rw [after_ops]
  simp only [ops0, ops1]
  after_results_simp

set_option maxRecDepth 8192 in
set_option maxHeartbeats 4000000 in
/-- No operation writes the second argument's buffer. -/
theorem after_arg1 (V : Valuation τ sig (Elt F)) : after ops V (main_arg1 : DevRef τ sig) = V (main_arg1 : DevRef τ sig) := by
  rw [after_ops]
  simp only [ops0, ops1]
  after_results_simp

set_option maxRecDepth 8192 in
set_option maxHeartbeats 4000000 in
/-- The third result is the last operation's constant. -/
theorem after_c_25 (V : Valuation τ sig (Elt F)) : after ops V (main_c_25 : DevRef τ sig) = constantI S_ 32 0#32 := by
  rw [after_ops]
  simp only [ops0, ops1]
  after_results_simp

/-- Every weakly fair execution of @main terminates with the two argument arrays unchanged. -/
theorem run_frame (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_arg0).trans (after_arg0 _), (h c main_arg1).trans (after_arg1 _)⟩)
    (run_after m ρ)

/-! ## The results as pure terms of the two argument arrays

`E : f32[8192, 512]` the embeddings, `L : i32[8192]` the labels. Each definition is one stretch of the operations composed;
the two non-constant results are `lossTerm E L` and `tripTerm E L`. -/

/-- The similarity matrix `E · Eᵀ`. -/
def sim (E : FVec F S8192x512 .f32) : FVec F S8192x8192 .f32 :=
  Host.dotGeneral dot_S8192x512_S512x8192_S8192x8192_1_0_0_1_n_n none E (transpose S512x8192 [1, 0] E transposes_S8192x512_S512x8192_1_0)

/-- `same i j`: rows `i` and `j` carry the same label. -/
def same (L : IVec S8192 32) : IVec S8192x8192 1 :=
  cmpi .eq (broadcastInDim S8192x8192 ![0, 1] bcast_S8192x1_S8192x8192_0_1 (broadcastInDim S8192x1 ![0] bcast_S8192_S8192x1_0 L)) (broadcastInDim S8192x8192 ![0, 1] bcast_S1x8192_S8192x8192_0_1 (broadcastInDim S1x8192 ![1] bcast_S8192_S1x8192_1 L))

/-- `offDiag i j`: `i ≠ j` (the complement of the identity mask). -/
def offDiag : IVec S8192x8192 1 :=
  noti (cmpi .eq (addi (iotaInDim S8192x8192 32 0) (broadcastInDim S8192x8192 ![] bcast_S_S8192x8192 (constantI S_ 32 0#32))) (iotaInDim S8192x8192 32 1))

/-- The positives of each row: same label, not the row itself. -/
def posMask (L : IVec S8192 32) : IVec S8192x8192 1 :=
  andi (same L) offDiag

/-- The negatives of each row: a different label. -/
def negMask (L : IVec S8192 32) : IVec S8192x8192 1 :=
  noti (same L)

/-- Per row, the largest similarity among its positives (`-1e9` where the row has none; the fold starts at `-∞`). -/
def maxPos (E : FVec F S8192x512 .f32) (L : IVec S8192 32) : FVec F S8192 .f32 :=
  Host.reduce FloatOps.maximumf (select (posMask L) (sim E) (broadcastInDim S8192x8192 ![] bcast_S_S8192x8192 (constant S_ .f32 0xCE6E6B28#32))) (constant S_ .f32 0xFF800000#32) reducesTo_S8192x8192_S8192_d1 h_S_

/-- Per row, the smallest similarity among its negatives (`+1e9` where the row has none; the fold starts at `+∞`). -/
def minNeg (E : FVec F S8192x512 .f32) (L : IVec S8192 32) : FVec F S8192 .f32 :=
  Host.reduce FloatOps.minimumf (select (negMask L) (sim E) (broadcastInDim S8192x8192 ![] bcast_S_S8192x8192 (constant S_ .f32 0x4E6E6B28#32))) (constant S_ .f32 0x7F800000#32) reducesTo_S8192x8192_S8192_d1 h_S_

/-- The selected negatives: negatives whose similarity is below the row's `maxPos`. -/
def negSel (E : FVec F S8192x512 .f32) (L : IVec S8192 32) : IVec S8192x8192 1 :=
  andi (negMask L) (cmpf .olt (sim E) (broadcastInDim S8192x8192 ![0, 1] bcast_S8192x1_S8192x8192_0_1 (broadcastInDim S8192x1 ![0] bcast_S8192_S8192x1_0 (maxPos E L))))

/-- The selected positives: positives whose similarity is above the row's `minNeg`. -/
def posSel (E : FVec F S8192x512 .f32) (L : IVec S8192 32) : IVec S8192x8192 1 :=
  andi (posMask L) (cmpf .ogt (sim E) (broadcastInDim S8192x8192 ![0, 1] bcast_S8192x1_S8192x8192_0_1 (broadcastInDim S8192x1 ![0] bcast_S8192_S8192x1_0 (minNeg E L))))

/-- Per row, how many positives are selected. -/
def posCnt (E : FVec F S8192x512 .f32) (L : IVec S8192 32) : IVec S8192 32 :=
  Host.reduce IntOp.addi (extui 32 (posSel E L) natLt_1_32) (constantI S_ 32 0#32) reducesTo_S8192x8192_S8192_d1 h_S_

/-- Per row, how many negatives are selected. -/
def negCnt (E : FVec F S8192x512 .f32) (L : IVec S8192 32) : IVec S8192 32 :=
  Host.reduce IntOp.addi (extui 32 (negSel E L) natLt_1_32) (constantI S_ 32 0#32) reducesTo_S8192x8192_S8192_d1 h_S_

/-- Per row, the sum of `1 - sim` over the selected positives. -/
def posSum (E : FVec F S8192x512 .f32) (L : IVec S8192 32) : FVec F S8192 .f32 :=
  Host.reduceAdd (select (posSel E L) (subf (broadcastInDim S8192x8192 ![] bcast_S_S8192x8192 (constant S_ .f32 0x3F800000#32)) (sim E)) (broadcastInDim S8192x8192 ![] bcast_S_S8192x8192 (constant S_ .f32 0x00000000#32))) (constant S_ .f32 0x00000000#32) reducesTo_S8192x8192_S8192_d1 h_S_

/-- Per row, the mean of `1 - sim` over the selected positives, `0` where none is selected. -/
def posLoss (E : FVec F S8192x512 .f32) (L : IVec S8192 32) : FVec F S8192 .f32 :=
  select (cmpi .sgt (posCnt E L) (broadcastInDim S8192 ![] bcast_S_S8192 (constantI S_ 32 0#32))) (Host.divf (posSum E L) (sitofp .f32 (maxsi (posCnt E L) (broadcastInDim S8192 ![] bcast_S_S8192 (constantI S_ 32 1#32))))) (broadcastInDim S8192 ![] bcast_S_S8192 (constant S_ .f32 0x00000000#32))

/-- Per row, the sum of `exp (40 · (sim - 0.5))` over the selected negatives. -/
def expSum (E : FVec F S8192x512 .f32) (L : IVec S8192 32) : FVec F S8192 .f32 :=
  Host.reduceAdd (select (negSel E L) (Host.exp (mulf (broadcastInDim S8192x8192 ![] bcast_S_S8192x8192 (constant S_ .f32 0x42200000#32)) (subf (sim E) (broadcastInDim S8192x8192 ![] bcast_S_S8192x8192 (constant S_ .f32 0x3F000000#32))))) (broadcastInDim S8192x8192 ![] bcast_S_S8192x8192 (constant S_ .f32 0x00000000#32))) (constant S_ .f32 0x00000000#32) reducesTo_S8192x8192_S8192_d1 h_S_

/-- Per row, the sum of `sim` over the selected negatives. -/
def negSum (E : FVec F S8192x512 .f32) (L : IVec S8192 32) : FVec F S8192 .f32 :=
  Host.reduceAdd (select (negSel E L) (sim E) (broadcastInDim S8192x8192 ![] bcast_S_S8192x8192 (constant S_ .f32 0x00000000#32))) (constant S_ .f32 0x00000000#32) reducesTo_S8192x8192_S8192_d1 h_S_

/-- Per row, `0.05 · log1p expSum` plus the mean of `sim` over the selected negatives, `0` where none is selected. -/
def negLoss (E : FVec F S8192x512 .f32) (L : IVec S8192 32) : FVec F S8192 .f32 :=
  select (cmpi .sgt (negCnt E L) (broadcastInDim S8192 ![] bcast_S_S8192 (constantI S_ 32 0#32))) (addf (mulf (broadcastInDim S8192 ![] bcast_S_S8192 (constant S_ .f32 0x3D4CCCCD#32)) (Host.log1p (expSum E L))) (Host.divf (negSum E L) (sitofp .f32 (maxsi (negCnt E L) (broadcastInDim S8192 ![] bcast_S_S8192 (constantI S_ 32 1#32)))))) (broadcastInDim S8192 ![] bcast_S_S8192 (constant S_ .f32 0x00000000#32))

/-- The first result: the mean over the 8192 rows of `posLoss + negLoss`. -/
def lossTerm (E : FVec F S8192x512 .f32) (L : IVec S8192 32) : FVec F S_ .f32 :=
  Host.divf (Host.reduceAdd (addf (posLoss E L) (negLoss E L)) (constant S_ .f32 0x00000000#32) reducesTo_S8192_S_d0 h_S_) (constant S_ .f32 0x46000000#32)

/-- Per row, the count of selected negatives floor-divided by two: the truncated quotient, less one where the signs differ and the remainder is not zero. -/
def halfCnt (E : FVec F S8192x512 .f32) (L : IVec S8192 32) : IVec S8192 32 :=
  select (andi (cmpi .ne (signi (negCnt E L)) (broadcastInDim S8192 ![] bcast_S_S8192 (signi (constantI S_ 32 2#32)))) (cmpi .ne (Host.remsi (negCnt E L) (broadcastInDim S8192 ![] bcast_S_S8192 (constantI S_ 32 2#32))) (broadcastInDim S8192 ![] bcast_S_S8192 (constantI S_ 32 0#32)))) (subi (Host.divsi (negCnt E L) (broadcastInDim S8192 ![] bcast_S_S8192 (constantI S_ 32 2#32))) (broadcastInDim S8192 ![] bcast_S_S8192 (constantI S_ 32 1#32))) (Host.divsi (negCnt E L) (broadcastInDim S8192 ![] bcast_S_S8192 (constantI S_ 32 2#32)))

/-- The second result: the sum over the rows of the halved counts of selected negatives. -/
def tripTerm (E : FVec F S8192x512 .f32) (L : IVec S8192 32) : IVec S_ 32 :=
  Host.reduce IntOp.addi (halfCnt E L) (constantI S_ 32 0#32) reducesTo_S8192_S_d0 h_S_

set_option maxRecDepth 8192 in
set_option maxHeartbeats 50000000 in
/-- The second result's buffer after the 125 operations: the composed term. -/
theorem after_v66 (V : Valuation τ sig (Elt F)) :
    after ops V (main_v66 : DevRef τ sig) = tripTerm (F := F) (V (main_arg0 : DevRef τ sig)) (V (main_arg1 : DevRef τ sig)) := by
  rw [after_ops]
  simp only [ops0, ops1]
  after_results_simp
  rfl

set_option maxRecDepth 8192 in
set_option maxHeartbeats 50000000 in
/-- The first result's buffer after the 125 operations: the composed term. -/
theorem after_v64 (V : Valuation τ sig (Elt F)) :
    after ops V (main_v64 : DevRef τ sig) = lossTerm (V (main_arg0 : DevRef τ sig)) (V (main_arg1 : DevRef τ sig)) := by
  rw [after_ops]
  simp only [ops0, ops1]
  after_results_simp
  rfl

/-- On every device, for any float values, from any memory with zero counters: every weakly fair execution of @main
    terminates with the first result at `lossTerm` and the second at `tripTerm` of the two arguments' launch contents, the
    third at the constant zero, and the arguments unchanged. -/
theorem run (m : (ℓ : Loc nD τ sig) → Buf (Elt F) ℓ) (ρ : Dev nD → PrngReg) :
    θ_run (Cert.ReferenceIdeal.defs (F := F)) (onTc (τ := Cert.ReferenceIdeal.τ) (Cert.ReferenceIdeal.main (F := F))) ⟨m, fun _ => 0, ρ⟩ (fun r => ∀ c : Dev Cert.ReferenceIdeal.nD,
      r.2.mem ((c.tc : Thread nD τ).loc main_v64) = lossTerm (m ((c.tc : Thread nD τ).loc main_arg0)) (m ((c.tc : Thread nD τ).loc main_arg1))
      ∧ r.2.mem ((c.tc : Thread nD τ).loc main_v66) = tripTerm (F := F) (m ((c.tc : Thread nD τ).loc main_arg0)) (m ((c.tc : Thread nD τ).loc main_arg1))
      ∧ r.2.mem ((c.tc : Thread nD τ).loc main_c_25) = constantI S_ 32 0#32
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v64).trans (after_v64 _), (h c main_v66).trans (after_v66 _),
      (h c main_c_25).trans (after_c_25 _), (h c main_arg0).trans (after_arg0 _), (h c main_arg1).trans (after_arg1 _)⟩)
    (run_after m ρ)

end Cert.ReferenceIdeal.RefRun

end
-- ==== Proof.RefValue.lean ====
/- The reference's two results, read at the ideal values, are the shared specification's.

   Each stage of the composed term is read at an index: the similarity matrix as the inner product of two rows, the two
   masks as the label predicates, the row thresholds as a supremum and an infimum over the columns, the selections as the
   strict comparisons against them, the counts as cardinalities, the three sums as sums over the columns, and the row's
   loss from those. -/
import proofs.«140287_j55817394979145_2_alg».proof.Proof.RefRun
import proofs.«140287_j55817394979145_2_alg».proof.Proof.Spec
import Idealize.ShloMosaic.Lib.IdealHost
import Idealize.ShloMosaic.Lib.IndicatorCount
import Idealize.ShloMosaic.Lib.Pipeline.Value

noncomputable section

namespace Cert.ReferenceIdeal.RefValue

open Cert.ReferenceIdeal Cert.ReferenceIdeal.Gen Cert.ReferenceIdeal.RefRun Idealize.ShloMosaic Idealize.ShloMosaic.ValueIdx
open scoped BigOperators
open Classical

variable (e : FVec Ideal S8192x512 .f32) (lab : IVec S8192 32)

/-- The similarity matrix at (r, c): the inner product of rows r and c. -/
theorem sim_apply (r c : Fin 8192) : sim (F := Ideal) e (ix2 r c) = Cert.Spec.sim e r c := by
  unfold sim Cert.Spec.sim
  show FloatOps.dotGeneral _ none _ e _ (ix2 r c) = _
  rw [Ideal.dotGeneral_apply, ← Equiv.sum_comp (contrEquiv1 dot_S8192x512_S512x8192_S8192x8192_1_0_0_1_n_n 512 rfl rfl).symm]
  refine Finset.sum_congr rfl fun k _ => ?_
  have c2 := contrEquiv1_symm_val dot_S8192x512_S512x8192_S8192x8192_1_0_0_1_n_n 512 rfl rfl k
  have l2 : dot_S8192x512_S512x8192_S8192x8192_1_0_0_1_n_n.lhsIdx (ix2 r c) ((contrEquiv1 _ 512 rfl rfl).symm k) = ix2 r k := by
    funext ax; apply Fin.ext
    match ax with
    | ⟨0, _⟩ => simp [DotDims.lhsIdx, dot_S8192x512_S512x8192_S8192x8192_1_0_0_1_n_n]; rfl
    | ⟨1, _⟩ => simp [DotDims.lhsIdx, dot_S8192x512_S512x8192_S8192x8192_1_0_0_1_n_n]; exact c2
  have r2 : dot_S8192x512_S512x8192_S8192x8192_1_0_0_1_n_n.rhsIdx (ix2 r c) ((contrEquiv1 _ 512 rfl rfl).symm k) = ix2 k c := by
    funext ax; apply Fin.ext
    match ax with
    | ⟨0, _⟩ => simp [DotDims.rhsIdx, dot_S8192x512_S512x8192_S8192x8192_1_0_0_1_n_n]; exact c2
    | ⟨1, _⟩ => simp [DotDims.rhsIdx, dot_S8192x512_S512x8192_S8192x8192_1_0_0_1_n_n]; rfl
  rw [l2, r2]
  congr 1
  exact transpose_apply [1, 0] e transposes_S8192x512_S512x8192_1_0 (ix2 k c) (ix2 c k) (fun b => by fin_cases b <;> rfl)

/-! ## One-bit words -/

theorem andi_one_iff (a b : BitVec 1) : IntOp.andi a b = 1#1 ↔ a = 1#1 ∧ b = 1#1 := by
  by_cases ha : a = 1#1 <;> by_cases hb : b = 1#1
  · subst ha hb; decide
  · rw [ha, eq_zero_of_ne_one hb]; decide
  · rw [eq_zero_of_ne_one ha, hb]; decide
  · rw [eq_zero_of_ne_one ha, eq_zero_of_ne_one hb]; decide

theorem not_one_iff (a : BitVec 1) : ~~~a = 1#1 ↔ ¬ a = 1#1 := by
  by_cases ha : a = 1#1
  · subst ha; decide
  · rw [eq_zero_of_ne_one ha]; decide

theorem ofBool_one_iff (b : Bool) : BitVec.ofBool b = 1#1 ↔ b = true := by
  cases b <;> decide

/-- A broadcast of a row vector down the columns of the square, read at (r, c): entry r. -/
theorem bcast_rows_apply {α : Type} (x : S8192.Idx → α) (r c : Fin 8192) :
    broadcastInDim S8192x8192 ![0, 1] bcast_S8192x1_S8192x8192_0_1 (broadcastInDim S8192x1 ![0] bcast_S8192_S8192x1_0 x) (ix2 r c) = x (ix1 r) := by
  rw [broadcastInDim_apply ![0, 1] bcast_S8192x1_S8192x8192_0_1 _ (ix2 r c) (ix2 r (0 : Fin 1)) (fun a => by fin_cases a <;> rfl)]
  exact broadcastInDim_apply ![0] bcast_S8192_S8192x1_0 x (ix2 r (0 : Fin 1)) (ix1 r) (fun a => by fin_cases a <;> rfl)

/-- A broadcast of a row vector along the rows of the square, read at (r, c): entry c. -/
theorem bcast_cols_apply {α : Type} (x : S8192.Idx → α) (r c : Fin 8192) :
    broadcastInDim S8192x8192 ![0, 1] bcast_S1x8192_S8192x8192_0_1 (broadcastInDim S1x8192 ![1] bcast_S8192_S1x8192_1 x) (ix2 r c) = x (ix1 c) := by
  rw [broadcastInDim_apply ![0, 1] bcast_S1x8192_S8192x8192_0_1 _ (ix2 r c) (ix2 (0 : Fin 1) c) (fun a => by fin_cases a <;> rfl)]
  exact broadcastInDim_apply ![1] bcast_S8192_S1x8192_1 x (ix2 (0 : Fin 1) c) (ix1 c) (fun a => by fin_cases a <;> rfl)

/-! ## The masks -/

theorem same_iff (r c : Fin 8192) : same lab (ix2 r c) = 1#1 ↔ Cert.Spec.same lab r c := by
  unfold same Cert.Spec.same
  show IntOp.cmpi .eq _ _ = 1#1 ↔ _
  rw [bcast_rows_apply, bcast_cols_apply]
  unfold IntOp.cmpi
  rw [ofBool_one_iff]
  exact beq_iff_eq

theorem offDiag_iff (r c : Fin 8192) : offDiag (ix2 r c) = 1#1 ↔ r ≠ c := by
  unfold offDiag
  show ~~~(IntOp.cmpi .eq (IntOp.addi (BitVec.ofNat 32 r.val) (0#32)) (BitVec.ofNat 32 c.val)) = 1#1 ↔ _
  rw [not_one_iff]
  unfold IntOp.cmpi IntOp.addi
  rw [ofBool_one_iff, BitVec.add_zero, beq_iff_eq]
  refine not_congr ⟨fun h => ?_, fun h => by rw [h]⟩
  have := congrArg BitVec.toNat h
  simp only [BitVec.toNat_ofNat] at this
  have hr := r.isLt; have hc := c.isLt
  exact Fin.ext (by omega)

theorem posMask_iff (r c : Fin 8192) : posMask lab (ix2 r c) = 1#1 ↔ Cert.Spec.pos lab r c := by
  unfold posMask Cert.Spec.pos
  show IntOp.andi _ _ = 1#1 ↔ _
  rw [andi_one_iff, same_iff, offDiag_iff]

theorem negMask_iff (r c : Fin 8192) : negMask lab (ix2 r c) = 1#1 ↔ Cert.Spec.neg lab r c := by
  unfold negMask Cert.Spec.neg
  show ~~~(same lab (ix2 r c)) = 1#1 ↔ _
  rw [not_one_iff, same_iff]

/-! ## The row thresholds -/

theorem reducesD1 : S8192x8192.Reduces [1] S8192 := by decide

/-- The reduced index r with column k put back is (r, k). -/
theorem lift_col (r : Fin 8192) (k : Fin (S8192x8192.size 1)) :
    reducesD1.lift (ix1 r) k = ix2 r (⟨k.val, k.isLt⟩ : Fin 8192) := by
  funext c; apply Fin.ext
  fin_cases c <;> rfl

theorem bot_f32 : Ideal.ofBits .f32 0xFF800000#32 = (⊥ : EReal) := by simp [Ideal.ofBits, Ideal.ieee]
theorem top_f32 : Ideal.ofBits .f32 0x7F800000#32 = (⊤ : EReal) := by simp [Ideal.ofBits, Ideal.ieee]

/-- A running maximum from the least element is the supremum. -/
theorem fold_max_bot_eq_sup {ι : Type} (S : Finset ι) (f : ι → EReal) : S.fold max ⊥ f = S.sup f := by
  induction S using Finset.induction_on with
  | empty => simp
  | insert a S ha ih => rw [Finset.fold_insert ha, Finset.sup_insert, ih]

/-- A running minimum from the greatest element is the infimum. -/
theorem fold_min_top_eq_inf {ι : Type} (S : Finset ι) (f : ι → EReal) : S.fold min ⊤ f = S.inf f := by
  induction S using Finset.induction_on with
  | empty => simp
  | insert a S ha ih => rw [Finset.fold_insert ha, Finset.inf_insert, ih]

theorem maxPos_apply (r : Fin 8192) : maxPos (F := Ideal) e lab (ix1 r) = Cert.Spec.maxPos e lab r := by
  unfold maxPos Cert.Spec.maxPos
  rw [Host.reduce_eq_fold_single FloatOps.maximumf _ _ reducesTo_S8192x8192_S8192_d1 reducesD1 h_S_]
  refine (Finset.fold_congr (g := fun c : Fin (S8192x8192.size 1) => if Cert.Spec.pos lab r ⟨c.val, c.isLt⟩ then Cert.Spec.sim e r ⟨c.val, c.isLt⟩ else Cert.Spec.negBig) fun c _ => ?_).trans ?_
  · show select (posMask lab) (sim e) _ (reducesD1.lift (ix1 r) c) = _
    rw [lift_col, select_apply, broadcastInDim_scalar_apply, sim_apply]
    unfold Scalar.select
    exact if_congr (posMask_iff lab r _) rfl rfl
  · show Finset.fold max (Ideal.ofBits .f32 0xFF800000#32) _ _ = _
    rw [bot_f32]; exact fold_max_bot_eq_sup _ _

theorem minNeg_apply (r : Fin 8192) : minNeg (F := Ideal) e lab (ix1 r) = Cert.Spec.minNeg e lab r := by
  unfold minNeg Cert.Spec.minNeg
  rw [Host.reduce_eq_fold_single FloatOps.minimumf _ _ reducesTo_S8192x8192_S8192_d1 reducesD1 h_S_]
  refine (Finset.fold_congr (g := fun c : Fin (S8192x8192.size 1) => if Cert.Spec.neg lab r ⟨c.val, c.isLt⟩ then Cert.Spec.sim e r ⟨c.val, c.isLt⟩ else Cert.Spec.posBig) fun c _ => ?_).trans ?_
  · show select (negMask lab) (sim e) _ (reducesD1.lift (ix1 r) c) = _
    rw [lift_col, select_apply, broadcastInDim_scalar_apply, sim_apply]
    unfold Scalar.select
    exact if_congr (negMask_iff lab r _) rfl rfl
  · show Finset.fold min (Ideal.ofBits .f32 0x7F800000#32) _ _ = _
    rw [top_f32]; exact fold_min_top_eq_inf _ _

/-! ## The selections -/

theorem negSel_iff (r c : Fin 8192) : negSel (F := Ideal) e lab (ix2 r c) = 1#1 ↔ Cert.Spec.negSel e lab r c := by
  unfold negSel Cert.Spec.negSel
  show IntOp.andi (negMask lab (ix2 r c)) (cmpf .olt (sim e) _ (ix2 r c)) = 1#1 ↔ _
  rw [andi_one_iff, negMask_iff, cmpf_apply, bcast_rows_apply, sim_apply, maxPos_apply, Ideal.cmpf_def]
  unfold Ideal.cmp
  rw [ofBool_one_iff, decide_eq_true_iff]

theorem posSel_iff (r c : Fin 8192) : posSel (F := Ideal) e lab (ix2 r c) = 1#1 ↔ Cert.Spec.posSel e lab r c := by
  unfold posSel Cert.Spec.posSel
  show IntOp.andi (posMask lab (ix2 r c)) (cmpf .ogt (sim e) _ (ix2 r c)) = 1#1 ↔ _
  rw [andi_one_iff, posMask_iff, cmpf_apply, bcast_rows_apply, sim_apply, minNeg_apply, Ideal.cmpf_def]
  unfold Ideal.cmp
  rw [ofBool_one_iff, decide_eq_true_iff]

/-! ## The counts -/

theorem posCnt_apply (r : Fin 8192) : posCnt (F := Ideal) e lab (ix1 r) = BitVec.ofNat 32 (Cert.Spec.posCnt e lab r) := by
  unfold posCnt Cert.Spec.posCnt
  rw [Host.reduce_eq_fold_single IntOp.addi _ _ reducesTo_S8192x8192_S8192_d1 reducesD1 h_S_]
  refine (Finset.fold_congr (g := fun c : Fin (S8192x8192.size 1) => (posSel (F := Ideal) e lab (ix2 r ⟨c.val, c.isLt⟩)).setWidth 32) fun c _ => ?_).trans ?_
  · show extui 32 (posSel e lab) natLt_1_32 (reducesD1.lift (ix1 r) c) = _
    rw [lift_col]; rfl
  · show Finset.fold IntOp.addi (0#32) _ _ = _
    rw [IndicatorCount.fold_addi_setWidth_eq_card]
    show BitVec.ofNat 32 (Finset.card (Finset.filter (fun c : Fin 8192 => posSel (F := Ideal) e lab (ix2 r c) = 1#1) Finset.univ)) = _
    exact congrArg (BitVec.ofNat 32) (congrArg Finset.card (Finset.filter_congr fun c _ => posSel_iff e lab r c))

theorem negCnt_apply (r : Fin 8192) : negCnt (F := Ideal) e lab (ix1 r) = BitVec.ofNat 32 (Cert.Spec.negCnt e lab r) := by
  unfold negCnt Cert.Spec.negCnt
  rw [Host.reduce_eq_fold_single IntOp.addi _ _ reducesTo_S8192x8192_S8192_d1 reducesD1 h_S_]
  refine (Finset.fold_congr (g := fun c : Fin (S8192x8192.size 1) => (negSel (F := Ideal) e lab (ix2 r ⟨c.val, c.isLt⟩)).setWidth 32) fun c _ => ?_).trans ?_
  · show extui 32 (negSel e lab) natLt_1_32 (reducesD1.lift (ix1 r) c) = _
    rw [lift_col]; rfl
  · show Finset.fold IntOp.addi (0#32) _ _ = _
    rw [IndicatorCount.fold_addi_setWidth_eq_card]
    show BitVec.ofNat 32 (Finset.card (Finset.filter (fun c : Fin 8192 => negSel (F := Ideal) e lab (ix2 r c) = 1#1) Finset.univ)) = _
    exact congrArg (BitVec.ofNat 32) (congrArg Finset.card (Finset.filter_congr fun c _ => negSel_iff e lab r c))

theorem posCnt_le (r : Fin 8192) : Cert.Spec.posCnt e lab r ≤ 8192 := by
  unfold Cert.Spec.posCnt
  exact (Finset.card_filter_le _ _).trans (by simp)

theorem negCnt_le (r : Fin 8192) : Cert.Spec.negCnt e lab r ≤ 8192 := by
  unfold Cert.Spec.negCnt
  exact (Finset.card_filter_le _ _).trans (by simp)

/-! ## The three sums -/

theorem posSum_apply (r : Fin 8192) : posSum (F := Ideal) e lab (ix1 r) = Cert.Spec.posSum e lab r := by
  unfold posSum Cert.Spec.posSum
  rw [hostReduceAdd_apply, Ideal.hostReduceAdd_single _ reducesD1]
  show Ideal.ofBits .f32 0x00000000#32 + _ = _
  rw [Ideal.ofBits_zero_f32, zero_add]
  refine Finset.sum_congr rfl fun c _ => ?_
  rw [lift_col, select_apply, subf_apply, broadcastInDim_scalar_apply, broadcastInDim_scalar_apply, sim_apply]
  unfold Scalar.select
  refine if_congr (posSel_iff e lab r _) rfl ?_
  exact Ideal.ofBits_zero_f32

theorem expSum_apply (r : Fin 8192) : expSum (F := Ideal) e lab (ix1 r) = Cert.Spec.expSum e lab r := by
  unfold expSum Cert.Spec.expSum
  rw [hostReduceAdd_apply, Ideal.hostReduceAdd_single _ reducesD1]
  show Ideal.ofBits .f32 0x00000000#32 + _ = _
  rw [Ideal.ofBits_zero_f32, zero_add]
  refine Finset.sum_congr rfl fun c _ => ?_
  rw [lift_col, select_apply, broadcastInDim_scalar_apply]
  show Scalar.select _ (Ideal.exp (mulf _ (subf (sim e) _) (ix2 r _))) _ = _
  rw [mulf_apply, subf_apply, broadcastInDim_scalar_apply, broadcastInDim_scalar_apply, sim_apply]
  unfold Scalar.select
  refine if_congr (negSel_iff e lab r _) rfl ?_
  exact Ideal.ofBits_zero_f32

theorem negSum_apply (r : Fin 8192) : negSum (F := Ideal) e lab (ix1 r) = Cert.Spec.negSum e lab r := by
  unfold negSum Cert.Spec.negSum
  rw [hostReduceAdd_apply, Ideal.hostReduceAdd_single _ reducesD1]
  show Ideal.ofBits .f32 0x00000000#32 + _ = _
  rw [Ideal.ofBits_zero_f32, zero_add]
  refine Finset.sum_congr rfl fun c _ => ?_
  rw [lift_col, select_apply, broadcastInDim_scalar_apply, sim_apply]
  unfold Scalar.select
  refine if_congr (negSel_iff e lab r _) rfl ?_
  exact Ideal.ofBits_zero_f32

/-! ## Small counts as 32-bit words -/

theorem toNat_ofNat_small (n : ℕ) (hn : n ≤ 8192) : (BitVec.ofNat 32 n).toNat = n := by
  rw [BitVec.toNat_ofNat]; exact Nat.mod_eq_of_lt (by omega)

theorem toInt_ofNat_small (n : ℕ) (hn : n ≤ 8192) : (BitVec.ofNat 32 n).toInt = (n : ℤ) := by
  rw [BitVec.toInt_eq_toNat_of_lt (by rw [toNat_ofNat_small n hn]; omega), toNat_ofNat_small n hn]

theorem sgt_zero_iff (n : ℕ) (hn : n ≤ 8192) : IntOp.cmpi .sgt (BitVec.ofNat 32 n) 0#32 = 1#1 ↔ 0 < n := by
  unfold IntOp.cmpi
  rw [ofBool_one_iff]
  show (0#32 : BitVec 32).slt (BitVec.ofNat 32 n) = true ↔ _
  rw [BitVec.slt_iff_toInt_lt, BitVec.toInt_zero, toInt_ofNat_small n hn]
  omega

theorem maxsi_one_small (n : ℕ) (hn : n ≤ 8192) : IntOp.maxsi (BitVec.ofNat 32 n) 1#32 = BitVec.ofNat 32 (max n 1) := by
  have h1 : (1#32 : BitVec 32).slt (BitVec.ofNat 32 n) = true ↔ 1 < n := by
    rw [BitVec.slt_iff_toInt_lt, toInt_ofNat_small n hn, show (1#32 : BitVec 32).toInt = 1 by decide]
    omega
  unfold IntOp.maxsi
  by_cases h : 1 < n
  · rw [if_pos (h1.mpr h), Nat.max_eq_left (by omega)]
  · rw [if_neg (fun hh => h (h1.mp hh)), Nat.max_eq_right (by omega)]

/-! ## More operations read at an index (each by definition) -/

theorem cmpi_apply {s : Shape} {w : ℕ} (p : CmpIPredicate) (x y : IVec s w) (i : s.Idx) : cmpi p x y i = IntOp.cmpi p (x i) (y i) := rfl
theorem maxsi_apply {s : Shape} {w : ℕ} (x y : IVec s w) (i : s.Idx) : maxsi x y i = IntOp.maxsi (x i) (y i) := rfl
theorem constantI_apply (s : Shape) (w : ℕ) (b : BitVec w) (i : s.Idx) : constantI s w b i = b := rfl
theorem sitofp_ideal {w : ℕ} (b : BitVec w) : FloatOps.sitofp (F := Ideal) .f32 b = ((b.toInt : ℝ) : EReal) := rfl
theorem log1p_apply {s : Shape} (x : FVec Ideal s .f32) (i : s.Idx) : Host.log1p x i = Ideal.log1p (x i) := rfl

/-- The count, at least one, as an extended real. -/
theorem cast_max_one (n : ℕ) : ((((max n 1 : ℕ) : ℤ) : ℝ) : EReal) = max ((n : ℝ) : EReal) Cert.Spec.one := by
  unfold Cert.Spec.one
  rw [Ideal.ofBits_one_f32, Int.cast_natCast, Nat.cast_max, Nat.cast_one, EReal.coe_strictMono.monotone.map_max, EReal.coe_one]

/-! ## The row's loss -/

theorem posLoss_apply (r : Fin 8192) : posLoss (F := Ideal) e lab (ix1 r) = Cert.Spec.posLoss e lab r := by
  unfold posLoss Cert.Spec.posLoss
  simp only [select_apply, cmpi_apply, hostDivf_apply, sitofp_apply, maxsi_apply, posCnt_apply, posSum_apply, sitofp_ideal]
  rw [broadcastInDim_scalar_apply, broadcastInDim_scalar_apply, broadcastInDim_scalar_apply]
  simp only [constantI_apply, constant_apply, Ideal.ofBits_zero_f32]
  rw [maxsi_one_small _ (posCnt_le e lab r), toInt_ofNat_small _ (by have := posCnt_le e lab r; omega), cast_max_one]
  unfold Scalar.select
  exact if_congr (sgt_zero_iff _ (posCnt_le e lab r)) rfl rfl

theorem negLoss_apply (r : Fin 8192) : negLoss (F := Ideal) e lab (ix1 r) = Cert.Spec.negLoss e lab r := by
  unfold negLoss Cert.Spec.negLoss
  simp only [select_apply, cmpi_apply, addf_apply, mulf_apply, log1p_apply, hostDivf_apply, sitofp_apply, maxsi_apply,
    negCnt_apply, negSum_apply, expSum_apply, sitofp_ideal]
  rw [broadcastInDim_scalar_apply, broadcastInDim_scalar_apply, broadcastInDim_scalar_apply, broadcastInDim_scalar_apply]
  simp only [constantI_apply, constant_apply, Ideal.ofBits_zero_f32]
  rw [maxsi_one_small _ (negCnt_le e lab r), toInt_ofNat_small _ (by have := negCnt_le e lab r; omega), cast_max_one]
  unfold Scalar.select
  exact if_congr (sgt_zero_iff _ (negCnt_le e lab r)) rfl rfl

/-! ## The first result -/

/-- A rank-one index set is its one coordinate's range. -/
def idxEquiv1 {n : ℕ} : (⟨1, ![n]⟩ : Shape).Idx ≃ Fin n where
  toFun i := i 0
  invFun a := ix1 a
  left_inv i := (eq_ix1 i).symm
  right_inv _ := rfl

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

theorem loss_eq : lossTerm (F := Ideal) e lab = Cert.Spec.finalLoss e lab := by
  funext j
  unfold lossTerm Cert.Spec.finalLoss
  rw [hostDivf_apply, hostReduceAdd_apply, Ideal.hostReduceAdd_total _ (fun b => b.elim0)]
  show Ideal.div (Ideal.ofBits .f32 0x00000000#32 + ∑ i : S8192.Idx, _) (Ideal.ofBits .f32 0x46000000#32) = _
  rw [Ideal.ofBits_zero_f32, zero_add, sum_idx1]
  refine congrArg (fun x => Ideal.div x (Ideal.ofBits .f32 0x46000000#32)) ?_
  refine Finset.sum_congr rfl fun k _ => ?_
  rw [addf_apply, posLoss_apply, negLoss_apply]
  rfl

/-! ## The second result -/

theorem signi_apply {s : Shape} {w : ℕ} (x : IVec s w) (i : s.Idx) :
    signi x i = if x i = 0 then 0 else if (x i).msb then -1 else 1 := rfl
theorem andi_apply {s : Shape} {w : ℕ} (x y : IVec s w) (i : s.Idx) : andi x y i = IntOp.andi (x i) (y i) := rfl
theorem subi_apply {s : Shape} {w : ℕ} (x y : IVec s w) (i : s.Idx) : subi x y i = IntOp.subi (x i) (y i) := rfl
theorem divsi_apply {s : Shape} {w : ℕ} (x y : IVec s w) (i : s.Idx) : Host.divsi x y i = IntOp.divsi .host (x i) (y i) := rfl
theorem remsi_apply {s : Shape} {w : ℕ} (x y : IVec s w) (i : s.Idx) : Host.remsi x y i = IntOp.remsi .host (x i) (y i) := rfl

/-- The truncated quotient by two of a small count is the count halved. -/
theorem divsi_two_small (n : ℕ) (hn : n ≤ 8192) : IntOp.divsi .host (BitVec.ofNat 32 n) 2#32 = BitVec.ofNat 32 (n / 2) := by
  have hc : ¬ IntOp.SDivCorner (BitVec.ofNat 32 n) 2#32 := by
    rintro (h | ⟨_, h⟩) <;> exact absurd h (by decide)
  have hmsb : (BitVec.ofNat 32 n).msb = false :=
    BitVec.msb_eq_false_iff_two_mul_lt.mpr (by rw [toNat_ofNat_small n hn]; omega)
  unfold IntOp.divsi
  rw [if_neg hc, BitVec.sdiv_eq, hmsb, show (2#32 : BitVec 32).msb = false by decide]
  apply BitVec.eq_of_toNat_eq
  show (BitVec.ofNat 32 n / 2#32).toNat = _
  rw [BitVec.toNat_udiv, toNat_ofNat_small n hn, toNat_ofNat_small (n / 2) (by omega)]
  rfl

/-- The floor division by two of a small count, as the operations spell it: a count and two never differ in sign with a
    remainder left, so it is the truncated quotient. -/
theorem floorDiv2_small (n : ℕ) (hn : n ≤ 8192) :
    Scalar.select
      (IntOp.andi
        (IntOp.cmpi .ne (if BitVec.ofNat 32 n = 0 then (0 : BitVec 32) else if (BitVec.ofNat 32 n).msb then -1 else 1)
          (if (2#32 : BitVec 32) = 0 then (0 : BitVec 32) else if (2#32 : BitVec 32).msb then -1 else 1))
        (IntOp.cmpi .ne (IntOp.remsi .host (BitVec.ofNat 32 n) 2#32) 0#32))
      (IntOp.subi (IntOp.divsi .host (BitVec.ofNat 32 n) 2#32) 1#32)
      (IntOp.divsi .host (BitVec.ofNat 32 n) 2#32)
    = BitVec.ofNat 32 (n / 2) := by
  by_cases h0 : n = 0
  · subst h0; decide
  · have hne : BitVec.ofNat 32 n ≠ 0 := fun h => by
      have := congrArg BitVec.toNat h
      rw [toNat_ofNat_small n hn] at this
      exact h0 this
    have hmsb : (BitVec.ofNat 32 n).msb = false :=
      BitVec.msb_eq_false_iff_two_mul_lt.mpr (by rw [toNat_ofNat_small n hn]; omega)
    rw [if_neg hne, hmsb, divsi_two_small n hn]
    have hz : IntOp.cmpi .ne (if false = true then (-1 : BitVec 32) else 1)
        (if (2#32 : BitVec 32) = 0 then (0 : BitVec 32) else if (2#32 : BitVec 32).msb then -1 else 1) = 0#1 := by decide
    rw [hz]
    have ha : ∀ b : BitVec 1, IntOp.andi 0#1 b = 0#1 := fun b => BitVec.zero_and
    rw [ha, select_zero]

theorem halfCnt_apply (r : Fin 8192) : halfCnt (F := Ideal) e lab (ix1 r) = BitVec.ofNat 32 (Cert.Spec.negCnt e lab r / 2) := by
  unfold halfCnt
  simp only [select_apply, andi_apply, cmpi_apply, subi_apply, divsi_apply, remsi_apply, negCnt_apply]
  rw [broadcastInDim_scalar_apply, broadcastInDim_scalar_apply, broadcastInDim_scalar_apply, broadcastInDim_scalar_apply]
  simp only [signi_apply, constantI_apply, negCnt_apply]
  exact floorDiv2_small _ (negCnt_le e lab r)

/-- A sum of words is the word of the sum. -/
theorem fold_addi_ofNat {ι : Type} (S : Finset ι) (g : ι → ℕ) :
    S.fold IntOp.addi (0#32) (fun i => BitVec.ofNat 32 (g i)) = BitVec.ofNat 32 (∑ i ∈ S, g i) := by
  classical
  induction S using Finset.induction_on with
  | empty => rfl
  | insert a S ha ih => rw [Finset.fold_insert ha, ih, Finset.sum_insert ha, BitVec.ofNat_add]; rfl

theorem trip_eq : tripTerm (F := Ideal) e lab = Cert.Spec.finalTrip e lab := by
  funext j
  unfold tripTerm Cert.Spec.finalTrip
  rw [Host.reduce_eq_fold IntOp.addi _ _ reducesTo_S8192_S_d0 h_S_ j,
    Finset.filter_true_of_mem (fun i _ => funext fun b => b.elim0)]
  have hpt : ∀ i : S8192.Idx, halfCnt (F := Ideal) e lab i = BitVec.ofNat 32 (Cert.Spec.negCnt e lab (i 0) / 2) := fun i =>
    (congrArg (halfCnt (F := Ideal) e lab) (eq_ix1 i)).trans (halfCnt_apply e lab (i 0))
  refine (Finset.fold_congr fun i _ => hpt i).trans ?_
  show Finset.fold IntOp.addi (0#32) _ _ = _
  rw [fold_addi_ofNat]
  exact congrArg (BitVec.ofNat 32) (sum_idx1 (n := 8192) (fun i => Cert.Spec.negCnt e lab (i 0) / 2))

end Cert.ReferenceIdeal.RefValue

end
-- ==== Proof.lean ====
/-
  The proof of the certificate's claim: three frames, the idealization's (empty) ledger, and the algebraic equivalence
  of the idealized kernel and the idealized reference.

  Both programs compute, from an embedding table e (8192 rows of 512 numbers) and a label per row, the similarity
  sim r c of every pair of rows, per row a positive and a negative threshold (the largest similarity among the row's
  positives, the smallest among its negatives, masked columns standing in with the sentinel ∓10⁹), the selected
  negatives and positives against those thresholds, and from them a loss per row, whose mean is the first result, and a
  count of selected negatives per row, whose halves sum to the second; the third result is 0.

  The reference does this on whole 8192 x 8192 arrays.  The kernel visits the similarity matrix in 16 x 16 tiles of
  512 x 512: for each row tile a first sweep stores the 16 similarity blocks of the tile's rows and keeps running
  thresholds, seeded with the sentinels; a second sweep re-reads the blocks and keeps five running sums; the last point
  of the sweep stores the tile's 512 losses and counts.  A running maximum seeded with the sentinel is the row's maximum
  because the row's diagonal column is masked to exactly the sentinel; a sum kept block by block is the whole sum;
  multiplying by a 0/1 indicator is selecting against 0 on the extended reals; a float sum of indicators is the count
  the reference's integer sum converts.  Every part of the scratch a row tile's last point reads was written earlier
  in the same tile, so what it stores does not depend on what the scratch held when the tile was entered.

  The region hands one array (the table cast to bf16) to two of its windows; its frame run is the one for windows that
  share an array (the table's share dealt in halves and put together again at the exit).
-/
import proofs.«140287_j55817394979145_2_alg».proof.Defs
import proofs.«140287_j55817394979145_2_alg».proof.Proof.Gen.Kernel
import proofs.«140287_j55817394979145_2_alg».proof.Proof.Gen.KernelIdeal
import proofs.«140287_j55817394979145_2_alg».proof.Proof.Gen.ReferenceIdeal
import proofs.«140287_j55817394979145_2_alg».proof.Proof.Gen.Pre_finite_inputs
import proofs.«140287_j55817394979145_2_alg».proof.Proof.DataBodyBits
import proofs.«140287_j55817394979145_2_alg».proof.Proof.IndepBits
import proofs.«140287_j55817394979145_2_alg».proof.Proof.IndepFromSweepIdeal
import proofs.«140287_j55817394979145_2_alg».proof.Proof.ValueRunIdeal
import proofs.«140287_j55817394979145_2_alg».proof.Proof.KernelArraysIdeal
import proofs.«140287_j55817394979145_2_alg».proof.Proof.RefRun
import proofs.«140287_j55817394979145_2_alg».proof.Proof.RefValue
import Idealize.ShloMosaic.Adequacy
import Idealize.ShloMosaic.Init

noncomputable section

namespace Cert.Proof

open Idealize.ShloMosaic Idealize.SL.Sem

/-- The kernel as printed runs to the end, faults nowhere, and leaves both arguments as launched. -/
theorem frame_p : Cert.frame_Kernel := fun m ρ _ => Cert.Kernel.Data.frame (F := Bits) m ρ (Cert.Kernel.Data.indep m)

/-- So does its idealization. -/
theorem frame_pi : Cert.frame_KernelIdeal := fun m ρ _ => Cert.KernelIdeal.Data.frame (F := Ideal) m ρ (Cert.KernelIdeal.Closed.indep_ideal m)

/-- And the idealized reference. -/
theorem frame_ri : Cert.frame_ReferenceIdeal := fun m ρ _ => Cert.ReferenceIdeal.RefRun.run_frame (F := Ideal) m ρ

/-- The ideal pass rewrote nothing. -/
theorem preserves : Cert.preserves_Kernel_KernelIdeal := trivial

/-- The two idealized programs, run from memories that agree on the arguments, end with the same three results: the
    mean row loss, the sum of the halved counts, and 0. -/
theorem algebraic : Cert.algebraic_KernelIdeal_ReferenceIdeal := by
  intro m ρ m' ρ' _ hagree
  refine ⟨fun c => Cert.Spec.finalLoss (Cert.KernelIdeal.ValueRun.emb m c) (Cert.KernelIdeal.ValueRun.lab m c),
    fun c => Cert.Spec.finalTrip (Cert.KernelIdeal.ValueRun.emb m c) (Cert.KernelIdeal.ValueRun.lab m c),
    fun _ => constantI Cert.KernelIdeal.S_ 32 0#32,
    Cert.KernelIdeal.ValueRun.run_value m ρ (Cert.KernelIdeal.Closed.indep_ideal m)
      (fun c => Cert.KernelIdeal.Arrays.arrAt4_eq m c _ _ (Cert.KernelIdeal.Closed.out4_closed m c (Cert.KernelIdeal.Closed.phase0_holds m c)))
      (fun c => Cert.KernelIdeal.Arrays.arrAt5_eq m c _ _ (Cert.KernelIdeal.Closed.out5_closed m c (Cert.KernelIdeal.Closed.phase0_holds m c))), ?_⟩
  refine (θ_run Cert.ReferenceIdeal.defs _ _).mono (fun _ h c => ⟨?_, ?_, (h c).2.2.1, (h c).2.2.2.1, (h c).2.2.2.2⟩)
    (Cert.ReferenceIdeal.RefRun.run (F := Ideal) m' ρ')
  · rw [(h c).1, (hagree c).1, (hagree c).2]
    exact Cert.ReferenceIdeal.RefValue.loss_eq _ _
  · rw [(h c).2.1, (hagree c).1, (hagree c).2]
    exact Cert.ReferenceIdeal.RefValue.trip_eq _ _

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
